-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S200000 : Shape := ⟨1, ![200000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg18
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg19
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg14 : FVec F S128 .f32) (main_arg15 : FVec F S128 .f32) (main_arg16 : FVec F S256x128 .f32) (main_arg17 : FVec F S128 .f32) (main_arg18 : FVec F S128x1 .f32) (main_arg19 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x128 .f32 := Host.absf main_arg16
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg17 main_arg18 main_arg19 main_v63 main_v67

def fn_part2 {F : FTy → Type} [FloatOps F] (main_arg10 : FVec F S64 .f32) (main_arg11 : FVec F S64 .f32) (main_arg12 : FVec F S128 .f32) (main_arg13 : FVec F S128 .f32) (main_arg14 : FVec F S128 .f32) (main_arg15 : FVec F S128 .f32) (main_arg16 : FVec F S256x128 .f32) (main_arg17 : FVec F S128 .f32) (main_arg18 : FVec F S128x1 .f32) (main_arg19 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_v48 main_v49 main_v50

def fn_part1 {F : FTy → Type} [FloatOps F] (main_arg7 : FVec F S128 .f32) (main_arg8 : FVec F S128x128 .f32) (main_arg9 : FVec F S128 .f32) (main_arg10 : FVec F S64 .f32) (main_arg11 : FVec F S64 .f32) (main_arg12 : FVec F S128 .f32) (main_arg13 : FVec F S128 .f32) (main_arg14 : FVec F S128 .f32) (main_arg15 : FVec F S128 .f32) (main_arg16 : FVec F S256x128 .f32) (main_arg17 : FVec F S128 .f32) (main_arg18 : FVec F S128x1 .f32) (main_arg19 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S50000x128 .f32) (main_arg1 : IVec S2x1600000 32) (main_arg2 : IVec S200000 32) (main_arg3 : IVec S200000 32) (main_arg4 : FVec F S128x64 .f32) (main_arg5 : FVec F S64 .f32) (main_arg6 : FVec F S64x128 .f32) (main_arg7 : FVec F S128 .f32) (main_arg8 : FVec F S128x128 .f32) (main_arg9 : FVec F S128 .f32) (main_arg10 : FVec F S64 .f32) (main_arg11 : FVec F S64 .f32) (main_arg12 : FVec F S128 .f32) (main_arg13 : FVec F S128 .f32) (main_arg14 : FVec F S128 .f32) (main_arg15 : FVec F S128 .f32) (main_arg16 : FVec F S256x128 .f32) (main_arg17 : FVec F S128 .f32) (main_arg18 : FVec F S128x1 .f32) (main_arg19 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg6
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x1600000 : Shape := ⟨2, ![2, 1600000]⟩
abbrev S200000 : Shape := ⟨1, ![200000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S5000x128 : Shape := ⟨2, ![5000, 128]⟩
abbrev S5000x64 : Shape := ⟨2, ![5000, 64]⟩
abbrev S50000x1 : Shape := ⟨2, ![50000, 1]⟩
abbrev S1650000x64 : Shape := ⟨2, ![1650000, 64]⟩
abbrev S1x64 : Shape := ⟨2, ![1, 64]⟩
abbrev S1650000x128 : Shape := ⟨2, ![1650000, 128]⟩
abbrev S1x128 : Shape := ⟨2, ![1, 128]⟩
abbrev S200000x1 : Shape := ⟨2, ![200000, 1]⟩
abbrev S200000x128 : Shape := ⟨2, ![200000, 128]⟩
abbrev S200000x256 : Shape := ⟨2, ![200000, 256]⟩
abbrev S5000x256 : Shape := ⟨2, ![5000, 256]⟩

abbrev nBuf : Space → Nat
  | .hbm => 250
  | .vmem => 42
  | .smem => 0
  | _ => 0

abbrev hbmTy0_0 (i : Nat) : BufTy := match i % 128 with
  | 0 => ⟨S50000x128, .f32⟩
  | 1 => ⟨S2x1600000, .i32⟩
  | 2 => ⟨S200000, .i32⟩
  | 3 => ⟨S200000, .i32⟩
  | 4 => ⟨S128x64, .f32⟩
  | 5 => ⟨S64, .f32⟩
  | 6 => ⟨S64x128, .f32⟩
  | 7 => ⟨S128, .f32⟩
  | 8 => ⟨S128x128, .f32⟩
  | 9 => ⟨S128, .f32⟩
  | 10 => ⟨S64, .f32⟩
  | 11 => ⟨S64, .f32⟩
  | 12 => ⟨S128, .f32⟩
  | 13 => ⟨S128, .f32⟩
  | 14 => ⟨S128, .f32⟩
  | 15 => ⟨S128, .f32⟩
  | 16 => ⟨S256x128, .f32⟩
  | 17 => ⟨S128, .f32⟩
  | 18 => ⟨S128x1, .f32⟩
  | 19 => ⟨S1, .f32⟩
  | 20 => ⟨S50000, .i32⟩
  | 21 => ⟨S1x1600000, .i32⟩
  | 22 => ⟨S1600000, .i32⟩
  | 23 => ⟨S1650000, .i32⟩
  | 24 => ⟨S1x1600000, .i32⟩
  | 25 => ⟨S1600000, .i32⟩
  | 26 => ⟨S1650000, .i32⟩
  | 27 => ⟨S_, .f32⟩
  | 28 => ⟨S1650000, .f32⟩
  | 29 => ⟨S_, .f32⟩
  | 30 => ⟨S50000, .f32⟩
  | 31 => ⟨S1650000x1, .i32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S50000x64, .f32⟩
  | 42 => ⟨S50000x1, .f32⟩
  | 43 => ⟨S50000x64, .f32⟩
  | 44 => ⟨S50000x64, .f32⟩
  | 45 => ⟨S_, .i32⟩
  | 46 => ⟨S1650000, .i32⟩
  | 47 => ⟨S1650000, .i1⟩
  | 48 => ⟨S_, .i32⟩
  | 49 => ⟨S1650000, .i32⟩
  | 50 => ⟨S1650000, .i32⟩
  | 51 => ⟨S1650000, .i32⟩
  | 52 => ⟨S1650000x1, .i32⟩
  | 53 => ⟨S1650000x64, .f32⟩
  | 54 => ⟨S_, .f32⟩
  | 55 => ⟨S50000x64, .f32⟩
  | 56 => ⟨S1650000x1, .i32⟩
  | 57 => ⟨S50000x64, .f32⟩
  | 58 => ⟨S50000x1, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S_, .f32⟩
  | 68 => ⟨S64, .f32⟩
  | 69 => ⟨S_, .f32⟩
  | 70 => ⟨S64, .f32⟩
  | 71 => ⟨S64, .f32⟩
  | 72 => ⟨S_, .i32⟩
  | 73 => ⟨S_, .f32⟩
  | 74 => ⟨S64, .f32⟩
  | 75 => ⟨S1x64, .f32⟩
  | 76 => ⟨S_, .f32⟩
  | 77 => ⟨S1x64, .f32⟩
  | 78 => ⟨S1x64, .f32⟩
  | 79 => ⟨S50000x64, .f32⟩
  | 80 => ⟨S50000x64, .f32⟩
  | 81 => ⟨S50000x64, .f32⟩
  | 82 => ⟨S_, .f32⟩
  | 83 => ⟨S_, .f32⟩
  | 84 => ⟨S_, .f32⟩
  | 85 => ⟨S_, .f32⟩
  | 86 => ⟨S64, .f32⟩
  | 87 => ⟨S64, .f32⟩
  | 88 => ⟨S64, .f32⟩
  | 89 => ⟨S_, .f32⟩
  | 90 => ⟨S_, .i1⟩
  | 91 => ⟨S_, .f32⟩
  | 92 => ⟨S_, .f32⟩
  | 93 => ⟨S64, .f32⟩
  | 94 => ⟨S64, .f32⟩
  | 95 => ⟨S1x64, .f32⟩
  | 96 => ⟨S1x64, .f32⟩
  | 97 => ⟨S1x64, .f32⟩
  | 98 => ⟨S1x64, .f32⟩
  | 99 => ⟨S1x64, .f32⟩
  | 100 => ⟨S50000x128, .f32⟩
  | 101 => ⟨S50000x1, .f32⟩
  | 102 => ⟨S50000x128, .f32⟩
  | 103 => ⟨S50000x128, .f32⟩
  | 104 => ⟨S_, .i32⟩
  | 105 => ⟨S1650000, .i32⟩
  | 106 => ⟨S1650000, .i1⟩
  | 107 => ⟨S_, .i32⟩
  | 108 => ⟨S1650000, .i32⟩
  | 109 => ⟨S1650000, .i32⟩
  | 110 => ⟨S1650000, .i32⟩
  | 111 => ⟨S1650000x1, .i32⟩
  | 112 => ⟨S1650000x128, .f32⟩
  | 113 => ⟨S_, .f32⟩
  | 114 => ⟨S50000x128, .f32⟩
  | 115 => ⟨S1650000x1, .i32⟩
  | 116 => ⟨S50000x128, .f32⟩
  | 117 => ⟨S50000x1, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S_, .f32⟩
  | 127 => ⟨S128, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S_, .i32⟩
  | 4 => ⟨S_, .f32⟩
  | 5 => ⟨S128, .f32⟩
  | 6 => ⟨S1x128, .f32⟩
  | 7 => ⟨S_, .f32⟩
  | 8 => ⟨S1x128, .f32⟩
  | 9 => ⟨S1x128, .f32⟩
  | 10 => ⟨S50000x128, .f32⟩
  | 11 => ⟨S50000x128, .f32⟩
  | 12 => ⟨S50000x128, .f32⟩
  | 13 => ⟨S_, .f32⟩
  | 14 => ⟨S_, .f32⟩
  | 15 => ⟨S_, .f32⟩
  | 16 => ⟨S_, .f32⟩
  | 17 => ⟨S128, .f32⟩
  | 18 => ⟨S128, .f32⟩
  | 19 => ⟨S128, .f32⟩
  | 20 => ⟨S_, .f32⟩
  | 21 => ⟨S_, .i1⟩
  | 22 => ⟨S_, .f32⟩
  | 23 => ⟨S_, .f32⟩
  | 24 => ⟨S128, .f32⟩
  | 25 => ⟨S128, .f32⟩
  | 26 => ⟨S1x128, .f32⟩
  | 27 => ⟨S1x128, .f32⟩
  | 28 => ⟨S1x128, .f32⟩
  | 29 => ⟨S1x128, .f32⟩
  | 30 => ⟨S1x128, .f32⟩
  | 31 => ⟨S50000x128, .f32⟩
  | 32 => ⟨S50000x1, .f32⟩
  | 33 => ⟨S50000x128, .f32⟩
  | 34 => ⟨S50000x128, .f32⟩
  | 35 => ⟨S_, .i32⟩
  | 36 => ⟨S1650000, .i32⟩
  | 37 => ⟨S1650000, .i1⟩
  | 38 => ⟨S_, .i32⟩
  | 39 => ⟨S1650000, .i32⟩
  | 40 => ⟨S1650000, .i32⟩
  | 41 => ⟨S1650000, .i32⟩
  | 42 => ⟨S1650000x1, .i32⟩
  | 43 => ⟨S1650000x128, .f32⟩
  | 44 => ⟨S_, .f32⟩
  | 45 => ⟨S50000x128, .f32⟩
  | 46 => ⟨S1650000x1, .i32⟩
  | 47 => ⟨S50000x128, .f32⟩
  | 48 => ⟨S50000x1, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S50000x128, .f32⟩
  | 70 => ⟨S50000x128, .f32⟩
  | 71 => ⟨S50000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S50000x128, .f32⟩
  | 91 => ⟨S50000x128, .bf16⟩
  | 92 => ⟨S_, .i32⟩
  | 93 => ⟨S200000, .i32⟩
  | 94 => ⟨S200000, .i1⟩
  | 95 => ⟨S_, .i32⟩
  | 96 => ⟨S200000, .i32⟩
  | 97 => ⟨S200000, .i32⟩
  | 98 => ⟨S200000, .i32⟩
  | 99 => ⟨S200000x1, .i32⟩
  | 100 => ⟨S200000x128, .bf16⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000x128, .bf16⟩
  | 110 => ⟨S200000x256, .bf16⟩
  | 111 => ⟨S_, .i32⟩
  | 112 => ⟨S_, .f32⟩
  | 113 => ⟨S128x128, .f32⟩
  | 114 => ⟨S_, .i32⟩
  | 115 => ⟨S_, .f32⟩
  | 116 => ⟨S128, .f32⟩
  | 117 => ⟨S1x128, .f32⟩
  | 118 => ⟨S1x128, .f32⟩
  | 119 => ⟨S200000x128, .f32⟩
  | 120 => ⟨S200000x1, .f32⟩
  | 121 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S64x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x256, .bf16⟩
  | .local _ .vmem, ⟨35, _⟩ => ⟨S5000x256, .bf16⟩
  | .local _ .vmem, ⟨36, _⟩ => ⟨S256x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c : Ref sig .tc := ⟨.hbm, 45, rfl⟩
abbrev main_v19 : Ref sig .tc := ⟨.hbm, 46, rfl⟩
abbrev main_v20 : Ref sig .tc := ⟨.hbm, 47, rfl⟩
abbrev main_c_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_5 : Ref sig .tc := ⟨.hbm, 64, rfl⟩
abbrev main_v35 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_cst_7 : Ref sig .tc := ⟨.hbm, 69, rfl⟩
abbrev main_v38 : Ref sig .tc := ⟨.hbm, 70, rfl⟩
abbrev main_v39 : Ref sig .tc := ⟨.hbm, 71, rfl⟩
abbrev main_c_8 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_cst_2 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_cst_3 : Ref sig .tc := ⟨.hbm, 89, rfl⟩
abbrev main_call1_v12 : Ref sig .tc := ⟨.hbm, 90, rfl⟩
abbrev main_call1_cst_4 : Ref sig .tc := ⟨.hbm, 91, rfl⟩
abbrev main_call1_call0_v0 : Ref sig .tc := ⟨.hbm, 92, rfl⟩
abbrev main_call1_call0_v1 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_c_9 : Ref sig .tc := ⟨.hbm, 104, rfl⟩
abbrev main_v50 : Ref sig .tc := ⟨.hbm, 105, rfl⟩
abbrev main_v51 : Ref sig .tc := ⟨.hbm, 106, rfl⟩
abbrev main_c_10 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_11 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_cst_12 : Ref sig .tc := ⟨.hbm, 123, rfl⟩
abbrev main_v66 : Ref sig .tc := ⟨.hbm, 124, rfl⟩
abbrev main_v67 : Ref sig .tc := ⟨.hbm, 125, rfl⟩
abbrev main_cst_13 : Ref sig .tc := ⟨.hbm, 126, rfl⟩
abbrev main_v68 : Ref sig .tc := ⟨.hbm, 127, rfl⟩
abbrev main_cst_14 : Ref sig .tc := ⟨.hbm, 128, rfl⟩
abbrev main_v69 : Ref sig .tc := ⟨.hbm, 129, rfl⟩
abbrev main_v70 : Ref sig .tc := ⟨.hbm, 130, rfl⟩
abbrev main_c_15 : Ref sig .tc := ⟨.hbm, 131, rfl⟩
abbrev main_call2_cst : Ref sig .tc := ⟨.hbm, 132, rfl⟩
abbrev main_call2_v0 : Ref sig .tc := ⟨.hbm, 133, rfl⟩
abbrev main_call2_v1 : Ref sig .tc := ⟨.hbm, 134, rfl⟩
abbrev main_call2_cst_0 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_v6 : Ref sig .tc := ⟨.hbm, 140, rfl⟩
abbrev main_call2_v7 : Ref sig .tc := ⟨.hbm, 141, rfl⟩
abbrev main_call2_cst_1 : Ref sig .tc := ⟨.hbm, 142, rfl⟩
abbrev main_call2_v8 : Ref sig .tc := ⟨.hbm, 143, rfl⟩
abbrev main_call2_cst_2 : Ref sig .tc := ⟨.hbm, 144, rfl⟩
abbrev main_call2_v9 : Ref sig .tc := ⟨.hbm, 145, rfl⟩
abbrev main_call2_v10 : Ref sig .tc := ⟨.hbm, 146, rfl⟩
abbrev main_call2_v11 : Ref sig .tc := ⟨.hbm, 147, rfl⟩
abbrev main_call2_cst_3 : Ref sig .tc := ⟨.hbm, 148, rfl⟩
abbrev main_call2_v12 : Ref sig .tc := ⟨.hbm, 149, rfl⟩
abbrev main_call2_cst_4 : Ref sig .tc := ⟨.hbm, 150, rfl⟩
abbrev main_call2_call0_v0 : Ref sig .tc := ⟨.hbm, 151, rfl⟩
abbrev main_call2_call0_v1 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_c_16 : Ref sig .tc := ⟨.hbm, 163, rfl⟩
abbrev main_v81 : Ref sig .tc := ⟨.hbm, 164, rfl⟩
abbrev main_v82 : Ref sig .tc := ⟨.hbm, 165, rfl⟩
abbrev main_c_17 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_cst_18 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_cst_19 : Ref sig .tc := ⟨.hbm, 182, rfl⟩
abbrev main_v97 : Ref sig .tc := ⟨.hbm, 183, rfl⟩
abbrev main_v98 : Ref sig .tc := ⟨.hbm, 184, rfl⟩
abbrev main_cst_20 : Ref sig .tc := ⟨.hbm, 185, rfl⟩
abbrev main_v99 : Ref sig .tc := ⟨.hbm, 186, rfl⟩
abbrev main_cst_21 : Ref sig .tc := ⟨.hbm, 187, rfl⟩
abbrev main_v100 : Ref sig .tc := ⟨.hbm, 188, rfl⟩
abbrev main_v101 : Ref sig .tc := ⟨.hbm, 189, rfl⟩
abbrev main_c_22 : Ref sig .tc := ⟨.hbm, 190, rfl⟩
abbrev main_call3_cst : Ref sig .tc := ⟨.hbm, 191, rfl⟩
abbrev main_call3_v0 : Ref sig .tc := ⟨.hbm, 192, rfl⟩
abbrev main_call3_v1 : Ref sig .tc := ⟨.hbm, 193, rfl⟩
abbrev main_call3_cst_0 : Ref sig .tc := ⟨.hbm, 194, rfl⟩
abbrev main_call3_v2 : Ref sig .tc := ⟨.hbm, 195, rfl⟩
abbrev main_call3_v3 : Ref sig .tc := ⟨.hbm, 196, rfl⟩
abbrev main_call3_v4 : Ref sig .tc := ⟨.hbm, 197, rfl⟩
abbrev main_call3_v5 : Ref sig .tc := ⟨.hbm, 198, rfl⟩
abbrev main_call3_v6 : Ref sig .tc := ⟨.hbm, 199, rfl⟩
abbrev main_call3_v7 : Ref sig .tc := ⟨.hbm, 200, rfl⟩
abbrev main_call3_cst_1 : Ref sig .tc := ⟨.hbm, 201, rfl⟩
abbrev main_call3_v8 : Ref sig .tc := ⟨.hbm, 202, rfl⟩
abbrev main_call3_cst_2 : Ref sig .tc := ⟨.hbm, 203, rfl⟩
abbrev main_call3_v9 : Ref sig .tc := ⟨.hbm, 204, rfl⟩
abbrev main_call3_v10 : Ref sig .tc := ⟨.hbm, 205, rfl⟩
abbrev main_call3_v11 : Ref sig .tc := ⟨.hbm, 206, rfl⟩
abbrev main_call3_cst_3 : Ref sig .tc := ⟨.hbm, 207, rfl⟩
abbrev main_call3_v12 : Ref sig .tc := ⟨.hbm, 208, rfl⟩
abbrev main_call3_cst_4 : Ref sig .tc := ⟨.hbm, 209, rfl⟩
abbrev main_call3_call0_v0 : Ref sig .tc := ⟨.hbm, 210, rfl⟩
abbrev main_call3_call0_v1 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_c_23 : Ref sig .tc := ⟨.hbm, 220, rfl⟩
abbrev main_v110 : Ref sig .tc := ⟨.hbm, 221, rfl⟩
abbrev main_v111 : Ref sig .tc := ⟨.hbm, 222, rfl⟩
abbrev main_c_24 : Ref sig .tc := ⟨.hbm, 223, rfl⟩
abbrev main_v112 : Ref sig .tc := ⟨.hbm, 224, rfl⟩
abbrev main_v113 : Ref sig .tc := ⟨.hbm, 225, rfl⟩
abbrev main_v114 : Ref sig .tc := ⟨.hbm, 226, rfl⟩
abbrev main_v115 : Ref sig .tc := ⟨.hbm, 227, rfl⟩
abbrev main_v116 : Ref sig .tc := ⟨.hbm, 228, rfl⟩
abbrev main_c_25 : Ref sig .tc := ⟨.hbm, 229, rfl⟩
abbrev main_v117 : Ref sig .tc := ⟨.hbm, 230, rfl⟩
abbrev main_v118 : Ref sig .tc := ⟨.hbm, 231, rfl⟩
abbrev main_c_26 : Ref sig .tc := ⟨.hbm, 232, rfl⟩
abbrev main_v119 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_v123 : Ref sig .tc := ⟨.hbm, 237, rfl⟩
abbrev main_v124 : Ref sig .tc := ⟨.hbm, 238, rfl⟩
abbrev main_c_27 : Ref sig .tc := ⟨.hbm, 239, rfl⟩
abbrev main_call4_v0 : Ref sig .tc := ⟨.hbm, 240, rfl⟩
abbrev main_v125 : Ref sig .tc := ⟨.hbm, 241, rfl⟩
abbrev main_c_28 : Ref sig .tc := ⟨.hbm, 242, rfl⟩
abbrev main_call5_v0 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  pads_S128x1_S128x128_000_01270 : S128x1.Pads (![0, 0] : Fin 2 → Nat) ![0, 127] ![0, 0] S128x128
  pads_S1_S128_01270 : S1.Pads (![0] : Fin 1 → Nat) ![127] ![0] S128
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S128x128_S128x128 : S128x128.ShapeCasts S128x128
  slices_S200000x128_S200000x1_0_0 : S200000x128.Slices ![0, 0] S200000x1
  shapeCasts_S200000x1_S200000 : S200000x1.ShapeCasts S200000
  scatter_S50000_S1650000x1_S1650000_n_0_0_1_wf : ScatterDims.WF S50000 S1650000x1 S1650000 [] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x128_S5000x128_1_0_0_1_n_n_wf : DotDims.WF S5000x64 S64x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x128_S5000x128_1_0_0_1_n_n_wf : DotDims.WF S5000x128 S128x128 S5000x128 [1] [0] [0] [1] [] []
  gather_S50000x128_S200000x1_S200000x128_1_0_n_n_0_1_1128_wf : GatherDims.WF S50000x128 S200000x1 S200000x128 [1] [0] [] [0] [] 1 ![1, 128]
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x128.size a
  hwx1_6 : ∀ i : grid1.Coords, EltTy.bits .f32 = 32 ∨ (Rect.block (s := S64x128) S64x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S200000x256.size a
  hwx4_0 : ∀ i : grid4.Coords, EltTy.bits .bf16 = 32 ∨ (Rect.block (s := S200000x256) S5000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S200000x128.size a
  hwx4_5 : ∀ i : grid4.Coords, EltTy.bits .f32 = 32 ∨ (Rect.block (s := S200000x128) S5000x128.size (cc4_transform_5 i) (hinb4_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S64x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v77) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v93) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v103) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v104) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v105) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v106) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v107) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v108) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v124) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v127) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v125) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v128) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v129) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S200000 : Shape := ⟨1, ![200000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩
abbrev S1650000x128 : Shape := ⟨2, ![1650000, 128]⟩
abbrev S1x128 : Shape := ⟨2, ![1, 128]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 292
  | .vmem => 0
  | .smem => 0
  | _ => 0

abbrev hbmTy0_0 (i : Nat) : BufTy := match i % 128 with
  | 0 => ⟨S50000x128, .f32⟩
  | 1 => ⟨S2x1600000, .i32⟩
  | 2 => ⟨S200000, .i32⟩
  | 3 => ⟨S200000, .i32⟩
  | 4 => ⟨S128x64, .f32⟩
  | 5 => ⟨S64, .f32⟩
  | 6 => ⟨S64x128, .f32⟩
  | 7 => ⟨S128, .f32⟩
  | 8 => ⟨S128x128, .f32⟩
  | 9 => ⟨S128, .f32⟩
  | 10 => ⟨S64, .f32⟩
  | 11 => ⟨S64, .f32⟩
  | 12 => ⟨S128, .f32⟩
  | 13 => ⟨S128, .f32⟩
  | 14 => ⟨S128, .f32⟩
  | 15 => ⟨S128, .f32⟩
  | 16 => ⟨S256x128, .f32⟩
  | 17 => ⟨S128, .f32⟩
  | 18 => ⟨S128x1, .f32⟩
  | 19 => ⟨S1, .f32⟩
  | 20 => ⟨S50000, .i32⟩
  | 21 => ⟨S1x1600000, .i32⟩
  | 22 => ⟨S1600000, .i32⟩
  | 23 => ⟨S1650000, .i32⟩
  | 24 => ⟨S1x1600000, .i32⟩
  | 25 => ⟨S1600000, .i32⟩
  | 26 => ⟨S1650000, .i32⟩
  | 27 => ⟨S_, .f32⟩
  | 28 => ⟨S1650000, .f32⟩
  | 29 => ⟨S_, .f32⟩
  | 30 => ⟨S50000, .f32⟩
  | 31 => ⟨S1650000x1, .i32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S_, .i32⟩
  | 51 => ⟨S1650000, .i32⟩
  | 52 => ⟨S1650000, .i1⟩
  | 53 => ⟨S_, .i32⟩
  | 54 => ⟨S1650000, .i32⟩
  | 55 => ⟨S1650000, .i32⟩
  | 56 => ⟨S1650000, .i32⟩
  | 57 => ⟨S1650000x1, .i32⟩
  | 58 => ⟨S1650000, .f32⟩
  | 59 => ⟨S1650000, .f32⟩
  | 60 => ⟨S50000x64, .f32⟩
  | 61 => ⟨S_, .i32⟩
  | 62 => ⟨S1650000, .i32⟩
  | 63 => ⟨S1650000, .i1⟩
  | 64 => ⟨S_, .i32⟩
  | 65 => ⟨S1650000, .i32⟩
  | 66 => ⟨S1650000, .i32⟩
  | 67 => ⟨S1650000, .i32⟩
  | 68 => ⟨S1650000x1, .i32⟩
  | 69 => ⟨S1650000x64, .f32⟩
  | 70 => ⟨S1650000x1, .f32⟩
  | 71 => ⟨S1650000x64, .f32⟩
  | 72 => ⟨S1650000x64, .f32⟩
  | 73 => ⟨S_, .f32⟩
  | 74 => ⟨S50000x64, .f32⟩
  | 75 => ⟨S1650000x1, .i32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000x64, .f32⟩
  | 82 => ⟨S50000x64, .f32⟩
  | 83 => ⟨S_, .f32⟩
  | 84 => ⟨S64, .f32⟩
  | 85 => ⟨S_, .f32⟩
  | 86 => ⟨S64, .f32⟩
  | 87 => ⟨S64, .f32⟩
  | 88 => ⟨S_, .i32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S50000x64, .f32⟩
  | 96 => ⟨S50000x64, .f32⟩
  | 97 => ⟨S50000x64, .f32⟩
  | 98 => ⟨S_, .f32⟩
  | 99 => ⟨S_, .f32⟩
  | 100 => ⟨S_, .f32⟩
  | 101 => ⟨S_, .f32⟩
  | 102 => ⟨S64, .f32⟩
  | 103 => ⟨S64, .f32⟩
  | 104 => ⟨S64, .f32⟩
  | 105 => ⟨S_, .f32⟩
  | 106 => ⟨S_, .i1⟩
  | 107 => ⟨S_, .f32⟩
  | 108 => ⟨S_, .f32⟩
  | 109 => ⟨S64, .f32⟩
  | 110 => ⟨S64, .f32⟩
  | 111 => ⟨S1x64, .f32⟩
  | 112 => ⟨S50000x64, .f32⟩
  | 113 => ⟨S50000x64, .f32⟩
  | 114 => ⟨S1x64, .f32⟩
  | 115 => ⟨S50000x64, .f32⟩
  | 116 => ⟨S50000x64, .f32⟩
  | 117 => ⟨S_, .f32⟩
  | 118 => ⟨S64, .f32⟩
  | 119 => ⟨S64, .f32⟩
  | 120 => ⟨S64, .f32⟩
  | 121 => ⟨S1x64, .f32⟩
  | 122 => ⟨S50000x64, .f32⟩
  | 123 => ⟨S50000x64, .f32⟩
  | 124 => ⟨S1x64, .f32⟩
  | 125 => ⟨S50000x64, .f32⟩
  | 126 => ⟨S50000x64, .f32⟩
  | 127 => ⟨S50000x128, .f32⟩
  | _ => ⟨S50000x128, .f32⟩

abbrev hbmTy0_1 (i : Nat) : BufTy := match i % 128 with
  | 0 => ⟨S_, .i32⟩
  | 1 => ⟨S1650000, .i32⟩
  | 2 => ⟨S1650000, .i1⟩
  | 3 => ⟨S_, .i32⟩
  | 4 => ⟨S1650000, .i32⟩
  | 5 => ⟨S1650000, .i32⟩
  | 6 => ⟨S1650000, .i32⟩
  | 7 => ⟨S1650000x1, .i32⟩
  | 8 => ⟨S1650000x128, .f32⟩
  | 9 => ⟨S1650000x1, .f32⟩
  | 10 => ⟨S1650000x128, .f32⟩
  | 11 => ⟨S1650000x128, .f32⟩
  | 12 => ⟨S_, .f32⟩
  | 13 => ⟨S50000x128, .f32⟩
  | 14 => ⟨S1650000x1, .i32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S50000x128, .f32⟩
  | 35 => ⟨S50000x128, .f32⟩
  | 36 => ⟨S50000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S50000x128, .f32⟩
  | 67 => ⟨S_, .i32⟩
  | 68 => ⟨S1650000, .i32⟩
  | 69 => ⟨S1650000, .i1⟩
  | 70 => ⟨S_, .i32⟩
  | 71 => ⟨S1650000, .i32⟩
  | 72 => ⟨S1650000, .i32⟩
  | 73 => ⟨S1650000, .i32⟩
  | 74 => ⟨S1650000x1, .i32⟩
  | 75 => ⟨S1650000x128, .f32⟩
  | 76 => ⟨S1650000x1, .f32⟩
  | 77 => ⟨S1650000x128, .f32⟩
  | 78 => ⟨S1650000x128, .f32⟩
  | 79 => ⟨S_, .f32⟩
  | 80 => ⟨S50000x128, .f32⟩
  | 81 => ⟨S1650000x1, .i32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S50000x128, .f32⟩
  | 102 => ⟨S50000x128, .f32⟩
  | 103 => ⟨S50000x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S128, .f32⟩
  | 125 => ⟨S128, .f32⟩
  | 126 => ⟨S128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S200000x128, .f32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x128, .f32⟩
  | 23 => ⟨S200000x256, .f32⟩
  | 24 => ⟨S200000x128, .f32⟩
  | 25 => ⟨S1x128, .f32⟩
  | 26 => ⟨S200000x128, .f32⟩
  | 27 => ⟨S200000x128, .f32⟩
  | 28 => ⟨S_, .f32⟩
  | 29 => ⟨S200000x128, .f32⟩
  | 30 => ⟨S200000x128, .f32⟩
  | 31 => ⟨S200000x1, .f32⟩
  | 32 => ⟨S1x1, .f32⟩
  | 33 => ⟨S200000x1, .f32⟩
  | 34 => ⟨S200000x1, .f32⟩
  | 35 => ⟨S200000, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_c_7 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call1_cst : Ref sig .tc := ⟨.hbm, 80, rfl⟩
abbrev main_call1_v0 : Ref sig .tc := ⟨.hbm, 81, rfl⟩
abbrev main_v47 : Ref sig .tc := ⟨.hbm, 82, rfl⟩
abbrev main_cst_9 : Ref sig .tc := ⟨.hbm, 83, rfl⟩
abbrev main_v48 : Ref sig .tc := ⟨.hbm, 84, rfl⟩
abbrev main_cst_10 : Ref sig .tc := ⟨.hbm, 85, rfl⟩
abbrev main_v49 : Ref sig .tc := ⟨.hbm, 86, rfl⟩
abbrev main_v50 : Ref sig .tc := ⟨.hbm, 87, rfl⟩
abbrev main_c_11 : Ref sig .tc := ⟨.hbm, 88, rfl⟩
abbrev main_call2_cst : Ref sig .tc := ⟨.hbm, 89, rfl⟩
abbrev main_call2_v0 : Ref sig .tc := ⟨.hbm, 90, rfl⟩
abbrev main_call2_v1 : Ref sig .tc := ⟨.hbm, 91, rfl⟩
abbrev main_call2_cst_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_cst_1 : Ref sig .tc := ⟨.hbm, 99, rfl⟩
abbrev main_call2_v8 : Ref sig .tc := ⟨.hbm, 100, rfl⟩
abbrev main_call2_cst_2 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_cst_3 : Ref sig .tc := ⟨.hbm, 105, rfl⟩
abbrev main_call2_v12 : Ref sig .tc := ⟨.hbm, 106, rfl⟩
abbrev main_call2_cst_4 : Ref sig .tc := ⟨.hbm, 107, rfl⟩
abbrev main_call2_call0_v0 : Ref sig .tc := ⟨.hbm, 108, rfl⟩
abbrev main_call2_call0_v1 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_cst_12 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_c_13 : Ref sig .tc := ⟨.hbm, 128, rfl⟩
abbrev main_v68 : Ref sig .tc := ⟨.hbm, 129, rfl⟩
abbrev main_v69 : Ref sig .tc := ⟨.hbm, 130, rfl⟩
abbrev main_c_14 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_cst_15 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_call3_cst : Ref sig .tc := ⟨.hbm, 147, rfl⟩
abbrev main_call3_v0 : Ref sig .tc := ⟨.hbm, 148, rfl⟩
abbrev main_v84 : Ref sig .tc := ⟨.hbm, 149, rfl⟩
abbrev main_cst_16 : Ref sig .tc := ⟨.hbm, 150, rfl⟩
abbrev main_v85 : Ref sig .tc := ⟨.hbm, 151, rfl⟩
abbrev main_cst_17 : Ref sig .tc := ⟨.hbm, 152, rfl⟩
abbrev main_v86 : Ref sig .tc := ⟨.hbm, 153, rfl⟩
abbrev main_v87 : Ref sig .tc := ⟨.hbm, 154, rfl⟩
abbrev main_c_18 : Ref sig .tc := ⟨.hbm, 155, rfl⟩
abbrev main_call4_cst : Ref sig .tc := ⟨.hbm, 156, rfl⟩
abbrev main_call4_v0 : Ref sig .tc := ⟨.hbm, 157, rfl⟩
abbrev main_call4_v1 : Ref sig .tc := ⟨.hbm, 158, rfl⟩
abbrev main_call4_cst_0 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_call4_v5 : Ref sig .tc := ⟨.hbm, 163, rfl⟩
abbrev main_call4_v6 : Ref sig .tc := ⟨.hbm, 164, rfl⟩
abbrev main_call4_v7 : Ref sig .tc := ⟨.hbm, 165, rfl⟩
abbrev main_call4_cst_1 : Ref sig .tc := ⟨.hbm, 166, rfl⟩
abbrev main_call4_v8 : Ref sig .tc := ⟨.hbm, 167, rfl⟩
abbrev main_call4_cst_2 : Ref sig .tc := ⟨.hbm, 168, rfl⟩
abbrev main_call4_v9 : Ref sig .tc := ⟨.hbm, 169, rfl⟩
abbrev main_call4_v10 : Ref sig .tc := ⟨.hbm, 170, rfl⟩
abbrev main_call4_v11 : Ref sig .tc := ⟨.hbm, 171, rfl⟩
abbrev main_call4_cst_3 : Ref sig .tc := ⟨.hbm, 172, rfl⟩
abbrev main_call4_v12 : Ref sig .tc := ⟨.hbm, 173, rfl⟩
abbrev main_call4_cst_4 : Ref sig .tc := ⟨.hbm, 174, rfl⟩
abbrev main_call4_call0_v0 : Ref sig .tc := ⟨.hbm, 175, rfl⟩
abbrev main_call4_call0_v1 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_cst_19 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_c_20 : Ref sig .tc := ⟨.hbm, 195, rfl⟩
abbrev main_v105 : Ref sig .tc := ⟨.hbm, 196, rfl⟩
abbrev main_v106 : Ref sig .tc := ⟨.hbm, 197, rfl⟩
abbrev main_c_21 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_cst_22 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_call5_cst : Ref sig .tc := ⟨.hbm, 214, rfl⟩
abbrev main_call5_v0 : Ref sig .tc := ⟨.hbm, 215, rfl⟩
abbrev main_v121 : Ref sig .tc := ⟨.hbm, 216, rfl⟩
abbrev main_cst_23 : Ref sig .tc := ⟨.hbm, 217, rfl⟩
abbrev main_v122 : Ref sig .tc := ⟨.hbm, 218, rfl⟩
abbrev main_cst_24 : Ref sig .tc := ⟨.hbm, 219, rfl⟩
abbrev main_v123 : Ref sig .tc := ⟨.hbm, 220, rfl⟩
abbrev main_v124 : Ref sig .tc := ⟨.hbm, 221, rfl⟩
abbrev main_c_25 : Ref sig .tc := ⟨.hbm, 222, rfl⟩
abbrev main_call6_cst : Ref sig .tc := ⟨.hbm, 223, rfl⟩
abbrev main_call6_v0 : Ref sig .tc := ⟨.hbm, 224, rfl⟩
abbrev main_call6_v1 : Ref sig .tc := ⟨.hbm, 225, rfl⟩
abbrev main_call6_cst_0 : Ref sig .tc := ⟨.hbm, 226, rfl⟩
abbrev main_call6_v2 : Ref sig .tc := ⟨.hbm, 227, rfl⟩
abbrev main_call6_v3 : Ref sig .tc := ⟨.hbm, 228, rfl⟩
abbrev main_call6_v4 : Ref sig .tc := ⟨.hbm, 229, rfl⟩
abbrev main_call6_v5 : Ref sig .tc := ⟨.hbm, 230, rfl⟩
abbrev main_call6_v6 : Ref sig .tc := ⟨.hbm, 231, rfl⟩
abbrev main_call6_v7 : Ref sig .tc := ⟨.hbm, 232, rfl⟩
abbrev main_call6_cst_1 : Ref sig .tc := ⟨.hbm, 233, rfl⟩
abbrev main_call6_v8 : Ref sig .tc := ⟨.hbm, 234, rfl⟩
abbrev main_call6_cst_2 : Ref sig .tc := ⟨.hbm, 235, rfl⟩
abbrev main_call6_v9 : Ref sig .tc := ⟨.hbm, 236, rfl⟩
abbrev main_call6_v10 : Ref sig .tc := ⟨.hbm, 237, rfl⟩
abbrev main_call6_v11 : Ref sig .tc := ⟨.hbm, 238, rfl⟩
abbrev main_call6_cst_3 : Ref sig .tc := ⟨.hbm, 239, rfl⟩
abbrev main_call6_v12 : Ref sig .tc := ⟨.hbm, 240, rfl⟩
abbrev main_call6_cst_4 : Ref sig .tc := ⟨.hbm, 241, rfl⟩
abbrev main_call6_call0_v0 : Ref sig .tc := ⟨.hbm, 242, rfl⟩
abbrev main_call6_call0_v1 : Ref sig .tc := ⟨.hbm, 243, rfl⟩
abbrev main_v125 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_v131 : Ref sig .tc := ⟨.hbm, 250, rfl⟩
abbrev main_cst_26 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_v140 : Ref sig .tc := ⟨.hbm, 260, rfl⟩
abbrev main_c_27 : Ref sig .tc := ⟨.hbm, 261, rfl⟩
abbrev main_v141 : Ref sig .tc := ⟨.hbm, 262, rfl⟩
abbrev main_v142 : Ref sig .tc := ⟨.hbm, 263, rfl⟩
abbrev main_c_28 : Ref sig .tc := ⟨.hbm, 264, rfl⟩
abbrev main_v143 : Ref sig .tc := ⟨.hbm, 265, rfl⟩
abbrev main_v144 : Ref sig .tc := ⟨.hbm, 266, rfl⟩
abbrev main_v145 : Ref sig .tc := ⟨.hbm, 267, rfl⟩
abbrev main_v146 : Ref sig .tc := ⟨.hbm, 268, rfl⟩
abbrev main_v147 : Ref sig .tc := ⟨.hbm, 269, rfl⟩
abbrev main_c_29 : Ref sig .tc := ⟨.hbm, 270, rfl⟩
abbrev main_v148 : Ref sig .tc := ⟨.hbm, 271, rfl⟩
abbrev main_v149 : Ref sig .tc := ⟨.hbm, 272, rfl⟩
abbrev main_c_30 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_call7_cst : Ref sig .tc := ⟨.hbm, 284, rfl⟩
abbrev main_call7_v0 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x128_S50000x128_1_0_0_1_n_n_wf : DotDims.WF S50000x64 S64x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KerRun.lean ====
/-
  The idealized kernel program's run with its result named. From any launch memory, every weakly fair execution of
  @main terminates without a fault; the result buffer ends at the contents the chain of host stretches and the five
  regions' write-backs leaves in it (the fold `Gen.W22` read at the result), and the twenty argument arrays end as
  launched. The fold is opened, stretch by stretch, in the modules that read the values.
-/
import proofs.«136817_j2800318677196_2_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer at the final fold's contents and the arguments unchanged. -/
theorem run_result : θ_run defs (onTc (τ := τ) (main (F := F))) ⟨m, fun _ => 0, ρ⟩ (fun r => ∀ c : Dev nD,
      r.2.mem ((c.tc : Thread nD τ).loc main_v131) = W22 m ρ c (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨(h c _ (mem_uc main_v131 (by decide))),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c),
       (h c _ (mem_uc main_arg16 (by decide))).trans (W22_main_arg16 m ρ c),
       (h c _ (mem_uc main_arg17 (by decide))).trans (W22_main_arg17 m ρ c),
       (h c _ (mem_uc main_arg18 (by decide))).trans (W22_main_arg18 m ρ c),
       (h c _ (mem_uc main_arg19 (by decide))).trans (W22_main_arg19 m ρ c)⟩)

end Cert.KernelIdeal.KerRun

end
-- ==== Proof.LibConcat.lean ====
/-
  Two general tools for reading a fold of host operations when one of them is a concatenation.

  The host's concatenation takes a LIST of arrays, each paired with its shape, and its side condition (the shapes fit
  together along the axis) is stated about that list; so the list cannot be rewritten in place, and a fold of operations
  standing inside it is never read. For two arrays, `cat2` is the same concatenation as a function of the two arrays
  with the shapes fixed first, `concatenate_pair` says so, and the tactic `fold_results` reads a fold of nullary to
  ternary host operations at a buffer — each operation's result at its own buffer is its function of its operands, at
  any other buffer what was there — going through two-array concatenations by that equation.
-/
import Idealize.ShloMosaic.Lib.StableHlo.Run

noncomputable section

namespace Cert.LibConcat

open Idealize.ShloMosaic Idealize.ShloMosaic.StableHlo

variable {α : Type}

/-- The concatenation of two arrays along axis `a`, as a function of the two arrays. -/
def cat2 (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- The host's concatenation of a two-element list is `cat2` of its two arrays. -/
theorem concatenate_pair (t : Shape) (a : Fin t.rank) (s1 s2 : Shape) (x : s1.Idx → α) (y : s2.Idx → α)
    (h : Shape.Concatenates (List.map (Sigma.fst (β := fun s : Shape => s.Idx → α)) [⟨s1, x⟩, ⟨s2, y⟩]) t a) :
    concatenate t a [⟨s1, x⟩, ⟨s2, y⟩] h = cat2 t a s1 s2 h x y := rfl

/-- Reads a fold of host operations at a buffer, in one simplification pass, through two-array concatenations. -/
macro "fold_results" : tactic =>
  `(tactic| (simp (disch := decide) only [after_cons, after_nil,
      nullary_result', unary_result', binary_result', ternary_result',
      nullary_result_ne', unary_result_ne', binary_result_ne', ternary_result_ne', concatenate_pair]))

end Cert.LibConcat

end
-- ==== Proof.LibFoldCat.lean ====
/-
  Reading a fold of host operations at a buffer in one simplification pass, through two-array concatenations.

  Each operation's result at its own buffer is its function of its operands, and at any other buffer what was there;
  a concatenation of two arrays is first rewritten as a function of the two arrays (`Cert.LibConcat.concatenate_pair`),
  since the list a concatenation takes is not rewritten in place. The pass is the library's one-pass reading of a fold
  with that one equation added, so it also covers reshapes and operations of four operands.
-/
import Idealize.ShloMosaic.Lib.StableHlo.Run
import proofs.«136817_j2800318677196_2_alg».proof.Proof.LibConcat

namespace Cert.LibFoldCat

open Idealize.ShloMosaic Idealize.ShloMosaic.StableHlo

/-- Reads a fold of host operations at a buffer, going through two-array concatenations. -/
macro "fold_read" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibConcat.concatenate_pair]))

end Cert.LibFoldCat
-- ==== Proof.KerStages.lean ====
/-
  The host stretches of the idealized kernel program, read one stretch at a time.

  Between its five regions the program runs stretches of host operations. Each stretch is read here at the buffers the
  later stretches and regions use, as a function of what the stretch finds in the buffers it reads (`X`, the contents when
  the stretch is entered): the edge list with the self-loops appended (`rowT`, `colT`), the in-degree `degT` and its
  inverse square root `disT` (0 where the degree is not positive); per layer, the aggregation with the normalisation
  factored out (`aggK64T`: scale the rows by `dis`, gather the source rows, add them into the target rows, scale by
  `dis` again), the bias and rectifier (`relu64T`), the column means (`mean64T`) and the column variances (`var64T`);
  and the reshapes of the one-row operands.
-/
import proofs.«136817_j2800318677196_2_alg».proof.Proof.Gen.KernelIdeal.Launch
import proofs.«136817_j2800318677196_2_alg».proof.Proof.LibFoldCat
import Idealize.ShloMosaic.Lib.StableHlo.Run

set_option maxRecDepth 16384

noncomputable section

namespace Cert.KernelIdeal.KS

open Cert.KernelIdeal Cert.KernelIdeal.Gen Idealize.ShloMosaic Idealize.ShloMosaic.StableHlo Idealize.ShloMosaic.TcCoe
open Cert.LibConcat Cert.LibFoldCat

variable {F : FTy → Type} [FloatOps F]

/-- Contents of a buffer of shape `S` and element type `e`. -/
abbrev Arr (F : FTy → Type) [FloatOps F] (S : Shape) (e : _) := BufTy.Contents (Elt F) ⟨S, e⟩

/-! ## The graph: edge list with self-loops, in-degree, inverse square root of the degree -/

/-- Source nodes: row 0 of the edge list, then every node once (the self-loops). -/
def rowT (e : Arr F S2x1600000 .i32) : Arr F S1650000 .i32 :=
  cat2 S1650000 0 S1600000 S50000 concatenates_S1600000_S50000_S1650000_d0
    (fun i => shapeCast S1600000 (extractStridedSlice S1x1600000 ![0, 0] e slices_S2x1600000_S1x1600000_0_0)
      shapeCasts_S1x1600000_S1600000 i)
    (iotaInDim S50000 32 0)

/-- Target nodes: row 1 of the edge list, then every node once. -/
def colT (e : Arr F S2x1600000 .i32) : Arr F S1650000 .i32 :=
  cat2 S1650000 0 S1600000 S50000 concatenates_S1600000_S50000_S1650000_d0
    (fun i => shapeCast S1600000 (extractStridedSlice S1x1600000 ![1, 0] e slices_S2x1600000_S1x1600000_1_0)
      shapeCasts_S1x1600000_S1600000 i)
    (iotaInDim S50000 32 0)

/-- The in-degree: a one added into node `col e` for every pair `e`. -/
def degT (col : Arr F S1650000 .i32) : Arr F S50000 .f32 :=
  Host.scatterAdd scatter_S50000_S1650000x1_S1650000_n_0_0_1
    (broadcastInDim S50000 ![] bcast_S_S50000 (constant (F := F) S_ .f32 0#32))
    (broadcastInDim S1650000x1 ![0] bcast_S1650000_S1650000x1_0 col)
    (broadcastInDim S1650000 ![] bcast_S_S1650000 (constant (F := F) S_ .f32 1065353216#32))

/-- `deg ^ (-1/2)` where the degree is positive, 0 elsewhere. -/
def disT (col : Arr F S1650000 .i32) : Arr F S50000 .f32 :=
  select (cmpf .ogt (degT col) (broadcastInDim S50000 ![] bcast_S_S50000 (constant (F := F) S_ .f32 0#32)))
    (Host.rsqrt (degT col))
    (broadcastInDim S50000 ![] bcast_S_S50000 (id (constant (F := F) S_ .f32 0#32)))

/-- A node index read the way array indexing reads it: a negative index counts from the end. -/
def wrapT (r : Arr F S1650000 .i32) : Arr F S1650000 .i32 :=
  select (cmpi .slt r (broadcastInDim S1650000 ![] bcast_S_S1650000 (constantI S_ 32 0#32)))
    (addi r (broadcastInDim S1650000 ![] bcast_S_S1650000 (constantI S_ 32 50000#32))) r

variable (X : Valuation τ sig (Elt F))

theorem s0_v3 : after (hostOps0 (F := F)) X (Proc.devRef .tc main_v3) = rowT (X (Proc.devRef .tc main_arg1)) := by
  fold_read <;> rfl
theorem s0_v6 : after (hostOps0 (F := F)) X (Proc.devRef .tc main_v6) = colT (X (Proc.devRef .tc main_arg1)) := by
  fold_read <;> rfl
theorem s0_v12 : after (hostOps0 (F := F)) X (Proc.devRef .tc main_v12)
    = cmpf .ogt (degT (colT (X (Proc.devRef .tc main_arg1)))) (broadcastInDim S50000 ![] bcast_S_S50000 (constant (F := F) S_ .f32 0#32)) := by
  fold_read <;> rfl
theorem s0_v13 : after (hostOps0 (F := F)) X (Proc.devRef .tc main_v13) = Host.rsqrt (degT (colT (X (Proc.devRef .tc main_arg1)))) := by
  fold_read <;> rfl
theorem s0_cst_2 : after (hostOps0 (F := F)) X (Proc.devRef .tc main_cst_2) = constant (F := F) S_ .f32 0#32 := by
  fold_read <;> rfl
theorem s01_v14 : after (hostOps0_1 (F := F)) X (Proc.devRef .tc main_v14)
    = select (X (Proc.devRef .tc main_v12)) (X (Proc.devRef .tc main_v13))
        (broadcastInDim S50000 ![] bcast_S_S50000 (id (X (Proc.devRef .tc main_cst_2)))) := by
  fold_read <;> rfl

/-! ## A layer at 64 columns -/

/-- The aggregation with the normalisation factored out: the rows scaled by `dis`, the source rows gathered, added into
    the target rows, and the sums scaled by `dis` again. -/
def aggK64T (dis : Arr F S50000 .f32) (row col : Arr F S1650000 .i32) (h : Arr F S50000x64 .f32) : Arr F S50000x64 .f32 :=
  mulf
    (Host.scatterAdd scatter_S50000x64_S1650000x1_S1650000x64_1_0_0_1
      (broadcastInDim S50000x64 ![] bcast_S_S50000x64 (constant (F := F) S_ .f32 0#32))
      (broadcastInDim S1650000x1 ![0] bcast_S1650000_S1650000x1_0 col)
      (Host.gather gather_S50000x64_S1650000x1_S1650000x64_1_0_n_n_0_1_164
        (mulf h (broadcastInDim S50000x64 ![0, 1] bcast_S50000x1_S50000x64_0_1 (broadcastInDim S50000x1 ![0] bcast_S50000_S50000x1_0 dis)))
        (broadcastInDim S1650000x1 ![0] bcast_S1650000_S1650000x1_0 (wrapT row))))
    (broadcastInDim S50000x64 ![0, 1] bcast_S50000x1_S50000x64_0_1 (broadcastInDim S50000x1 ![0] bcast_S50000_S50000x1_0 dis))

/-- The bias laid along every row, then the rectifier. -/
def relu64T (agg : Arr F S50000x64 .f32) (b : Arr F S64 .f32) : Arr F S50000x64 .f32 :=
  maximumf (addf agg (broadcastInDim S50000x64 ![0, 1] bcast_S1x64_S50000x64_0_1 (broadcastInDim S1x64 ![1] bcast_S64_S1x64_1 b)))
    (broadcastInDim S50000x64 ![] bcast_S_S50000x64 (constant (F := F) S_ .f32 0#32))

/-- The column means: the column sums over 50000. -/
def mean64T (x : Arr F S50000x64 .f32) : Arr F S64 .f32 :=
  Host.divf (Host.reduceAdd x (constant (F := F) S_ .f32 0#32) reducesTo_S50000x64_S64_d0 h_S_)
    (broadcastInDim S64 ![] bcast_S_S64 (constant (F := F) S_ .f32 1195593728#32))

/-- The column variances: the column means of the squared deviations from the column means (the divisor is 50000 less
    the correction `c0`; where that is not positive the entry is the not-a-number word). -/
def var64T (x : Arr F S50000x64 .f32) (c0 : Arr F S_ .i32) : Arr F S64 .f32 :=
  select
    (broadcastInDim S64 ![] bcast_S_S64
      (cmpf .ogt (subf (constant (F := F) S_ .f32 1195593728#32) (sitofp .f32 c0)) (constant (F := F) S_ .f32 0#32)))
    (Host.divf
      (Host.reduceAdd
        (mulf
          (subf x (broadcastInDim S50000x64 ![0, 1] bcast_S1x64_S50000x64_0_1
            (Host.divf (broadcastInDim S1x64 ![1] bcast_S64_S1x64_1
                (Host.reduceAdd x (constant (F := F) S_ .f32 0#32) reducesTo_S50000x64_S64_d0 h_S_))
              (broadcastInDim S1x64 ![] bcast_S_S1x64 (constant (F := F) S_ .f32 1195593728#32)))))
          (subf x (broadcastInDim S50000x64 ![0, 1] bcast_S1x64_S50000x64_0_1
            (Host.divf (broadcastInDim S1x64 ![1] bcast_S64_S1x64_1
                (Host.reduceAdd x (constant (F := F) S_ .f32 0#32) reducesTo_S50000x64_S64_d0 h_S_))
              (broadcastInDim S1x64 ![] bcast_S_S1x64 (constant (F := F) S_ .f32 1195593728#32))))))
        (constant (F := F) S_ .f32 0#32) reducesTo_S50000x64_S64_d0 h_S_)
      (broadcastInDim S64 ![] bcast_S_S64 (subf (constant (F := F) S_ .f32 1195593728#32) (sitofp .f32 c0))))
    (broadcastInDim S64 ![] bcast_S_S64 (id (constant (F := F) S_ .f32 2143289344#32)))

/-- A vector as a one-row matrix. -/
def row64T (v : Arr F S64 .f32) : Arr F S1x64 .f32 := fun i => shapeCast S1x64 v shapeCasts_S64_S1x64 i

/-! ### Layer 1's stretches -/

theorem s1_agg : after (hostOps1 (F := F)) X (Proc.devRef .tc main_v31)
    = aggK64T (X (Proc.devRef .tc main_v14)) (X (Proc.devRef .tc main_v3)) (X (Proc.devRef .tc main_v6)) (X (Proc.devRef .tc main_v15)) := by
  fold_read <;> rfl
theorem s1_relu : after (hostOps1 (F := F)) X (Proc.devRef .tc main_v36)
    = relu64T (aggK64T (X (Proc.devRef .tc main_v14)) (X (Proc.devRef .tc main_v3)) (X (Proc.devRef .tc main_v6)) (X (Proc.devRef .tc main_v15)))
        (X (Proc.devRef .tc main_arg5)) := by
  fold_read <;> rfl
theorem s1_mean : after (hostOps1 (F := F)) X (Proc.devRef .tc main_v39)
    = mean64T (relu64T (aggK64T (X (Proc.devRef .tc main_v14)) (X (Proc.devRef .tc main_v3)) (X (Proc.devRef .tc main_v6)) (X (Proc.devRef .tc main_v15)))
        (X (Proc.devRef .tc main_arg5))) := by
  fold_read <;> rfl
theorem s1_c0 : after (hostOps1 (F := F)) X (Proc.devRef .tc main_c_8) = constantI S_ 32 0#32 := by
  fold_read <;> rfl
theorem s1_var : after (hostOps1_1 (F := F)) X (Proc.devRef .tc main_v40)
    = var64T (X (Proc.devRef .tc main_v36)) (X (Proc.devRef .tc main_c_8)) := by
  fold_read <;> rfl
theorem s1_rb : after (hostOps1_2 (F := F)) X (Proc.devRef .tc main_v41) = row64T (X (Proc.devRef .tc main_arg5)) := by
  fold_read <;> rfl
theorem s1_rg : after (hostOps1_2 (F := F)) X (Proc.devRef .tc main_v42) = row64T (X (Proc.devRef .tc main_arg10)) := by
  fold_read <;> rfl
theorem s1_rbt : after (hostOps1_2 (F := F)) X (Proc.devRef .tc main_v43) = row64T (X (Proc.devRef .tc main_arg11)) := by
  fold_read <;> rfl
theorem s1_rmean : after (hostOps1_2 (F := F)) X (Proc.devRef .tc main_v44) = row64T (X (Proc.devRef .tc main_v39)) := by
  fold_read <;> rfl
theorem s1_rvar : after (hostOps1_2 (F := F)) X (Proc.devRef .tc main_v45) = row64T (X (Proc.devRef .tc main_v40)) := by
  fold_read <;> rfl

/-! ## A layer at 128 columns -/

/-- The aggregation with the normalisation factored out: the rows scaled by `dis`, the source rows gathered, added into
    the target rows, and the sums scaled by `dis` again. -/
def aggK128T (dis : Arr F S50000 .f32) (row col : Arr F S1650000 .i32) (h : Arr F S50000x128 .f32) : Arr F S50000x128 .f32 :=
  mulf
    (Host.scatterAdd scatter_S50000x128_S1650000x1_S1650000x128_1_0_0_1
      (broadcastInDim S50000x128 ![] bcast_S_S50000x128 (constant (F := F) S_ .f32 0#32))
      (broadcastInDim S1650000x1 ![0] bcast_S1650000_S1650000x1_0 col)
      (Host.gather gather_S50000x128_S1650000x1_S1650000x128_1_0_n_n_0_1_1128
        (mulf h (broadcastInDim S50000x128 ![0, 1] bcast_S50000x1_S50000x128_0_1 (broadcastInDim S50000x1 ![0] bcast_S50000_S50000x1_0 dis)))
        (broadcastInDim S1650000x1 ![0] bcast_S1650000_S1650000x1_0 (wrapT row))))
    (broadcastInDim S50000x128 ![0, 1] bcast_S50000x1_S50000x128_0_1 (broadcastInDim S50000x1 ![0] bcast_S50000_S50000x1_0 dis))

/-- The bias laid along every row, then the rectifier. -/
def relu128T (agg : Arr F S50000x128 .f32) (b : Arr F S128 .f32) : Arr F S50000x128 .f32 :=
  maximumf (addf agg (broadcastInDim S50000x128 ![0, 1] bcast_S1x128_S50000x128_0_1 (broadcastInDim S1x128 ![1] bcast_S128_S1x128_1 b)))
    (broadcastInDim S50000x128 ![] bcast_S_S50000x128 (constant (F := F) S_ .f32 0#32))

/-- The column means: the column sums over 50000. -/
def mean128T (x : Arr F S50000x128 .f32) : Arr F S128 .f32 :=
  Host.divf (Host.reduceAdd x (constant (F := F) S_ .f32 0#32) reducesTo_S50000x128_S128_d0 h_S_)
    (broadcastInDim S128 ![] bcast_S_S128 (constant (F := F) S_ .f32 1195593728#32))

/-- The column variances: the column means of the squared deviations from the column means (the divisor is 50000 less
    the correction `c0`; where that is not positive the entry is the not-a-number word). -/
def var128T (x : Arr F S50000x128 .f32) (c0 : Arr F S_ .i32) : Arr F S128 .f32 :=
  select
    (broadcastInDim S128 ![] bcast_S_S128
      (cmpf .ogt (subf (constant (F := F) S_ .f32 1195593728#32) (sitofp .f32 c0)) (constant (F := F) S_ .f32 0#32)))
    (Host.divf
      (Host.reduceAdd
        (mulf
          (subf x (broadcastInDim S50000x128 ![0, 1] bcast_S1x128_S50000x128_0_1
            (Host.divf (broadcastInDim S1x128 ![1] bcast_S128_S1x128_1
                (Host.reduceAdd x (constant (F := F) S_ .f32 0#32) reducesTo_S50000x128_S128_d0 h_S_))
              (broadcastInDim S1x128 ![] bcast_S_S1x128 (constant (F := F) S_ .f32 1195593728#32)))))
          (subf x (broadcastInDim S50000x128 ![0, 1] bcast_S1x128_S50000x128_0_1
            (Host.divf (broadcastInDim S1x128 ![1] bcast_S128_S1x128_1
                (Host.reduceAdd x (constant (F := F) S_ .f32 0#32) reducesTo_S50000x128_S128_d0 h_S_))
              (broadcastInDim S1x128 ![] bcast_S_S1x128 (constant (F := F) S_ .f32 1195593728#32))))))
        (constant (F := F) S_ .f32 0#32) reducesTo_S50000x128_S128_d0 h_S_)
      (broadcastInDim S128 ![] bcast_S_S128 (subf (constant (F := F) S_ .f32 1195593728#32) (sitofp .f32 c0))))
    (broadcastInDim S128 ![] bcast_S_S128 (id (constant (F := F) S_ .f32 2143289344#32)))

/-- A vector as a one-row matrix. -/
def row128T (v : Arr F S128 .f32) : Arr F S1x128 .f32 := fun i => shapeCast S1x128 v shapeCasts_S128_S1x128 i

/-! ### Layer 2's stretches -/

theorem s2_agg : after (hostOps2 (F := F)) X (Proc.devRef .tc main_v62)
    = aggK128T (X (Proc.devRef .tc main_v14)) (X (Proc.devRef .tc main_v3)) (X (Proc.devRef .tc main_v6)) (X (Proc.devRef .tc main_v46)) := by
  fold_read <;> rfl
theorem s2_relu : after (hostOps2 (F := F)) X (Proc.devRef .tc main_v67)
    = relu128T (aggK128T (X (Proc.devRef .tc main_v14)) (X (Proc.devRef .tc main_v3)) (X (Proc.devRef .tc main_v6)) (X (Proc.devRef .tc main_v46)))
        (X (Proc.devRef .tc main_arg7)) := by
  fold_read <;> rfl
theorem s2_mean : after (hostOps2 (F := F)) X (Proc.devRef .tc main_v70)
    = mean128T (relu128T (aggK128T (X (Proc.devRef .tc main_v14)) (X (Proc.devRef .tc main_v3)) (X (Proc.devRef .tc main_v6)) (X (Proc.devRef .tc main_v46)))
        (X (Proc.devRef .tc main_arg7))) := by
  fold_read <;> rfl
theorem s2_c0 : after (hostOps2 (F := F)) X (Proc.devRef .tc main_c_15) = constantI S_ 32 0#32 := by
  fold_read <;> rfl
theorem s2_var : after (hostOps2_1 (F := F)) X (Proc.devRef .tc main_v71)
    = var128T (X (Proc.devRef .tc main_v67)) (X (Proc.devRef .tc main_c_15)) := by
  fold_read <;> rfl
theorem s2_rb : after (hostOps2_2 (F := F)) X (Proc.devRef .tc main_v72) = row128T (X (Proc.devRef .tc main_arg7)) := by
  fold_read <;> rfl
theorem s2_rg : after (hostOps2_2 (F := F)) X (Proc.devRef .tc main_v73) = row128T (X (Proc.devRef .tc main_arg12)) := by
  fold_read <;> rfl
theorem s2_rbt : after (hostOps2_2 (F := F)) X (Proc.devRef .tc main_v74) = row128T (X (Proc.devRef .tc main_arg13)) := by
  fold_read <;> rfl
theorem s2_rmean : after (hostOps2_2 (F := F)) X (Proc.devRef .tc main_v75) = row128T (X (Proc.devRef .tc main_v70)) := by
  fold_read <;> rfl
theorem s2_rvar : after (hostOps2_2 (F := F)) X (Proc.devRef .tc main_v76) = row128T (X (Proc.devRef .tc main_v71)) := by
  fold_read <;> rfl

/-! ### Layer 3's stretches -/

theorem s3_agg : after (hostOps3 (F := F)) X (Proc.devRef .tc main_v93)
    = aggK128T (X (Proc.devRef .tc main_v14)) (X (Proc.devRef .tc main_v3)) (X (Proc.devRef .tc main_v6)) (X (Proc.devRef .tc main_v77)) := by
  fold_read <;> rfl
theorem s3_relu : after (hostOps3 (F := F)) X (Proc.devRef .tc main_v98)
    = relu128T (aggK128T (X (Proc.devRef .tc main_v14)) (X (Proc.devRef .tc main_v3)) (X (Proc.devRef .tc main_v6)) (X (Proc.devRef .tc main_v77)))
        (X (Proc.devRef .tc main_arg9)) := by
  fold_read <;> rfl
theorem s3_mean : after (hostOps3 (F := F)) X (Proc.devRef .tc main_v101)
    = mean128T (relu128T (aggK128T (X (Proc.devRef .tc main_v14)) (X (Proc.devRef .tc main_v3)) (X (Proc.devRef .tc main_v6)) (X (Proc.devRef .tc main_v77)))
        (X (Proc.devRef .tc main_arg9))) := by
  fold_read <;> rfl
theorem s3_c0 : after (hostOps3 (F := F)) X (Proc.devRef .tc main_c_22) = constantI S_ 32 0#32 := by
  fold_read <;> rfl
theorem s3_var : after (hostOps3_1 (F := F)) X (Proc.devRef .tc main_v102)
    = var128T (X (Proc.devRef .tc main_v98)) (X (Proc.devRef .tc main_c_22)) := by
  fold_read <;> rfl
theorem s3_rb : after (hostOps3_2 (F := F)) X (Proc.devRef .tc main_v103) = row128T (X (Proc.devRef .tc main_arg9)) := by
  fold_read <;> rfl
theorem s3_rg : after (hostOps3_2 (F := F)) X (Proc.devRef .tc main_v104) = row128T (X (Proc.devRef .tc main_arg14)) := by
  fold_read <;> rfl
theorem s3_rbt : after (hostOps3_2 (F := F)) X (Proc.devRef .tc main_v105) = row128T (X (Proc.devRef .tc main_arg15)) := by
  fold_read <;> rfl
theorem s3_rmean : after (hostOps3_2 (F := F)) X (Proc.devRef .tc main_v106) = row128T (X (Proc.devRef .tc main_v101)) := by
  fold_read <;> rfl
theorem s3_rvar : after (hostOps3_2 (F := F)) X (Proc.devRef .tc main_v107) = row128T (X (Proc.devRef .tc main_v102)) := by
  fold_read <;> rfl

/-! ## The scoring stretches -/

/-- A pair index read the way array indexing reads it: a negative index counts from the end. -/
def wrapPT (r : Arr F S200000 .i32) : Arr F S200000 .i32 :=
  select (cmpi .slt r (broadcastInDim S200000 ![] bcast_S_S200000 (constantI S_ 32 0#32)))
    (addi r (broadcastInDim S200000 ![] bcast_S_S200000 (constantI S_ 32 50000#32))) r

/-- The pair features: the source node's row beside the target node's row. -/
def embT (z : Arr F S50000x128 .f32) (src dst : Arr F S200000 .i32) : Arr F S200000x256 .bf16 :=
  cat2 S200000x256 1 S200000x128 S200000x128 concatenates_S200000x128_S200000x128_S200000x256_d1
    (Host.gather gather_S50000x128_S200000x1_S200000x128_1_0_n_n_0_1_1128 (truncf .bf16 z bitsLt_bf16_f32)
      (broadcastInDim S200000x1 ![0] bcast_S200000_S200000x1_0 (wrapPT src)))
    (Host.gather gather_S50000x128_S200000x1_S200000x128_1_0_n_n_0_1_1128 (truncf .bf16 z bitsLt_bf16_f32)
      (broadcastInDim S200000x1 ![0] bcast_S200000_S200000x1_0 (wrapPT dst)))

/-- The last weight column padded with 127 columns of the pad value. -/
def padW2T (w : Arr F S128x1 .f32) (c0 : Arr F S_ .i32) : Arr F S128x128 .f32 :=
  pad S128x128 ![0, 0] ![0, 127] ![0, 0] w (sitofp .f32 c0) pads_S128x1_S128x128_000_01270 h_S_

/-- The last bias padded with 127 entries of the pad value. -/
def padB2T (b : Arr F S1 .f32) (c0 : Arr F S_ .i32) : Arr F S128 .f32 :=
  pad S128 ![0] ![127] ![0] b (sitofp .f32 c0) pads_S1_S128_01270 h_S_

/-- Column 0 of the padded scores, as a vector. -/
def col0T (s : Arr F S200000x128 .f32) : Arr F S200000 .f32 :=
  fun i => shapeCast S200000 (extractStridedSlice S200000x1 ![0, 0] s slices_S200000x128_S200000x1_0_0) shapeCasts_S200000x1_S200000 i

theorem s4_emb : after (hostOps4 (F := F)) X (Proc.devRef .tc main_v124)
    = embT (X (Proc.devRef .tc main_v108)) (X (Proc.devRef .tc main_arg2)) (X (Proc.devRef .tc main_arg3)) := by
  fold_read <;> rfl
theorem s4_c27 : after (hostOps4 (F := F)) X (Proc.devRef .tc main_c_27) = constantI S_ 32 0#32 := by
  fold_read <;> rfl
theorem s41_w2p : after (hostOps4_1 (F := F)) X (Proc.devRef .tc main_v125)
    = padW2T (X (Proc.devRef .tc main_arg18)) (X (Proc.devRef .tc main_c_27)) := by
  fold_read <;> rfl
theorem s42_c28 : after (hostOps4_2 (F := F)) X (Proc.devRef .tc main_c_28) = constantI S_ 32 0#32 := by
  fold_read <;> rfl
theorem s43_b2p : after (hostOps4_3 (F := F)) X (Proc.devRef .tc main_v126)
    = padB2T (X (Proc.devRef .tc main_arg19)) (X (Proc.devRef .tc main_c_28)) := by
  fold_read <;> rfl
theorem s44_rb1 : after (hostOps4_4 (F := F)) X (Proc.devRef .tc main_v127) = row128T (X (Proc.devRef .tc main_arg17)) := by
  fold_read <;> rfl
theorem s44_rb2p : after (hostOps4_4 (F := F)) X (Proc.devRef .tc main_v128) = row128T (X (Proc.devRef .tc main_v126)) := by
  fold_read <;> rfl
theorem s5_out : after (hostOps5 (F := F)) X (Proc.devRef .tc main_v131) = col0T (X (Proc.devRef .tc main_v129)) := by
  fold_read <;> rfl

end Cert.KernelIdeal.KS

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.Region0.lean ====
import proofs.«136817_j2800318677196_2_alg».proof.Proof.Gen.KernelIdeal.Frame
import proofs.«136817_j2800318677196_2_alg».proof.Proof.LibDotIdx
import Idealize.ShloMosaic.Lib.ValueIdx
import Idealize.ShloMosaic.Lib.Pipeline.Value
import Idealize.ShloMosaic.Lib.ValueLayout
import Idealize.ShloMosaic.PureOps.Ideal.Laws

set_option maxRecDepth 16384
set_option pp.maxSteps 5000
set_option pp.deepTerms false

noncomputable section

namespace Cert.KernelIdeal.RegionVal

open Idealize.ShloMosaic Idealize.ShloMosaic.ValueIdx Idealize.ShloMosaic.TcCoe Idealize.SL.Sem
open Idealize.ShloMosaic.Pipeline (Dat)
open Cert.KernelIdeal.Gen
open scoped BigOperators

/-! # Region 0: the row-tiled matrix product as one function of the two whole arrays -/

/-- Entry `(p, q)` of the product of a `[50000, 128]` array and a `[128, 64]` array: the sum over the contracted
    coordinate of the products of the entries. -/
def dot0 (x : FVec Ideal S50000x128 .f32) (w : FVec Ideal S128x64 .f32) (p : Fin 50000) (q : Fin 64) : EReal :=
  ∑ k : Fin 128, x (ix2 p k) * w (ix2 k q)

/-- The product as a whole array: index `i` reads entry `(i 0, i 1)`. -/
def G0 (x : FVec Ideal S50000x128 .f32) (w : FVec Ideal S128x64 .f32) : FVec Ideal S50000x64 .f32 :=
  fun i => dot0 x w (i 0) (i 1)

theorem G0_apply (x : FVec Ideal S50000x128 .f32) (w : FVec Ideal S128x64 .f32) (p : Fin 50000) (q : Fin 64) :
    G0 x w (ix2 p q) = ∑ k : Fin 128, x (ix2 p k) * w (ix2 k q) := rfl

theorem zeroOff : (![0, 0] : Fin 2 → Nat) = fun _ => 0 := funext fun a => by fin_cases a <;> rfl

/-- The body's payload at `(p, q)` of a block: the format changes are the identity on extended reals, the zero
    accumulator adds nothing, and the product into it is the sum over the contracted coordinate. -/
theorem pay0_at (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  exact DotIdx.matmul_plain_zero_apply _ none (truncf .bf16 x0 bitsLt_bf16_f32) (truncf .bf16 x1 bitsLt_bf16_f32) p q

/-- A block of the product is the product read where the block sits: if row `p` of the left block is row `P` of the
    left array and column `q` of the right block is column `Q` of the right array, the payload at `(p, q)` is entry
    `(P, Q)` of the product. -/
theorem pay0_blk (X : FVec Ideal S50000x128 .f32) (W : FVec Ideal S128x64 .f32)
    (x0 : Vec Ideal S5000x128 .f32) (x1 : Vec Ideal S128x64 .f32) (p : Fin 5000) (q : Fin 64) (P : Fin 50000) (Q : Fin 64)
    (h0 : ∀ k : Fin 128, x0 (ix2 p k) = X (ix2 P k)) (h1 : ∀ k : Fin 128, x1 (ix2 k q) = W (ix2 k Q)) :
    k0_pay1 (F := Ideal) x0 x1 (ix2 p q) = dot0 X W P Q := by
  rw [pay0_at]
  exact Finset.sum_congr rfl fun k _ => by rw [h0 k, h1 k]

/-! ## From the blocks to the array -/

variable (V : (c : Dev nD) → (b : Ref sig .tc) → Buf (Elt Ideal) ((c : Thread nD τ).loc b))

/-- The printed index maps over the grid: the left operand's row block moves with the output's, every other block
    index is 0, and the output's row block index stays inside the array. -/
theorem idx0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block of the output is some point's. -/
theorem idx0_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the product of the two arrays as the region finds them. -/
theorem flushed0_eq (c : Dev nD) (t : Fin cfg0.N) :
    (dat0 (F := Ideal) V c).flushed 2 t
      = ((cfg0.win 2).blk t).view.read (Elt Ideal)
          (G0 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zeroOff]
  simp only [View.ld_unit_zero (S := S5000x128) zeroOff, View.ld_unit_zero (S := S128x64) zeroOff]
  obtain ⟨e0, e1, e2, e3, e4, e5⟩ := idx0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = dot0 (V c (Pipeline.arrRef spec0 0)) (V c (Pipeline.arrRef spec0 1))
        ((((cfg0.win 2).blk t).view.emb (ix2 p q)) 0) ((((cfg0.win 2).blk t).view.emb (ix2 p q)) 1)
  refine pay0_blk _ _ _ _ p q _ _ (fun k => ?_) (fun k => ?_)
  · show V c (Pipeline.arrRef spec0 0) (((cfg0.win 0).blk t).view.emb (ix2 p k)) = _
    refine congrArg _ (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  · show V c (Pipeline.arrRef spec0 1) (((cfg0.win 1).blk t).view.emb (ix2 k q)) = _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 64 + 1 * q.val = win0_2.index t (1 : Fin 2) * 64 + 1 * q.val
      omega

/-- An index of the output array is in point `t`'s block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v15).slice (win0_2.rect t)).set ↔ _
  rw [View.set_slice_whole, Rect.mem_set_unit]
  exact Iff.rfl

/-- The row blocks tile the output array: row `r` is in the block of the point with row block index `r / 5000`. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx0_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The output array after the region: the product of the two input arrays as the region finds them. -/
theorem arr0 (c : Dev nD) :
    (dat0 (F := Ideal) V c).arrAt 2 cfg0.N = G0 (V c (Pipeline.arrRef spec0 0)) (V c (Pipeline.arrRef spec0 1)) :=
  (dat0 (F := Ideal) V c).arrAt_eq_of_cover 2 _ (fun t _ => flushed0_eq V c t) cover0

end Cert.KernelIdeal.RegionVal

end
-- ==== Proof.Region1.lean ====
import proofs.«136817_j2800318677196_2_alg».proof.Proof.Gen.KernelIdeal.Frame
import proofs.«136817_j2800318677196_2_alg».proof.Proof.LibDotIdx
import Idealize.ShloMosaic.Lib.ValueIdx
import Idealize.ShloMosaic.Lib.Pipeline.Value
import Idealize.ShloMosaic.Lib.ValueLayout
import Idealize.ShloMosaic.PureOps.Ideal.Laws

set_option maxRecDepth 16384
set_option pp.maxSteps 5000
set_option pp.deepTerms false

noncomputable section

namespace Cert.KernelIdeal.RegionVal

open Idealize.ShloMosaic Idealize.ShloMosaic.ValueIdx Idealize.ShloMosaic.TcCoe Idealize.SL.Sem
open Idealize.ShloMosaic.Pipeline (Dat)
open Cert.KernelIdeal.Gen
open scoped BigOperators

/-! # Region 1: bias, rectifier and normalization of each row, then the matrix product, as one function of the whole arrays -/

/-- A one-row array laid along every row of an `[m, n]` array reads, at `(p, q)`, its entry `(0, q)`. -/
theorem bcastRow1_apply {α : Type} {m n : Nat} (x : (⟨2, ![1, n]⟩ : Shape).Idx → α)
    (hb : (⟨2, ![1, n]⟩ : Shape).Broadcasts ⟨2, ![m, n]⟩) (p : Fin m) (q : Fin n) :
    broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have e : q.val < n := q.isLt; omega
      · rfl)

/-- Entry `(p, k)` of the normalized activation: the bias added, the rectifier, the mean subtracted, the scale and the
    reciprocal square root of the shifted variance multiplied in that order, the offset added. -/
def norm1 (agg : FVec Ideal S50000x64 .f32) (b g bt mu var : FVec Ideal S1x64 .f32) (p : Fin 50000) (k : Fin 64) : EReal :=
  g (ix2 (0 : Fin 1) k) * (max (agg (ix2 p k) + b (ix2 (0 : Fin 1) k)) 0 - mu (ix2 (0 : Fin 1) k))
      * Ideal.rsqrt (var (ix2 (0 : Fin 1) k) + Ideal.ofBits .f32 0x3727C5AC#32)
    + bt (ix2 (0 : Fin 1) k)

/-- Entry `(p, q)` of the normalized activation times the weight. -/
def dot1 (agg : FVec Ideal S50000x64 .f32) (b g bt mu var : FVec Ideal S1x64 .f32) (W : FVec Ideal S64x128 .f32)
    (p : Fin 50000) (q : Fin 128) : EReal :=
  ∑ k : Fin 64, norm1 agg b g bt mu var p k * W (ix2 k q)

/-- The whole output array. -/
def G1 (agg : FVec Ideal S50000x64 .f32) (b g bt mu var : FVec Ideal S1x64 .f32) (W : FVec Ideal S64x128 .f32) :
    FVec Ideal S50000x128 .f32 :=
  fun i => dot1 agg b g bt mu var W (i 0) (i 1)

theorem G1_apply (agg : FVec Ideal S50000x64 .f32) (b g bt mu var : FVec Ideal S1x64 .f32) (W : FVec Ideal S64x128 .f32)
    (p : Fin 50000) (q : Fin 128) :
    G1 agg b g bt mu var W (ix2 p q)
      = ∑ k : Fin 64, (g (ix2 (0 : Fin 1) k) * (max (agg (ix2 p k) + b (ix2 (0 : Fin 1) k)) 0 - mu (ix2 (0 : Fin 1) k))
          * Ideal.rsqrt (var (ix2 (0 : Fin 1) k) + Ideal.ofBits .f32 0x3727C5AC#32) + bt (ix2 (0 : Fin 1) k)) * W (ix2 k q) := rfl

theorem zeroOff1 : (![0, 0] : Fin 2 → Nat) = fun _ => 0 := funext fun a => by fin_cases a <;> rfl

/-- The body's payload at `(p, q)` of a block, from the loaded blocks: the format changes are the identity on extended
    reals, the zero accumulator adds nothing, and the product into it is the sum over the contracted coordinate. -/
theorem pay1_at (v0 : Vec Ideal S5000x64 .f32) (v2 v8 v13 v15 v23 : Vec Ideal S1x64 .f32) (v28 : Vec Ideal S64x128 .f32)
    (p : Fin 5000) (q : Fin 128) :
    k1_pay1 (F := Ideal) v0 v2 v8 v13 v15 v23 v28 (ix2 p q)
      = ∑ k : Fin 64, (v13 (ix2 (0 : Fin 1) k) * (max (v0 (ix2 p k) + v2 (ix2 (0 : Fin 1) k)) 0 - v15 (ix2 (0 : Fin 1) k))
          * Ideal.rsqrt (v8 (ix2 (0 : Fin 1) k) + Ideal.ofBits .f32 0x3727C5AC#32) + v23 (ix2 (0 : Fin 1) k)) * v28 (ix2 k q) := by
  unfold k1_pay1
  refine (DotIdx.matmul_plain_zero_apply _ none _ _ p q).trans ?_
  refine Finset.sum_congr rfl fun k _ => ?_
  simp only [truncf_apply, addf_apply, mulf_apply, subf_apply, maximumf_apply, broadcast_apply, shapeCast_self,
    bcastRow1_apply]
  show (v13 (ix2 (0 : Fin 1) k) * (max (v0 (ix2 p k) + v2 (ix2 (0 : Fin 1) k)) (Ideal.ofBits .f32 0x00000000#32) - v15 (ix2 (0 : Fin 1) k))
          * Ideal.rsqrt (v8 (ix2 (0 : Fin 1) k) + Ideal.ofBits .f32 0x3727C5AC#32) + v23 (ix2 (0 : Fin 1) k)) * v28 (ix2 k q) = _
  rw [Ideal.ofBits_zero_f32]

/-- A block of the output is the whole-array function read where the block sits: if row `p` of the activation block is
    row `P` of the activation array, the one-row blocks are the one-row arrays, and column `q` of the weight block is
    column `Q` of the weight array, the payload at `(p, q)` is entry `(P, Q)`. -/
theorem pay1_blk (agg : FVec Ideal S50000x64 .f32) (b g bt mu var : FVec Ideal S1x64 .f32) (W : FVec Ideal S64x128 .f32)
    (v0 : Vec Ideal S5000x64 .f32) (v2 v8 v13 v15 v23 : Vec Ideal S1x64 .f32) (v28 : Vec Ideal S64x128 .f32)
    (p : Fin 5000) (q : Fin 128) (P : Fin 50000) (Q : Fin 128)
    (h0 : ∀ k : Fin 64, v0 (ix2 p k) = agg (ix2 P k))
    (h2 : ∀ k : Fin 64, v2 (ix2 (0 : Fin 1) k) = b (ix2 (0 : Fin 1) k))
    (h8 : ∀ k : Fin 64, v8 (ix2 (0 : Fin 1) k) = var (ix2 (0 : Fin 1) k))
    (h13 : ∀ k : Fin 64, v13 (ix2 (0 : Fin 1) k) = g (ix2 (0 : Fin 1) k))
    (h15 : ∀ k : Fin 64, v15 (ix2 (0 : Fin 1) k) = mu (ix2 (0 : Fin 1) k))
    (h23 : ∀ k : Fin 64, v23 (ix2 (0 : Fin 1) k) = bt (ix2 (0 : Fin 1) k))
    (h28 : ∀ k : Fin 64, v28 (ix2 k q) = W (ix2 k Q)) :
    k1_pay1 (F := Ideal) v0 v2 v8 v13 v15 v23 v28 (ix2 p q) = dot1 agg b g bt mu var W P Q := by
  rw [pay1_at]
  exact Finset.sum_congr rfl fun k _ => by rw [h0 k, h2 k, h8 k, h13 k, h15 k, h23 k, h28 k]; rfl

/-! ## From the blocks to the array -/

variable (V : (c : Dev nD) → (b : Ref sig .tc) → Buf (Elt Ideal) ((c : Thread nD τ).loc b))

/-- The printed index maps over the grid: the activation's row block moves with the output's, every other block index
    is 0, and the output's row block index stays inside the array. -/
theorem idx1 : ∀ t : Fin cfg1.N, win1_0.index t (0 : Fin 2) = win1_7.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 9
    ∧ win1_7.index t (1 : Fin 2) = 0 :=
  (by decide +kernel : ∀ t : Fin grid1.N, _)

/-- Every row block of the output is some point's. -/
theorem idx1_onto : ∀ q0 : Fin 10, ∃ t : Fin cfg1.N, win1_7.index t = ![q0.val, 0] :=
  (by decide +kernel : ∀ q0 : Fin 10, ∃ t : Fin grid1.N, win1_7.index t = ![q0.val, 0])

set_option maxHeartbeats 4000000 in
/-- What point `t` writes back is block `t` of the whole-array function of the arrays as the region finds them. -/
theorem flushed1_eq (c : Dev nD) (t : Fin cfg1.N) :
    (dat1 (F := Ideal) V c).flushed 7 t
      = ((cfg1.win 7).blk t).view.read (Elt Ideal)
          (G1 (V c (Pipeline.arrRef spec1 0)) (V c (Pipeline.arrRef spec1 1)) (V c (Pipeline.arrRef spec1 2))
            (V c (Pipeline.arrRef spec1 3)) (V c (Pipeline.arrRef spec1 4)) (V c (Pipeline.arrRef spec1 5))
            (V c (Pipeline.arrRef spec1 6))) := by
  show (cfg1.win 7).cut (grid1.coords t) ((dat1 (F := Ideal) V c).after 7 t) = _
  rw [after1_7]
  unfold out1_7
  rw [View.canon_unit_zero zeroOff1]
  simp only [View.ld_unit_zero (S := S5000x64) zeroOff1, View.ld_unit_zero (S := S1x64) zeroOff1,
    View.ld_unit_zero (S := S64x128) zeroOff1]
  obtain ⟨e00, e01, e10, e11, e20, e21, e30, e31, e40, e41, e50, e51, e60, e61, e70, e71⟩ := idx1 t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 5 t) (iblk1 V c 2 t) (iblk1 V c 4 t)
      (iblk1 V c 3 t) (iblk1 V c 6 t) (ix2 p q)
    = dot1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6))
        ((((cfg1.win 7).blk t).view.emb (ix2 p q)) 0) ((((cfg1.win 7).blk t).view.emb (ix2 p q)) 1)
  refine pay1_blk _ _ _ _ _ _ _ _ _ _ _ _ _ _ p q _ _ (fun k => ?_) (fun k => ?_) (fun k => ?_) (fun k => ?_)
    (fun k => ?_) (fun k => ?_) (fun k => ?_)
  · show V c (Pipeline.arrRef spec1 0) (((cfg1.win 0).blk t).view.emb (ix2 p k)) = _
    refine congrArg _ (funext fun a => Fin.ext ?_)
    match a with
    | ⟨0, _⟩ =>
      show win1_0.index t (0 : Fin 2) * 5000 + 1 * p.val = win1_7.index t (0 : Fin 2) * 5000 + 1 * p.val
      omega
    | ⟨1, _⟩ =>
      show win1_0.index t (1 : Fin 2) * 64 + 1 * k.val = k.val
      omega
  · show V c (Pipeline.arrRef spec1 1) (((cfg1.win 1).blk t).view.emb (ix2 (0 : Fin 1) k)) = _
    refine congrArg _ (funext fun a => Fin.ext ?_)
    match a with
    | ⟨0, _⟩ =>
      show win1_1.index t (0 : Fin 2) * 1 + 1 * 0 = 0
      omega
    | ⟨1, _⟩ =>
      show win1_1.index t (1 : Fin 2) * 64 + 1 * k.val = k.val
      omega
  · show V c (Pipeline.arrRef spec1 5) (((cfg1.win 5).blk t).view.emb (ix2 (0 : Fin 1) k)) = _
    refine congrArg _ (funext fun a => Fin.ext ?_)
    match a with
    | ⟨0, _⟩ =>
      show win1_5.index t (0 : Fin 2) * 1 + 1 * 0 = 0
      omega
    | ⟨1, _⟩ =>
      show win1_5.index t (1 : Fin 2) * 64 + 1 * k.val = k.val
      omega
  · show V c (Pipeline.arrRef spec1 2) (((cfg1.win 2).blk t).view.emb (ix2 (0 : Fin 1) k)) = _
    refine congrArg _ (funext fun a => Fin.ext ?_)
    match a with
    | ⟨0, _⟩ =>
      show win1_2.index t (0 : Fin 2) * 1 + 1 * 0 = 0
      omega
    | ⟨1, _⟩ =>
      show win1_2.index t (1 : Fin 2) * 64 + 1 * k.val = k.val
      omega
  · show V c (Pipeline.arrRef spec1 4) (((cfg1.win 4).blk t).view.emb (ix2 (0 : Fin 1) k)) = _
    refine congrArg _ (funext fun a => Fin.ext ?_)
    match a with
    | ⟨0, _⟩ =>
      show win1_4.index t (0 : Fin 2) * 1 + 1 * 0 = 0
      omega
    | ⟨1, _⟩ =>
      show win1_4.index t (1 : Fin 2) * 64 + 1 * k.val = k.val
      omega
  · show V c (Pipeline.arrRef spec1 3) (((cfg1.win 3).blk t).view.emb (ix2 (0 : Fin 1) k)) = _
    refine congrArg _ (funext fun a => Fin.ext ?_)
    match a with
    | ⟨0, _⟩ =>
      show win1_3.index t (0 : Fin 2) * 1 + 1 * 0 = 0
      omega
    | ⟨1, _⟩ =>
      show win1_3.index t (1 : Fin 2) * 64 + 1 * k.val = k.val
      omega
  · show V c (Pipeline.arrRef spec1 6) (((cfg1.win 6).blk t).view.emb (ix2 k q)) = _
    refine congrArg _ (funext fun a => Fin.ext ?_)
    match a with
    | ⟨0, _⟩ =>
      show win1_6.index t (0 : Fin 2) * 64 + 1 * k.val = k.val
      omega
    | ⟨1, _⟩ =>
      show win1_6.index t (1 : Fin 2) * 128 + 1 * q.val = win1_7.index t (1 : Fin 2) * 128 + 1 * q.val
      omega

/-- An index of the output array is in point `t`'s block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v46).slice (win1_7.rect t)).set ↔ _
  rw [View.set_slice_whole, Rect.mem_set_unit]
  exact Iff.rfl

/-- The row blocks tile the output array: row `r` is in the block of the point with row block index `r / 5000`. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, ht⟩ := idx1_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk1]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 128 ≤ (i 1).val ∧ (i 1).val < win1_7.index t (1 : Fin 2) * 128 + 128
    omega

/-- The output array after the region: the whole-array function of the seven input arrays as the region finds them. -/
theorem arr1 (c : Dev nD) :
    (dat1 (F := Ideal) V c).arrAt 7 cfg1.N
      = G1 (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) :=
  (dat1 (F := Ideal) V c).arrAt_eq_of_cover 7 _ (fun t _ => flushed1_eq V c t) cover1

end Cert.KernelIdeal.RegionVal

end
-- ==== Proof.Region2.lean ====
import proofs.«136817_j2800318677196_2_alg».proof.Proof.Gen.KernelIdeal.Frame
import proofs.«136817_j2800318677196_2_alg».proof.Proof.LibDotIdx
import Idealize.ShloMosaic.Lib.ValueIdx
import Idealize.ShloMosaic.Lib.Pipeline.Value
import Idealize.ShloMosaic.Lib.ValueLayout
import Idealize.ShloMosaic.PureOps.Ideal.Laws

set_option maxRecDepth 16384
set_option pp.maxSteps 5000
set_option pp.deepTerms false

noncomputable section

namespace Cert.KernelIdeal.RegionVal

open Idealize.ShloMosaic Idealize.ShloMosaic.ValueIdx Idealize.ShloMosaic.TcCoe Idealize.SL.Sem
open Idealize.ShloMosaic.Pipeline (Dat)
open Cert.KernelIdeal.Gen
open scoped BigOperators

/-! # Region 2: bias, rectifier and normalization of each row, then the matrix product, as one function of the whole arrays -/

/-- A one-row array laid along every row of an `[m, n]` array reads, at `(p, q)`, its entry `(0, q)`. -/
theorem bcastRow2_apply {α : Type} {m n : Nat} (x : (⟨2, ![1, n]⟩ : Shape).Idx → α)
    (hb : (⟨2, ![1, n]⟩ : Shape).Broadcasts ⟨2, ![m, n]⟩) (p : Fin m) (q : Fin n) :
    broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have e : q.val < n := q.isLt; omega
      · rfl)

/-- Entry `(p, k)` of the normalized activation: the bias added, the rectifier, the mean subtracted, the scale and the
    reciprocal square root of the shifted variance multiplied in that order, the offset added. -/
def norm2 (agg : FVec Ideal S50000x128 .f32) (b g bt mu var : FVec Ideal S1x128 .f32) (p : Fin 50000) (k : Fin 128) : EReal :=
  g (ix2 (0 : Fin 1) k) * (max (agg (ix2 p k) + b (ix2 (0 : Fin 1) k)) 0 - mu (ix2 (0 : Fin 1) k))
      * Ideal.rsqrt (var (ix2 (0 : Fin 1) k) + Ideal.ofBits .f32 0x3727C5AC#32)
    + bt (ix2 (0 : Fin 1) k)

/-- Entry `(p, q)` of the normalized activation times the weight. -/
def dot2 (agg : FVec Ideal S50000x128 .f32) (b g bt mu var : FVec Ideal S1x128 .f32) (W : FVec Ideal S128x128 .f32)
    (p : Fin 50000) (q : Fin 128) : EReal :=
  ∑ k : Fin 128, norm2 agg b g bt mu var p k * W (ix2 k q)

/-- The whole output array. -/
def G2 (agg : FVec Ideal S50000x128 .f32) (b g bt mu var : FVec Ideal S1x128 .f32) (W : FVec Ideal S128x128 .f32) :
    FVec Ideal S50000x128 .f32 :=
  fun i => dot2 agg b g bt mu var W (i 0) (i 1)

theorem G2_apply (agg : FVec Ideal S50000x128 .f32) (b g bt mu var : FVec Ideal S1x128 .f32) (W : FVec Ideal S128x128 .f32)
    (p : Fin 50000) (q : Fin 128) :
    G2 agg b g bt mu var W (ix2 p q)
      = ∑ k : Fin 128, (g (ix2 (0 : Fin 1) k) * (max (agg (ix2 p k) + b (ix2 (0 : Fin 1) k)) 0 - mu (ix2 (0 : Fin 1) k))
          * Ideal.rsqrt (var (ix2 (0 : Fin 1) k) + Ideal.ofBits .f32 0x3727C5AC#32) + bt (ix2 (0 : Fin 1) k)) * W (ix2 k q) := rfl

theorem zeroOff2 : (![0, 0] : Fin 2 → Nat) = fun _ => 0 := funext fun a => by fin_cases a <;> rfl

/-- The body's payload at `(p, q)` of a block, from the loaded blocks: the format changes are the identity on extended
    reals, the zero accumulator adds nothing, and the product into it is the sum over the contracted coordinate. -/
theorem pay2_at (v0 : Vec Ideal S5000x128 .f32) (v2 v8 v13 v15 v23 : Vec Ideal S1x128 .f32) (v28 : Vec Ideal S128x128 .f32)
    (p : Fin 5000) (q : Fin 128) :
    k2_pay1 (F := Ideal) v0 v2 v8 v13 v15 v23 v28 (ix2 p q)
      = ∑ k : Fin 128, (v13 (ix2 (0 : Fin 1) k) * (max (v0 (ix2 p k) + v2 (ix2 (0 : Fin 1) k)) 0 - v15 (ix2 (0 : Fin 1) k))
          * Ideal.rsqrt (v8 (ix2 (0 : Fin 1) k) + Ideal.ofBits .f32 0x3727C5AC#32) + v23 (ix2 (0 : Fin 1) k)) * v28 (ix2 k q) := by
  unfold k2_pay1
  refine (DotIdx.matmul_plain_zero_apply _ none _ _ p q).trans ?_
  refine Finset.sum_congr rfl fun k _ => ?_
  simp only [truncf_apply, addf_apply, mulf_apply, subf_apply, maximumf_apply, broadcast_apply, shapeCast_self,
    bcastRow2_apply]
  show (v13 (ix2 (0 : Fin 1) k) * (max (v0 (ix2 p k) + v2 (ix2 (0 : Fin 1) k)) (Ideal.ofBits .f32 0x00000000#32) - v15 (ix2 (0 : Fin 1) k))
          * Ideal.rsqrt (v8 (ix2 (0 : Fin 1) k) + Ideal.ofBits .f32 0x3727C5AC#32) + v23 (ix2 (0 : Fin 1) k)) * v28 (ix2 k q) = _
  rw [Ideal.ofBits_zero_f32]

/-- A block of the output is the whole-array function read where the block sits: if row `p` of the activation block is
    row `P` of the activation array, the one-row blocks are the one-row arrays, and column `q` of the weight block is
    column `Q` of the weight array, the payload at `(p, q)` is entry `(P, Q)`. -/
theorem pay2_blk (agg : FVec Ideal S50000x128 .f32) (b g bt mu var : FVec Ideal S1x128 .f32) (W : FVec Ideal S128x128 .f32)
    (v0 : Vec Ideal S5000x128 .f32) (v2 v8 v13 v15 v23 : Vec Ideal S1x128 .f32) (v28 : Vec Ideal S128x128 .f32)
    (p : Fin 5000) (q : Fin 128) (P : Fin 50000) (Q : Fin 128)
    (h0 : ∀ k : Fin 128, v0 (ix2 p k) = agg (ix2 P k))
    (h2 : ∀ k : Fin 128, v2 (ix2 (0 : Fin 1) k) = b (ix2 (0 : Fin 1) k))
    (h8 : ∀ k : Fin 128, v8 (ix2 (0 : Fin 1) k) = var (ix2 (0 : Fin 1) k))
    (h13 : ∀ k : Fin 128, v13 (ix2 (0 : Fin 1) k) = g (ix2 (0 : Fin 1) k))
    (h15 : ∀ k : Fin 128, v15 (ix2 (0 : Fin 1) k) = mu (ix2 (0 : Fin 1) k))
    (h23 : ∀ k : Fin 128, v23 (ix2 (0 : Fin 1) k) = bt (ix2 (0 : Fin 1) k))
    (h28 : ∀ k : Fin 128, v28 (ix2 k q) = W (ix2 k Q)) :
    k2_pay1 (F := Ideal) v0 v2 v8 v13 v15 v23 v28 (ix2 p q) = dot2 agg b g bt mu var W P Q := by
  rw [pay2_at]
  exact Finset.sum_congr rfl fun k _ => by rw [h0 k, h2 k, h8 k, h13 k, h15 k, h23 k, h28 k]; rfl

/-! ## From the blocks to the array -/

variable (V : (c : Dev nD) → (b : Ref sig .tc) → Buf (Elt Ideal) ((c : Thread nD τ).loc b))

/-- The printed index maps over the grid: the activation's row block moves with the output's, every other block index
    is 0, and the output's row block index stays inside the array. -/
theorem idx2 : ∀ t : Fin cfg2.N, win2_0.index t (0 : Fin 2) = win2_7.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) ≤ 9
    ∧ win2_7.index t (1 : Fin 2) = 0 :=
  (by decide +kernel : ∀ t : Fin grid2.N, _)

/-- Every row block of the output is some point's. -/
theorem idx2_onto : ∀ q0 : Fin 10, ∃ t : Fin cfg2.N, win2_7.index t = ![q0.val, 0] :=
  (by decide +kernel : ∀ q0 : Fin 10, ∃ t : Fin grid2.N, win2_7.index t = ![q0.val, 0])

set_option maxHeartbeats 4000000 in
/-- What point `t` writes back is block `t` of the whole-array function of the arrays as the region finds them. -/
theorem flushed2_eq (c : Dev nD) (t : Fin cfg2.N) :
    (dat2 (F := Ideal) V c).flushed 7 t
      = ((cfg2.win 7).blk t).view.read (Elt Ideal)
          (G2 (V c (Pipeline.arrRef spec2 0)) (V c (Pipeline.arrRef spec2 1)) (V c (Pipeline.arrRef spec2 2))
            (V c (Pipeline.arrRef spec2 3)) (V c (Pipeline.arrRef spec2 4)) (V c (Pipeline.arrRef spec2 5))
            (V c (Pipeline.arrRef spec2 6))) := by
  show (cfg2.win 7).cut (grid2.coords t) ((dat2 (F := Ideal) V c).after 7 t) = _
  rw [after2_7]
  unfold out2_7
  rw [View.canon_unit_zero zeroOff2]
  simp only [View.ld_unit_zero (S := S5000x128) zeroOff2, View.ld_unit_zero (S := S1x128) zeroOff2,
    View.ld_unit_zero (S := S128x128) zeroOff2]
  obtain ⟨e00, e01, e10, e11, e20, e21, e30, e31, e40, e41, e50, e51, e60, e61, e70, e71⟩ := idx2 t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 5 t) (iblk2 V c 2 t) (iblk2 V c 4 t)
      (iblk2 V c 3 t) (iblk2 V c 6 t) (ix2 p q)
    = dot2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6))
        ((((cfg2.win 7).blk t).view.emb (ix2 p q)) 0) ((((cfg2.win 7).blk t).view.emb (ix2 p q)) 1)
  refine pay2_blk _ _ _ _ _ _ _ _ _ _ _ _ _ _ p q _ _ (fun k => ?_) (fun k => ?_) (fun k => ?_) (fun k => ?_)
    (fun k => ?_) (fun k => ?_) (fun k => ?_)
  · show V c (Pipeline.arrRef spec2 0) (((cfg2.win 0).blk t).view.emb (ix2 p k)) = _
    refine congrArg _ (funext fun a => Fin.ext ?_)
    match a with
    | ⟨0, _⟩ =>
      show win2_0.index t (0 : Fin 2) * 5000 + 1 * p.val = win2_7.index t (0 : Fin 2) * 5000 + 1 * p.val
      omega
    | ⟨1, _⟩ =>
      show win2_0.index t (1 : Fin 2) * 128 + 1 * k.val = k.val
      omega
  · show V c (Pipeline.arrRef spec2 1) (((cfg2.win 1).blk t).view.emb (ix2 (0 : Fin 1) k)) = _
    refine congrArg _ (funext fun a => Fin.ext ?_)
    match a with
    | ⟨0, _⟩ =>
      show win2_1.index t (0 : Fin 2) * 1 + 1 * 0 = 0
      omega
    | ⟨1, _⟩ =>
      show win2_1.index t (1 : Fin 2) * 128 + 1 * k.val = k.val
      omega
  · show V c (Pipeline.arrRef spec2 5) (((cfg2.win 5).blk t).view.emb (ix2 (0 : Fin 1) k)) = _
    refine congrArg _ (funext fun a => Fin.ext ?_)
    match a with
    | ⟨0, _⟩ =>
      show win2_5.index t (0 : Fin 2) * 1 + 1 * 0 = 0
      omega
    | ⟨1, _⟩ =>
      show win2_5.index t (1 : Fin 2) * 128 + 1 * k.val = k.val
      omega
  · show V c (Pipeline.arrRef spec2 2) (((cfg2.win 2).blk t).view.emb (ix2 (0 : Fin 1) k)) = _
    refine congrArg _ (funext fun a => Fin.ext ?_)
    match a with
    | ⟨0, _⟩ =>
      show win2_2.index t (0 : Fin 2) * 1 + 1 * 0 = 0
      omega
    | ⟨1, _⟩ =>
      show win2_2.index t (1 : Fin 2) * 128 + 1 * k.val = k.val
      omega
  · show V c (Pipeline.arrRef spec2 4) (((cfg2.win 4).blk t).view.emb (ix2 (0 : Fin 1) k)) = _
    refine congrArg _ (funext fun a => Fin.ext ?_)
    match a with
    | ⟨0, _⟩ =>
      show win2_4.index t (0 : Fin 2) * 1 + 1 * 0 = 0
      omega
    | ⟨1, _⟩ =>
      show win2_4.index t (1 : Fin 2) * 128 + 1 * k.val = k.val
      omega
  · show V c (Pipeline.arrRef spec2 3) (((cfg2.win 3).blk t).view.emb (ix2 (0 : Fin 1) k)) = _
    refine congrArg _ (funext fun a => Fin.ext ?_)
    match a with
    | ⟨0, _⟩ =>
      show win2_3.index t (0 : Fin 2) * 1 + 1 * 0 = 0
      omega
    | ⟨1, _⟩ =>
      show win2_3.index t (1 : Fin 2) * 128 + 1 * k.val = k.val
      omega
  · show V c (Pipeline.arrRef spec2 6) (((cfg2.win 6).blk t).view.emb (ix2 k q)) = _
    refine congrArg _ (funext fun a => Fin.ext ?_)
    match a with
    | ⟨0, _⟩ =>
      show win2_6.index t (0 : Fin 2) * 128 + 1 * k.val = k.val
      omega
    | ⟨1, _⟩ =>
      show win2_6.index t (1 : Fin 2) * 128 + 1 * q.val = win2_7.index t (1 : Fin 2) * 128 + 1 * q.val
      omega

/-- An index of the output array is in point `t`'s block iff each coordinate is in the block's range on its axis. -/
theorem mem_blk2 (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v77).slice (win2_7.rect t)).set ↔ _
  rw [View.set_slice_whole, Rect.mem_set_unit]
  exact Iff.rfl

/-- The row blocks tile the output array: row `r` is in the block of the point with row block index `r / 5000`. -/
theorem cover2 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, ht⟩ := idx2_onto ⟨(i 0).val / 5000, by omega⟩
  have q0 : win2_7.index t (0 : Fin 2) = (i 0).val / 5000 := congrFun ht 0
  have q1 : win2_7.index t (1 : Fin 2) = 0 := congrFun ht 1
  refine ⟨t, flush2_7 t, ?_⟩
  rw [mem_blk2]
  intro a
  match a with
  | ⟨0, _⟩ =>
    show win2_7.index t (0 : Fin 2) * 5000 ≤ (i 0).val ∧ (i 0).val < win2_7.index t (0 : Fin 2) * 5000 + 5000
    omega
  | ⟨1, _⟩ =>
    show win2_7.index t (1 : Fin 2) * 128 ≤ (i 1).val ∧ (i 1).val < win2_7.index t (1 : Fin 2) * 128 + 128
    omega

/-- The output array after the region: the whole-array function of the seven input arrays as the region finds them. -/
theorem arr2 (c : Dev nD) :
    (dat2 (F := Ideal) V c).arrAt 7 cfg2.N
      = G2 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))
          (V c (Pipeline.arrRef spec2 6)) :=
  (dat2 (F := Ideal) V c).arrAt_eq_of_cover 7 _ (fun t _ => flushed2_eq V c t) cover2

end Cert.KernelIdeal.RegionVal

end
-- ==== Proof.Region3.lean ====
import proofs.«136817_j2800318677196_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

/-!
# Region 3: bias, ReLU and batch normalisation, as one function of the whole arrays

The region tiles the row axis of a [50000, 128] array in ten blocks of 5000 rows; the five
parameter rows [1, 128] are read whole at every grid point.  Each grid point writes, at row p and
column q of its block,

  g q * (max (agg p q + b q) 0 - mu q) * rsqrt (var q + eps) + bt q.

Since the output blocks tile the array, the array after the region is that function of the arrays
found when the region is entered, index by index.
-/

set_option maxRecDepth 16384
set_option pp.maxSteps 5000
set_option pp.deepTerms false

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

/-- A one-row matrix laid along every row of an [m, n] matrix: at (p, q) it is entry (0, q). -/
theorem row_apply {α : Type} {m n : Nat} (y : (⟨2, ![1, n]⟩ : Shape).Idx → α)
    (h : (⟨2, ![1, n]⟩ : Shape).Broadcasts ⟨2, ![m, n]⟩) (p : Fin m) (q : Fin n) :
    broadcastTo ⟨2, ![m, n]⟩ y h (ix2 p q) = y (ix2 (0 : Fin 1) q) :=
  broadcastTo_apply y h (ix2 p q) (ix2 (0 : Fin 1) q) (by
    intro a
    match a with
    | ⟨0, _⟩ => rfl
    | ⟨1, _⟩ =>
      show q.val = if n = 1 then 0 else q.val
      split
      · have e : q.val < n := q.isLt; omega
      · rfl)

/-- The value at row p, column q. -/
def G3at (agg : FVec Ideal S50000x128 .f32) (b g bt mu var : FVec Ideal S1x128 .f32)
    (p : Fin 50000) (q : Fin 128) : Ideal .f32 :=
  g (ix2 (0 : Fin 1) q)
      * (max (agg (ix2 p q) + b (ix2 (0 : Fin 1) q)) 0 - mu (ix2 (0 : Fin 1) q))
      * Ideal.rsqrt (var (ix2 (0 : Fin 1) q) + Ideal.ofBits .f32 0x3727C5AC#32)
    + bt (ix2 (0 : Fin 1) q)

/-- The output array of region 3 as a function of the six input arrays. -/
def G3 (agg : FVec Ideal S50000x128 .f32) (b g bt mu var : FVec Ideal S1x128 .f32) :
    FVec Ideal S50000x128 .f32 :=
  fun i => G3at agg b g bt mu var (i 0) (i 1)

theorem G3_apply (agg : FVec Ideal S50000x128 .f32) (b g bt mu var : FVec Ideal S1x128 .f32)
    (p : Fin 50000) (q : Fin 128) :
    G3 agg b g bt mu var (ix2 p q)
      = g (ix2 (0 : Fin 1) q)
          * (max (agg (ix2 p q) + b (ix2 (0 : Fin 1) q)) 0 - mu (ix2 (0 : Fin 1) q))
          * Ideal.rsqrt (var (ix2 (0 : Fin 1) q) + Ideal.ofBits .f32 0x3727C5AC#32)
        + bt (ix2 (0 : Fin 1) q) := rfl

/-- The body's payload read at (p, q): the operations in the payload's own order. -/
theorem pay3_apply (x0 : FVec Ideal S5000x128 .f32) (xb xvar xg xmu xbt : FVec Ideal S1x128 .f32)
    (p : Fin 5000) (q : Fin 128) :
    k3_pay1 (F := Ideal) x0 xb xvar xg xmu xbt (ix2 p q)
      = xg (ix2 (0 : Fin 1) q)
          * (max (x0 (ix2 p q) + xb (ix2 (0 : Fin 1) q)) 0 - xmu (ix2 (0 : Fin 1) q))
          * Ideal.rsqrt (xvar (ix2 (0 : Fin 1) q) + Ideal.ofBits .f32 0x3727C5AC#32)
        + xbt (ix2 (0 : Fin 1) q) := by
  have hb := row_apply (m := 5000) (shapeCast S1x128 xb shapeCasts_S1x128_S1x128) broadcasts_S1x128_S5000x128 p q
  have hg := row_apply (m := 5000) (shapeCast S1x128 xg shapeCasts_S1x128_S1x128) broadcasts_S1x128_S5000x128 p q
  have hmu := row_apply (m := 5000) (shapeCast S1x128 xmu shapeCasts_S1x128_S1x128) broadcasts_S1x128_S5000x128 p q
  have hbt := row_apply (m := 5000) (shapeCast S1x128 xbt shapeCasts_S1x128_S1x128) broadcasts_S1x128_S5000x128 p q
  have hr := row_apply (m := 5000)
    (rsqrt (addf (shapeCast S1x128 xvar shapeCasts_S1x128_S1x128)
      (broadcast S1x128 (Scalar.ofBits (F := Ideal) .f32 0x3727C5AC#32)))) broadcasts_S1x128_S5000x128 p q
  rw [shapeCast_self] at hb hg hmu hbt hr
  unfold k3_pay1
  show broadcastTo S5000x128 (shapeCast S1x128 xg shapeCasts_S1x128_S1x128) broadcasts_S1x128_S5000x128 (ix2 p q)
        * (max (shapeCast S5000x128 x0 shapeCasts_S5000x128_S5000x128 (ix2 p q)
              + broadcastTo S5000x128 (shapeCast S1x128 xb shapeCasts_S1x128_S1x128) broadcasts_S1x128_S5000x128 (ix2 p q))
            (Ideal.ofBits .f32 0x00000000#32)
          - broadcastTo S5000x128 (shapeCast S1x128 xmu shapeCasts_S1x128_S1x128) broadcasts_S1x128_S5000x128 (ix2 p q))
        * broadcastTo S5000x128 (rsqrt (addf (shapeCast S1x128 xvar shapeCasts_S1x128_S1x128)
            (broadcast S1x128 (Scalar.ofBits (F := Ideal) .f32 0x3727C5AC#32)))) broadcasts_S1x128_S5000x128 (ix2 p q)
      + broadcastTo S5000x128 (shapeCast S1x128 xbt shapeCasts_S1x128_S1x128) broadcasts_S1x128_S5000x128 (ix2 p q) = _
  rw [shapeCast_self, shapeCast_self, shapeCast_self, shapeCast_self, shapeCast_self, shapeCast_self]
  rw [hg, hb, hmu, hbt, hr, Ideal.ofBits_zero_f32]
  rfl

/-! ## From the blocks to the array -/

theorem hz : (![0, 0] : Fin 2 → Nat) = fun _ => 0 := funext fun a => by fin_cases a <;> rfl

/-- The printed index maps, decided over the ten grid points: the tiled windows sit at block row t,
    the parameter rows at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

set_option maxHeartbeats 1000000 in
/-- What grid point t writes back is block t of G3 of the arrays the region finds. -/
theorem flushed3_eq (V : (c : Dev nD) → (b : Ref sig .tc) → Buf (Elt Ideal) ((c : Thread nD τ).loc b))
    (c : Dev nD) (t : Fin cfg3.N) :
    (dat3 (F := Ideal) V c).flushed 6 t
      = ((cfg3.win 6).blk t).view.read (Elt Ideal)
          (G3 (V c (Pipeline.arrRef spec3 0)) (V c (Pipeline.arrRef spec3 1)) (V c (Pipeline.arrRef spec3 2))
            (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz]
  simp only [View.ld_unit_zero (S := S5000x128) hz, View.ld_unit_zero (S := S1x128) hz]
  obtain ⟨a0, a1, b0, b1, g0, g1, bt0, bt1, m0, m1, v0, v1, o0, o1⟩ := idx_facts3 t
  have ht : t.val < 10 := lt_of_lt_of_eq t.isLt N_3
  funext j
  obtain ⟨p, q, rfl⟩ : ∃ (p : Fin 5000) (q : Fin 128), j = ix2 p q := ⟨j 0, j 1, eq_ix2 j⟩
  have hp : p.val < 5000 := p.isLt
  show k3_pay1 (iblk3 V c 0 t) (iblk3 V c 1 t) (iblk3 V c 5 t) (iblk3 V c 2 t) (iblk3 V c 4 t) (iblk3 V c 3 t) (ix2 p q)
      = G3 (V c (Pipeline.arrRef spec3 0)) (V c (Pipeline.arrRef spec3 1)) (V c (Pipeline.arrRef spec3 2))
            (V c (Pipeline.arrRef spec3 3)) (V c (Pipeline.arrRef spec3 4)) (V c (Pipeline.arrRef spec3 5))
          (((cfg3.win 6).blk t).view.emb (ix2 p q))
  refine (pay3_apply _ _ _ _ _ _ p q).trans ?_
  have E6 : ((cfg3.win 6).blk t).view.emb (ix2 p q) = ix2 (⟨t.val * 5000 + p.val, by omega⟩ : Fin 50000) q := by
    funext a; apply Fin.ext
    match a with
    | ⟨0, _⟩ => show win3_6.index t (0 : Fin 2) * 5000 + 1 * p.val = t.val * 5000 + p.val; omega
    | ⟨1, _⟩ => show win3_6.index t (1 : Fin 2) * 128 + 1 * q.val = q.val; omega
  have e0 : iblk3 V c 0 t (ix2 p q) = V c (Pipeline.arrRef spec3 0) (ix2 (⟨t.val * 5000 + p.val, by omega⟩ : Fin 50000) q) := by
    show V c (Pipeline.arrRef spec3 0) (((cfg3.win 0).blk t).view.emb (ix2 p q)) = _
    refine congrArg (V c (Pipeline.arrRef spec3 0)) ?_
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have e1 : iblk3 V c 1 t (ix2 (0 : Fin 1) q) = V c (Pipeline.arrRef spec3 1) (ix2 (0 : Fin 1) q) := by
    show V c (Pipeline.arrRef spec3 1) (((cfg3.win 1).blk t).view.emb (ix2 (0 : Fin 1) q)) = _
    refine congrArg (V c (Pipeline.arrRef spec3 1)) ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega
  have e2 : iblk3 V c 2 t (ix2 (0 : Fin 1) q) = V c (Pipeline.arrRef spec3 2) (ix2 (0 : Fin 1) q) := by
    show V c (Pipeline.arrRef spec3 2) (((cfg3.win 2).blk t).view.emb (ix2 (0 : Fin 1) q)) = _
    refine congrArg (V c (Pipeline.arrRef spec3 2)) ?_
    funext a; apply Fin.ext
    match a with
    | ⟨0, _⟩ => show win3_2.index t (0 : Fin 2) * 1 + 1 * 0 = 0; omega
    | ⟨1, _⟩ => show win3_2.index t (1 : Fin 2) * 128 + 1 * q.val = q.val; omega
  have e3 : iblk3 V c 3 t (ix2 (0 : Fin 1) q) = V c (Pipeline.arrRef spec3 3) (ix2 (0 : Fin 1) q) := by
    show V c (Pipeline.arrRef spec3 3) (((cfg3.win 3).blk t).view.emb (ix2 (0 : Fin 1) q)) = _
    refine congrArg (V c (Pipeline.arrRef spec3 3)) ?_
    funext a; apply Fin.ext
    match a with
    | ⟨0, _⟩ => show win3_3.index t (0 : Fin 2) * 1 + 1 * 0 = 0; omega
    | ⟨1, _⟩ => show win3_3.index t (1 : Fin 2) * 128 + 1 * q.val = q.val; omega
  have e4 : iblk3 V c 4 t (ix2 (0 : Fin 1) q) = V c (Pipeline.arrRef spec3 4) (ix2 (0 : Fin 1) q) := by
    show V c (Pipeline.arrRef spec3 4) (((cfg3.win 4).blk t).view.emb (ix2 (0 : Fin 1) q)) = _
    refine congrArg (V c (Pipeline.arrRef spec3 4)) ?_
    funext a; apply Fin.ext
    match a with
    | ⟨0, _⟩ => show win3_4.index t (0 : Fin 2) * 1 + 1 * 0 = 0; omega
    | ⟨1, _⟩ => show win3_4.index t (1 : Fin 2) * 128 + 1 * q.val = q.val; omega
  have e5 : iblk3 V c 5 t (ix2 (0 : Fin 1) q) = V c (Pipeline.arrRef spec3 5) (ix2 (0 : Fin 1) q) := by
    show V c (Pipeline.arrRef spec3 5) (((cfg3.win 5).blk t).view.emb (ix2 (0 : Fin 1) q)) = _
    refine congrArg (V c (Pipeline.arrRef spec3 5)) ?_
    funext a; apply Fin.ext
    match a with
    | ⟨0, _⟩ => show win3_5.index t (0 : Fin 2) * 1 + 1 * 0 = 0; omega
    | ⟨1, _⟩ => show win3_5.index t (1 : Fin 2) * 128 + 1 * q.val = q.val; omega
  rw [e0, e1, e2, e3, e4, e5]
  exact (G3_apply _ _ _ _ _ _ (⟨t.val * 5000 + p.val, by omega⟩ : Fin 50000) q).symm.trans (congrArg _ E6.symm)

/-- An index of the array is in point t's block iff each coordinate is in the block's range on its axis. -/
theorem mem_blk3 (t : Fin cfg3.N) (i : S50000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v108).slice (win3_6.rect t)).set ↔ _
  rw [View.set_slice_whole, Rect.mem_set_unit]
  exact Iff.rfl

/-- Every index of the array is in the block of the grid point (row / 5000). -/
theorem cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  have hlt : (i 0).val / 5000 < cfg3.N := by rw [hN]; omega
  obtain ⟨-, -, -, -, -, -, -, -, -, -, -, -, o0, o1⟩ := idx_facts3 ⟨(i 0).val / 5000, hlt⟩
  have o0' : win3_6.index ⟨(i 0).val / 5000, hlt⟩ (0 : Fin 2) = (i 0).val / 5000 := o0
  refine ⟨⟨(i 0).val / 5000, hlt⟩, flush3_6 _, ?_⟩
  rw [mem_blk3]
  intro a
  match a with
  | ⟨0, _⟩ =>
    show win3_6.index ⟨(i 0).val / 5000, hlt⟩ (0 : Fin 2) * 5000 ≤ (i 0).val
      ∧ (i 0).val < win3_6.index ⟨(i 0).val / 5000, hlt⟩ (0 : Fin 2) * 5000 + 5000
    omega
  | ⟨1, _⟩ =>
    show win3_6.index ⟨(i 0).val / 5000, hlt⟩ (1 : Fin 2) * 128 ≤ (i 1).val
      ∧ (i 1).val < win3_6.index ⟨(i 0).val / 5000, hlt⟩ (1 : Fin 2) * 128 + 128
    omega

/-- The output array after region 3 is G3 of the arrays the region finds when it is entered. -/
theorem arr3 (V : (c : Dev nD) → (b : Ref sig .tc) → Buf (Elt Ideal) ((c : Thread nD τ).loc b)) (c : Dev nD) :
    (dat3 (F := Ideal) V c).arrAt 6 cfg3.N
      = G3 (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 (F := Ideal) V c).arrAt_eq_of_cover 6 _ (fun t _ => flushed3_eq V c t) cover3

end Cert.KernelIdeal.RegionVal

end
-- ==== Proof.Region4.lean ====
import proofs.«136817_j2800318677196_2_alg».proof.Proof.Gen.KernelIdeal.Frame
import proofs.«136817_j2800318677196_2_alg».proof.Proof.LibDotIdx
import Idealize.ShloMosaic.Lib.ValueIdx
import Idealize.ShloMosaic.Lib.Pipeline.Value
import Idealize.ShloMosaic.Lib.ValueLayout
import Idealize.ShloMosaic.PureOps.Ideal.Laws

/-!
# Region 4: the two-layer scoring network, as one function of the whole arrays

The region tiles the row axis of a [200000, 256] array in forty blocks of 5000 rows; the two weight
matrices and the two bias rows are read whole at every grid point.  Each grid point writes, at row p and
column q of its block,

  (sum over j of max ((sum over k of emb p k * w1 k j) + b1 j) 0 * w2 j q) + b2 q,

the narrowing casts being the identity at the exact extended reals.  Since the output blocks tile the
array, the array after the region is that function of the arrays found when the region is entered.
-/

set_option maxRecDepth 16384
set_option pp.maxSteps 5000
set_option pp.deepTerms false

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

/-- A one-row matrix laid along every row of an [m, n] matrix: at (p, q) it is entry (0, q). -/
theorem row_apply4 {α : Type} {m n : Nat} (y : (⟨2, ![1, n]⟩ : Shape).Idx → α)
    (h : (⟨2, ![1, n]⟩ : Shape).Broadcasts ⟨2, ![m, n]⟩) (p : Fin m) (q : Fin n) :
    broadcastTo ⟨2, ![m, n]⟩ y h (ix2 p q) = y (ix2 (0 : Fin 1) q) :=
  broadcastTo_apply y h (ix2 p q) (ix2 (0 : Fin 1) q) (by
    intro a
    match a with
    | ⟨0, _⟩ => rfl
    | ⟨1, _⟩ =>
      show q.val = if n = 1 then 0 else q.val
      split
      · have e : q.val < n := q.isLt; omega
      · rfl)

/-- The hidden layer at row p, unit j. -/
def H4at (emb : FVec Ideal S200000x256 .bf16) (w1 : FVec Ideal S256x128 .f32) (b1 : FVec Ideal S1x128 .f32)
    (p : Fin 200000) (j : Fin 128) : Ideal .f32 :=
  max ((∑ k : Fin 256, emb (ix2 p k) * w1 (ix2 k j)) + b1 (ix2 (0 : Fin 1) j)) 0

/-- The value at row p, column q. -/
def G4at (emb : FVec Ideal S200000x256 .bf16) (w1 : FVec Ideal S256x128 .f32) (b1 : FVec Ideal S1x128 .f32)
    (w2 : FVec Ideal S128x128 .f32) (b2 : FVec Ideal S1x128 .f32) (p : Fin 200000) (q : Fin 128) : Ideal .f32 :=
  (∑ j : Fin 128,
      max ((∑ k : Fin 256, emb (ix2 p k) * w1 (ix2 k j)) + b1 (ix2 (0 : Fin 1) j)) 0
        * w2 (ix2 j q))
    + b2 (ix2 (0 : Fin 1) q)

/-- The output array of region 4 as a function of the five input arrays. -/
def G4 (emb : FVec Ideal S200000x256 .bf16) (w1 : FVec Ideal S256x128 .f32) (b1 : FVec Ideal S1x128 .f32)
    (w2 : FVec Ideal S128x128 .f32) (b2 : FVec Ideal S1x128 .f32) : FVec Ideal S200000x128 .f32 :=
  fun i => G4at emb w1 b1 w2 b2 (i 0) (i 1)

theorem G4_apply (emb : FVec Ideal S200000x256 .bf16) (w1 : FVec Ideal S256x128 .f32) (b1 : FVec Ideal S1x128 .f32)
    (w2 : FVec Ideal S128x128 .f32) (b2 : FVec Ideal S1x128 .f32) (p : Fin 200000) (q : Fin 128) :
    G4 emb w1 b1 w2 b2 (ix2 p q)
      = (∑ j : Fin 128,
          max ((∑ k : Fin 256, emb (ix2 p k) * w1 (ix2 k j)) + b1 (ix2 (0 : Fin 1) j)) 0
            * w2 (ix2 j q))
        + b2 (ix2 (0 : Fin 1) q) := rfl

/-- The body's payload read at (p, q): the operations in the payload's own order. -/
theorem pay4_apply (x0 : FVec Ideal S5000x256 .bf16) (x1 : FVec Ideal S256x128 .f32) (xb1 : FVec Ideal S1x128 .f32)
    (x3 : FVec Ideal S128x128 .f32) (xb2 : FVec Ideal S1x128 .f32) (p : Fin 5000) (q : Fin 128) :
    k4_pay1 (F := Ideal) x0 x1 xb1 x3 xb2 (ix2 p q)
      = (∑ j : Fin 128,
          max ((∑ k : Fin 256, x0 (ix2 p k) * x1 (ix2 k j)) + xb1 (ix2 (0 : Fin 1) j)) 0
            * x3 (ix2 j q))
        + xb2 (ix2 (0 : Fin 1) q) := by
  -- the first product at (p, j)
  have hM1 : ∀ j : Fin 128,
      matmul dot_S5000x256_S256x128_S5000x128_1_0_0_1_n_n none
          (shapeCast S5000x256 x0 shapeCasts_S5000x256_S5000x256) (truncf .bf16 x1 bitsLt_bf16_f32)
          (constant (F := Ideal) S5000x128 .f32 0x00000000#32) (ix2 p j)
        = ∑ k : Fin 256, x0 (ix2 p k) * x1 (ix2 k j) := by
    intro j
    refine (DotIdx.matmul_plain_zero_apply (m := 5000) (k := 256) (n := 128)
      dot_S5000x256_S256x128_S5000x128_1_0_0_1_n_n_wf none
      (shapeCast S5000x256 x0 shapeCasts_S5000x256_S5000x256) (truncf .bf16 x1 bitsLt_bf16_f32) p j).trans ?_
    rw [shapeCast_self]
    rfl
  -- the bias rows
  have hb1 : ∀ j : Fin 128,
      broadcastTo S5000x128 (shapeCast S1x128 xb1 shapeCasts_S1x128_S1x128) broadcasts_S1x128_S5000x128 (ix2 p j)
        = xb1 (ix2 (0 : Fin 1) j) := by
    intro j
    rw [shapeCast_self]
    exact row_apply4 (m := 5000) xb1 broadcasts_S1x128_S5000x128 p j
  have hb2 :
      broadcastTo S5000x128 (shapeCast S1x128 xb2 shapeCasts_S1x128_S1x128) broadcasts_S1x128_S5000x128 (ix2 p q)
        = xb2 (ix2 (0 : Fin 1) q) := by
    rw [shapeCast_self]
    exact row_apply4 (m := 5000) xb2 broadcasts_S1x128_S5000x128 p q
  unfold k4_pay1
  -- the second product at (p, q), over the hidden layer
  refine (congrArg₂ (· + ·)
    (DotIdx.matmul_plain_zero_apply (m := 5000) (k := 128) (n := 128)
      dot_S5000x128_S128x128_S5000x128_1_0_0_1_n_n_wf none _ _ p q) hb2).trans ?_
  refine congrArg (· + xb2 (ix2 (0 : Fin 1) q)) (Finset.sum_congr rfl fun j _ => ?_)
  refine congrArg₂ (· * ·) ?_ ?_
  · show max (matmul dot_S5000x256_S256x128_S5000x128_1_0_0_1_n_n none
          (shapeCast S5000x256 x0 shapeCasts_S5000x256_S5000x256) (truncf .bf16 x1 bitsLt_bf16_f32)
          (constant (F := Ideal) S5000x128 .f32 0x00000000#32) (ix2 p j)
        + broadcastTo S5000x128 (shapeCast S1x128 xb1 shapeCasts_S1x128_S1x128) broadcasts_S1x128_S5000x128 (ix2 p j))
        (Ideal.ofBits .f32 0x00000000#32) = _
    rw [hM1 j, hb1 j, Ideal.ofBits_zero_f32]
  · show shapeCast S128x128 x3 shapeCasts_S128x128_S128x128 (ix2 j q) = _
    rw [shapeCast_self]

/-! ## From the blocks to the array -/

theorem hz4 : (![0, 0] : Fin 2 → Nat) = fun _ => 0 := funext fun a => by fin_cases a <;> rfl

/-- The printed index maps, decided over the forty grid points: the tiled windows sit at block row t,
    the weights and bias rows at block (0, 0). -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

set_option maxHeartbeats 1000000 in
/-- What grid point t writes back is block t of G4 of the arrays the region finds. -/
theorem flushed4_eq (V : (c : Dev nD) → (b : Ref sig .tc) → Buf (Elt Ideal) ((c : Thread nD τ).loc b))
    (c : Dev nD) (t : Fin cfg4.N) :
    (dat4 (F := Ideal) V c).flushed 5 t
      = ((cfg4.win 5).blk t).view.read (Elt Ideal)
          (G4 (V c (Pipeline.arrRef spec4 0)) (V c (Pipeline.arrRef spec4 1)) (V c (Pipeline.arrRef spec4 2))
            (V c (Pipeline.arrRef spec4 3)) (V c (Pipeline.arrRef spec4 4))) := by
  show (cfg4.win 5).cut (grid4.coords t) ((dat4 V c).after 5 t) = _
  rw [after4_5]
  unfold out4_5
  rw [View.canon_unit_zero hz4]
  simp only [View.ld_unit_zero (S := S5000x256) hz4, View.ld_unit_zero (S := S256x128) hz4,
    View.ld_unit_zero (S := S1x128) hz4, View.ld_unit_zero (S := S128x128) hz4]
  obtain ⟨a0, a1, w10, w11, b10, b11, w20, w21, b20, b21, o0, o1⟩ := idx_facts4 t
  have ht : t.val < 40 := lt_of_lt_of_eq t.isLt N_4
  funext j
  obtain ⟨p, q, rfl⟩ : ∃ (p : Fin 5000) (q : Fin 128), j = ix2 p q := ⟨j 0, j 1, eq_ix2 j⟩
  have hp : p.val < 5000 := p.isLt
  show k4_pay1 (iblk4 V c 0 t) (iblk4 V c 1 t) (iblk4 V c 2 t) (iblk4 V c 3 t) (iblk4 V c 4 t) (ix2 p q)
      = G4 (V c (Pipeline.arrRef spec4 0)) (V c (Pipeline.arrRef spec4 1)) (V c (Pipeline.arrRef spec4 2))
            (V c (Pipeline.arrRef spec4 3)) (V c (Pipeline.arrRef spec4 4))
          (((cfg4.win 5).blk t).view.emb (ix2 p q))
  refine (pay4_apply _ _ _ _ _ p q).trans ?_
  have E5 : ((cfg4.win 5).blk t).view.emb (ix2 p q) = ix2 (⟨t.val * 5000 + p.val, by omega⟩ : Fin 200000) q := by
    funext a; apply Fin.ext
    match a with
    | ⟨0, _⟩ => show win4_5.index t (0 : Fin 2) * 5000 + 1 * p.val = t.val * 5000 + p.val; omega
    | ⟨1, _⟩ => show win4_5.index t (1 : Fin 2) * 128 + 1 * q.val = q.val; omega
  have e0 : ∀ k : Fin 256, iblk4 V c 0 t (ix2 p k)
      = V c (Pipeline.arrRef spec4 0) (ix2 (⟨t.val * 5000 + p.val, by omega⟩ : Fin 200000) k) := by
    intro k
    show V c (Pipeline.arrRef spec4 0) (((cfg4.win 0).blk t).view.emb (ix2 p k)) = _
    refine congrArg (V c (Pipeline.arrRef spec4 0)) ?_
    funext a; apply Fin.ext
    match a with
    | ⟨0, _⟩ => show win4_0.index t (0 : Fin 2) * 5000 + 1 * p.val = t.val * 5000 + p.val; omega
    | ⟨1, _⟩ => show win4_0.index t (1 : Fin 2) * 256 + 1 * k.val = k.val; omega
  have e1 : ∀ (k : Fin 256) (j : Fin 128), iblk4 V c 1 t (ix2 k j) = V c (Pipeline.arrRef spec4 1) (ix2 k j) := by
    intro k j
    show V c (Pipeline.arrRef spec4 1) (((cfg4.win 1).blk t).view.emb (ix2 k j)) = _
    refine congrArg (V c (Pipeline.arrRef spec4 1)) ?_
    funext a; apply Fin.ext
    match a with
    | ⟨0, _⟩ => show win4_1.index t (0 : Fin 2) * 256 + 1 * k.val = k.val; omega
    | ⟨1, _⟩ => show win4_1.index t (1 : Fin 2) * 128 + 1 * j.val = j.val; omega
  have e2 : ∀ j : Fin 128, iblk4 V c 2 t (ix2 (0 : Fin 1) j) = V c (Pipeline.arrRef spec4 2) (ix2 (0 : Fin 1) j) := by
    intro j
    show V c (Pipeline.arrRef spec4 2) (((cfg4.win 2).blk t).view.emb (ix2 (0 : Fin 1) j)) = _
    refine congrArg (V c (Pipeline.arrRef spec4 2)) ?_
    funext a; apply Fin.ext
    match a with
    | ⟨0, _⟩ => show win4_2.index t (0 : Fin 2) * 1 + 1 * 0 = 0; omega
    | ⟨1, _⟩ => show win4_2.index t (1 : Fin 2) * 128 + 1 * j.val = j.val; omega
  have e3 : ∀ (j r : Fin 128), iblk4 V c 3 t (ix2 j r) = V c (Pipeline.arrRef spec4 3) (ix2 j r) := by
    intro j r
    show V c (Pipeline.arrRef spec4 3) (((cfg4.win 3).blk t).view.emb (ix2 j r)) = _
    refine congrArg (V c (Pipeline.arrRef spec4 3)) ?_
    funext a; apply Fin.ext
    match a with
    | ⟨0, _⟩ => show win4_3.index t (0 : Fin 2) * 128 + 1 * j.val = j.val; omega
    | ⟨1, _⟩ => show win4_3.index t (1 : Fin 2) * 128 + 1 * r.val = r.val; omega
  have e4 : iblk4 V c 4 t (ix2 (0 : Fin 1) q) = V c (Pipeline.arrRef spec4 4) (ix2 (0 : Fin 1) q) := by
    show V c (Pipeline.arrRef spec4 4) (((cfg4.win 4).blk t).view.emb (ix2 (0 : Fin 1) q)) = _
    refine congrArg (V c (Pipeline.arrRef spec4 4)) ?_
    funext a; apply Fin.ext
    match a with
    | ⟨0, _⟩ => show win4_4.index t (0 : Fin 2) * 1 + 1 * 0 = 0; omega
    | ⟨1, _⟩ => show win4_4.index t (1 : Fin 2) * 128 + 1 * q.val = q.val; omega
  have hmul : ∀ {a a' b b' : EReal}, a = a' → b = b' → a * b = a' * b' := fun h1 h2 => h1 ▸ h2 ▸ rfl
  have hadd : ∀ {a a' b b' : EReal}, a = a' → b = b' → a + b = a' + b' := fun h1 h2 => h1 ▸ h2 ▸ rfl
  have hmax : ∀ {a a' : EReal}, a = a' → max a 0 = max a' 0 := fun h1 => h1 ▸ rfl
  refine (hadd
    (Finset.sum_congr rfl fun j _ => hmul
      (hmax (hadd (Finset.sum_congr rfl fun k _ => hmul (e0 k) (e1 k j)) (e2 j)))
      (e3 j q))
    e4).trans ?_
  exact (G4_apply _ _ _ _ _ (⟨t.val * 5000 + p.val, by omega⟩ : Fin 200000) q).symm.trans (congrArg _ E5.symm)

/-- An index of the array is in point t's block iff each coordinate is in the block's range on its axis. -/
theorem mem_blk4 (t : Fin cfg4.N) (i : S200000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v129).slice (win4_5.rect t)).set ↔ _
  rw [View.set_slice_whole, Rect.mem_set_unit]
  exact Iff.rfl

/-- Every index of the array is in the block of the grid point (row / 5000). -/
theorem cover4 (i : S200000x128.Idx) :
    ∃ t : Fin cfg4.N, (cfg4.win 5).flush t = true ∧ i ∈ ((cfg4.win 5).blk t).view.set := by
  have hi0 : (i 0).val < 200000 := (i 0).isLt
  have hi1 : (i 1).val < 128 := (i 1).isLt
  have hN : cfg4.N = 40 := N_4
  have hlt : (i 0).val / 5000 < cfg4.N := by rw [hN]; omega
  obtain ⟨-, -, -, -, -, -, -, -, -, -, o0, o1⟩ := idx_facts4 ⟨(i 0).val / 5000, hlt⟩
  have o0' : win4_5.index ⟨(i 0).val / 5000, hlt⟩ (0 : Fin 2) = (i 0).val / 5000 := o0
  refine ⟨⟨(i 0).val / 5000, hlt⟩, flush4_5 _, ?_⟩
  rw [mem_blk4]
  intro a
  match a with
  | ⟨0, _⟩ =>
    show win4_5.index ⟨(i 0).val / 5000, hlt⟩ (0 : Fin 2) * 5000 ≤ (i 0).val
      ∧ (i 0).val < win4_5.index ⟨(i 0).val / 5000, hlt⟩ (0 : Fin 2) * 5000 + 5000
    omega
  | ⟨1, _⟩ =>
    show win4_5.index ⟨(i 0).val / 5000, hlt⟩ (1 : Fin 2) * 128 ≤ (i 1).val
      ∧ (i 1).val < win4_5.index ⟨(i 0).val / 5000, hlt⟩ (1 : Fin 2) * 128 + 128
    omega

/-- The output array after region 4 is G4 of the arrays the region finds when it is entered. -/
theorem arr4 (V : (c : Dev nD) → (b : Ref sig .tc) → Buf (Elt Ideal) ((c : Thread nD τ).loc b)) (c : Dev nD) :
    (dat4 (F := Ideal) V c).arrAt 5 cfg4.N
      = G4 (V c (Pipeline.arrRef spec4 0)) (V c (Pipeline.arrRef spec4 1)) (V c (Pipeline.arrRef spec4 2))
          (V c (Pipeline.arrRef spec4 3)) (V c (Pipeline.arrRef spec4 4)) :=
  (dat4 (F := Ideal) V c).arrAt_eq_of_cover 5 _ (fun t _ => flushed4_eq V c t) cover4

end Cert.KernelIdeal.RegionVal

end
-- ==== Proof.KerVal.lean ====
/-
  The idealized kernel program's value as ONE function of its twenty argument arrays.

  Three layers, each "dense, aggregate with the normalisation factored out of the sum, bias, rectifier, normalise by the
  column statistics" — the first dense map and the three normalisations are regions of the program, the first two
  normalisations fused with the next layer's dense map —, then the pair scores from the gathered rows by the two-layer
  map with a zero-padded last column, of which column 0 is kept. The stretches' terms are those of the module that reads
  the host stretches; the regions' whole-array functions are `G0` … `G4`.
-/
import proofs.«136817_j2800318677196_2_alg».proof.Proof.KerStages
import proofs.«136817_j2800318677196_2_alg».proof.Proof.Region0
import proofs.«136817_j2800318677196_2_alg».proof.Proof.Region1
import proofs.«136817_j2800318677196_2_alg».proof.Proof.Region2
import proofs.«136817_j2800318677196_2_alg».proof.Proof.Region3
import proofs.«136817_j2800318677196_2_alg».proof.Proof.Region4
import Idealize.ShloMosaic.PureOps.Ideal

noncomputable section

namespace Cert.KernelIdeal.KR

open Cert.KernelIdeal Cert.KernelIdeal.Gen Cert.KernelIdeal.KS Cert.KernelIdeal.RegionVal
open Idealize.ShloMosaic

/-- The twenty argument arrays. -/
structure Inp where
  x : Arr Ideal S50000x128 .f32
  e : Arr Ideal S2x1600000 .i32
  src : Arr Ideal S200000 .i32
  dst : Arr Ideal S200000 .i32
  w1 : Arr Ideal S128x64 .f32
  b1 : Arr Ideal S64 .f32
  w2 : Arr Ideal S64x128 .f32
  b2 : Arr Ideal S128 .f32
  w3 : Arr Ideal S128x128 .f32
  b3 : Arr Ideal S128 .f32
  g1 : Arr Ideal S64 .f32
  bt1 : Arr Ideal S64 .f32
  g2 : Arr Ideal S128 .f32
  bt2 : Arr Ideal S128 .f32
  g3 : Arr Ideal S128 .f32
  bt3 : Arr Ideal S128 .f32
  fw1 : Arr Ideal S256x128 .f32
  fb1 : Arr Ideal S128 .f32
  fw2 : Arr Ideal S128x1 .f32
  fb2 : Arr Ideal S1 .f32

/-- The pad value and the variance's correction: the integer 0. -/
abbrev c0 : Arr Ideal S_ .i32 := constantI S_ 32 0#32

namespace Inp
variable (a : Inp)
def row : Arr Ideal S1650000 .i32 := rowT a.e
def col : Arr Ideal S1650000 .i32 := colT a.e
def dis : Arr Ideal S50000 .f32 := disT a.col
def h1 : Arr Ideal S50000x64 .f32 := G0 a.x a.w1
def agg1 : Arr Ideal S50000x64 .f32 := aggK64T a.dis a.row a.col a.h1
def relu1 : Arr Ideal S50000x64 .f32 := relu64T a.agg1 a.b1
def h2 : Arr Ideal S50000x128 .f32 :=
  G1 a.agg1 (row64T a.b1) (row64T a.g1) (row64T a.bt1) (row64T (mean64T a.relu1)) (row64T (var64T a.relu1 c0)) a.w2
def agg2 : Arr Ideal S50000x128 .f32 := aggK128T a.dis a.row a.col a.h2
def relu2 : Arr Ideal S50000x128 .f32 := relu128T a.agg2 a.b2
def h3 : Arr Ideal S50000x128 .f32 :=
  G2 a.agg2 (row128T a.b2) (row128T a.g2) (row128T a.bt2) (row128T (mean128T a.relu2)) (row128T (var128T a.relu2 c0)) a.w3
def agg3 : Arr Ideal S50000x128 .f32 := aggK128T a.dis a.row a.col a.h3
def relu3 : Arr Ideal S50000x128 .f32 := relu128T a.agg3 a.b3
def z : Arr Ideal S50000x128 .f32 :=
  G3 a.agg3 (row128T a.b3) (row128T a.g3) (row128T a.bt3) (row128T (mean128T a.relu3)) (row128T (var128T a.relu3 c0))
def scores : Arr Ideal S200000x128 .f32 :=
  G4 (embT a.z a.src a.dst) a.fw1 (row128T a.fb1) (padW2T a.fw2 c0) (row128T (padB2T a.fb2 c0))
/-- The kernel program's result. -/
def kOut : Arr Ideal S200000 .f32 := col0T a.scores
end Inp

end Cert.KernelIdeal.KR

end
-- ==== Proof.KerKeep.lean ====
/-
  For each stretch of host operations of the idealized kernel program: the buffers the stretch writes, in order, and that a
  buffer outside that list holds after the stretch what it held before it.
-/
import proofs.«136817_j2800318677196_2_alg».proof.Proof.Gen.KernelIdeal.Launch
import Idealize.ShloMosaic.Lib.StableHlo.Run

set_option maxRecDepth 16384

noncomputable section

namespace Cert.KernelIdeal.KK

open Cert.KernelIdeal Cert.KernelIdeal.Gen Idealize.ShloMosaic Idealize.ShloMosaic.TcCoe Idealize.ShloMosaic.StableHlo

variable {F : FTy → Type} [FloatOps F]

/-- A single written buffer is among a list of buffers once it is a member of the list. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The buffers `hostOps0` writes, in order. -/
abbrev hostOps0_W : List (Ref sig .tc) :=
  [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op =>
    op.writes ⊆ (hostOps0_W.map (Proc.devRef (τ := τ) .tc)).toFinset := by
  simp only [hostOps0, List.Forall, nullary_writes, unary_writes, binary_writes, ternary_writes, quaternary_writes, reshape_writes]
  repeat' apply And.intro
  all_goals exact writes_sub_of_mem (by decide)
theorem hostOps0_keep (V : Valuation τ sig (Elt F)) {r : Ref sig .tc} (hr : r ∉ hostOps0_W) :
    after (hostOps0 (F := F)) V (Proc.devRef .tc r) = V (Proc.devRef .tc r) :=
  after_of_writes_sub hostOps0 V hostOps0_writes hr

/-- The buffers `hostOps0_1` writes, in order. -/
abbrev hostOps0_1_W : List (Ref sig .tc) :=
  [main_call0_v0, main_call0_v1, main_v14]
theorem hostOps0_1_writes : (hostOps0_1 : List (HloOp τ sig (Elt F))).Forall fun op =>
    op.writes ⊆ (hostOps0_1_W.map (Proc.devRef (τ := τ) .tc)).toFinset := by
  simp only [hostOps0_1, List.Forall, nullary_writes, unary_writes, binary_writes, ternary_writes, quaternary_writes, reshape_writes]
  repeat' apply And.intro
  all_goals exact writes_sub_of_mem (by decide)
theorem hostOps0_1_keep (V : Valuation τ sig (Elt F)) {r : Ref sig .tc} (hr : r ∉ hostOps0_1_W) :
    after (hostOps0_1 (F := F)) V (Proc.devRef .tc r) = V (Proc.devRef .tc r) :=
  after_of_writes_sub hostOps0_1 V hostOps0_1_writes hr

/-- The buffers `hostOps1` writes, in order. -/
abbrev hostOps1_W : List (Ref sig .tc) :=
  [main_v16, main_v17, main_v18, main_c, main_v19, main_v20, main_c_3, main_v21, main_v22, main_v23, main_v24, main_v25, main_cst_4, main_v26, main_v27, main_v28, main_v29, main_v30, main_v31, main_v32, main_v33, main_v34, main_cst_5, main_v35, main_v36, main_cst_6, main_v37, main_cst_7, main_v38, main_v39, main_c_8]
theorem hostOps1_writes : (hostOps1 : List (HloOp τ sig (Elt F))).Forall fun op =>
    op.writes ⊆ (hostOps1_W.map (Proc.devRef (τ := τ) .tc)).toFinset := by
  simp only [hostOps1, List.Forall, nullary_writes, unary_writes, binary_writes, ternary_writes, quaternary_writes, reshape_writes]
  repeat' apply And.intro
  all_goals exact writes_sub_of_mem (by decide)
theorem hostOps1_keep (V : Valuation τ sig (Elt F)) {r : Ref sig .tc} (hr : r ∉ hostOps1_W) :
    after (hostOps1 (F := F)) V (Proc.devRef .tc r) = V (Proc.devRef .tc r) :=
  after_of_writes_sub hostOps1 V hostOps1_writes hr

/-- The buffers `hostOps1_1` writes, in order. -/
abbrev hostOps1_1_W : List (Ref sig .tc) :=
  [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v40]
theorem hostOps1_1_writes : (hostOps1_1 : List (HloOp τ sig (Elt F))).Forall fun op =>
    op.writes ⊆ (hostOps1_1_W.map (Proc.devRef (τ := τ) .tc)).toFinset := by
  simp only [hostOps1_1, List.Forall, nullary_writes, unary_writes, binary_writes, ternary_writes, quaternary_writes, reshape_writes]
  repeat' apply And.intro
  all_goals exact writes_sub_of_mem (by decide)
theorem hostOps1_1_keep (V : Valuation τ sig (Elt F)) {r : Ref sig .tc} (hr : r ∉ hostOps1_1_W) :
    after (hostOps1_1 (F := F)) V (Proc.devRef .tc r) = V (Proc.devRef .tc r) :=
  after_of_writes_sub hostOps1_1 V hostOps1_1_writes hr

/-- The buffers `hostOps1_2` writes, in order. -/
abbrev hostOps1_2_W : List (Ref sig .tc) :=
  [main_v41, main_v42, main_v43, main_v44, main_v45]
theorem hostOps1_2_writes : (hostOps1_2 : List (HloOp τ sig (Elt F))).Forall fun op =>
    op.writes ⊆ (hostOps1_2_W.map (Proc.devRef (τ := τ) .tc)).toFinset := by
  simp only [hostOps1_2, List.Forall, nullary_writes, unary_writes, binary_writes, ternary_writes, quaternary_writes, reshape_writes]
  repeat' apply And.intro
  all_goals exact writes_sub_of_mem (by decide)
theorem hostOps1_2_keep (V : Valuation τ sig (Elt F)) {r : Ref sig .tc} (hr : r ∉ hostOps1_2_W) :
    after (hostOps1_2 (F := F)) V (Proc.devRef .tc r) = V (Proc.devRef .tc r) :=
  after_of_writes_sub hostOps1_2 V hostOps1_2_writes hr

/-- The buffers `hostOps2` writes, in order. -/
abbrev hostOps2_W : List (Ref sig .tc) :=
  [main_v47, main_v48, main_v49, main_c_9, main_v50, main_v51, main_c_10, main_v52, main_v53, main_v54, main_v55, main_v56, main_cst_11, main_v57, main_v58, main_v59, main_v60, main_v61, main_v62, main_v63, main_v64, main_v65, main_cst_12, main_v66, main_v67, main_cst_13, main_v68, main_cst_14, main_v69, main_v70, main_c_15]
theorem hostOps2_writes : (hostOps2 : List (HloOp τ sig (Elt F))).Forall fun op =>
    op.writes ⊆ (hostOps2_W.map (Proc.devRef (τ := τ) .tc)).toFinset := by
  simp only [hostOps2, List.Forall, nullary_writes, unary_writes, binary_writes, ternary_writes, quaternary_writes, reshape_writes]
  repeat' apply And.intro
  all_goals exact writes_sub_of_mem (by decide)
theorem hostOps2_keep (V : Valuation τ sig (Elt F)) {r : Ref sig .tc} (hr : r ∉ hostOps2_W) :
    after (hostOps2 (F := F)) V (Proc.devRef .tc r) = V (Proc.devRef .tc r) :=
  after_of_writes_sub hostOps2 V hostOps2_writes hr

/-- The buffers `hostOps2_1` writes, in order. -/
abbrev hostOps2_1_W : List (Ref sig .tc) :=
  [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v71]
theorem hostOps2_1_writes : (hostOps2_1 : List (HloOp τ sig (Elt F))).Forall fun op =>
    op.writes ⊆ (hostOps2_1_W.map (Proc.devRef (τ := τ) .tc)).toFinset := by
  simp only [hostOps2_1, List.Forall, nullary_writes, unary_writes, binary_writes, ternary_writes, quaternary_writes, reshape_writes]
  repeat' apply And.intro
  all_goals exact writes_sub_of_mem (by decide)
theorem hostOps2_1_keep (V : Valuation τ sig (Elt F)) {r : Ref sig .tc} (hr : r ∉ hostOps2_1_W) :
    after (hostOps2_1 (F := F)) V (Proc.devRef .tc r) = V (Proc.devRef .tc r) :=
  after_of_writes_sub hostOps2_1 V hostOps2_1_writes hr

/-- The buffers `hostOps2_2` writes, in order. -/
abbrev hostOps2_2_W : List (Ref sig .tc) :=
  [main_v72, main_v73, main_v74, main_v75, main_v76]
theorem hostOps2_2_writes : (hostOps2_2 : List (HloOp τ sig (Elt F))).Forall fun op =>
    op.writes ⊆ (hostOps2_2_W.map (Proc.devRef (τ := τ) .tc)).toFinset := by
  simp only [hostOps2_2, List.Forall, nullary_writes, unary_writes, binary_writes, ternary_writes, quaternary_writes, reshape_writes]
  repeat' apply And.intro
  all_goals exact writes_sub_of_mem (by decide)
theorem hostOps2_2_keep (V : Valuation τ sig (Elt F)) {r : Ref sig .tc} (hr : r ∉ hostOps2_2_W) :
    after (hostOps2_2 (F := F)) V (Proc.devRef .tc r) = V (Proc.devRef .tc r) :=
  after_of_writes_sub hostOps2_2 V hostOps2_2_writes hr

/-- The buffers `hostOps3` writes, in order. -/
abbrev hostOps3_W : List (Ref sig .tc) :=
  [main_v78, main_v79, main_v80, main_c_16, main_v81, main_v82, main_c_17, main_v83, main_v84, main_v85, main_v86, main_v87, main_cst_18, main_v88, main_v89, main_v90, main_v91, main_v92, main_v93, main_v94, main_v95, main_v96, main_cst_19, main_v97, main_v98, main_cst_20, main_v99, main_cst_21, main_v100, main_v101, main_c_22]
theorem hostOps3_writes : (hostOps3 : List (HloOp τ sig (Elt F))).Forall fun op =>
    op.writes ⊆ (hostOps3_W.map (Proc.devRef (τ := τ) .tc)).toFinset := by
  simp only [hostOps3, List.Forall, nullary_writes, unary_writes, binary_writes, ternary_writes, quaternary_writes, reshape_writes]
  repeat' apply And.intro
  all_goals exact writes_sub_of_mem (by decide)
theorem hostOps3_keep (V : Valuation τ sig (Elt F)) {r : Ref sig .tc} (hr : r ∉ hostOps3_W) :
    after (hostOps3 (F := F)) V (Proc.devRef .tc r) = V (Proc.devRef .tc r) :=
  after_of_writes_sub hostOps3 V hostOps3_writes hr

/-- The buffers `hostOps3_1` writes, in order. -/
abbrev hostOps3_1_W : List (Ref sig .tc) :=
  [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v102]
theorem hostOps3_1_writes : (hostOps3_1 : List (HloOp τ sig (Elt F))).Forall fun op =>
    op.writes ⊆ (hostOps3_1_W.map (Proc.devRef (τ := τ) .tc)).toFinset := by
  simp only [hostOps3_1, List.Forall, nullary_writes, unary_writes, binary_writes, ternary_writes, quaternary_writes, reshape_writes]
  repeat' apply And.intro
  all_goals exact writes_sub_of_mem (by decide)
theorem hostOps3_1_keep (V : Valuation τ sig (Elt F)) {r : Ref sig .tc} (hr : r ∉ hostOps3_1_W) :
    after (hostOps3_1 (F := F)) V (Proc.devRef .tc r) = V (Proc.devRef .tc r) :=
  after_of_writes_sub hostOps3_1 V hostOps3_1_writes hr

/-- The buffers `hostOps3_2` writes, in order. -/
abbrev hostOps3_2_W : List (Ref sig .tc) :=
  [main_v103, main_v104, main_v105, main_v106, main_v107]
theorem hostOps3_2_writes : (hostOps3_2 : List (HloOp τ sig (Elt F))).Forall fun op =>
    op.writes ⊆ (hostOps3_2_W.map (Proc.devRef (τ := τ) .tc)).toFinset := by
  simp only [hostOps3_2, List.Forall, nullary_writes, unary_writes, binary_writes, ternary_writes, quaternary_writes, reshape_writes]
  repeat' apply And.intro
  all_goals exact writes_sub_of_mem (by decide)
theorem hostOps3_2_keep (V : Valuation τ sig (Elt F)) {r : Ref sig .tc} (hr : r ∉ hostOps3_2_W) :
    after (hostOps3_2 (F := F)) V (Proc.devRef .tc r) = V (Proc.devRef .tc r) :=
  after_of_writes_sub hostOps3_2 V hostOps3_2_writes hr

/-- The buffers `hostOps4` writes, in order. -/
abbrev hostOps4_W : List (Ref sig .tc) :=
  [main_v109, main_c_23, main_v110, main_v111, main_c_24, main_v112, main_v113, main_v114, main_v115, main_v116, main_c_25, main_v117, main_v118, main_c_26, main_v119, main_v120, main_v121, main_v122, main_v123, main_v124, main_c_27]
theorem hostOps4_writes : (hostOps4 : List (HloOp τ sig (Elt F))).Forall fun op =>
    op.writes ⊆ (hostOps4_W.map (Proc.devRef (τ := τ) .tc)).toFinset := by
  simp only [hostOps4, List.Forall, nullary_writes, unary_writes, binary_writes, ternary_writes, quaternary_writes, reshape_writes]
  repeat' apply And.intro
  all_goals exact writes_sub_of_mem (by decide)
theorem hostOps4_keep (V : Valuation τ sig (Elt F)) {r : Ref sig .tc} (hr : r ∉ hostOps4_W) :
    after (hostOps4 (F := F)) V (Proc.devRef .tc r) = V (Proc.devRef .tc r) :=
  after_of_writes_sub hostOps4 V hostOps4_writes hr

/-- The buffers `hostOps4_1` writes, in order. -/
abbrev hostOps4_1_W : List (Ref sig .tc) :=
  [main_call4_v0, main_v125]
theorem hostOps4_1_writes : (hostOps4_1 : List (HloOp τ sig (Elt F))).Forall fun op =>
    op.writes ⊆ (hostOps4_1_W.map (Proc.devRef (τ := τ) .tc)).toFinset := by
  simp only [hostOps4_1, List.Forall, nullary_writes, unary_writes, binary_writes, ternary_writes, quaternary_writes, reshape_writes]
  repeat' apply And.intro
  all_goals exact writes_sub_of_mem (by decide)
theorem hostOps4_1_keep (V : Valuation τ sig (Elt F)) {r : Ref sig .tc} (hr : r ∉ hostOps4_1_W) :
    after (hostOps4_1 (F := F)) V (Proc.devRef .tc r) = V (Proc.devRef .tc r) :=
  after_of_writes_sub hostOps4_1 V hostOps4_1_writes hr

/-- The buffers `hostOps4_2` writes, in order. -/
abbrev hostOps4_2_W : List (Ref sig .tc) :=
  [main_c_28]
theorem hostOps4_2_writes : (hostOps4_2 : List (HloOp τ sig (Elt F))).Forall fun op =>
    op.writes ⊆ (hostOps4_2_W.map (Proc.devRef (τ := τ) .tc)).toFinset := by
  simp only [hostOps4_2, List.Forall, nullary_writes, unary_writes, binary_writes, ternary_writes, quaternary_writes, reshape_writes]
  repeat' apply And.intro
  all_goals exact writes_sub_of_mem (by decide)
theorem hostOps4_2_keep (V : Valuation τ sig (Elt F)) {r : Ref sig .tc} (hr : r ∉ hostOps4_2_W) :
    after (hostOps4_2 (F := F)) V (Proc.devRef .tc r) = V (Proc.devRef .tc r) :=
  after_of_writes_sub hostOps4_2 V hostOps4_2_writes hr

/-- The buffers `hostOps4_3` writes, in order. -/
abbrev hostOps4_3_W : List (Ref sig .tc) :=
  [main_call5_v0, main_v126]
theorem hostOps4_3_writes : (hostOps4_3 : List (HloOp τ sig (Elt F))).Forall fun op =>
    op.writes ⊆ (hostOps4_3_W.map (Proc.devRef (τ := τ) .tc)).toFinset := by
  simp only [hostOps4_3, List.Forall, nullary_writes, unary_writes, binary_writes, ternary_writes, quaternary_writes, reshape_writes]
  repeat' apply And.intro
  all_goals exact writes_sub_of_mem (by decide)
theorem hostOps4_3_keep (V : Valuation τ sig (Elt F)) {r : Ref sig .tc} (hr : r ∉ hostOps4_3_W) :
    after (hostOps4_3 (F := F)) V (Proc.devRef .tc r) = V (Proc.devRef .tc r) :=
  after_of_writes_sub hostOps4_3 V hostOps4_3_writes hr

/-- The buffers `hostOps4_4` writes, in order. -/
abbrev hostOps4_4_W : List (Ref sig .tc) :=
  [main_v127, main_v128]
theorem hostOps4_4_writes : (hostOps4_4 : List (HloOp τ sig (Elt F))).Forall fun op =>
    op.writes ⊆ (hostOps4_4_W.map (Proc.devRef (τ := τ) .tc)).toFinset := by
  simp only [hostOps4_4, List.Forall, nullary_writes, unary_writes, binary_writes, ternary_writes, quaternary_writes, reshape_writes]
  repeat' apply And.intro
  all_goals exact writes_sub_of_mem (by decide)
theorem hostOps4_4_keep (V : Valuation τ sig (Elt F)) {r : Ref sig .tc} (hr : r ∉ hostOps4_4_W) :
    after (hostOps4_4 (F := F)) V (Proc.devRef .tc r) = V (Proc.devRef .tc r) :=
  after_of_writes_sub hostOps4_4 V hostOps4_4_writes hr

/-- The buffers `hostOps5` writes, in order. -/
abbrev hostOps5_W : List (Ref sig .tc) :=
  [main_v130, main_v131]
theorem hostOps5_writes : (hostOps5 : List (HloOp τ sig (Elt F))).Forall fun op =>
    op.writes ⊆ (hostOps5_W.map (Proc.devRef (τ := τ) .tc)).toFinset := by
  simp only [hostOps5, List.Forall, nullary_writes, unary_writes, binary_writes, ternary_writes, quaternary_writes, reshape_writes]
  repeat' apply And.intro
  all_goals exact writes_sub_of_mem (by decide)
theorem hostOps5_keep (V : Valuation τ sig (Elt F)) {r : Ref sig .tc} (hr : r ∉ hostOps5_W) :
    after (hostOps5 (F := F)) V (Proc.devRef .tc r) = V (Proc.devRef .tc r) :=
  after_of_writes_sub hostOps5 V hostOps5_writes hr

end Cert.KernelIdeal.KK

end
-- ==== Proof.KerRead.lean ====
/-
  The idealized kernel program's result as ONE function of its twenty argument arrays.

  The run leaves in the result buffer what the chain of host stretches and the five regions' write-backs computes
  (`Gen.W22` read at the result). Read back stretch by stretch — each stretch by its read lemmas, each region by its
  whole-array function of the arrays it finds, a buffer no stretch or region writes carried unchanged — that is `kOut` of
  the launch contents of the arguments: three layers, each "dense, aggregate with the normalisation factored out, bias,
  rectifier, normalise by the column statistics", the first two fused with the next layer's dense map, then the pair
  scores from the gathered rows by the two-layer map with a zero-padded last column, of which column 0 is kept.
-/
import proofs.«136817_j2800318677196_2_alg».proof.Proof.Gen.KernelIdeal.Frame
import proofs.«136817_j2800318677196_2_alg».proof.Proof.KerStages
import proofs.«136817_j2800318677196_2_alg».proof.Proof.KerVal
import proofs.«136817_j2800318677196_2_alg».proof.Proof.KerKeep
import Idealize.ShloMosaic.PureOps.Ideal

set_option maxRecDepth 16384

noncomputable section

namespace Cert.KernelIdeal.KR

open Cert.KernelIdeal Cert.KernelIdeal.Gen Cert.KernelIdeal.KS Cert.KernelIdeal.KK Cert.KernelIdeal.RegionVal
open Idealize.ShloMosaic Idealize.ShloMosaic.StableHlo Idealize.ShloMosaic.TcCoe

variable (m : (ℓ : Loc nD τ sig) → Buf (Elt Ideal) ℓ) (ρ : Dev nD → PrngReg) (c : Dev nD)

/-- The launch contents of the arguments. -/
def inK : Inp :=
  ⟨W0 m ρ c (Proc.devRef .tc main_arg0),
   W0 m ρ c (Proc.devRef .tc main_arg1),
   W0 m ρ c (Proc.devRef .tc main_arg2),
   W0 m ρ c (Proc.devRef .tc main_arg3),
   W0 m ρ c (Proc.devRef .tc main_arg4),
   W0 m ρ c (Proc.devRef .tc main_arg5),
   W0 m ρ c (Proc.devRef .tc main_arg6),
   W0 m ρ c (Proc.devRef .tc main_arg7),
   W0 m ρ c (Proc.devRef .tc main_arg8),
   W0 m ρ c (Proc.devRef .tc main_arg9),
   W0 m ρ c (Proc.devRef .tc main_arg10),
   W0 m ρ c (Proc.devRef .tc main_arg11),
   W0 m ρ c (Proc.devRef .tc main_arg12),
   W0 m ρ c (Proc.devRef .tc main_arg13),
   W0 m ρ c (Proc.devRef .tc main_arg14),
   W0 m ρ c (Proc.devRef .tc main_arg15),
   W0 m ρ c (Proc.devRef .tc main_arg16),
   W0 m ρ c (Proc.devRef .tc main_arg17),
   W0 m ρ c (Proc.devRef .tc main_arg18),
   W0 m ρ c (Proc.devRef .tc main_arg19)⟩

/-! ## Each region's output array, at what the region finds -/

theorem reg0_out : W3 m ρ c (Proc.devRef .tc main_v15)
    = G0 (W2 m ρ c (Proc.devRef .tc main_arg0)) (W2 m ρ c (Proc.devRef .tc main_arg4)) :=
  (W3_arr m ρ c 2).trans (arr0 (V2 m ρ) c)
theorem reg1_out : W7 m ρ c (Proc.devRef .tc main_v46)
    = G1 (W6 m ρ c (Proc.devRef .tc main_v31)) (W6 m ρ c (Proc.devRef .tc main_v41)) (W6 m ρ c (Proc.devRef .tc main_v42))
        (W6 m ρ c (Proc.devRef .tc main_v43)) (W6 m ρ c (Proc.devRef .tc main_v44)) (W6 m ρ c (Proc.devRef .tc main_v45))
        (W6 m ρ c (Proc.devRef .tc main_arg6)) :=
  (W7_arr m ρ c 7).trans (arr1 (V6 m ρ) c)
theorem reg2_out : W11 m ρ c (Proc.devRef .tc main_v77)
    = G2 (W10 m ρ c (Proc.devRef .tc main_v62)) (W10 m ρ c (Proc.devRef .tc main_v72)) (W10 m ρ c (Proc.devRef .tc main_v73))
        (W10 m ρ c (Proc.devRef .tc main_v74)) (W10 m ρ c (Proc.devRef .tc main_v75)) (W10 m ρ c (Proc.devRef .tc main_v76))
        (W10 m ρ c (Proc.devRef .tc main_arg8)) :=
  (W11_arr m ρ c 7).trans (arr2 (V10 m ρ) c)
theorem reg3_out : W15 m ρ c (Proc.devRef .tc main_v108)
    = G3 (W14 m ρ c (Proc.devRef .tc main_v93)) (W14 m ρ c (Proc.devRef .tc main_v103)) (W14 m ρ c (Proc.devRef .tc main_v104))
        (W14 m ρ c (Proc.devRef .tc main_v105)) (W14 m ρ c (Proc.devRef .tc main_v106)) (W14 m ρ c (Proc.devRef .tc main_v107)) :=
  (W15_arr m ρ c 6).trans (arr3 (V14 m ρ) c)
theorem reg4_out : W21 m ρ c (Proc.devRef .tc main_v129)
    = G4 (W20 m ρ c (Proc.devRef .tc main_v124)) (W20 m ρ c (Proc.devRef .tc main_arg16)) (W20 m ρ c (Proc.devRef .tc main_v127))
        (W20 m ρ c (Proc.devRef .tc main_v125)) (W20 m ρ c (Proc.devRef .tc main_v128)) :=
  (W21_arr m ρ c 5).trans (arr4 (V20 m ρ) c)

/-! ## The fold read at the result -/

set_option maxHeartbeats 4000000 in
/-- The result buffer's final contents are `kOut` of the arguments' launch contents. -/
theorem result_eq : W22 m ρ c (Proc.devRef .tc main_v131) = (inK m ρ c).kOut := by
  simp only [Inp.kOut, Inp.scores, Inp.z, Inp.relu3, Inp.agg3, Inp.h3, Inp.relu2, Inp.agg2, Inp.h2, Inp.relu1, Inp.agg1, Inp.h1,
    Inp.dis, Inp.col, Inp.row, inK, c0, disT]
  -- the stretch entered at `W22`'s predecessor
  simp only [W22]
  repeat (first
    | rw [s5_out]
    | (rw [hostOps5_keep]; case hr => decide))
  -- a region: its output array, every other buffer as the region found it
  repeat (first
    | rw [reg4_out]
    | (rw [W21_of_ne]; case hb => decide))
  -- the stretch entered at `W20`'s predecessor
  simp only [W20]
  repeat (first
    | rw [s44_rb1]
    | rw [s44_rb2p]
    | (rw [hostOps4_4_keep]; case hr => decide))
  -- the stretch entered at `W19`'s predecessor
  simp only [W19]
  repeat (first
    | rw [s43_b2p]
    | (rw [hostOps4_3_keep]; case hr => decide))
  -- the stretch entered at `W18`'s predecessor
  simp only [W18]
  repeat (first
    | rw [s42_c28]
    | (rw [hostOps4_2_keep]; case hr => decide))
  -- the stretch entered at `W17`'s predecessor
  simp only [W17]
  repeat (first
    | rw [s41_w2p]
    | (rw [hostOps4_1_keep]; case hr => decide))
  -- the stretch entered at `W16`'s predecessor
  simp only [W16]
  repeat (first
    | rw [s4_emb]
    | rw [s4_c27]
    | (rw [hostOps4_keep]; case hr => decide))
  -- a region: its output array, every other buffer as the region found it
  repeat (first
    | rw [reg3_out]
    | (rw [W15_of_ne]; case hb => decide))
  -- the stretch entered at `W14`'s predecessor
  simp only [W14]
  repeat (first
    | rw [s3_rb]
    | rw [s3_rg]
    | rw [s3_rbt]
    | rw [s3_rmean]
    | rw [s3_rvar]
    | (rw [hostOps3_2_keep]; case hr => decide))
  -- the stretch entered at `W13`'s predecessor
  simp only [W13]
  repeat (first
    | rw [s3_var]
    | (rw [hostOps3_1_keep]; case hr => decide))
  -- the stretch entered at `W12`'s predecessor
  simp only [W12]
  repeat (first
    | rw [s3_agg]
    | rw [s3_relu]
    | rw [s3_mean]
    | rw [s3_c0]
    | (rw [hostOps3_keep]; case hr => decide))
  -- a region: its output array, every other buffer as the region found it
  repeat (first
    | rw [reg2_out]
    | (rw [W11_of_ne]; case hb => decide))
  -- the stretch entered at `W10`'s predecessor
  simp only [W10]
  repeat (first
    | rw [s2_rb]
    | rw [s2_rg]
    | rw [s2_rbt]
    | rw [s2_rmean]
    | rw [s2_rvar]
    | (rw [hostOps2_2_keep]; case hr => decide))
  -- the stretch entered at `W9`'s predecessor
  simp only [W9]
  repeat (first
    | rw [s2_var]
    | (rw [hostOps2_1_keep]; case hr => decide))
  -- the stretch entered at `W8`'s predecessor
  simp only [W8]
  repeat (first
    | rw [s2_agg]
    | rw [s2_relu]
    | rw [s2_mean]
    | rw [s2_c0]
    | (rw [hostOps2_keep]; case hr => decide))
  -- a region: its output array, every other buffer as the region found it
  repeat (first
    | rw [reg1_out]
    | (rw [W7_of_ne]; case hb => decide))
  -- the stretch entered at `W6`'s predecessor
  simp only [W6]
  repeat (first
    | rw [s1_rb]
    | rw [s1_rg]
    | rw [s1_rbt]
    | rw [s1_rmean]
    | rw [s1_rvar]
    | (rw [hostOps1_2_keep]; case hr => decide))
  -- the stretch entered at `W5`'s predecessor
  simp only [W5]
  repeat (first
    | rw [s1_var]
    | (rw [hostOps1_1_keep]; case hr => decide))
  -- the stretch entered at `W4`'s predecessor
  simp only [W4]
  repeat (first
    | rw [s1_agg]
    | rw [s1_relu]
    | rw [s1_mean]
    | rw [s1_c0]
    | (rw [hostOps1_keep]; case hr => decide))
  -- a region: its output array, every other buffer as the region found it
  repeat (first
    | rw [reg0_out]
    | (rw [W3_of_ne]; case hb => decide))
  -- the stretch entered at `W2`'s predecessor
  simp only [W2]
  repeat (first
    | rw [s01_v14]
    | (rw [hostOps0_1_keep]; case hr => decide))
  -- the stretch entered at `W1`'s predecessor
  simp only [W1]
  repeat (first
    | rw [s0_v3]
    | rw [s0_v6]
    | rw [s0_v12]
    | rw [s0_v13]
    | rw [s0_cst_2]
    | (rw [hostOps0_keep]; case hr => decide))
  -- both sides are now the same term
  first | done | rfl

end Cert.KernelIdeal.KR

end
-- ==== Proof.RefOps0.lean ====
import proofs.«136817_j2800318677196_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main before its first matrix product, callee bodies inlined at their calls (40 operations). -/
abbrev opsN : List (HloOp τ sig (Elt F)) :=
  [ StableHlo.nullary main_v0 (iotaInDim S50000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.nullary main_cst (constant S_ .f32 0x3F800000#32),
    StableHlo.unary main_cst main_v7 (broadcastInDim S1650000 ![] bcast_S_S1650000 : (⟨S_, .f32⟩ : BufTy).Contents (Elt F) → (⟨S1650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S1650000x1 ![0] bcast_S1650000_S1650000x1_0 : (⟨S1650000, .i32⟩ : BufTy).Contents (Elt F) → (⟨S1650000x1, .i32⟩ : BufTy).Contents (Elt F)),
    StableHlo.ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select,
    StableHlo.nullary main_c (constantI S_ 32 0#32),
    StableHlo.unary main_c main_v15 (broadcastInDim S1650000 ![] bcast_S_S1650000 : (⟨S_, .i32⟩ : BufTy).Contents (Elt F) → (⟨S1650000, .i32⟩ : BufTy).Contents (Elt F)),
    StableHlo.binary main_v3 main_v15 main_v16 (cmpi .slt : (⟨S1650000, .i32⟩ : BufTy).Contents (Elt F) → (⟨S1650000, .i32⟩ : BufTy).Contents (Elt F) → (⟨S1650000, .i1⟩ : BufTy).Contents (Elt F)),
    StableHlo.nullary main_c_3 (constantI S_ 32 50000#32),
    StableHlo.unary main_c_3 main_v17 (broadcastInDim S1650000 ![] bcast_S_S1650000 : (⟨S_, .i32⟩ : BufTy).Contents (Elt F) → (⟨S1650000, .i32⟩ : BufTy).Contents (Elt F)),
    StableHlo.binary main_v3 main_v17 main_v18 (addi : (⟨S1650000, .i32⟩ : BufTy).Contents (Elt F) → (⟨S1650000, .i32⟩ : BufTy).Contents (Elt F) → (⟨S1650000, .i32⟩ : BufTy).Contents (Elt F)),
    StableHlo.ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v19 main_v20 (broadcastInDim S1650000x1 ![0] bcast_S1650000_S1650000x1_0 : (⟨S1650000, .i32⟩ : BufTy).Contents (Elt F) → (⟨S1650000x1, .i32⟩ : BufTy).Contents (Elt F)),
    StableHlo.binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.nullary main_c_4 (constantI S_ 32 0#32),
    StableHlo.unary main_c_4 main_v22 (broadcastInDim S1650000 ![] bcast_S_S1650000 : (⟨S_, .i32⟩ : BufTy).Contents (Elt F) → (⟨S1650000, .i32⟩ : BufTy).Contents (Elt F)),
    StableHlo.binary main_v6 main_v22 main_v23 (cmpi .slt : (⟨S1650000, .i32⟩ : BufTy).Contents (Elt F) → (⟨S1650000, .i32⟩ : BufTy).Contents (Elt F) → (⟨S1650000, .i1⟩ : BufTy).Contents (Elt F)),
    StableHlo.nullary main_c_5 (constantI S_ 32 50000#32),
    StableHlo.unary main_c_5 main_v24 (broadcastInDim S1650000 ![] bcast_S_S1650000 : (⟨S_, .i32⟩ : BufTy).Contents (Elt F) → (⟨S1650000, .i32⟩ : BufTy).Contents (Elt F)),
    StableHlo.binary main_v6 main_v24 main_v25 (addi : (⟨S1650000, .i32⟩ : BufTy).Contents (Elt F) → (⟨S1650000, .i32⟩ : BufTy).Contents (Elt F) → (⟨S1650000, .i32⟩ : BufTy).Contents (Elt F)),
    StableHlo.ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v26 main_v27 (broadcastInDim S1650000x1 ![0] bcast_S1650000_S1650000x1_0 : (⟨S1650000, .i32⟩ : BufTy).Contents (Elt F) → (⟨S1650000x1, .i32⟩ : BufTy).Contents (Elt F)),
    StableHlo.binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v21 main_v28 main_v29 (mulf : (⟨S1650000, .f32⟩ : BufTy).Contents (Elt F) → (⟨S1650000, .f32⟩ : BufTy).Contents (Elt F) → (⟨S1650000, .f32⟩ : BufTy).Contents (Elt F)) ]

/-- Each of them names TensorCore buffers only: one case per operation, by its builder. -/
theorem opsN_sub : (opsN : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..⟩

/-- Each of them determines its result: one case per operation, by computation. -/
theorem opsN_fresh : (opsN : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl⟩

/-- The buffers they write, in order. -/
abbrev opsN_W : List (Ref sig .tc) :=
  [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]

end Cert.ReferenceIdeal.RefRun

end
-- ==== Proof.RefOps1.lean ====
import proofs.«136817_j2800318677196_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- From the first matrix product up to the second (67 operations). -/
abbrev opsL1 : List (HloOp τ sig (Elt F)) :=
  [ StableHlo.binary main_arg0 main_arg4 main_v30 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_6 (constantI S_ 32 0#32),
    StableHlo.unary main_c_6 main_v31 (broadcastInDim S1650000 ![] bcast_S_S1650000 : (⟨S_, .i32⟩ : BufTy).Contents (Elt F) → (⟨S1650000, .i32⟩ : BufTy).Contents (Elt F)),
    StableHlo.binary main_v3 main_v31 main_v32 (cmpi .slt : (⟨S1650000, .i32⟩ : BufTy).Contents (Elt F) → (⟨S1650000, .i32⟩ : BufTy).Contents (Elt F) → (⟨S1650000, .i1⟩ : BufTy).Contents (Elt F)),
    StableHlo.nullary main_c_7 (constantI S_ 32 50000#32),
    StableHlo.unary main_c_7 main_v33 (broadcastInDim S1650000 ![] bcast_S_S1650000 : (⟨S_, .i32⟩ : BufTy).Contents (Elt F) → (⟨S1650000, .i32⟩ : BufTy).Contents (Elt F)),
    StableHlo.binary main_v3 main_v33 main_v34 (addi : (⟨S1650000, .i32⟩ : BufTy).Contents (Elt F) → (⟨S1650000, .i32⟩ : BufTy).Contents (Elt F) → (⟨S1650000, .i32⟩ : BufTy).Contents (Elt F)),
    StableHlo.ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v35 main_v36 (broadcastInDim S1650000x1 ![0] bcast_S1650000_S1650000x1_0 : (⟨S1650000, .i32⟩ : BufTy).Contents (Elt F) → (⟨S1650000x1, .i32⟩ : BufTy).Contents (Elt F)),
    StableHlo.binary main_v30 main_v36 main_v37 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    StableHlo.unary main_v29 main_v38 (broadcastInDim S1650000x1 ![0] bcast_S1650000_S1650000x1_0 : (⟨S1650000, .f32⟩ : BufTy).Contents (Elt F) → (⟨S1650000x1, .f32⟩ : BufTy).Contents (Elt F)),
    StableHlo.unary main_v38 main_v39 (broadcastInDim S1650000x64 ![0, 1] bcast_S1650000x1_S1650000x64_0_1 : (⟨S1650000x1, .f32⟩ : BufTy).Contents (Elt F) → (⟨S1650000x64, .f32⟩ : BufTy).Contents (Elt F)),
    StableHlo.binary main_v37 main_v39 main_v40 (mulf : (⟨S1650000x64, .f32⟩ : BufTy).Contents (Elt F) → (⟨S1650000x64, .f32⟩ : BufTy).Contents (Elt F) → (⟨S1650000x64, .f32⟩ : BufTy).Contents (Elt F)),
    StableHlo.nullary main_cst_8 (constant S_ .f32 0x00000000#32),
    StableHlo.unary main_cst_8 main_v41 (broadcastInDim S50000x64 ![] bcast_S_S50000x64 : (⟨S_, .f32⟩ : BufTy).Contents (Elt F) → (⟨S50000x64, .f32⟩ : BufTy).Contents (Elt F)),
    StableHlo.unary main_v6 main_v42 (broadcastInDim S1650000x1 ![0] bcast_S1650000_S1650000x1_0 : (⟨S1650000, .i32⟩ : BufTy).Contents (Elt F) → (⟨S1650000x1, .i32⟩ : BufTy).Contents (Elt F)),
    StableHlo.ternary main_v41 main_v42 main_v40 main_v43 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    StableHlo.unary main_arg5 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S50000x64 ![0, 1] bcast_S1x64_S50000x64_0_1 : (⟨S1x64, .f32⟩ : BufTy).Contents (Elt F) → (⟨S50000x64, .f32⟩ : BufTy).Contents (Elt F)),
    StableHlo.binary main_v43 main_v45 main_v46 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x64, .f32⟩) (broadcastInDim S50000x64 ![] bcast_S_S50000x64),
    StableHlo.TRef.binary (.of main_v46 : StableHlo.TRef sig ⟨S50000x64, .f32⟩) (.of main_call1_v0 : StableHlo.TRef sig ⟨S50000x64, .f32⟩) (.of main_v47 : StableHlo.TRef sig ⟨S50000x64, .f32⟩) maximumf,
    StableHlo.nullary main_cst_9 (constant S_ .f32 0x00000000#32),
    StableHlo.binary main_v47 main_cst_9 main_v48 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_10 (constant S_ .f32 0x47435000#32),
    StableHlo.unary main_cst_10 main_v49 (broadcastInDim S64 ![] bcast_S_S64 : (⟨S_, .f32⟩ : BufTy).Contents (Elt F) → (⟨S64, .f32⟩ : BufTy).Contents (Elt F)),
    StableHlo.binary main_v48 main_v49 main_v50 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary (.of main_call2_cst : StableHlo.TRef sig ⟨S_, .f32⟩) (constant S_ .f32 0x00000000#32),
    StableHlo.TRef.binary (.of main_v47 : StableHlo.TRef sig ⟨S50000x64, .f32⟩) (.of main_call2_cst : StableHlo.TRef sig ⟨S_, .f32⟩) (.of main_call2_v0 : StableHlo.TRef sig ⟨S64, .f32⟩) (fun x v => Host.reduceAdd x v reducesTo_S50000x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S50000x64, .f32⟩) (broadcastInDim S50000x64 ![0, 1] bcast_S1x64_S50000x64_0_1),
    StableHlo.TRef.binary (.of main_v47 : StableHlo.TRef sig ⟨S50000x64, .f32⟩) (.of main_call2_v4 : StableHlo.TRef sig ⟨S50000x64, .f32⟩) (.of main_call2_v5 : StableHlo.TRef sig ⟨S50000x64, .f32⟩) subf,
    StableHlo.TRef.binary (.of main_call2_v5 : StableHlo.TRef sig ⟨S50000x64, .f32⟩) (.of main_call2_v5 : StableHlo.TRef sig ⟨S50000x64, .f32⟩) (.of main_call2_v6 : StableHlo.TRef sig ⟨S50000x64, .f32⟩) mulf,
    StableHlo.TRef.unary (.of main_c_11 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x64, .f32⟩) (.of main_call2_cst_2 : StableHlo.TRef sig ⟨S_, .f32⟩) (.of main_call2_v9 : StableHlo.TRef sig ⟨S64, .f32⟩) (fun x v => Host.reduceAdd x v reducesTo_S50000x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v51 : StableHlo.TRef sig ⟨S64, .f32⟩) (fun p a b => select (broadcastInDim S64 ![] bcast_S_S64 p) a b),
    StableHlo.unary main_v50 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S50000x64 ![0, 1] bcast_S1x64_S50000x64_0_1 : (⟨S1x64, .f32⟩ : BufTy).Contents (Elt F) → (⟨S50000x64, .f32⟩ : BufTy).Contents (Elt F)),
    StableHlo.binary main_v47 main_v53 main_v54 (subf : (⟨S50000x64, .f32⟩ : BufTy).Contents (Elt F) → (⟨S50000x64, .f32⟩ : BufTy).Contents (Elt F) → (⟨S50000x64, .f32⟩ : BufTy).Contents (Elt F)),
    StableHlo.unary main_arg10 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S50000x64 ![0, 1] bcast_S1x64_S50000x64_0_1 : (⟨S1x64, .f32⟩ : BufTy).Contents (Elt F) → (⟨S50000x64, .f32⟩ : BufTy).Contents (Elt F)),
    StableHlo.binary main_v56 main_v54 main_v57 (mulf : (⟨S50000x64, .f32⟩ : BufTy).Contents (Elt F) → (⟨S50000x64, .f32⟩ : BufTy).Contents (Elt F) → (⟨S50000x64, .f32⟩ : BufTy).Contents (Elt F)),
    StableHlo.nullary main_cst_12 (constant S_ .f32 0x3727C5AC#32),
    StableHlo.unary main_cst_12 main_v58 (broadcastInDim S64 ![] bcast_S_S64 : (⟨S_, .f32⟩ : BufTy).Contents (Elt F) → (⟨S64, .f32⟩ : BufTy).Contents (Elt F)),
    StableHlo.binary main_v51 main_v58 main_v59 (addf : (⟨S64, .f32⟩ : BufTy).Contents (Elt F) → (⟨S64, .f32⟩ : BufTy).Contents (Elt F) → (⟨S64, .f32⟩ : BufTy).Contents (Elt F)),
    StableHlo.unary main_v59 main_v60 (Host.rsqrt : (⟨S64, .f32⟩ : BufTy).Contents (Elt F) → (⟨S64, .f32⟩ : BufTy).Contents (Elt F)),
    StableHlo.unary main_v60 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S50000x64 ![0, 1] bcast_S1x64_S50000x64_0_1 : (⟨S1x64, .f32⟩ : BufTy).Contents (Elt F) → (⟨S50000x64, .f32⟩ : BufTy).Contents (Elt F)),
    StableHlo.binary main_v57 main_v62 main_v63 (mulf : (⟨S50000x64, .f32⟩ : BufTy).Contents (Elt F) → (⟨S50000x64, .f32⟩ : BufTy).Contents (Elt F) → (⟨S50000x64, .f32⟩ : BufTy).Contents (Elt F)),
    StableHlo.unary main_arg11 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S50000x64 ![0, 1] bcast_S1x64_S50000x64_0_1 : (⟨S1x64, .f32⟩ : BufTy).Contents (Elt F) → (⟨S50000x64, .f32⟩ : BufTy).Contents (Elt F)),
    StableHlo.binary main_v63 main_v65 main_v66 (addf : (⟨S50000x64, .f32⟩ : BufTy).Contents (Elt F) → (⟨S50000x64, .f32⟩ : BufTy).Contents (Elt F) → (⟨S50000x64, .f32⟩ : BufTy).Contents (Elt F)) ]

/-- Each of them names TensorCore buffers only: one case per operation, by its builder. -/
theorem opsL1_sub : (opsL1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub ..⟩

/-- Each of them determines its result: one case per operation, by computation. -/
theorem opsL1_fresh : (opsL1 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl⟩

/-- The buffers they write, in order. -/
abbrev opsL1_W : List (Ref sig .tc) :=
  [main_v30, main_c_6, main_v31, main_v32, main_c_7, main_v33, main_v34, main_v35, main_v36, main_v37, main_v38, main_v39, main_v40, main_cst_8, main_v41, main_v42, main_v43, main_v44, main_v45, main_v46, main_call1_cst, main_call1_v0, main_v47, main_cst_9, main_v48, main_cst_10, main_v49, main_v50, main_c_11, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v51, main_v52, main_v53, main_v54, main_v55, main_v56, main_v57, main_cst_12, main_v58, main_v59, main_v60, main_v61, main_v62, main_v63, main_v64, main_v65, main_v66]

end Cert.ReferenceIdeal.RefRun

end
-- ==== Proof.RefOps2.lean ====
import proofs.«136817_j2800318677196_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- From the second matrix product up to the third (67 operations). -/
abbrev opsL2 : List (HloOp τ sig (Elt F)) :=
  [ StableHlo.binary main_v66 main_arg6 main_v67 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.nullary main_c_13 (constantI S_ 32 0#32),
    StableHlo.unary main_c_13 main_v68 (broadcastInDim S1650000 ![] bcast_S_S1650000 : (⟨S_, .i32⟩ : BufTy).Contents (Elt F) → (⟨S1650000, .i32⟩ : BufTy).Contents (Elt F)),
    StableHlo.binary main_v3 main_v68 main_v69 (cmpi .slt : (⟨S1650000, .i32⟩ : BufTy).Contents (Elt F) → (⟨S1650000, .i32⟩ : BufTy).Contents (Elt F) → (⟨S1650000, .i1⟩ : BufTy).Contents (Elt F)),
    StableHlo.nullary main_c_14 (constantI S_ 32 50000#32),
    StableHlo.unary main_c_14 main_v70 (broadcastInDim S1650000 ![] bcast_S_S1650000 : (⟨S_, .i32⟩ : BufTy).Contents (Elt F) → (⟨S1650000, .i32⟩ : BufTy).Contents (Elt F)),
    StableHlo.binary main_v3 main_v70 main_v71 (addi : (⟨S1650000, .i32⟩ : BufTy).Contents (Elt F) → (⟨S1650000, .i32⟩ : BufTy).Contents (Elt F) → (⟨S1650000, .i32⟩ : BufTy).Contents (Elt F)),
    StableHlo.ternary main_v69 main_v71 main_v3 main_v72 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v72 main_v73 (broadcastInDim S1650000x1 ![0] bcast_S1650000_S1650000x1_0 : (⟨S1650000, .i32⟩ : BufTy).Contents (Elt F) → (⟨S1650000x1, .i32⟩ : BufTy).Contents (Elt F)),
    StableHlo.binary main_v67 main_v73 main_v74 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v75 (broadcastInDim S1650000x1 ![0] bcast_S1650000_S1650000x1_0 : (⟨S1650000, .f32⟩ : BufTy).Contents (Elt F) → (⟨S1650000x1, .f32⟩ : BufTy).Contents (Elt F)),
    StableHlo.unary main_v75 main_v76 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v74 main_v76 main_v77 (mulf : (⟨S1650000x128, .f32⟩ : BufTy).Contents (Elt F) → (⟨S1650000x128, .f32⟩ : BufTy).Contents (Elt F) → (⟨S1650000x128, .f32⟩ : BufTy).Contents (Elt F)),
    StableHlo.nullary main_cst_15 (constant S_ .f32 0x00000000#32),
    StableHlo.unary main_cst_15 main_v78 (broadcastInDim S50000x128 ![] bcast_S_S50000x128 : (⟨S_, .f32⟩ : BufTy).Contents (Elt F) → (⟨S50000x128, .f32⟩ : BufTy).Contents (Elt F)),
    StableHlo.unary main_v6 main_v79 (broadcastInDim S1650000x1 ![0] bcast_S1650000_S1650000x1_0 : (⟨S1650000, .i32⟩ : BufTy).Contents (Elt F) → (⟨S1650000x1, .i32⟩ : BufTy).Contents (Elt F)),
    StableHlo.ternary main_v78 main_v79 main_v77 main_v80 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg7 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v82 main_v83 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x128, .f32⟩) (broadcastInDim S50000x128 ![] bcast_S_S50000x128),
    StableHlo.TRef.binary (.of main_v83 : StableHlo.TRef sig ⟨S50000x128, .f32⟩) (.of main_call3_v0 : StableHlo.TRef sig ⟨S50000x128, .f32⟩) (.of main_v84 : StableHlo.TRef sig ⟨S50000x128, .f32⟩) maximumf,
    StableHlo.nullary main_cst_16 (constant S_ .f32 0x00000000#32),
    StableHlo.binary main_v84 main_cst_16 main_v85 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v86 (broadcastInDim S128 ![] bcast_S_S128 : (⟨S_, .f32⟩ : BufTy).Contents (Elt F) → (⟨S128, .f32⟩ : BufTy).Contents (Elt F)),
    StableHlo.binary main_v85 main_v86 main_v87 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary (.of main_call4_cst : StableHlo.TRef sig ⟨S_, .f32⟩) (constant S_ .f32 0x00000000#32),
    StableHlo.TRef.binary (.of main_v84 : StableHlo.TRef sig ⟨S50000x128, .f32⟩) (.of main_call4_cst : StableHlo.TRef sig ⟨S_, .f32⟩) (.of main_call4_v0 : StableHlo.TRef sig ⟨S128, .f32⟩) (fun x v => Host.reduceAdd x v reducesTo_S50000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47435000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S50000x128, .f32⟩) (broadcastInDim S50000x128 ![0, 1] bcast_S1x128_S50000x128_0_1),
    StableHlo.TRef.binary (.of main_v84 : StableHlo.TRef sig ⟨S50000x128, .f32⟩) (.of main_call4_v4 : StableHlo.TRef sig ⟨S50000x128, .f32⟩) (.of main_call4_v5 : StableHlo.TRef sig ⟨S50000x128, .f32⟩) subf,
    StableHlo.TRef.binary (.of main_call4_v5 : StableHlo.TRef sig ⟨S50000x128, .f32⟩) (.of main_call4_v5 : StableHlo.TRef sig ⟨S50000x128, .f32⟩) (.of main_call4_v6 : StableHlo.TRef sig ⟨S50000x128, .f32⟩) mulf,
    StableHlo.TRef.unary (.of main_c_18 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47435000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S50000x128, .f32⟩) (.of main_call4_cst_2 : StableHlo.TRef sig ⟨S_, .f32⟩) (.of main_call4_v9 : StableHlo.TRef sig ⟨S128, .f32⟩) (fun x v => Host.reduceAdd x v reducesTo_S50000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v88 : StableHlo.TRef sig ⟨S128, .f32⟩) (fun p a b => select (broadcastInDim S128 ![] bcast_S_S128 p) a b),
    StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v90 main_v91 (subf : (⟨S50000x128, .f32⟩ : BufTy).Contents (Elt F) → (⟨S50000x128, .f32⟩ : BufTy).Contents (Elt F) → (⟨S50000x128, .f32⟩ : BufTy).Contents (Elt F)),
    StableHlo.unary main_arg12 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v91 main_v94 (mulf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v95 (broadcastInDim S128 ![] bcast_S_S128 : (⟨S_, .f32⟩ : BufTy).Contents (Elt F) → (⟨S128, .f32⟩ : BufTy).Contents (Elt F)),
    StableHlo.binary main_v88 main_v95 main_v96 (addf : (⟨S128, .f32⟩ : BufTy).Contents (Elt F) → (⟨S128, .f32⟩ : BufTy).Contents (Elt F) → (⟨S128, .f32⟩ : BufTy).Contents (Elt F)),
    StableHlo.unary main_v96 main_v97 (Host.rsqrt : (⟨S128, .f32⟩ : BufTy).Contents (Elt F) → (⟨S128, .f32⟩ : BufTy).Contents (Elt F)),
    StableHlo.unary main_v97 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v99 main_v100 (mulf : (⟨S50000x128, .f32⟩ : BufTy).Contents (Elt F) → (⟨S50000x128, .f32⟩ : BufTy).Contents (Elt F) → (⟨S50000x128, .f32⟩ : BufTy).Contents (Elt F)),
    StableHlo.unary main_arg13 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)) ]

/-- Each of them names TensorCore buffers only: one case per operation, by its builder. -/
theorem opsL2_sub : (opsL2 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub ..⟩

/-- Each of them determines its result: one case per operation, by computation. -/
theorem opsL2_fresh : (opsL2 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl⟩

/-- The buffers they write, in order. -/
abbrev opsL2_W : List (Ref sig .tc) :=
  [main_v67, main_c_13, main_v68, main_v69, main_c_14, main_v70, main_v71, main_v72, main_v73, main_v74, main_v75, main_v76, main_v77, main_cst_15, main_v78, main_v79, main_v80, main_v81, main_v82, main_v83, main_call3_cst, main_call3_v0, main_v84, main_cst_16, main_v85, main_cst_17, main_v86, main_v87, main_c_18, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v88, main_v89, main_v90, main_v91, main_v92, main_v93, main_v94, main_cst_19, main_v95, main_v96, main_v97, main_v98, main_v99, main_v100, main_v101, main_v102, main_v103]

end Cert.ReferenceIdeal.RefRun

end
-- ==== Proof.RefOps3.lean ====
import proofs.«136817_j2800318677196_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- From the third matrix product up to the fourth (86 operations). -/
abbrev opsL3 : List (HloOp τ sig (Elt F)) :=
  [ StableHlo.binary main_v103 main_arg8 main_v104 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_20 (constantI S_ 32 0#32),
    StableHlo.unary main_c_20 main_v105 (broadcastInDim S1650000 ![] bcast_S_S1650000 : (⟨S_, .i32⟩ : BufTy).Contents (Elt F) → (⟨S1650000, .i32⟩ : BufTy).Contents (Elt F)),
    StableHlo.binary main_v3 main_v105 main_v106 (cmpi .slt : (⟨S1650000, .i32⟩ : BufTy).Contents (Elt F) → (⟨S1650000, .i32⟩ : BufTy).Contents (Elt F) → (⟨S1650000, .i1⟩ : BufTy).Contents (Elt F)),
    StableHlo.nullary main_c_21 (constantI S_ 32 50000#32),
    StableHlo.unary main_c_21 main_v107 (broadcastInDim S1650000 ![] bcast_S_S1650000 : (⟨S_, .i32⟩ : BufTy).Contents (Elt F) → (⟨S1650000, .i32⟩ : BufTy).Contents (Elt F)),
    StableHlo.binary main_v3 main_v107 main_v108 (addi : (⟨S1650000, .i32⟩ : BufTy).Contents (Elt F) → (⟨S1650000, .i32⟩ : BufTy).Contents (Elt F) → (⟨S1650000, .i32⟩ : BufTy).Contents (Elt F)),
    StableHlo.ternary main_v106 main_v108 main_v3 main_v109 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v109 main_v110 (broadcastInDim S1650000x1 ![0] bcast_S1650000_S1650000x1_0 : (⟨S1650000, .i32⟩ : BufTy).Contents (Elt F) → (⟨S1650000x1, .i32⟩ : BufTy).Contents (Elt F)),
    StableHlo.binary main_v104 main_v110 main_v111 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v112 (broadcastInDim S1650000x1 ![0] bcast_S1650000_S1650000x1_0 : (⟨S1650000, .f32⟩ : BufTy).Contents (Elt F) → (⟨S1650000x1, .f32⟩ : BufTy).Contents (Elt F)),
    StableHlo.unary main_v112 main_v113 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v111 main_v113 main_v114 (mulf : (⟨S1650000x128, .f32⟩ : BufTy).Contents (Elt F) → (⟨S1650000x128, .f32⟩ : BufTy).Contents (Elt F) → (⟨S1650000x128, .f32⟩ : BufTy).Contents (Elt F)),
    StableHlo.nullary main_cst_22 (constant S_ .f32 0x00000000#32),
    StableHlo.unary main_cst_22 main_v115 (broadcastInDim S50000x128 ![] bcast_S_S50000x128 : (⟨S_, .f32⟩ : BufTy).Contents (Elt F) → (⟨S50000x128, .f32⟩ : BufTy).Contents (Elt F)),
    StableHlo.unary main_v6 main_v116 (broadcastInDim S1650000x1 ![0] bcast_S1650000_S1650000x1_0 : (⟨S1650000, .i32⟩ : BufTy).Contents (Elt F) → (⟨S1650000x1, .i32⟩ : BufTy).Contents (Elt F)),
    StableHlo.ternary main_v115 main_v116 main_v114 main_v117 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg9 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v119 main_v120 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v120 : StableHlo.TRef sig ⟨S50000x128, .f32⟩) (.of main_call5_v0 : StableHlo.TRef sig ⟨S50000x128, .f32⟩) (.of main_v121 : StableHlo.TRef sig ⟨S50000x128, .f32⟩) maximumf,
    StableHlo.nullary main_cst_23 (constant S_ .f32 0x00000000#32),
    StableHlo.binary main_v121 main_cst_23 main_v122 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v123 (broadcastInDim S128 ![] bcast_S_S128 : (⟨S_, .f32⟩ : BufTy).Contents (Elt F) → (⟨S128, .f32⟩ : BufTy).Contents (Elt F)),
    StableHlo.binary main_v122 main_v123 main_v124 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary (.of main_call6_cst : StableHlo.TRef sig ⟨S_, .f32⟩) (constant S_ .f32 0x00000000#32),
    StableHlo.TRef.binary (.of main_v121 : StableHlo.TRef sig ⟨S50000x128, .f32⟩) (.of main_call6_cst : StableHlo.TRef sig ⟨S_, .f32⟩) (.of main_call6_v0 : StableHlo.TRef sig ⟨S128, .f32⟩) (fun x v => Host.reduceAdd x v reducesTo_S50000x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x47435000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S50000x128, .f32⟩) (broadcastInDim S50000x128 ![0, 1] bcast_S1x128_S50000x128_0_1),
    StableHlo.TRef.binary (.of main_v121 : StableHlo.TRef sig ⟨S50000x128, .f32⟩) (.of main_call6_v4 : StableHlo.TRef sig ⟨S50000x128, .f32⟩) (.of main_call6_v5 : StableHlo.TRef sig ⟨S50000x128, .f32⟩) subf,
    StableHlo.TRef.binary (.of main_call6_v5 : StableHlo.TRef sig ⟨S50000x128, .f32⟩) (.of main_call6_v5 : StableHlo.TRef sig ⟨S50000x128, .f32⟩) (.of main_call6_v6 : StableHlo.TRef sig ⟨S50000x128, .f32⟩) mulf,
    StableHlo.TRef.unary (.of main_c_25 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47435000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S50000x128, .f32⟩) (.of main_call6_cst_2 : StableHlo.TRef sig ⟨S_, .f32⟩) (.of main_call6_v9 : StableHlo.TRef sig ⟨S128, .f32⟩) (fun x v => Host.reduceAdd x v reducesTo_S50000x128_S128_d0 h_S_),
    StableHlo.TRef.unary (.of main_call6_v8 : StableHlo.TRef sig ⟨S_, .f32⟩) (.of main_call6_v10 : StableHlo.TRef sig ⟨S128, .f32⟩) (broadcastInDim S128 ![] bcast_S_S128),
    StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S128, .f32⟩) (broadcastInDim S128 ![] bcast_S_S128),
    StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v125 : StableHlo.TRef sig ⟨S128, .f32⟩) (fun p a b => select (broadcastInDim S128 ![] bcast_S_S128 p) a b),
    StableHlo.unary main_v124 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v127 main_v128 (subf : (⟨S50000x128, .f32⟩ : BufTy).Contents (Elt F) → (⟨S50000x128, .f32⟩ : BufTy).Contents (Elt F) → (⟨S50000x128, .f32⟩ : BufTy).Contents (Elt F)),
    StableHlo.unary main_arg14 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v128 main_v131 (mulf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v132 (broadcastInDim S128 ![] bcast_S_S128 : (⟨S_, .f32⟩ : BufTy).Contents (Elt F) → (⟨S128, .f32⟩ : BufTy).Contents (Elt F)),
    StableHlo.binary main_v125 main_v132 main_v133 (addf : (⟨S128, .f32⟩ : BufTy).Contents (Elt F) → (⟨S128, .f32⟩ : BufTy).Contents (Elt F) → (⟨S128, .f32⟩ : BufTy).Contents (Elt F)),
    StableHlo.unary main_v133 main_v134 (Host.rsqrt : (⟨S128, .f32⟩ : BufTy).Contents (Elt F) → (⟨S128, .f32⟩ : BufTy).Contents (Elt F)),
    StableHlo.unary main_v134 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v131 main_v136 main_v137 (mulf : (⟨S50000x128, .f32⟩ : BufTy).Contents (Elt F) → (⟨S50000x128, .f32⟩ : BufTy).Contents (Elt F) → (⟨S50000x128, .f32⟩ : BufTy).Contents (Elt F)),
    StableHlo.unary main_arg15 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v139 main_v140 (addf : (⟨S50000x128, .f32⟩ : BufTy).Contents (Elt F) → (⟨S50000x128, .f32⟩ : BufTy).Contents (Elt F) → (⟨S50000x128, .f32⟩ : BufTy).Contents (Elt F)),
    StableHlo.nullary main_c_27 (constantI S_ 32 0#32),
    StableHlo.unary main_c_27 main_v141 (broadcastInDim S200000 ![] bcast_S_S200000 : (⟨S_, .i32⟩ : BufTy).Contents (Elt F) → (⟨S200000, .i32⟩ : BufTy).Contents (Elt F)),
    StableHlo.binary main_arg2 main_v141 main_v142 (cmpi .slt : (⟨S200000, .i32⟩ : BufTy).Contents (Elt F) → (⟨S200000, .i32⟩ : BufTy).Contents (Elt F) → (⟨S200000, .i1⟩ : BufTy).Contents (Elt F)),
    StableHlo.nullary main_c_28 (constantI S_ 32 50000#32),
    StableHlo.unary main_c_28 main_v143 (broadcastInDim S200000 ![] bcast_S_S200000 : (⟨S_, .i32⟩ : BufTy).Contents (Elt F) → (⟨S200000, .i32⟩ : BufTy).Contents (Elt F)),
    StableHlo.binary main_arg2 main_v143 main_v144 (addi : (⟨S200000, .i32⟩ : BufTy).Contents (Elt F) → (⟨S200000, .i32⟩ : BufTy).Contents (Elt F) → (⟨S200000, .i32⟩ : BufTy).Contents (Elt F)),
    StableHlo.ternary main_v142 main_v144 main_arg2 main_v145 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v145 main_v146 (broadcastInDim S200000x1 ![0] bcast_S200000_S200000x1_0 : (⟨S200000, .i32⟩ : BufTy).Contents (Elt F) → (⟨S200000x1, .i32⟩ : BufTy).Contents (Elt F)),
    StableHlo.binary main_v140 main_v146 main_v147 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)),
    StableHlo.nullary main_c_29 (constantI S_ 32 0#32),
    StableHlo.unary main_c_29 main_v148 (broadcastInDim S200000 ![] bcast_S_S200000 : (⟨S_, .i32⟩ : BufTy).Contents (Elt F) → (⟨S200000, .i32⟩ : BufTy).Contents (Elt F)),
    StableHlo.binary main_arg3 main_v148 main_v149 (cmpi .slt : (⟨S200000, .i32⟩ : BufTy).Contents (Elt F) → (⟨S200000, .i32⟩ : BufTy).Contents (Elt F) → (⟨S200000, .i1⟩ : BufTy).Contents (Elt F)),
    StableHlo.nullary main_c_30 (constantI S_ 32 50000#32),
    StableHlo.unary main_c_30 main_v150 (broadcastInDim S200000 ![] bcast_S_S200000 : (⟨S_, .i32⟩ : BufTy).Contents (Elt F) → (⟨S200000, .i32⟩ : BufTy).Contents (Elt F)),
    StableHlo.binary main_arg3 main_v150 main_v151 (addi : (⟨S200000, .i32⟩ : BufTy).Contents (Elt F) → (⟨S200000, .i32⟩ : BufTy).Contents (Elt F) → (⟨S200000, .i32⟩ : BufTy).Contents (Elt F)),
    StableHlo.ternary main_v149 main_v151 main_arg3 main_v152 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v152 main_v153 (broadcastInDim S200000x1 ![0] bcast_S200000_S200000x1_0 : (⟨S200000, .i32⟩ : BufTy).Contents (Elt F) → (⟨S200000x1, .i32⟩ : BufTy).Contents (Elt F)),
    StableHlo.binary main_v140 main_v153 main_v154 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)),
    StableHlo.binary main_v147 main_v154 main_v155 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)) ]

/-- Each of them names TensorCore buffers only: one case per operation, by its builder. -/
theorem opsL3_sub : (opsL3 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub ..⟩

/-- Each of them determines its result: one case per operation, by computation. -/
theorem opsL3_fresh : (opsL3 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl⟩

/-- The buffers they write, in order. -/
abbrev opsL3_W : List (Ref sig .tc) :=
  [main_v104, main_c_20, main_v105, main_v106, main_c_21, main_v107, main_v108, main_v109, main_v110, main_v111, main_v112, main_v113, main_v114, main_cst_22, main_v115, main_v116, main_v117, main_v118, main_v119, main_v120, main_call5_cst, main_call5_v0, main_v121, main_cst_23, main_v122, main_cst_24, main_v123, main_v124, main_c_25, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v125, main_v126, main_v127, main_v128, main_v129, main_v130, main_v131, main_cst_26, main_v132, main_v133, main_v134, main_v135, main_v136, main_v137, main_v138, main_v139, main_v140, main_c_27, main_v141, main_v142, main_c_28, main_v143, main_v144, main_v145, main_v146, main_v147, main_c_29, main_v148, main_v149, main_c_30, main_v150, main_v151, main_v152, main_v153, main_v154, main_v155]

end Cert.ReferenceIdeal.RefRun

end
-- ==== Proof.RefOps4.lean ====
import proofs.«136817_j2800318677196_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- From the fourth matrix product to the end (12 operations). -/
abbrev opsS : List (HloOp τ sig (Elt F)) :=
  [ StableHlo.binary main_v155 main_arg16 main_v156 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    StableHlo.unary main_arg17 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S200000x128 ![0, 1] bcast_S1x128_S200000x128_0_1 : (⟨S1x128, .f32⟩ : BufTy).Contents (Elt F) → (⟨S200000x128, .f32⟩ : BufTy).Contents (Elt F)),
    StableHlo.binary main_v156 main_v158 main_v159 (addf : (⟨S200000x128, .f32⟩ : BufTy).Contents (Elt F) → (⟨S200000x128, .f32⟩ : BufTy).Contents (Elt F) → (⟨S200000x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S200000x128, .f32⟩) (broadcastInDim S200000x128 ![] bcast_S_S200000x128),
    StableHlo.TRef.binary (.of main_v159 : StableHlo.TRef sig ⟨S200000x128, .f32⟩) (.of main_call7_v0 : StableHlo.TRef sig ⟨S200000x128, .f32⟩) (.of main_v160 : StableHlo.TRef sig ⟨S200000x128, .f32⟩) maximumf,
    StableHlo.binary main_v160 main_arg18 main_v161 ((fun l r => Host.dotGeneral dot_S200000x128_S128x1_S200000x1_1_0_0_1_n_n none l r) : (⟨S200000x128, .f32⟩ : BufTy).Contents (Elt F) → (⟨S128x1, .f32⟩ : BufTy).Contents (Elt F) → (⟨S200000x1, .f32⟩ : BufTy).Contents (Elt F)),
    StableHlo.unary main_arg19 main_v162 (broadcastInDim S1x1 ![1] bcast_S1_S1x1_1 : (⟨S1, .f32⟩ : BufTy).Contents (Elt F) → (⟨S1x1, .f32⟩ : BufTy).Contents (Elt F)),
    StableHlo.unary main_v162 main_v163 (broadcastInDim S200000x1 ![0, 1] bcast_S1x1_S200000x1_0_1 : (⟨S1x1, .f32⟩ : BufTy).Contents (Elt F) → (⟨S200000x1, .f32⟩ : BufTy).Contents (Elt F)),
    StableHlo.binary main_v161 main_v163 main_v164 (addf : (⟨S200000x1, .f32⟩ : BufTy).Contents (Elt F) → (⟨S200000x1, .f32⟩ : BufTy).Contents (Elt F) → (⟨S200000x1, .f32⟩ : BufTy).Contents (Elt F)),
    StableHlo.reshape main_v164 main_v165 rfl shapeCasts_S200000x1_S200000 ]

/-- Each of them names TensorCore buffers only: one case per operation, by its builder. -/
theorem opsS_sub : (opsS : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., reshape_bufs_sub ..⟩

/-- Each of them determines its result: one case per operation, by computation. -/
theorem opsS_fresh : (opsS : List (HloOp τ sig (Elt F))).Forall fun op => op.fresh = ∅ :=
  ⟨rfl, rfl, rfl, rfl, rfl, rfl,
    rfl, rfl, rfl, rfl, rfl, rfl⟩

/-- The buffers they write, in order. -/
abbrev opsS_W : List (Ref sig .tc) :=
  [main_v156, main_v157, main_v158, main_v159, main_call7_cst, main_call7_v0, main_v160, main_v161, main_v162, main_v163, main_v164, main_v165]

end Cert.ReferenceIdeal.RefRun

end
-- ==== Proof.RefParts.lean ====
import proofs.«136817_j2800318677196_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The printed window main_part0 as a list (64 operations). -/
abbrev part0 : List (HloOp τ sig (Elt F)) :=
  [ StableHlo.nullary main_v0 (iotaInDim S50000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.nullary main_cst (constant S_ .f32 0x3F800000#32),
    StableHlo.unary main_cst main_v7 (broadcastInDim S1650000 ![] bcast_S_S1650000 : (⟨S_, .f32⟩ : BufTy).Contents (Elt F) → (⟨S1650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S1650000x1 ![0] bcast_S1650000_S1650000x1_0 : (⟨S1650000, .i32⟩ : BufTy).Contents (Elt F) → (⟨S1650000x1, .i32⟩ : BufTy).Contents (Elt F)),
    StableHlo.ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select,
    StableHlo.nullary main_c (constantI S_ 32 0#32),
    StableHlo.unary main_c main_v15 (broadcastInDim S1650000 ![] bcast_S_S1650000 : (⟨S_, .i32⟩ : BufTy).Contents (Elt F) → (⟨S1650000, .i32⟩ : BufTy).Contents (Elt F)),
    StableHlo.binary main_v3 main_v15 main_v16 (cmpi .slt : (⟨S1650000, .i32⟩ : BufTy).Contents (Elt F) → (⟨S1650000, .i32⟩ : BufTy).Contents (Elt F) → (⟨S1650000, .i1⟩ : BufTy).Contents (Elt F)),
    StableHlo.nullary main_c_3 (constantI S_ 32 50000#32),
    StableHlo.unary main_c_3 main_v17 (broadcastInDim S1650000 ![] bcast_S_S1650000 : (⟨S_, .i32⟩ : BufTy).Contents (Elt F) → (⟨S1650000, .i32⟩ : BufTy).Contents (Elt F)),
    StableHlo.binary main_v3 main_v17 main_v18 (addi : (⟨S1650000, .i32⟩ : BufTy).Contents (Elt F) → (⟨S1650000, .i32⟩ : BufTy).Contents (Elt F) → (⟨S1650000, .i32⟩ : BufTy).Contents (Elt F)),
    StableHlo.ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v19 main_v20 (broadcastInDim S1650000x1 ![0] bcast_S1650000_S1650000x1_0 : (⟨S1650000, .i32⟩ : BufTy).Contents (Elt F) → (⟨S1650000x1, .i32⟩ : BufTy).Contents (Elt F)),
    StableHlo.binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.nullary main_c_4 (constantI S_ 32 0#32),
    StableHlo.unary main_c_4 main_v22 (broadcastInDim S1650000 ![] bcast_S_S1650000 : (⟨S_, .i32⟩ : BufTy).Contents (Elt F) → (⟨S1650000, .i32⟩ : BufTy).Contents (Elt F)),
    StableHlo.binary main_v6 main_v22 main_v23 (cmpi .slt : (⟨S1650000, .i32⟩ : BufTy).Contents (Elt F) → (⟨S1650000, .i32⟩ : BufTy).Contents (Elt F) → (⟨S1650000, .i1⟩ : BufTy).Contents (Elt F)),
    StableHlo.nullary main_c_5 (constantI S_ 32 50000#32),
    StableHlo.unary main_c_5 main_v24 (broadcastInDim S1650000 ![] bcast_S_S1650000 : (⟨S_, .i32⟩ : BufTy).Contents (Elt F) → (⟨S1650000, .i32⟩ : BufTy).Contents (Elt F)),
    StableHlo.binary main_v6 main_v24 main_v25 (addi : (⟨S1650000, .i32⟩ : BufTy).Contents (Elt F) → (⟨S1650000, .i32⟩ : BufTy).Contents (Elt F) → (⟨S1650000, .i32⟩ : BufTy).Contents (Elt F)),
    StableHlo.ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v26 main_v27 (broadcastInDim S1650000x1 ![0] bcast_S1650000_S1650000x1_0 : (⟨S1650000, .i32⟩ : BufTy).Contents (Elt F) → (⟨S1650000x1, .i32⟩ : BufTy).Contents (Elt F)),
    StableHlo.binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v21 main_v28 main_v29 (mulf : (⟨S1650000, .f32⟩ : BufTy).Contents (Elt F) → (⟨S1650000, .f32⟩ : BufTy).Contents (Elt F) → (⟨S1650000, .f32⟩ : BufTy).Contents (Elt F)),
    StableHlo.binary main_arg0 main_arg4 main_v30 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_6 (constantI S_ 32 0#32),
    StableHlo.unary main_c_6 main_v31 (broadcastInDim S1650000 ![] bcast_S_S1650000 : (⟨S_, .i32⟩ : BufTy).Contents (Elt F) → (⟨S1650000, .i32⟩ : BufTy).Contents (Elt F)),
    StableHlo.binary main_v3 main_v31 main_v32 (cmpi .slt : (⟨S1650000, .i32⟩ : BufTy).Contents (Elt F) → (⟨S1650000, .i32⟩ : BufTy).Contents (Elt F) → (⟨S1650000, .i1⟩ : BufTy).Contents (Elt F)),
    StableHlo.nullary main_c_7 (constantI S_ 32 50000#32),
    StableHlo.unary main_c_7 main_v33 (broadcastInDim S1650000 ![] bcast_S_S1650000 : (⟨S_, .i32⟩ : BufTy).Contents (Elt F) → (⟨S1650000, .i32⟩ : BufTy).Contents (Elt F)),
    StableHlo.binary main_v3 main_v33 main_v34 (addi : (⟨S1650000, .i32⟩ : BufTy).Contents (Elt F) → (⟨S1650000, .i32⟩ : BufTy).Contents (Elt F) → (⟨S1650000, .i32⟩ : BufTy).Contents (Elt F)),
    StableHlo.ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v35 main_v36 (broadcastInDim S1650000x1 ![0] bcast_S1650000_S1650000x1_0 : (⟨S1650000, .i32⟩ : BufTy).Contents (Elt F) → (⟨S1650000x1, .i32⟩ : BufTy).Contents (Elt F)),
    StableHlo.binary main_v30 main_v36 main_v37 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    StableHlo.unary main_v29 main_v38 (broadcastInDim S1650000x1 ![0] bcast_S1650000_S1650000x1_0 : (⟨S1650000, .f32⟩ : BufTy).Contents (Elt F) → (⟨S1650000x1, .f32⟩ : BufTy).Contents (Elt F)),
    StableHlo.unary main_v38 main_v39 (broadcastInDim S1650000x64 ![0, 1] bcast_S1650000x1_S1650000x64_0_1 : (⟨S1650000x1, .f32⟩ : BufTy).Contents (Elt F) → (⟨S1650000x64, .f32⟩ : BufTy).Contents (Elt F)),
    StableHlo.binary main_v37 main_v39 main_v40 (mulf : (⟨S1650000x64, .f32⟩ : BufTy).Contents (Elt F) → (⟨S1650000x64, .f32⟩ : BufTy).Contents (Elt F) → (⟨S1650000x64, .f32⟩ : BufTy).Contents (Elt F)),
    StableHlo.nullary main_cst_8 (constant S_ .f32 0x00000000#32),
    StableHlo.unary main_cst_8 main_v41 (broadcastInDim S50000x64 ![] bcast_S_S50000x64 : (⟨S_, .f32⟩ : BufTy).Contents (Elt F) → (⟨S50000x64, .f32⟩ : BufTy).Contents (Elt F)),
    StableHlo.unary main_v6 main_v42 (broadcastInDim S1650000x1 ![0] bcast_S1650000_S1650000x1_0 : (⟨S1650000, .i32⟩ : BufTy).Contents (Elt F) → (⟨S1650000x1, .i32⟩ : BufTy).Contents (Elt F)),
    StableHlo.ternary main_v41 main_v42 main_v40 main_v43 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    StableHlo.unary main_arg5 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S50000x64 ![0, 1] bcast_S1x64_S50000x64_0_1 : (⟨S1x64, .f32⟩ : BufTy).Contents (Elt F) → (⟨S50000x64, .f32⟩ : BufTy).Contents (Elt F)),
    StableHlo.binary main_v43 main_v45 main_v46 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x64, .f32⟩) (broadcastInDim S50000x64 ![] bcast_S_S50000x64),
    StableHlo.TRef.binary (.of main_v46 : StableHlo.TRef sig ⟨S50000x64, .f32⟩) (.of main_call1_v0 : StableHlo.TRef sig ⟨S50000x64, .f32⟩) (.of main_v47 : StableHlo.TRef sig ⟨S50000x64, .f32⟩) maximumf,
    StableHlo.nullary main_cst_9 (constant S_ .f32 0x00000000#32) ]

/-- The printed window main_part1 as a list (104 operations). -/
abbrev part1 : List (HloOp τ sig (Elt F)) :=
  [ StableHlo.binary main_v47 main_cst_9 main_v48 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_10 (constant S_ .f32 0x47435000#32),
    StableHlo.unary main_cst_10 main_v49 (broadcastInDim S64 ![] bcast_S_S64 : (⟨S_, .f32⟩ : BufTy).Contents (Elt F) → (⟨S64, .f32⟩ : BufTy).Contents (Elt F)),
    StableHlo.binary main_v48 main_v49 main_v50 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary (.of main_call2_cst : StableHlo.TRef sig ⟨S_, .f32⟩) (constant S_ .f32 0x00000000#32),
    StableHlo.TRef.binary (.of main_v47 : StableHlo.TRef sig ⟨S50000x64, .f32⟩) (.of main_call2_cst : StableHlo.TRef sig ⟨S_, .f32⟩) (.of main_call2_v0 : StableHlo.TRef sig ⟨S64, .f32⟩) (fun x v => Host.reduceAdd x v reducesTo_S50000x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S50000x64, .f32⟩) (broadcastInDim S50000x64 ![0, 1] bcast_S1x64_S50000x64_0_1),
    StableHlo.TRef.binary (.of main_v47 : StableHlo.TRef sig ⟨S50000x64, .f32⟩) (.of main_call2_v4 : StableHlo.TRef sig ⟨S50000x64, .f32⟩) (.of main_call2_v5 : StableHlo.TRef sig ⟨S50000x64, .f32⟩) subf,
    StableHlo.TRef.binary (.of main_call2_v5 : StableHlo.TRef sig ⟨S50000x64, .f32⟩) (.of main_call2_v5 : StableHlo.TRef sig ⟨S50000x64, .f32⟩) (.of main_call2_v6 : StableHlo.TRef sig ⟨S50000x64, .f32⟩) mulf,
    StableHlo.TRef.unary (.of main_c_11 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x64, .f32⟩) (.of main_call2_cst_2 : StableHlo.TRef sig ⟨S_, .f32⟩) (.of main_call2_v9 : StableHlo.TRef sig ⟨S64, .f32⟩) (fun x v => Host.reduceAdd x v reducesTo_S50000x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v51 : StableHlo.TRef sig ⟨S64, .f32⟩) (fun p a b => select (broadcastInDim S64 ![] bcast_S_S64 p) a b),
    StableHlo.unary main_v50 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S50000x64 ![0, 1] bcast_S1x64_S50000x64_0_1 : (⟨S1x64, .f32⟩ : BufTy).Contents (Elt F) → (⟨S50000x64, .f32⟩ : BufTy).Contents (Elt F)),
    StableHlo.binary main_v47 main_v53 main_v54 (subf : (⟨S50000x64, .f32⟩ : BufTy).Contents (Elt F) → (⟨S50000x64, .f32⟩ : BufTy).Contents (Elt F) → (⟨S50000x64, .f32⟩ : BufTy).Contents (Elt F)),
    StableHlo.unary main_arg10 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S50000x64 ![0, 1] bcast_S1x64_S50000x64_0_1 : (⟨S1x64, .f32⟩ : BufTy).Contents (Elt F) → (⟨S50000x64, .f32⟩ : BufTy).Contents (Elt F)),
    StableHlo.binary main_v56 main_v54 main_v57 (mulf : (⟨S50000x64, .f32⟩ : BufTy).Contents (Elt F) → (⟨S50000x64, .f32⟩ : BufTy).Contents (Elt F) → (⟨S50000x64, .f32⟩ : BufTy).Contents (Elt F)),
    StableHlo.nullary main_cst_12 (constant S_ .f32 0x3727C5AC#32),
    StableHlo.unary main_cst_12 main_v58 (broadcastInDim S64 ![] bcast_S_S64 : (⟨S_, .f32⟩ : BufTy).Contents (Elt F) → (⟨S64, .f32⟩ : BufTy).Contents (Elt F)),
    StableHlo.binary main_v51 main_v58 main_v59 (addf : (⟨S64, .f32⟩ : BufTy).Contents (Elt F) → (⟨S64, .f32⟩ : BufTy).Contents (Elt F) → (⟨S64, .f32⟩ : BufTy).Contents (Elt F)),
    StableHlo.unary main_v59 main_v60 (Host.rsqrt : (⟨S64, .f32⟩ : BufTy).Contents (Elt F) → (⟨S64, .f32⟩ : BufTy).Contents (Elt F)),
    StableHlo.unary main_v60 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S50000x64 ![0, 1] bcast_S1x64_S50000x64_0_1 : (⟨S1x64, .f32⟩ : BufTy).Contents (Elt F) → (⟨S50000x64, .f32⟩ : BufTy).Contents (Elt F)),
    StableHlo.binary main_v57 main_v62 main_v63 (mulf : (⟨S50000x64, .f32⟩ : BufTy).Contents (Elt F) → (⟨S50000x64, .f32⟩ : BufTy).Contents (Elt F) → (⟨S50000x64, .f32⟩ : BufTy).Contents (Elt F)),
    StableHlo.unary main_arg11 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S50000x64 ![0, 1] bcast_S1x64_S50000x64_0_1 : (⟨S1x64, .f32⟩ : BufTy).Contents (Elt F) → (⟨S50000x64, .f32⟩ : BufTy).Contents (Elt F)),
    StableHlo.binary main_v63 main_v65 main_v66 (addf : (⟨S50000x64, .f32⟩ : BufTy).Contents (Elt F) → (⟨S50000x64, .f32⟩ : BufTy).Contents (Elt F) → (⟨S50000x64, .f32⟩ : BufTy).Contents (Elt F)),
    StableHlo.binary main_v66 main_arg6 main_v67 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.nullary main_c_13 (constantI S_ 32 0#32),
    StableHlo.unary main_c_13 main_v68 (broadcastInDim S1650000 ![] bcast_S_S1650000 : (⟨S_, .i32⟩ : BufTy).Contents (Elt F) → (⟨S1650000, .i32⟩ : BufTy).Contents (Elt F)),
    StableHlo.binary main_v3 main_v68 main_v69 (cmpi .slt : (⟨S1650000, .i32⟩ : BufTy).Contents (Elt F) → (⟨S1650000, .i32⟩ : BufTy).Contents (Elt F) → (⟨S1650000, .i1⟩ : BufTy).Contents (Elt F)),
    StableHlo.nullary main_c_14 (constantI S_ 32 50000#32),
    StableHlo.unary main_c_14 main_v70 (broadcastInDim S1650000 ![] bcast_S_S1650000 : (⟨S_, .i32⟩ : BufTy).Contents (Elt F) → (⟨S1650000, .i32⟩ : BufTy).Contents (Elt F)),
    StableHlo.binary main_v3 main_v70 main_v71 (addi : (⟨S1650000, .i32⟩ : BufTy).Contents (Elt F) → (⟨S1650000, .i32⟩ : BufTy).Contents (Elt F) → (⟨S1650000, .i32⟩ : BufTy).Contents (Elt F)),
    StableHlo.ternary main_v69 main_v71 main_v3 main_v72 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v72 main_v73 (broadcastInDim S1650000x1 ![0] bcast_S1650000_S1650000x1_0 : (⟨S1650000, .i32⟩ : BufTy).Contents (Elt F) → (⟨S1650000x1, .i32⟩ : BufTy).Contents (Elt F)),
    StableHlo.binary main_v67 main_v73 main_v74 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v75 (broadcastInDim S1650000x1 ![0] bcast_S1650000_S1650000x1_0 : (⟨S1650000, .f32⟩ : BufTy).Contents (Elt F) → (⟨S1650000x1, .f32⟩ : BufTy).Contents (Elt F)),
    StableHlo.unary main_v75 main_v76 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v74 main_v76 main_v77 (mulf : (⟨S1650000x128, .f32⟩ : BufTy).Contents (Elt F) → (⟨S1650000x128, .f32⟩ : BufTy).Contents (Elt F) → (⟨S1650000x128, .f32⟩ : BufTy).Contents (Elt F)),
    StableHlo.nullary main_cst_15 (constant S_ .f32 0x00000000#32),
    StableHlo.unary main_cst_15 main_v78 (broadcastInDim S50000x128 ![] bcast_S_S50000x128 : (⟨S_, .f32⟩ : BufTy).Contents (Elt F) → (⟨S50000x128, .f32⟩ : BufTy).Contents (Elt F)),
    StableHlo.unary main_v6 main_v79 (broadcastInDim S1650000x1 ![0] bcast_S1650000_S1650000x1_0 : (⟨S1650000, .i32⟩ : BufTy).Contents (Elt F) → (⟨S1650000x1, .i32⟩ : BufTy).Contents (Elt F)),
    StableHlo.ternary main_v78 main_v79 main_v77 main_v80 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg7 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v82 main_v83 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x128, .f32⟩) (broadcastInDim S50000x128 ![] bcast_S_S50000x128),
    StableHlo.TRef.binary (.of main_v83 : StableHlo.TRef sig ⟨S50000x128, .f32⟩) (.of main_call3_v0 : StableHlo.TRef sig ⟨S50000x128, .f32⟩) (.of main_v84 : StableHlo.TRef sig ⟨S50000x128, .f32⟩) maximumf,
    StableHlo.nullary main_cst_16 (constant S_ .f32 0x00000000#32),
    StableHlo.binary main_v84 main_cst_16 main_v85 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v86 (broadcastInDim S128 ![] bcast_S_S128 : (⟨S_, .f32⟩ : BufTy).Contents (Elt F) → (⟨S128, .f32⟩ : BufTy).Contents (Elt F)),
    StableHlo.binary main_v85 main_v86 main_v87 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary (.of main_call4_cst : StableHlo.TRef sig ⟨S_, .f32⟩) (constant S_ .f32 0x00000000#32),
    StableHlo.TRef.binary (.of main_v84 : StableHlo.TRef sig ⟨S50000x128, .f32⟩) (.of main_call4_cst : StableHlo.TRef sig ⟨S_, .f32⟩) (.of main_call4_v0 : StableHlo.TRef sig ⟨S128, .f32⟩) (fun x v => Host.reduceAdd x v reducesTo_S50000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47435000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S50000x128, .f32⟩) (broadcastInDim S50000x128 ![0, 1] bcast_S1x128_S50000x128_0_1),
    StableHlo.TRef.binary (.of main_v84 : StableHlo.TRef sig ⟨S50000x128, .f32⟩) (.of main_call4_v4 : StableHlo.TRef sig ⟨S50000x128, .f32⟩) (.of main_call4_v5 : StableHlo.TRef sig ⟨S50000x128, .f32⟩) subf,
    StableHlo.TRef.binary (.of main_call4_v5 : StableHlo.TRef sig ⟨S50000x128, .f32⟩) (.of main_call4_v5 : StableHlo.TRef sig ⟨S50000x128, .f32⟩) (.of main_call4_v6 : StableHlo.TRef sig ⟨S50000x128, .f32⟩) mulf,
    StableHlo.TRef.unary (.of main_c_18 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47435000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S50000x128, .f32⟩) (.of main_call4_cst_2 : StableHlo.TRef sig ⟨S_, .f32⟩) (.of main_call4_v9 : StableHlo.TRef sig ⟨S128, .f32⟩) (fun x v => Host.reduceAdd x v reducesTo_S50000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v88 : StableHlo.TRef sig ⟨S128, .f32⟩) (fun p a b => select (broadcastInDim S128 ![] bcast_S_S128 p) a b),
    StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v90 main_v91 (subf : (⟨S50000x128, .f32⟩ : BufTy).Contents (Elt F) → (⟨S50000x128, .f32⟩ : BufTy).Contents (Elt F) → (⟨S50000x128, .f32⟩ : BufTy).Contents (Elt F)),
    StableHlo.unary main_arg12 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v91 main_v94 (mulf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v95 (broadcastInDim S128 ![] bcast_S_S128 : (⟨S_, .f32⟩ : BufTy).Contents (Elt F) → (⟨S128, .f32⟩ : BufTy).Contents (Elt F)),
    StableHlo.binary main_v88 main_v95 main_v96 (addf : (⟨S128, .f32⟩ : BufTy).Contents (Elt F) → (⟨S128, .f32⟩ : BufTy).Contents (Elt F) → (⟨S128, .f32⟩ : BufTy).Contents (Elt F)),
    StableHlo.unary main_v96 main_v97 (Host.rsqrt : (⟨S128, .f32⟩ : BufTy).Contents (Elt F) → (⟨S128, .f32⟩ : BufTy).Contents (Elt F)) ]

/-- The printed window main_part2 as a list (83 operations). -/
abbrev part2 : List (HloOp τ sig (Elt F)) :=
  [ StableHlo.unary main_v97 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v99 main_v100 (mulf : (⟨S50000x128, .f32⟩ : BufTy).Contents (Elt F) → (⟨S50000x128, .f32⟩ : BufTy).Contents (Elt F) → (⟨S50000x128, .f32⟩ : BufTy).Contents (Elt F)),
    StableHlo.unary main_arg13 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)),
    StableHlo.binary main_v103 main_arg8 main_v104 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_20 (constantI S_ 32 0#32),
    StableHlo.unary main_c_20 main_v105 (broadcastInDim S1650000 ![] bcast_S_S1650000 : (⟨S_, .i32⟩ : BufTy).Contents (Elt F) → (⟨S1650000, .i32⟩ : BufTy).Contents (Elt F)),
    StableHlo.binary main_v3 main_v105 main_v106 (cmpi .slt : (⟨S1650000, .i32⟩ : BufTy).Contents (Elt F) → (⟨S1650000, .i32⟩ : BufTy).Contents (Elt F) → (⟨S1650000, .i1⟩ : BufTy).Contents (Elt F)),
    StableHlo.nullary main_c_21 (constantI S_ 32 50000#32),
    StableHlo.unary main_c_21 main_v107 (broadcastInDim S1650000 ![] bcast_S_S1650000 : (⟨S_, .i32⟩ : BufTy).Contents (Elt F) → (⟨S1650000, .i32⟩ : BufTy).Contents (Elt F)),
    StableHlo.binary main_v3 main_v107 main_v108 (addi : (⟨S1650000, .i32⟩ : BufTy).Contents (Elt F) → (⟨S1650000, .i32⟩ : BufTy).Contents (Elt F) → (⟨S1650000, .i32⟩ : BufTy).Contents (Elt F)),
    StableHlo.ternary main_v106 main_v108 main_v3 main_v109 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v109 main_v110 (broadcastInDim S1650000x1 ![0] bcast_S1650000_S1650000x1_0 : (⟨S1650000, .i32⟩ : BufTy).Contents (Elt F) → (⟨S1650000x1, .i32⟩ : BufTy).Contents (Elt F)),
    StableHlo.binary main_v104 main_v110 main_v111 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v112 (broadcastInDim S1650000x1 ![0] bcast_S1650000_S1650000x1_0 : (⟨S1650000, .f32⟩ : BufTy).Contents (Elt F) → (⟨S1650000x1, .f32⟩ : BufTy).Contents (Elt F)),
    StableHlo.unary main_v112 main_v113 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v111 main_v113 main_v114 (mulf : (⟨S1650000x128, .f32⟩ : BufTy).Contents (Elt F) → (⟨S1650000x128, .f32⟩ : BufTy).Contents (Elt F) → (⟨S1650000x128, .f32⟩ : BufTy).Contents (Elt F)),
    StableHlo.nullary main_cst_22 (constant S_ .f32 0x00000000#32),
    StableHlo.unary main_cst_22 main_v115 (broadcastInDim S50000x128 ![] bcast_S_S50000x128 : (⟨S_, .f32⟩ : BufTy).Contents (Elt F) → (⟨S50000x128, .f32⟩ : BufTy).Contents (Elt F)),
    StableHlo.unary main_v6 main_v116 (broadcastInDim S1650000x1 ![0] bcast_S1650000_S1650000x1_0 : (⟨S1650000, .i32⟩ : BufTy).Contents (Elt F) → (⟨S1650000x1, .i32⟩ : BufTy).Contents (Elt F)),
    StableHlo.ternary main_v115 main_v116 main_v114 main_v117 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg9 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v119 main_v120 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v120 : StableHlo.TRef sig ⟨S50000x128, .f32⟩) (.of main_call5_v0 : StableHlo.TRef sig ⟨S50000x128, .f32⟩) (.of main_v121 : StableHlo.TRef sig ⟨S50000x128, .f32⟩) maximumf,
    StableHlo.nullary main_cst_23 (constant S_ .f32 0x00000000#32),
    StableHlo.binary main_v121 main_cst_23 main_v122 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v123 (broadcastInDim S128 ![] bcast_S_S128 : (⟨S_, .f32⟩ : BufTy).Contents (Elt F) → (⟨S128, .f32⟩ : BufTy).Contents (Elt F)),
    StableHlo.binary main_v122 main_v123 main_v124 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary (.of main_call6_cst : StableHlo.TRef sig ⟨S_, .f32⟩) (constant S_ .f32 0x00000000#32),
    StableHlo.TRef.binary (.of main_v121 : StableHlo.TRef sig ⟨S50000x128, .f32⟩) (.of main_call6_cst : StableHlo.TRef sig ⟨S_, .f32⟩) (.of main_call6_v0 : StableHlo.TRef sig ⟨S128, .f32⟩) (fun x v => Host.reduceAdd x v reducesTo_S50000x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x47435000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S50000x128, .f32⟩) (broadcastInDim S50000x128 ![0, 1] bcast_S1x128_S50000x128_0_1),
    StableHlo.TRef.binary (.of main_v121 : StableHlo.TRef sig ⟨S50000x128, .f32⟩) (.of main_call6_v4 : StableHlo.TRef sig ⟨S50000x128, .f32⟩) (.of main_call6_v5 : StableHlo.TRef sig ⟨S50000x128, .f32⟩) subf,
    StableHlo.TRef.binary (.of main_call6_v5 : StableHlo.TRef sig ⟨S50000x128, .f32⟩) (.of main_call6_v5 : StableHlo.TRef sig ⟨S50000x128, .f32⟩) (.of main_call6_v6 : StableHlo.TRef sig ⟨S50000x128, .f32⟩) mulf,
    StableHlo.TRef.unary (.of main_c_25 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47435000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S50000x128, .f32⟩) (.of main_call6_cst_2 : StableHlo.TRef sig ⟨S_, .f32⟩) (.of main_call6_v9 : StableHlo.TRef sig ⟨S128, .f32⟩) (fun x v => Host.reduceAdd x v reducesTo_S50000x128_S128_d0 h_S_),
    StableHlo.TRef.unary (.of main_call6_v8 : StableHlo.TRef sig ⟨S_, .f32⟩) (.of main_call6_v10 : StableHlo.TRef sig ⟨S128, .f32⟩) (broadcastInDim S128 ![] bcast_S_S128),
    StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S128, .f32⟩) (broadcastInDim S128 ![] bcast_S_S128),
    StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v125 : StableHlo.TRef sig ⟨S128, .f32⟩) (fun p a b => select (broadcastInDim S128 ![] bcast_S_S128 p) a b),
    StableHlo.unary main_v124 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v127 main_v128 (subf : (⟨S50000x128, .f32⟩ : BufTy).Contents (Elt F) → (⟨S50000x128, .f32⟩ : BufTy).Contents (Elt F) → (⟨S50000x128, .f32⟩ : BufTy).Contents (Elt F)),
    StableHlo.unary main_arg14 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v128 main_v131 (mulf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v132 (broadcastInDim S128 ![] bcast_S_S128 : (⟨S_, .f32⟩ : BufTy).Contents (Elt F) → (⟨S128, .f32⟩ : BufTy).Contents (Elt F)),
    StableHlo.binary main_v125 main_v132 main_v133 (addf : (⟨S128, .f32⟩ : BufTy).Contents (Elt F) → (⟨S128, .f32⟩ : BufTy).Contents (Elt F) → (⟨S128, .f32⟩ : BufTy).Contents (Elt F)),
    StableHlo.unary main_v133 main_v134 (Host.rsqrt : (⟨S128, .f32⟩ : BufTy).Contents (Elt F) → (⟨S128, .f32⟩ : BufTy).Contents (Elt F)),
    StableHlo.unary main_v134 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v131 main_v136 main_v137 (mulf : (⟨S50000x128, .f32⟩ : BufTy).Contents (Elt F) → (⟨S50000x128, .f32⟩ : BufTy).Contents (Elt F) → (⟨S50000x128, .f32⟩ : BufTy).Contents (Elt F)),
    StableHlo.unary main_arg15 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v139 main_v140 (addf : (⟨S50000x128, .f32⟩ : BufTy).Contents (Elt F) → (⟨S50000x128, .f32⟩ : BufTy).Contents (Elt F) → (⟨S50000x128, .f32⟩ : BufTy).Contents (Elt F)),
    StableHlo.nullary main_c_27 (constantI S_ 32 0#32),
    StableHlo.unary main_c_27 main_v141 (broadcastInDim S200000 ![] bcast_S_S200000 : (⟨S_, .i32⟩ : BufTy).Contents (Elt F) → (⟨S200000, .i32⟩ : BufTy).Contents (Elt F)),
    StableHlo.binary main_arg2 main_v141 main_v142 (cmpi .slt : (⟨S200000, .i32⟩ : BufTy).Contents (Elt F) → (⟨S200000, .i32⟩ : BufTy).Contents (Elt F) → (⟨S200000, .i1⟩ : BufTy).Contents (Elt F)),
    StableHlo.nullary main_c_28 (constantI S_ 32 50000#32),
    StableHlo.unary main_c_28 main_v143 (broadcastInDim S200000 ![] bcast_S_S200000 : (⟨S_, .i32⟩ : BufTy).Contents (Elt F) → (⟨S200000, .i32⟩ : BufTy).Contents (Elt F)),
    StableHlo.binary main_arg2 main_v143 main_v144 (addi : (⟨S200000, .i32⟩ : BufTy).Contents (Elt F) → (⟨S200000, .i32⟩ : BufTy).Contents (Elt F) → (⟨S200000, .i32⟩ : BufTy).Contents (Elt F)),
    StableHlo.ternary main_v142 main_v144 main_arg2 main_v145 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v145 main_v146 (broadcastInDim S200000x1 ![0] bcast_S200000_S200000x1_0 : (⟨S200000, .i32⟩ : BufTy).Contents (Elt F) → (⟨S200000x1, .i32⟩ : BufTy).Contents (Elt F)),
    StableHlo.binary main_v140 main_v146 main_v147 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)),
    StableHlo.nullary main_c_29 (constantI S_ 32 0#32) ]

/-- The printed window main_part3 as a list (21 operations). -/
abbrev part3 : List (HloOp τ sig (Elt F)) :=
  [ StableHlo.unary main_c_29 main_v148 (broadcastInDim S200000 ![] bcast_S_S200000 : (⟨S_, .i32⟩ : BufTy).Contents (Elt F) → (⟨S200000, .i32⟩ : BufTy).Contents (Elt F)),
    StableHlo.binary main_arg3 main_v148 main_v149 (cmpi .slt : (⟨S200000, .i32⟩ : BufTy).Contents (Elt F) → (⟨S200000, .i32⟩ : BufTy).Contents (Elt F) → (⟨S200000, .i1⟩ : BufTy).Contents (Elt F)),
    StableHlo.nullary main_c_30 (constantI S_ 32 50000#32),
    StableHlo.unary main_c_30 main_v150 (broadcastInDim S200000 ![] bcast_S_S200000 : (⟨S_, .i32⟩ : BufTy).Contents (Elt F) → (⟨S200000, .i32⟩ : BufTy).Contents (Elt F)),
    StableHlo.binary main_arg3 main_v150 main_v151 (addi : (⟨S200000, .i32⟩ : BufTy).Contents (Elt F) → (⟨S200000, .i32⟩ : BufTy).Contents (Elt F) → (⟨S200000, .i32⟩ : BufTy).Contents (Elt F)),
    StableHlo.ternary main_v149 main_v151 main_arg3 main_v152 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v152 main_v153 (broadcastInDim S200000x1 ![0] bcast_S200000_S200000x1_0 : (⟨S200000, .i32⟩ : BufTy).Contents (Elt F) → (⟨S200000x1, .i32⟩ : BufTy).Contents (Elt F)),
    StableHlo.binary main_v140 main_v153 main_v154 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)),
    StableHlo.binary main_v147 main_v154 main_v155 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    StableHlo.binary main_v155 main_arg16 main_v156 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    StableHlo.unary main_arg17 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S200000x128 ![0, 1] bcast_S1x128_S200000x128_0_1 : (⟨S1x128, .f32⟩ : BufTy).Contents (Elt F) → (⟨S200000x128, .f32⟩ : BufTy).Contents (Elt F)),
    StableHlo.binary main_v156 main_v158 main_v159 (addf : (⟨S200000x128, .f32⟩ : BufTy).Contents (Elt F) → (⟨S200000x128, .f32⟩ : BufTy).Contents (Elt F) → (⟨S200000x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S200000x128, .f32⟩) (broadcastInDim S200000x128 ![] bcast_S_S200000x128),
    StableHlo.TRef.binary (.of main_v159 : StableHlo.TRef sig ⟨S200000x128, .f32⟩) (.of main_call7_v0 : StableHlo.TRef sig ⟨S200000x128, .f32⟩) (.of main_v160 : StableHlo.TRef sig ⟨S200000x128, .f32⟩) maximumf,
    StableHlo.binary main_v160 main_arg18 main_v161 ((fun l r => Host.dotGeneral dot_S200000x128_S128x1_S200000x1_1_0_0_1_n_n none l r) : (⟨S200000x128, .f32⟩ : BufTy).Contents (Elt F) → (⟨S128x1, .f32⟩ : BufTy).Contents (Elt F) → (⟨S200000x1, .f32⟩ : BufTy).Contents (Elt F)),
    StableHlo.unary main_arg19 main_v162 (broadcastInDim S1x1 ![1] bcast_S1_S1x1_1 : (⟨S1, .f32⟩ : BufTy).Contents (Elt F) → (⟨S1x1, .f32⟩ : BufTy).Contents (Elt F)),
    StableHlo.unary main_v162 main_v163 (broadcastInDim S200000x1 ![0, 1] bcast_S1x1_S200000x1_0_1 : (⟨S1x1, .f32⟩ : BufTy).Contents (Elt F) → (⟨S200000x1, .f32⟩ : BufTy).Contents (Elt F)),
    StableHlo.binary main_v161 main_v163 main_v164 (addf : (⟨S200000x1, .f32⟩ : BufTy).Contents (Elt F) → (⟨S200000x1, .f32⟩ : BufTy).Contents (Elt F) → (⟨S200000x1, .f32⟩ : BufTy).Contents (Elt F)),
    StableHlo.reshape main_v164 main_v165 rfl shapeCasts_S200000x1_S200000 ]

end Cert.ReferenceIdeal.RefRun

end
-- ==== Proof.RefRun.lean ====
import proofs.«136817_j2800318677196_2_alg».proof.Proof.RefOps0
import proofs.«136817_j2800318677196_2_alg».proof.Proof.RefOps1
import proofs.«136817_j2800318677196_2_alg».proof.Proof.RefOps2
import proofs.«136817_j2800318677196_2_alg».proof.Proof.RefOps3
import proofs.«136817_j2800318677196_2_alg».proof.Proof.RefOps4
import proofs.«136817_j2800318677196_2_alg».proof.Proof.RefParts
import Idealize.ShloMosaic.Lib.StableHlo.Run

/-! The reference program's run. Its @main is a straight line of host operations: the four printed
    windows, each with the bodies of the functions it calls unfolded at the call over that call's
    buffers, are lists of operations; their concatenation is cut again before each of the first four
    matrix products. Every weakly fair execution then ends with each buffer at the fold of the
    operations' results over the launch contents, and a buffer no operation writes ends as launched. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: the five stretches between its first four matrix products. -/
abbrev ops : List (HloOp τ sig (Elt F)) := opsN ++ opsL1 ++ opsL2 ++ opsL3 ++ opsS

/-! ## @main is that line -/

/-- Each printed window is its list run in order: sequencing re-associates by computation, a call
    unfolds to its body over the call's record. -/
theorem part0_eq (c : Dev nD) : main_part0 (F := F) c = seq part0 := rfl
theorem part1_eq (c : Dev nD) : main_part1 (F := F) c = seq part1 := rfl
theorem part2_eq (c : Dev nD) : main_part2 (F := F) c = seq part2 := rfl
theorem part3_eq (c : Dev nD) : main_part3 (F := F) c = seq part3 := rfl

/-- The windows in order are the stretches in order: the same operations, cut at other places. -/
theorem parts_eq : (part0 ++ (part1 ++ (part2 ++ part3)) : List (HloOp τ sig (Elt F))) = ops := rfl

theorem main_eq (c : Dev nD) : main (F := F) c = seq ops := by
  rw [← parts_eq, seq_append, seq_append, seq_append, ← part0_eq c, ← part1_eq c, ← part2_eq c, ← part3_eq c]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨List.forall_append.mpr ⟨List.forall_append.mpr ⟨List.forall_append.mpr
    ⟨opsN_sub, opsL1_sub⟩, opsL2_sub⟩, opsL3_sub⟩, opsS_sub⟩

theorem ops_fresh : (ops : List (HloOp τ sig (Elt F))).Forall fun op => op.fresh = ∅ :=
  List.forall_append.mpr ⟨List.forall_append.mpr ⟨List.forall_append.mpr ⟨List.forall_append.mpr
    ⟨opsN_fresh, opsL1_fresh⟩, opsL2_fresh⟩, opsL3_fresh⟩, opsS_fresh⟩

/-- On every device, for any float values, from any memory with zero counters: every weakly fair
    execution of @main terminates, and every final state has each TensorCore buffer at the fold of
    the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## What no operation writes ends as launched -/

/-- The fold over two lines in order is the second's over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- A single written buffer is among a list of buffers once it is a member of the list. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Each operation of the stretch writes one buffer, and that buffer is in the stretch's list. -/
theorem opsN_writes : (opsN : List (HloOp τ sig (Elt F))).Forall fun op =>
    op.writes ⊆ (opsN_W.map (Proc.devRef (τ := τ) .tc)).toFinset := by
  simp only [opsN, List.Forall, nullary_writes, unary_writes, binary_writes, ternary_writes, quaternary_writes, reshape_writes]
  repeat' apply And.intro
  all_goals exact writes_sub_of_mem (by decide)

theorem opsN_keep (V : Valuation τ sig (Elt F)) {r : Ref sig .tc} (hr : r ∉ opsN_W) :
    after opsN V (Proc.devRef .tc r) = V (Proc.devRef .tc r) :=
  after_of_writes_sub opsN V opsN_writes hr

/-- Each operation of the stretch writes one buffer, and that buffer is in the stretch's list. -/
theorem opsL1_writes : (opsL1 : List (HloOp τ sig (Elt F))).Forall fun op =>
    op.writes ⊆ (opsL1_W.map (Proc.devRef (τ := τ) .tc)).toFinset := by
  simp only [opsL1, List.Forall, nullary_writes, unary_writes, binary_writes, ternary_writes, quaternary_writes, reshape_writes]
  repeat' apply And.intro
  all_goals exact writes_sub_of_mem (by decide)

theorem opsL1_keep (V : Valuation τ sig (Elt F)) {r : Ref sig .tc} (hr : r ∉ opsL1_W) :
    after opsL1 V (Proc.devRef .tc r) = V (Proc.devRef .tc r) :=
  after_of_writes_sub opsL1 V opsL1_writes hr

/-- Each operation of the stretch writes one buffer, and that buffer is in the stretch's list. -/
theorem opsL2_writes : (opsL2 : List (HloOp τ sig (Elt F))).Forall fun op =>
    op.writes ⊆ (opsL2_W.map (Proc.devRef (τ := τ) .tc)).toFinset := by
  simp only [opsL2, List.Forall, nullary_writes, unary_writes, binary_writes, ternary_writes, quaternary_writes, reshape_writes]
  repeat' apply And.intro
  all_goals exact writes_sub_of_mem (by decide)

theorem opsL2_keep (V : Valuation τ sig (Elt F)) {r : Ref sig .tc} (hr : r ∉ opsL2_W) :
    after opsL2 V (Proc.devRef .tc r) = V (Proc.devRef .tc r) :=
  after_of_writes_sub opsL2 V opsL2_writes hr

/-- Each operation of the stretch writes one buffer, and that buffer is in the stretch's list. -/
theorem opsL3_writes : (opsL3 : List (HloOp τ sig (Elt F))).Forall fun op =>
    op.writes ⊆ (opsL3_W.map (Proc.devRef (τ := τ) .tc)).toFinset := by
  simp only [opsL3, List.Forall, nullary_writes, unary_writes, binary_writes, ternary_writes, quaternary_writes, reshape_writes]
  repeat' apply And.intro
  all_goals exact writes_sub_of_mem (by decide)

theorem opsL3_keep (V : Valuation τ sig (Elt F)) {r : Ref sig .tc} (hr : r ∉ opsL3_W) :
    after opsL3 V (Proc.devRef .tc r) = V (Proc.devRef .tc r) :=
  after_of_writes_sub opsL3 V opsL3_writes hr

/-- Each operation of the stretch writes one buffer, and that buffer is in the stretch's list. -/
theorem opsS_writes : (opsS : List (HloOp τ sig (Elt F))).Forall fun op =>
    op.writes ⊆ (opsS_W.map (Proc.devRef (τ := τ) .tc)).toFinset := by
  simp only [opsS, List.Forall, nullary_writes, unary_writes, binary_writes, ternary_writes, quaternary_writes, reshape_writes]
  repeat' apply And.intro
  all_goals exact writes_sub_of_mem (by decide)

theorem opsS_keep (V : Valuation τ sig (Elt F)) {r : Ref sig .tc} (hr : r ∉ opsS_W) :
    after opsS V (Proc.devRef .tc r) = V (Proc.devRef .tc r) :=
  after_of_writes_sub opsS V opsS_writes hr

/-- A buffer in none of the five lists of written buffers holds after @main what it held before. -/
theorem ops_keep (V : Valuation τ sig (Elt F)) {r : Ref sig .tc} (h0 : r ∉ opsN_W) (h1 : r ∉ opsL1_W)
    (h2 : r ∉ opsL2_W) (h3 : r ∉ opsL3_W) (h4 : r ∉ opsS_W) :
    after ops V (Proc.devRef .tc r) = V (Proc.devRef .tc r) := by
  show after (opsN ++ opsL1 ++ opsL2 ++ opsL3 ++ opsS) V _ = _
  rw [after_app, after_app, after_app, after_app, opsS_keep _ h4, opsL3_keep _ h3, opsL2_keep _ h2,
    opsL1_keep _ h1, opsN_keep _ h0]

theorem keep_main_arg0 (V : Valuation τ sig (Elt F)) : after ops V (Proc.devRef .tc main_arg0) = V (Proc.devRef .tc main_arg0) :=
  ops_keep V (by decide) (by decide) (by decide) (by decide) (by decide)
theorem keep_main_arg1 (V : Valuation τ sig (Elt F)) : after ops V (Proc.devRef .tc main_arg1) = V (Proc.devRef .tc main_arg1) :=
  ops_keep V (by decide) (by decide) (by decide) (by decide) (by decide)
theorem keep_main_arg2 (V : Valuation τ sig (Elt F)) : after ops V (Proc.devRef .tc main_arg2) = V (Proc.devRef .tc main_arg2) :=
  ops_keep V (by decide) (by decide) (by decide) (by decide) (by decide)
theorem keep_main_arg3 (V : Valuation τ sig (Elt F)) : after ops V (Proc.devRef .tc main_arg3) = V (Proc.devRef .tc main_arg3) :=
  ops_keep V (by decide) (by decide) (by decide) (by decide) (by decide)
theorem keep_main_arg4 (V : Valuation τ sig (Elt F)) : after ops V (Proc.devRef .tc main_arg4) = V (Proc.devRef .tc main_arg4) :=
  ops_keep V (by decide) (by decide) (by decide) (by decide) (by decide)
theorem keep_main_arg5 (V : Valuation τ sig (Elt F)) : after ops V (Proc.devRef .tc main_arg5) = V (Proc.devRef .tc main_arg5) :=
  ops_keep V (by decide) (by decide) (by decide) (by decide) (by decide)
theorem keep_main_arg6 (V : Valuation τ sig (Elt F)) : after ops V (Proc.devRef .tc main_arg6) = V (Proc.devRef .tc main_arg6) :=
  ops_keep V (by decide) (by decide) (by decide) (by decide) (by decide)
theorem keep_main_arg7 (V : Valuation τ sig (Elt F)) : after ops V (Proc.devRef .tc main_arg7) = V (Proc.devRef .tc main_arg7) :=
  ops_keep V (by decide) (by decide) (by decide) (by decide) (by decide)
theorem keep_main_arg8 (V : Valuation τ sig (Elt F)) : after ops V (Proc.devRef .tc main_arg8) = V (Proc.devRef .tc main_arg8) :=
  ops_keep V (by decide) (by decide) (by decide) (by decide) (by decide)
theorem keep_main_arg9 (V : Valuation τ sig (Elt F)) : after ops V (Proc.devRef .tc main_arg9) = V (Proc.devRef .tc main_arg9) :=
  ops_keep V (by decide) (by decide) (by decide) (by decide) (by decide)
theorem keep_main_arg10 (V : Valuation τ sig (Elt F)) : after ops V (Proc.devRef .tc main_arg10) = V (Proc.devRef .tc main_arg10) :=
  ops_keep V (by decide) (by decide) (by decide) (by decide) (by decide)
theorem keep_main_arg11 (V : Valuation τ sig (Elt F)) : after ops V (Proc.devRef .tc main_arg11) = V (Proc.devRef .tc main_arg11) :=
  ops_keep V (by decide) (by decide) (by decide) (by decide) (by decide)
theorem keep_main_arg12 (V : Valuation τ sig (Elt F)) : after ops V (Proc.devRef .tc main_arg12) = V (Proc.devRef .tc main_arg12) :=
  ops_keep V (by decide) (by decide) (by decide) (by decide) (by decide)
theorem keep_main_arg13 (V : Valuation τ sig (Elt F)) : after ops V (Proc.devRef .tc main_arg13) = V (Proc.devRef .tc main_arg13) :=
  ops_keep V (by decide) (by decide) (by decide) (by decide) (by decide)
theorem keep_main_arg14 (V : Valuation τ sig (Elt F)) : after ops V (Proc.devRef .tc main_arg14) = V (Proc.devRef .tc main_arg14) :=
  ops_keep V (by decide) (by decide) (by decide) (by decide) (by decide)
theorem keep_main_arg15 (V : Valuation τ sig (Elt F)) : after ops V (Proc.devRef .tc main_arg15) = V (Proc.devRef .tc main_arg15) :=
  ops_keep V (by decide) (by decide) (by decide) (by decide) (by decide)
theorem keep_main_arg16 (V : Valuation τ sig (Elt F)) : after ops V (Proc.devRef .tc main_arg16) = V (Proc.devRef .tc main_arg16) :=
  ops_keep V (by decide) (by decide) (by decide) (by decide) (by decide)
theorem keep_main_arg17 (V : Valuation τ sig (Elt F)) : after ops V (Proc.devRef .tc main_arg17) = V (Proc.devRef .tc main_arg17) :=
  ops_keep V (by decide) (by decide) (by decide) (by decide) (by decide)
theorem keep_main_arg18 (V : Valuation τ sig (Elt F)) : after ops V (Proc.devRef .tc main_arg18) = V (Proc.devRef .tc main_arg18) :=
  ops_keep V (by decide) (by decide) (by decide) (by decide) (by decide)
theorem keep_main_arg19 (V : Valuation τ sig (Elt F)) : after ops V (Proc.devRef .tc main_arg19) = V (Proc.devRef .tc main_arg19) :=
  ops_keep V (by decide) (by decide) (by decide) (by decide) (by decide)

/-- @main runs to the end on every device and its twenty arguments end as launched. -/
theorem frame_ri_post (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(h c main_arg0).trans (keep_main_arg0 _),
      (h c main_arg1).trans (keep_main_arg1 _),
      (h c main_arg2).trans (keep_main_arg2 _),
      (h c main_arg3).trans (keep_main_arg3 _),
      (h c main_arg4).trans (keep_main_arg4 _),
      (h c main_arg5).trans (keep_main_arg5 _),
      (h c main_arg6).trans (keep_main_arg6 _),
      (h c main_arg7).trans (keep_main_arg7 _),
      (h c main_arg8).trans (keep_main_arg8 _),
      (h c main_arg9).trans (keep_main_arg9 _),
      (h c main_arg10).trans (keep_main_arg10 _),
      (h c main_arg11).trans (keep_main_arg11 _),
      (h c main_arg12).trans (keep_main_arg12 _),
      (h c main_arg13).trans (keep_main_arg13 _),
      (h c main_arg14).trans (keep_main_arg14 _),
      (h c main_arg15).trans (keep_main_arg15 _),
      (h c main_arg16).trans (keep_main_arg16 _),
      (h c main_arg17).trans (keep_main_arg17 _),
      (h c main_arg18).trans (keep_main_arg18 _),
      (h c main_arg19).trans (keep_main_arg19 _)⟩)
    (run_all m ρ)

end Cert.ReferenceIdeal.RefRun

end
-- ==== Proof.RefTerms.lean ====
import proofs.«136817_j2800318677196_2_alg».proof.Proof.Gen.ReferenceIdeal
import proofs.«136817_j2800318677196_2_alg».proof.Proof.LibConcat

/-!
  The reference program's stages, as functions of arrays.

  The reference is three graph-convolution layers and a scoring head. From the edge list it builds the pairs with the
  self-loops appended (`rowT`, `colT`), the in-degree `degT`, its inverse square root `disT` (0 where the degree is
  not positive) and the pair weights `normT` (`dis` at the source times `dis` at the target). A layer is a matrix
  product (`dense1T`, `dense2T`, `dense3T`), the weighted aggregation over the pairs (`aggRn64T`, `aggRn128T`), the bias
  and rectifier (`relu64T`), and the normalisation by the column means and variances (`mean64T`, `var64T`, `bn64T`).
  The head gathers the two end nodes' rows of every scored pair side by side (`embRT`) and runs a two-layer perceptron
  over them (`scoreT`). Only definitions: each is spelled as the program's own operations compose.
-/

noncomputable section

namespace Cert.ReferenceIdeal.RT

open Cert.ReferenceIdeal Cert.ReferenceIdeal.Gen Idealize.ShloMosaic Cert.LibConcat

variable {F : FTy → Type} [FloatOps F]

/-- Contents of a buffer of shape `S` and element type `e`. -/
abbrev Arr (F : FTy → Type) [FloatOps F] (S : Shape) (e : _) := BufTy.Contents (Elt F) ⟨S, e⟩

/-! ## The graph: pairs with self-loops, in-degree, inverse square root of the degree, pair weights -/

/-- Source nodes: row 0 of the edge list, then every node once (the self-loops). -/
def rowT (e : Arr F S2x1600000 .i32) : Arr F S1650000 .i32 :=
  cat2 S1650000 0 S1600000 S50000 concatenates_S1600000_S50000_S1650000_d0
    (fun i => shapeCast S1600000 (extractStridedSlice S1x1600000 ![0, 0] e slices_S2x1600000_S1x1600000_0_0)
      shapeCasts_S1x1600000_S1600000 i)
    (iotaInDim S50000 32 0)

/-- Target nodes: row 1 of the edge list, then every node once. -/
def colT (e : Arr F S2x1600000 .i32) : Arr F S1650000 .i32 :=
  cat2 S1650000 0 S1600000 S50000 concatenates_S1600000_S50000_S1650000_d0
    (fun i => shapeCast S1600000 (extractStridedSlice S1x1600000 ![1, 0] e slices_S2x1600000_S1x1600000_1_0)
      shapeCasts_S1x1600000_S1600000 i)
    (iotaInDim S50000 32 0)

/-- The in-degree: a one added into node `col e` for every pair `e`. -/
def degT (col : Arr F S1650000 .i32) : Arr F S50000 .f32 :=
  Host.scatterAdd scatter_S50000_S1650000x1_S1650000_n_0_0_1
    (broadcastInDim S50000 ![] bcast_S_S50000 (constant (F := F) S_ .f32 0#32))
    (broadcastInDim S1650000x1 ![0] bcast_S1650000_S1650000x1_0 col)
    (broadcastInDim S1650000 ![] bcast_S_S1650000 (constant (F := F) S_ .f32 1065353216#32))

/-- `deg ^ (-1/2)` where the degree is positive, 0 elsewhere. -/
def disT (col : Arr F S1650000 .i32) : Arr F S50000 .f32 :=
  select (cmpf .ogt (degT (F := F) col) (broadcastInDim S50000 ![] bcast_S_S50000 (constant (F := F) S_ .f32 0#32)))
    (Host.rsqrt (degT (F := F) col))
    (broadcastInDim S50000 ![] bcast_S_S50000 (id (constant (F := F) S_ .f32 0#32)))

/-- A node index read the way array indexing reads it: a negative index counts from the end. -/
def wrapT (r : Arr F S1650000 .i32) : Arr F S1650000 .i32 :=
  select (cmpi .slt r (broadcastInDim S1650000 ![] bcast_S_S1650000 (constantI S_ 32 0#32)))
    (addi r (broadcastInDim S1650000 ![] bcast_S_S1650000 (constantI S_ 32 50000#32))) r

/-- The pair weights: `dis` at the pair's source times `dis` at its target. -/
def normT (dis : Arr F S50000 .f32) (row col : Arr F S1650000 .i32) : Arr F S1650000 .f32 :=
  mulf
    (Host.gather gather_S50000_S1650000x1_S1650000_n_0_n_n_0_1_1 dis
      (broadcastInDim S1650000x1 ![0] bcast_S1650000_S1650000x1_0 (wrapT (F := F) row)))
    (Host.gather gather_S50000_S1650000x1_S1650000_n_0_n_n_0_1_1 dis
      (broadcastInDim S1650000x1 ![0] bcast_S1650000_S1650000x1_0 (wrapT (F := F) col)))

/-! ## The three matrix products -/

def dense1T (x : Arr F S50000x128 .f32) (w : Arr F S128x64 .f32) : Arr F S50000x64 .f32 :=
  Host.dotGeneral dot_S50000x128_S128x64_S50000x64_1_0_0_1_n_n none x w

def dense2T (z : Arr F S50000x64 .f32) (w : Arr F S64x128 .f32) : Arr F S50000x128 .f32 :=
  Host.dotGeneral dot_S50000x64_S64x128_S50000x128_1_0_0_1_n_n none z w

def dense3T (z : Arr F S50000x128 .f32) (w : Arr F S128x128 .f32) : Arr F S50000x128 .f32 :=
  Host.dotGeneral dot_S50000x128_S128x128_S50000x128_1_0_0_1_n_n none z w

/-! ## A layer at 64 columns -/

/-- The aggregation with the pair weights given: the source rows gathered, pair `e`'s row scaled by `norm e`, the
    scaled rows added into the target rows. -/
def aggRn64T (norm : Arr F S1650000 .f32) (row col : Arr F S1650000 .i32) (h : Arr F S50000x64 .f32) : Arr F S50000x64 .f32 :=
  Host.scatterAdd scatter_S50000x64_S1650000x1_S1650000x64_1_0_0_1
    (broadcastInDim S50000x64 ![] bcast_S_S50000x64 (constant (F := F) S_ .f32 0#32))
    (broadcastInDim S1650000x1 ![0] bcast_S1650000_S1650000x1_0 col)
    (mulf
      (Host.gather gather_S50000x64_S1650000x1_S1650000x64_1_0_n_n_0_1_164 h
        (broadcastInDim S1650000x1 ![0] bcast_S1650000_S1650000x1_0 (wrapT (F := F) row)))
      (broadcastInDim S1650000x64 ![0, 1] bcast_S1650000x1_S1650000x64_0_1
        (broadcastInDim S1650000x1 ![0] bcast_S1650000_S1650000x1_0 norm)))

/-- The bias laid along every row, then the rectifier. -/
def relu64T (agg : Arr F S50000x64 .f32) (b : Arr F S64 .f32) : Arr F S50000x64 .f32 :=
  maximumf (addf agg (broadcastInDim S50000x64 ![0, 1] bcast_S1x64_S50000x64_0_1 (broadcastInDim S1x64 ![1] bcast_S64_S1x64_1 b)))
    (broadcastInDim S50000x64 ![] bcast_S_S50000x64 (constant (F := F) S_ .f32 0#32))

/-- The column means: the column sums over 50000. -/
def mean64T (x : Arr F S50000x64 .f32) : Arr F S64 .f32 :=
  Host.divf (Host.reduceAdd x (constant (F := F) S_ .f32 0#32) reducesTo_S50000x64_S64_d0 h_S_)
    (broadcastInDim S64 ![] bcast_S_S64 (constant (F := F) S_ .f32 1195593728#32))

/-- The column variances: the column means of the squared deviations from the column means (the divisor is 50000 less
    the correction `c0`; where that is not positive the entry is the not-a-number word). -/
def var64T (x : Arr F S50000x64 .f32) (c0 : Arr F S_ .i32) : Arr F S64 .f32 :=
  select
    (broadcastInDim S64 ![] bcast_S_S64
      (cmpf .ogt (subf (constant (F := F) S_ .f32 1195593728#32) (sitofp .f32 c0)) (constant (F := F) S_ .f32 0#32)))
    (Host.divf
      (Host.reduceAdd
        (mulf
          (subf x (broadcastInDim S50000x64 ![0, 1] bcast_S1x64_S50000x64_0_1
            (Host.divf (broadcastInDim S1x64 ![1] bcast_S64_S1x64_1
                (Host.reduceAdd x (constant (F := F) S_ .f32 0#32) reducesTo_S50000x64_S64_d0 h_S_))
              (broadcastInDim S1x64 ![] bcast_S_S1x64 (constant (F := F) S_ .f32 1195593728#32)))))
          (subf x (broadcastInDim S50000x64 ![0, 1] bcast_S1x64_S50000x64_0_1
            (Host.divf (broadcastInDim S1x64 ![1] bcast_S64_S1x64_1
                (Host.reduceAdd x (constant (F := F) S_ .f32 0#32) reducesTo_S50000x64_S64_d0 h_S_))
              (broadcastInDim S1x64 ![] bcast_S_S1x64 (constant (F := F) S_ .f32 1195593728#32))))))
        (constant (F := F) S_ .f32 0#32) reducesTo_S50000x64_S64_d0 h_S_)
      (broadcastInDim S64 ![] bcast_S_S64 (subf (constant (F := F) S_ .f32 1195593728#32) (sitofp .f32 c0))))
    (broadcastInDim S64 ![] bcast_S_S64 (id (constant (F := F) S_ .f32 2143289344#32)))

/-- The normalisation: the deviation from the column mean, scaled by the gain and by the inverse square root of the
    column variance plus `1e-5`, then shifted; each vector laid along every row. -/
def bn64T (x : Arr F S50000x64 .f32) (g bt mean var : Arr F S64 .f32) : Arr F S50000x64 .f32 :=
  addf
    (mulf
      (mulf (broadcastInDim S50000x64 ![0, 1] bcast_S1x64_S50000x64_0_1 (broadcastInDim S1x64 ![1] bcast_S64_S1x64_1 g))
        (subf x (broadcastInDim S50000x64 ![0, 1] bcast_S1x64_S50000x64_0_1 (broadcastInDim S1x64 ![1] bcast_S64_S1x64_1 mean))))
      (broadcastInDim S50000x64 ![0, 1] bcast_S1x64_S50000x64_0_1 (broadcastInDim S1x64 ![1] bcast_S64_S1x64_1 (Host.rsqrt (addf var (broadcastInDim S64 ![] bcast_S_S64 (constant (F := F) S_ .f32 925353388#32)))))))
    (broadcastInDim S50000x64 ![0, 1] bcast_S1x64_S50000x64_0_1 (broadcastInDim S1x64 ![1] bcast_S64_S1x64_1 bt))

/-- A layer after its aggregation: bias and rectifier, then the normalisation by the rectified table's own column
    means and (uncorrected) column variances. -/
def lay64T (agg : Arr F S50000x64 .f32) (b g bt : Arr F S64 .f32) : Arr F S50000x64 .f32 :=
  bn64T (relu64T agg b) g bt (mean64T (relu64T agg b)) (var64T (relu64T agg b) (constantI S_ 32 0#32))

/-! ## A layer at 128 columns -/

/-- The aggregation with the pair weights given: the source rows gathered, pair `e`'s row scaled by `norm e`, the
    scaled rows added into the target rows. -/
def aggRn128T (norm : Arr F S1650000 .f32) (row col : Arr F S1650000 .i32) (h : Arr F S50000x128 .f32) : Arr F S50000x128 .f32 :=
  Host.scatterAdd scatter_S50000x128_S1650000x1_S1650000x128_1_0_0_1
    (broadcastInDim S50000x128 ![] bcast_S_S50000x128 (constant (F := F) S_ .f32 0#32))
    (broadcastInDim S1650000x1 ![0] bcast_S1650000_S1650000x1_0 col)
    (mulf
      (Host.gather gather_S50000x128_S1650000x1_S1650000x128_1_0_n_n_0_1_1128 h
        (broadcastInDim S1650000x1 ![0] bcast_S1650000_S1650000x1_0 (wrapT (F := F) row)))
      (broadcastInDim S1650000x128 ![0, 1] bcast_S1650000x1_S1650000x128_0_1
        (broadcastInDim S1650000x1 ![0] bcast_S1650000_S1650000x1_0 norm)))

/-- The bias laid along every row, then the rectifier. -/
def relu128T (agg : Arr F S50000x128 .f32) (b : Arr F S128 .f32) : Arr F S50000x128 .f32 :=
  maximumf (addf agg (broadcastInDim S50000x128 ![0, 1] bcast_S1x128_S50000x128_0_1 (broadcastInDim S1x128 ![1] bcast_S128_S1x128_1 b)))
    (broadcastInDim S50000x128 ![] bcast_S_S50000x128 (constant (F := F) S_ .f32 0#32))

/-- The column means: the column sums over 50000. -/
def mean128T (x : Arr F S50000x128 .f32) : Arr F S128 .f32 :=
  Host.divf (Host.reduceAdd x (constant (F := F) S_ .f32 0#32) reducesTo_S50000x128_S128_d0 h_S_)
    (broadcastInDim S128 ![] bcast_S_S128 (constant (F := F) S_ .f32 1195593728#32))

/-- The column variances: the column means of the squared deviations from the column means (the divisor is 50000 less
    the correction `c0`; where that is not positive the entry is the not-a-number word). -/
def var128T (x : Arr F S50000x128 .f32) (c0 : Arr F S_ .i32) : Arr F S128 .f32 :=
  select
    (broadcastInDim S128 ![] bcast_S_S128
      (cmpf .ogt (subf (constant (F := F) S_ .f32 1195593728#32) (sitofp .f32 c0)) (constant (F := F) S_ .f32 0#32)))
    (Host.divf
      (Host.reduceAdd
        (mulf
          (subf x (broadcastInDim S50000x128 ![0, 1] bcast_S1x128_S50000x128_0_1
            (Host.divf (broadcastInDim S1x128 ![1] bcast_S128_S1x128_1
                (Host.reduceAdd x (constant (F := F) S_ .f32 0#32) reducesTo_S50000x128_S128_d0 h_S_))
              (broadcastInDim S1x128 ![] bcast_S_S1x128 (constant (F := F) S_ .f32 1195593728#32)))))
          (subf x (broadcastInDim S50000x128 ![0, 1] bcast_S1x128_S50000x128_0_1
            (Host.divf (broadcastInDim S1x128 ![1] bcast_S128_S1x128_1
                (Host.reduceAdd x (constant (F := F) S_ .f32 0#32) reducesTo_S50000x128_S128_d0 h_S_))
              (broadcastInDim S1x128 ![] bcast_S_S1x128 (constant (F := F) S_ .f32 1195593728#32))))))
        (constant (F := F) S_ .f32 0#32) reducesTo_S50000x128_S128_d0 h_S_)
      (broadcastInDim S128 ![] bcast_S_S128 (subf (constant (F := F) S_ .f32 1195593728#32) (sitofp .f32 c0))))
    (broadcastInDim S128 ![] bcast_S_S128 (id (constant (F := F) S_ .f32 2143289344#32)))

/-- The normalisation: the deviation from the column mean, scaled by the gain and by the inverse square root of the
    column variance plus `1e-5`, then shifted; each vector laid along every row. -/
def bn128T (x : Arr F S50000x128 .f32) (g bt mean var : Arr F S128 .f32) : Arr F S50000x128 .f32 :=
  addf
    (mulf
      (mulf (broadcastInDim S50000x128 ![0, 1] bcast_S1x128_S50000x128_0_1 (broadcastInDim S1x128 ![1] bcast_S128_S1x128_1 g))
        (subf x (broadcastInDim S50000x128 ![0, 1] bcast_S1x128_S50000x128_0_1 (broadcastInDim S1x128 ![1] bcast_S128_S1x128_1 mean))))
      (broadcastInDim S50000x128 ![0, 1] bcast_S1x128_S50000x128_0_1 (broadcastInDim S1x128 ![1] bcast_S128_S1x128_1 (Host.rsqrt (addf var (broadcastInDim S128 ![] bcast_S_S128 (constant (F := F) S_ .f32 925353388#32)))))))
    (broadcastInDim S50000x128 ![0, 1] bcast_S1x128_S50000x128_0_1 (broadcastInDim S1x128 ![1] bcast_S128_S1x128_1 bt))

/-- A layer after its aggregation: bias and rectifier, then the normalisation by the rectified table's own column
    means and (uncorrected) column variances. -/
def lay128T (agg : Arr F S50000x128 .f32) (b g bt : Arr F S128 .f32) : Arr F S50000x128 .f32 :=
  bn128T (relu128T agg b) g bt (mean128T (relu128T agg b)) (var128T (relu128T agg b) (constantI S_ 32 0#32))

/-! ## The scoring head -/

/-- A scored pair's node index read the way array indexing reads it: a negative index counts from the end. -/
def wrapPT (r : Arr F S200000 .i32) : Arr F S200000 .i32 :=
  select (cmpi .slt r (broadcastInDim S200000 ![] bcast_S_S200000 (constantI S_ 32 0#32)))
    (addi r (broadcastInDim S200000 ![] bcast_S_S200000 (constantI S_ 32 50000#32))) r

/-- The pair features: the source node's row beside the target node's row. -/
def embRT (z : Arr F S50000x128 .f32) (src dst : Arr F S200000 .i32) : Arr F S200000x256 .f32 :=
  cat2 S200000x256 1 S200000x128 S200000x128 concatenates_S200000x128_S200000x128_S200000x256_d1
    (Host.gather gather_S50000x128_S200000x1_S200000x128_1_0_n_n_0_1_1128 z
      (broadcastInDim S200000x1 ![0] bcast_S200000_S200000x1_0 (wrapPT (F := F) src)))
    (Host.gather gather_S50000x128_S200000x1_S200000x128_1_0_n_n_0_1_1128 z
      (broadcastInDim S200000x1 ![0] bcast_S200000_S200000x1_0 (wrapPT (F := F) dst)))

/-- The two-layer perceptron over the pair features: a product with the first weights, bias, rectifier, a product
    with the one-column second weights, bias; the one-column result as a vector. -/
def scoreT (emb : Arr F S200000x256 .f32) (fw1 : Arr F S256x128 .f32) (fb1 : Arr F S128 .f32)
    (fw2 : Arr F S128x1 .f32) (fb2 : Arr F S1 .f32) : Arr F S200000 .f32 :=
  fun i => shapeCast S200000
    (addf
      (Host.dotGeneral dot_S200000x128_S128x1_S200000x1_1_0_0_1_n_n none
        (maximumf
          (addf (Host.dotGeneral dot_S200000x256_S256x128_S200000x128_1_0_0_1_n_n none emb fw1)
            (broadcastInDim S200000x128 ![0, 1] bcast_S1x128_S200000x128_0_1 (broadcastInDim S1x128 ![1] bcast_S128_S1x128_1 fb1)))
          (broadcastInDim S200000x128 ![] bcast_S_S200000x128 (constant (F := F) S_ .f32 0#32)))
        fw2)
      (broadcastInDim S200000x1 ![0, 1] bcast_S1x1_S200000x1_0_1 (broadcastInDim S1x1 ![1] bcast_S1_S1x1_1 fb2)))
    shapeCasts_S200000x1_S200000 i

end Cert.ReferenceIdeal.RT

end
-- ==== Proof.RefStages.lean ====
import proofs.«136817_j2800318677196_2_alg».proof.Proof.RefOps0
import proofs.«136817_j2800318677196_2_alg».proof.Proof.RefOps1
import proofs.«136817_j2800318677196_2_alg».proof.Proof.RefOps2
import proofs.«136817_j2800318677196_2_alg».proof.Proof.RefOps3
import proofs.«136817_j2800318677196_2_alg».proof.Proof.RefOps4
import proofs.«136817_j2800318677196_2_alg».proof.Proof.RefTerms
import proofs.«136817_j2800318677196_2_alg».proof.Proof.LibFoldCat
import Idealize.ShloMosaic.Lib.StableHlo.Run

/-!
  The reference program's five stretches, read one at a time.

  Each stretch is read at the buffers the later stretches use, as a function of what the stretch finds in the buffers
  it reads (`X`, the contents when the stretch is entered): the graph stretch at the pairs, the inverse square root of
  the degree and the pair weights; a layer's stretch at the layer's normalised output; the third layer's stretch also at
  the scored pairs' features; the last stretch at the result.
-/

set_option maxRecDepth 16384

noncomputable section

namespace Cert.ReferenceIdeal.RS

open Cert.ReferenceIdeal Cert.ReferenceIdeal.Gen Cert.ReferenceIdeal.RefRun Cert.ReferenceIdeal.RT
open Idealize.ShloMosaic Idealize.ShloMosaic.StableHlo Idealize.ShloMosaic.TcCoe
open Cert.LibConcat Cert.LibFoldCat

variable {F : FTy → Type} [FloatOps F]

variable (X : Valuation τ sig (Elt F))

/-! ## The graph stretch -/

theorem sN_v3 : after (opsN (F := F)) X (Proc.devRef .tc main_v3) = rowT (X (Proc.devRef .tc main_arg1)) := by
  fold_read <;> rfl
theorem sN_v6 : after (opsN (F := F)) X (Proc.devRef .tc main_v6) = colT (X (Proc.devRef .tc main_arg1)) := by
  fold_read <;> rfl
theorem sN_v14 : after (opsN (F := F)) X (Proc.devRef .tc main_v14) = disT (colT (X (Proc.devRef .tc main_arg1))) := by
  fold_read <;> rfl
theorem sN_v29 : after (opsN (F := F)) X (Proc.devRef .tc main_v29)
    = normT (disT (colT (X (Proc.devRef .tc main_arg1)))) (rowT (X (Proc.devRef .tc main_arg1))) (colT (X (Proc.devRef .tc main_arg1))) := by
  fold_read <;> rfl

/-! ## The three layers -/

theorem sL1_v66 : after (opsL1 (F := F)) X (Proc.devRef .tc main_v66)
    = lay64T (aggRn64T (X (Proc.devRef .tc main_v29)) (X (Proc.devRef .tc main_v3)) (X (Proc.devRef .tc main_v6)) (dense1T (X (Proc.devRef .tc main_arg0)) (X (Proc.devRef .tc main_arg4)))) (X (Proc.devRef .tc main_arg5)) (X (Proc.devRef .tc main_arg10)) (X (Proc.devRef .tc main_arg11)) := by
  fold_read <;> rfl

theorem sL2_v103 : after (opsL2 (F := F)) X (Proc.devRef .tc main_v103)
    = lay128T (aggRn128T (X (Proc.devRef .tc main_v29)) (X (Proc.devRef .tc main_v3)) (X (Proc.devRef .tc main_v6)) (dense2T (X (Proc.devRef .tc main_v66)) (X (Proc.devRef .tc main_arg6)))) (X (Proc.devRef .tc main_arg7)) (X (Proc.devRef .tc main_arg12)) (X (Proc.devRef .tc main_arg13)) := by
  fold_read <;> rfl

theorem sL3_v140 : after (opsL3 (F := F)) X (Proc.devRef .tc main_v140)
    = lay128T (aggRn128T (X (Proc.devRef .tc main_v29)) (X (Proc.devRef .tc main_v3)) (X (Proc.devRef .tc main_v6)) (dense3T (X (Proc.devRef .tc main_v103)) (X (Proc.devRef .tc main_arg8)))) (X (Proc.devRef .tc main_arg9)) (X (Proc.devRef .tc main_arg14)) (X (Proc.devRef .tc main_arg15)) := by
  fold_read <;> rfl

theorem sL3_v155 : after (opsL3 (F := F)) X (Proc.devRef .tc main_v155)
    = embRT (lay128T (aggRn128T (X (Proc.devRef .tc main_v29)) (X (Proc.devRef .tc main_v3)) (X (Proc.devRef .tc main_v6)) (dense3T (X (Proc.devRef .tc main_v103)) (X (Proc.devRef .tc main_arg8)))) (X (Proc.devRef .tc main_arg9)) (X (Proc.devRef .tc main_arg14)) (X (Proc.devRef .tc main_arg15))) (X (Proc.devRef .tc main_arg2)) (X (Proc.devRef .tc main_arg3)) := by
  fold_read <;> rfl

/-! ## The scoring stretch -/

theorem sS_v165 : after (opsS (F := F)) X (Proc.devRef .tc main_v165)
    = scoreT (X (Proc.devRef .tc main_v155)) (X (Proc.devRef .tc main_arg16)) (X (Proc.devRef .tc main_arg17)) (X (Proc.devRef .tc main_arg18)) (X (Proc.devRef .tc main_arg19)) := by
  fold_read <;> rfl

end Cert.ReferenceIdeal.RS

end
-- ==== Proof.RefRead.lean ====
import proofs.«136817_j2800318677196_2_alg».proof.Proof.RefRun
import proofs.«136817_j2800318677196_2_alg».proof.Proof.RefStages

/-!
  The reference program's result as one function of its twenty arguments.

  The five stretches run in order; each reads what the earlier ones left. A stretch's output is its stage term of the
  buffers it reads (the read lemmas), and a buffer a stretch does not write is carried through it unchanged. Composing
  the stage terms from the last stretch back to the launch contents gives the result `rOut`.
-/

set_option maxRecDepth 16384

noncomputable section

namespace Cert.ReferenceIdeal.RR

open Cert.ReferenceIdeal Cert.ReferenceIdeal.Gen Cert.ReferenceIdeal.RefRun Cert.ReferenceIdeal.RT Cert.ReferenceIdeal.RS
open Idealize.ShloMosaic Idealize.ShloMosaic.StableHlo Idealize.ShloMosaic.TcCoe

variable {F : FTy → Type} [FloatOps F]

/-! ## The result as a function of the arguments -/

/-- The pair weights from the edge list. -/
def normAT (a1 : Arr F S2x1600000 .i32) : Arr F S1650000 .f32 :=
  normT (disT (colT a1)) (rowT a1) (colT a1)

/-- The first layer's output. -/
def z1T (a0 : Arr F S50000x128 .f32) (a1 : Arr F S2x1600000 .i32) (w : Arr F S128x64 .f32) (b g bt : Arr F S64 .f32) :
    Arr F S50000x64 .f32 :=
  lay64T (aggRn64T (normAT a1) (rowT a1) (colT a1) (dense1T a0 w)) b g bt

/-- The second layer's output, from the first's. -/
def z2T (z : Arr F S50000x64 .f32) (a1 : Arr F S2x1600000 .i32) (w : Arr F S64x128 .f32) (b g bt : Arr F S128 .f32) :
    Arr F S50000x128 .f32 :=
  lay128T (aggRn128T (normAT a1) (rowT a1) (colT a1) (dense2T z w)) b g bt

/-- The third layer's output, from the second's. -/
def z3T (z : Arr F S50000x128 .f32) (a1 : Arr F S2x1600000 .i32) (w : Arr F S128x128 .f32) (b g bt : Arr F S128 .f32) :
    Arr F S50000x128 .f32 :=
  lay128T (aggRn128T (normAT a1) (rowT a1) (colT a1) (dense3T z w)) b g bt

/-- The reference's result: the scores of the pairs `(a2, a3)` over the third layer's output. -/
def rOut (a0 : Arr F S50000x128 .f32) (a1 : Arr F S2x1600000 .i32) (a2 : Arr F S200000 .i32) (a3 : Arr F S200000 .i32) (a4 : Arr F S128x64 .f32) (a5 : Arr F S64 .f32) (a6 : Arr F S64x128 .f32) (a7 : Arr F S128 .f32) (a8 : Arr F S128x128 .f32) (a9 : Arr F S128 .f32) (a10 : Arr F S64 .f32) (a11 : Arr F S64 .f32) (a12 : Arr F S128 .f32) (a13 : Arr F S128 .f32) (a14 : Arr F S128 .f32) (a15 : Arr F S128 .f32) (a16 : Arr F S256x128 .f32) (a17 : Arr F S128 .f32) (a18 : Arr F S128x1 .f32) (a19 : Arr F S1 .f32) : Arr F S200000 .f32 :=
  scoreT (embRT (z3T (z2T (z1T a0 a1 a4 a5 a10 a11) a1 a6 a7 a12 a13) a1 a8 a9 a14 a15) a2 a3) a16 a17 a18 a19

/-! ## The read -/

/-- From any contents `V`: after @main the result buffer holds `rOut` of the twenty argument buffers' contents. -/
theorem ref_read (V : Valuation τ sig (Elt F)) :
    after (ops (F := F)) V (Proc.devRef .tc main_v165)
      = rOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  show after (opsN ++ opsL1 ++ opsL2 ++ opsL3 ++ opsS) V _ = _
  rw [after_app, after_app, after_app, after_app]
  -- the last stretch, and the scored pairs' features out of the third layer's stretch
  rw [sS_v165, sL3_v155]
  rw [opsL3_keep _ (r := main_arg16) (by decide), opsL3_keep _ (r := main_arg17) (by decide), opsL3_keep _ (r := main_arg18) (by decide),
    opsL3_keep _ (r := main_arg19) (by decide)]
  -- the second layer's stretch; what it does not write it carries
  rw [sL2_v103]
  rw [opsL2_keep _ (r := main_v29) (by decide), opsL2_keep _ (r := main_v3) (by decide), opsL2_keep _ (r := main_v6) (by decide),
    opsL2_keep _ (r := main_arg8) (by decide), opsL2_keep _ (r := main_arg9) (by decide), opsL2_keep _ (r := main_arg14) (by decide),
    opsL2_keep _ (r := main_arg15) (by decide), opsL2_keep _ (r := main_arg2) (by decide), opsL2_keep _ (r := main_arg3) (by decide),
    opsL2_keep _ (r := main_arg16) (by decide), opsL2_keep _ (r := main_arg17) (by decide), opsL2_keep _ (r := main_arg18) (by decide),
    opsL2_keep _ (r := main_arg19) (by decide)]
  -- the first layer's stretch
  rw [sL1_v66]
  rw [opsL1_keep _ (r := main_v29) (by decide), opsL1_keep _ (r := main_v3) (by decide), opsL1_keep _ (r := main_v6) (by decide),
    opsL1_keep _ (r := main_arg6) (by decide), opsL1_keep _ (r := main_arg7) (by decide), opsL1_keep _ (r := main_arg12) (by decide),
    opsL1_keep _ (r := main_arg13) (by decide), opsL1_keep _ (r := main_arg8) (by decide), opsL1_keep _ (r := main_arg9) (by decide),
    opsL1_keep _ (r := main_arg14) (by decide), opsL1_keep _ (r := main_arg15) (by decide), opsL1_keep _ (r := main_arg2) (by decide),
    opsL1_keep _ (r := main_arg3) (by decide), opsL1_keep _ (r := main_arg16) (by decide), opsL1_keep _ (r := main_arg17) (by decide),
    opsL1_keep _ (r := main_arg18) (by decide), opsL1_keep _ (r := main_arg19) (by decide)]
  -- the graph stretch: the pairs and their weights; every other argument as in `V`
  rw [sN_v29, sN_v3, sN_v6]
  rw [opsN_keep _ (r := main_arg0) (by decide), opsN_keep _ (r := main_arg4) (by decide), opsN_keep _ (r := main_arg5) (by decide),
    opsN_keep _ (r := main_arg10) (by decide), opsN_keep _ (r := main_arg11) (by decide), opsN_keep _ (r := main_arg6) (by decide),
    opsN_keep _ (r := main_arg7) (by decide), opsN_keep _ (r := main_arg12) (by decide), opsN_keep _ (r := main_arg13) (by decide),
    opsN_keep _ (r := main_arg8) (by decide), opsN_keep _ (r := main_arg9) (by decide), opsN_keep _ (r := main_arg14) (by decide),
    opsN_keep _ (r := main_arg15) (by decide), opsN_keep _ (r := main_arg2) (by decide), opsN_keep _ (r := main_arg3) (by decide),
    opsN_keep _ (r := main_arg16) (by decide), opsN_keep _ (r := main_arg17) (by decide), opsN_keep _ (r := main_arg18) (by decide),
    opsN_keep _ (r := main_arg19) (by decide)]
  rfl

/-- From the launch memory `m`, on device `c`: the result buffer after @main is `rOut` of the launched arguments. -/
theorem ref_result (m : (ℓ : Loc nD τ sig) → Buf (Elt F) ℓ) (c : Dev nD) :
    after (ops (F := F)) (launchContents m c) (Proc.devRef .tc main_v165)
      = rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  ref_read (launchContents m c)

end Cert.ReferenceIdeal.RR

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«136817_j2800318677196_2_alg».proof.Proof.LibDotIdx
import proofs.«136817_j2800318677196_2_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.BridgeBN.lean ====
/-
  The fused normalization-and-product regions against the host chain of the reference, index by index at the exact
  extended reals. The kernel regions recompute the bias and rectifier inside the block and read the per-column operands
  as one-row arrays; the reference lays each per-column vector along every row in two broadcasts, normalizes the
  rectified array, and multiplies on the host. At an index `(p, q)` both are the same sum over the contracted coordinate
  of the same expression, in the same order of operations.
-/
import proofs.«136817_j2800318677196_2_alg».proof.Proof.Region1
import proofs.«136817_j2800318677196_2_alg».proof.Proof.Region2
import proofs.«136817_j2800318677196_2_alg».proof.Proof.KerStages
import proofs.«136817_j2800318677196_2_alg».proof.Proof.LibRowOps
import Idealize.ShloMosaic.Lib.IdealHost
import proofs.«136817_j2800318677196_2_alg».proof.Proof.RefTerms
set_option maxRecDepth 16384
set_option pp.maxSteps 5000
set_option pp.deepTerms false

noncomputable section

namespace Cert.KernelIdeal.BridgeBN

open Idealize.ShloMosaic Idealize.ShloMosaic.ValueIdx
open scoped BigOperators

/-! ## The forms at an index, at any number of columns -/

section AnyWidth
variable {C : Nat}

/-- A vector recast as a one-row array reads, at `(0, k)`, its entry `k`. -/
theorem rowCast_apply {α : Type} (v : (⟨1, ![C]⟩ : Shape).Idx → α)
    (h : (⟨1, ![C]⟩ : Shape).ShapeCasts ⟨2, ![1, C]⟩) (k : Fin C) :
    shapeCast ⟨2, ![1, C]⟩ v h (ix2 (0 : Fin 1) k) = v (ix1 k) :=
  shapeCast_apply v h (ix2 (0 : Fin 1) k) (ix1 k) (by
    rw [Shape.rowMajor_val_two, Shape.rowMajor_val_one]; show k.val = 0 * C + k.val; omega)

/-- The host's bias and rectifier at `(p, k)`: the bias vector laid along every row and added, the maximum with the
    zero splat. -/
theorem reluHost_apply (agg : FVec Ideal ⟨2, ![50000, C]⟩ .f32) (b : FVec Ideal ⟨1, ![C]⟩ .f32)
    (hd1 : (⟨1, ![C]⟩ : Shape).BroadcastsInDim ⟨2, ![1, C]⟩ ![1])
    (hd : (⟨2, ![1, C]⟩ : Shape).BroadcastsInDim ⟨2, ![50000, C]⟩ ![0, 1])
    (hz : (⟨0, ![]⟩ : Shape).BroadcastsInDim ⟨2, ![50000, C]⟩ ![]) (p : Fin 50000) (k : Fin C) :
    maximumf (addf agg (broadcastInDim ⟨2, ![50000, C]⟩ ![0, 1] hd (broadcastInDim ⟨2, ![1, C]⟩ ![1] hd1 b)))
        (broadcastInDim ⟨2, ![50000, C]⟩ ![] hz (constant (F := Ideal) ⟨0, ![]⟩ .f32 0#32)) (ix2 p k)
      = max (agg (ix2 p k) + b (ix1 k)) 0 := by
  rw [maximumf_apply, addf_apply, Cert.LibRowOps.rowVec_host_apply, broadcastInDim_scalar_apply, constant_apply]
  exact congrArg (max _) Ideal.ofBits_zero_f32

/-- The host's normalization at `(p, k)`: each per-column vector laid along every row; the scale times the centred
    entry, times the reciprocal square root of the shifted variance, plus the offset. -/
theorem bnHost_apply (relu : FVec Ideal ⟨2, ![50000, C]⟩ .f32) (g bt mu var : FVec Ideal ⟨1, ![C]⟩ .f32)
    (hd1 : (⟨1, ![C]⟩ : Shape).BroadcastsInDim ⟨2, ![1, C]⟩ ![1])
    (hd : (⟨2, ![1, C]⟩ : Shape).BroadcastsInDim ⟨2, ![50000, C]⟩ ![0, 1])
    (hs : (⟨0, ![]⟩ : Shape).BroadcastsInDim ⟨1, ![C]⟩ ![]) (eps : BitVec 32) (p : Fin 50000) (k : Fin C) :
    addf (mulf (mulf (broadcastInDim ⟨2, ![50000, C]⟩ ![0, 1] hd (broadcastInDim ⟨2, ![1, C]⟩ ![1] hd1 g))
            (subf relu (broadcastInDim ⟨2, ![50000, C]⟩ ![0, 1] hd (broadcastInDim ⟨2, ![1, C]⟩ ![1] hd1 mu))))
          (broadcastInDim ⟨2, ![50000, C]⟩ ![0, 1] hd (broadcastInDim ⟨2, ![1, C]⟩ ![1] hd1
            (Host.rsqrt (addf var (broadcastInDim ⟨1, ![C]⟩ ![] hs (constant (F := Ideal) ⟨0, ![]⟩ .f32 eps)))))))
        (broadcastInDim ⟨2, ![50000, C]⟩ ![0, 1] hd (broadcastInDim ⟨2, ![1, C]⟩ ![1] hd1 bt)) (ix2 p k)
      = g (ix1 k) * (relu (ix2 p k) - mu (ix1 k)) * Ideal.rsqrt (var (ix1 k) + Ideal.ofBits .f32 eps) + bt (ix1 k) := by
  rw [addf_apply, mulf_apply, mulf_apply, subf_apply, Cert.LibRowOps.rowVec_host_apply, Cert.LibRowOps.rowVec_host_apply,
    Cert.LibRowOps.rowVec_host_apply, Cert.LibRowOps.rowVec_host_apply]
  show _ * _ * Ideal.rsqrt (var (ix1 k) + broadcastInDim ⟨1, ![C]⟩ ![] hs (constant (F := Ideal) ⟨0, ![]⟩ .f32 eps) (ix1 k)) + _ = _
  rw [broadcastInDim_scalar_apply, constant_apply]

/-- The host's product of the normalized rectified array with the weight, at `(p, q)`: the sum over the contracted
    coordinate, every factor read off the operands. -/
theorem bnDenseHost_apply (agg relu : FVec Ideal ⟨2, ![50000, C]⟩ .f32) (b g bt mu var : FVec Ideal ⟨1, ![C]⟩ .f32)
    (w : FVec Ideal ⟨2, ![C, 128]⟩ .f32)
    (hrelu : ∀ (p : Fin 50000) (k : Fin C), relu (ix2 p k) = max (agg (ix2 p k) + b (ix1 k)) 0)
    (hd1 : (⟨1, ![C]⟩ : Shape).BroadcastsInDim ⟨2, ![1, C]⟩ ![1])
    (hd : (⟨2, ![1, C]⟩ : Shape).BroadcastsInDim ⟨2, ![50000, C]⟩ ![0, 1])
    (hs : (⟨0, ![]⟩ : Shape).BroadcastsInDim ⟨1, ![C]⟩ ![]) (eps : BitVec 32)
    (wf : DotDims.WF ⟨2, ![50000, C]⟩ ⟨2, ![C, 128]⟩ ⟨2, ![50000, 128]⟩ [1] [0] [0] [1] [] [])
    (p : Fin 50000) (q : Fin 128) :
    Host.dotGeneral (⟨[1], [0], [0], [1], [], [], wf⟩ : DotDims _ _ _) none
        (addf (mulf (mulf (broadcastInDim ⟨2, ![50000, C]⟩ ![0, 1] hd (broadcastInDim ⟨2, ![1, C]⟩ ![1] hd1 g))
            (subf relu (broadcastInDim ⟨2, ![50000, C]⟩ ![0, 1] hd (broadcastInDim ⟨2, ![1, C]⟩ ![1] hd1 mu))))
          (broadcastInDim ⟨2, ![50000, C]⟩ ![0, 1] hd (broadcastInDim ⟨2, ![1, C]⟩ ![1] hd1
            (Host.rsqrt (addf var (broadcastInDim ⟨1, ![C]⟩ ![] hs (constant (F := Ideal) ⟨0, ![]⟩ .f32 eps)))))))
        (broadcastInDim ⟨2, ![50000, C]⟩ ![0, 1] hd (broadcastInDim ⟨2, ![1, C]⟩ ![1] hd1 bt))) w (ix2 p q)
      = ∑ k : Fin C, (g (ix1 k) * (max (agg (ix2 p k) + b (ix1 k)) 0 - mu (ix1 k))
          * Ideal.rsqrt (var (ix1 k) + Ideal.ofBits .f32 eps) + bt (ix1 k)) * w (ix2 k q) := by
  rw [Cert.LibRowOps.dotGeneral_plain_apply]
  exact Finset.sum_congr rfl fun k _ => by rw [bnHost_apply, hrelu]

end AnyWidth

/-! ## Region 1's function at one-row operands that are recast vectors -/

/-- Region 1's whole-array function, its five one-row operands the recast per-column vectors, at `(p, q)`. -/
theorem G1_rows (agg : FVec Ideal Cert.KernelIdeal.S50000x64 .f32) (b g bt mu var : FVec Ideal Cert.KernelIdeal.S64 .f32)
    (w : FVec Ideal Cert.KernelIdeal.S64x128 .f32) (p : Fin 50000) (q : Fin 128) :
    Cert.KernelIdeal.RegionVal.G1 agg (Cert.KernelIdeal.KS.row64T (F := Ideal) b) (Cert.KernelIdeal.KS.row64T (F := Ideal) g)
        (Cert.KernelIdeal.KS.row64T (F := Ideal) bt) (Cert.KernelIdeal.KS.row64T (F := Ideal) mu) (Cert.KernelIdeal.KS.row64T (F := Ideal) var) w (ix2 p q)
      = ∑ k : Fin 64, (g (ix1 k) * (max (agg (ix2 p k) + b (ix1 k)) 0 - mu (ix1 k))
          * Ideal.rsqrt (var (ix1 k) + Ideal.ofBits .f32 0x3727C5AC#32) + bt (ix1 k)) * w (ix2 k q) := by
  rw [Cert.KernelIdeal.RegionVal.G1_apply]
  refine Finset.sum_congr rfl fun k _ => ?_
  have r : ∀ v : FVec Ideal Cert.KernelIdeal.S64 .f32,
      Cert.KernelIdeal.KS.row64T (F := Ideal) v (ix2 (0 : Fin 1) k) = v (ix1 k) :=
    fun v => rowCast_apply v Cert.KernelIdeal.Gen.shapeCasts_S64_S1x64 k
  rw [r b, r g, r bt, r mu, r var]

/-! ## Region 2's function at one-row operands that are recast vectors -/

/-- Region 2's whole-array function, its five one-row operands the recast per-column vectors, at `(p, q)`. -/
theorem G2_rows (agg : FVec Ideal Cert.KernelIdeal.S50000x128 .f32) (b g bt mu var : FVec Ideal Cert.KernelIdeal.S128 .f32)
    (w : FVec Ideal Cert.KernelIdeal.S128x128 .f32) (p : Fin 50000) (q : Fin 128) :
    Cert.KernelIdeal.RegionVal.G2 agg (Cert.KernelIdeal.KS.row128T (F := Ideal) b) (Cert.KernelIdeal.KS.row128T (F := Ideal) g)
        (Cert.KernelIdeal.KS.row128T (F := Ideal) bt) (Cert.KernelIdeal.KS.row128T (F := Ideal) mu) (Cert.KernelIdeal.KS.row128T (F := Ideal) var) w (ix2 p q)
      = ∑ k : Fin 128, (g (ix1 k) * (max (agg (ix2 p k) + b (ix1 k)) 0 - mu (ix1 k))
          * Ideal.rsqrt (var (ix1 k) + Ideal.ofBits .f32 0x3727C5AC#32) + bt (ix1 k)) * w (ix2 k q) := by
  rw [Cert.KernelIdeal.RegionVal.G2_apply]
  refine Finset.sum_congr rfl fun k _ => ?_
  have r : ∀ v : FVec Ideal Cert.KernelIdeal.S128 .f32,
      Cert.KernelIdeal.KS.row128T (F := Ideal) v (ix2 (0 : Fin 1) k) = v (ix1 k) :=
    fun v => rowCast_apply v Cert.KernelIdeal.Gen.shapeCasts_S128_S1x128 k
  rw [r b, r g, r bt, r mu, r var]

/-! ## The two regions against the reference's terms -/

/-- Region 1 is the reference's normalization and product: the region's function of the activation, the five recast
    per-column vectors and the weight is the host product of the normalized rectified activation with the weight. -/
theorem bnDense64_eq_ks (agg : FVec Ideal Cert.KernelIdeal.S50000x64 .f32) (b g bt mu var : FVec Ideal Cert.KernelIdeal.S64 .f32)
    (w : FVec Ideal Cert.KernelIdeal.S64x128 .f32) :
    Cert.KernelIdeal.RegionVal.G1 agg (Cert.KernelIdeal.KS.row64T (F := Ideal) b) (Cert.KernelIdeal.KS.row64T (F := Ideal) g)
        (Cert.KernelIdeal.KS.row64T (F := Ideal) bt) (Cert.KernelIdeal.KS.row64T (F := Ideal) mu) (Cert.KernelIdeal.KS.row64T (F := Ideal) var) w
      = Cert.ReferenceIdeal.RT.dense2T (F := Ideal)
          (Cert.ReferenceIdeal.RT.bn64T (F := Ideal) (Cert.KernelIdeal.KS.relu64T (F := Ideal) agg b) g bt mu var) w := by
  funext i
  obtain ⟨p, q, rfl⟩ : ∃ (p : Fin 50000) (q : Fin 128), i = ix2 p q := ⟨i 0, i 1, eq_ix2 i⟩
  rw [G1_rows]
  unfold Cert.ReferenceIdeal.RT.dense2T Cert.ReferenceIdeal.RT.bn64T
  exact (bnDenseHost_apply agg (Cert.KernelIdeal.KS.relu64T (F := Ideal) agg b) b g bt mu var w
    (fun p k => reluHost_apply agg b _ _ _ p k) _ _ _ _ _ p q).symm

/-- The same against the reference's own spelling of the bias and rectifier. -/
theorem bnDense64_eq (agg : FVec Ideal Cert.KernelIdeal.S50000x64 .f32) (b g bt mu var : FVec Ideal Cert.KernelIdeal.S64 .f32)
    (w : FVec Ideal Cert.KernelIdeal.S64x128 .f32) :
    Cert.KernelIdeal.RegionVal.G1 agg (Cert.KernelIdeal.KS.row64T (F := Ideal) b) (Cert.KernelIdeal.KS.row64T (F := Ideal) g)
        (Cert.KernelIdeal.KS.row64T (F := Ideal) bt) (Cert.KernelIdeal.KS.row64T (F := Ideal) mu) (Cert.KernelIdeal.KS.row64T (F := Ideal) var) w
      = Cert.ReferenceIdeal.RT.dense2T (F := Ideal)
          (Cert.ReferenceIdeal.RT.bn64T (F := Ideal) (Cert.ReferenceIdeal.RT.relu64T (F := Ideal) agg b) g bt mu var) w := by
  funext i
  obtain ⟨p, q, rfl⟩ : ∃ (p : Fin 50000) (q : Fin 128), i = ix2 p q := ⟨i 0, i 1, eq_ix2 i⟩
  rw [G1_rows]
  unfold Cert.ReferenceIdeal.RT.dense2T Cert.ReferenceIdeal.RT.bn64T
  exact (bnDenseHost_apply agg (Cert.ReferenceIdeal.RT.relu64T (F := Ideal) agg b) b g bt mu var w
    (fun p k => reluHost_apply agg b _ _ _ p k) _ _ _ _ _ p q).symm

/-- Region 2 is the reference's normalization and product: the region's function of the activation, the five recast
    per-column vectors and the weight is the host product of the normalized rectified activation with the weight. -/
theorem bnDense128_eq_ks (agg : FVec Ideal Cert.KernelIdeal.S50000x128 .f32) (b g bt mu var : FVec Ideal Cert.KernelIdeal.S128 .f32)
    (w : FVec Ideal Cert.KernelIdeal.S128x128 .f32) :
    Cert.KernelIdeal.RegionVal.G2 agg (Cert.KernelIdeal.KS.row128T (F := Ideal) b) (Cert.KernelIdeal.KS.row128T (F := Ideal) g)
        (Cert.KernelIdeal.KS.row128T (F := Ideal) bt) (Cert.KernelIdeal.KS.row128T (F := Ideal) mu) (Cert.KernelIdeal.KS.row128T (F := Ideal) var) w
      = Cert.ReferenceIdeal.RT.dense3T (F := Ideal)
          (Cert.ReferenceIdeal.RT.bn128T (F := Ideal) (Cert.KernelIdeal.KS.relu128T (F := Ideal) agg b) g bt mu var) w := by
  funext i
  obtain ⟨p, q, rfl⟩ : ∃ (p : Fin 50000) (q : Fin 128), i = ix2 p q := ⟨i 0, i 1, eq_ix2 i⟩
  rw [G2_rows]
  unfold Cert.ReferenceIdeal.RT.dense3T Cert.ReferenceIdeal.RT.bn128T
  exact (bnDenseHost_apply agg (Cert.KernelIdeal.KS.relu128T (F := Ideal) agg b) b g bt mu var w
    (fun p k => reluHost_apply agg b _ _ _ p k) _ _ _ _ _ p q).symm

/-- The same against the reference's own spelling of the bias and rectifier. -/
theorem bnDense128_eq (agg : FVec Ideal Cert.KernelIdeal.S50000x128 .f32) (b g bt mu var : FVec Ideal Cert.KernelIdeal.S128 .f32)
    (w : FVec Ideal Cert.KernelIdeal.S128x128 .f32) :
    Cert.KernelIdeal.RegionVal.G2 agg (Cert.KernelIdeal.KS.row128T (F := Ideal) b) (Cert.KernelIdeal.KS.row128T (F := Ideal) g)
        (Cert.KernelIdeal.KS.row128T (F := Ideal) bt) (Cert.KernelIdeal.KS.row128T (F := Ideal) mu) (Cert.KernelIdeal.KS.row128T (F := Ideal) var) w
      = Cert.ReferenceIdeal.RT.dense3T (F := Ideal)
          (Cert.ReferenceIdeal.RT.bn128T (F := Ideal) (Cert.ReferenceIdeal.RT.relu128T (F := Ideal) agg b) g bt mu var) w := by
  funext i
  obtain ⟨p, q, rfl⟩ : ∃ (p : Fin 50000) (q : Fin 128), i = ix2 p q := ⟨i 0, i 1, eq_ix2 i⟩
  rw [G2_rows]
  unfold Cert.ReferenceIdeal.RT.dense3T Cert.ReferenceIdeal.RT.bn128T
  exact (bnDenseHost_apply agg (Cert.ReferenceIdeal.RT.relu128T (F := Ideal) agg b) b g bt mu var w
    (fun p k => reluHost_apply agg b _ _ _ p k) _ _ _ _ _ p q).symm

end Cert.KernelIdeal.BridgeBN

end
-- ==== Proof.BridgeBN3.lean ====
import proofs.«136817_j2800318677196_2_alg».proof.Proof.Region3
import proofs.«136817_j2800318677196_2_alg».proof.Proof.KerStages
import proofs.«136817_j2800318677196_2_alg».proof.Proof.RefTerms
import proofs.«136817_j2800318677196_2_alg».proof.Proof.LibRowOps
import Idealize.ShloMosaic.Lib.ValueIdx
import Idealize.ShloMosaic.Lib.ValueLayout
import Idealize.ShloMosaic.Lib.KernelVsHost
import Idealize.ShloMosaic.PureOps.Ideal.Laws

/-!
# The third layer's normalisation: the kernel's region against the reference's term

Region 3 of the kernel computes, index by index, the bias, rectifier and batch normalisation of the
aggregated features from one-row copies of the five parameter vectors.  The reference computes the
same expression over whole arrays, with each parameter vector laid along every row.  Read at row p and
column q both are

  g q * (max (agg p q + b q) 0 - mu q) * rsqrt (var q + eps) + bt q.
-/

set_option maxRecDepth 16384
set_option pp.maxSteps 5000
set_option pp.deepTerms false

noncomputable section

namespace Cert.KernelIdeal.RegionVal

open Cert.KernelIdeal Cert.KernelIdeal.Gen Idealize.ShloMosaic Idealize.ShloMosaic.TcCoe
open Idealize.ShloMosaic.ValueIdx

/-- A vector as a one-row matrix, read at (0, q). -/
theorem row128T_apply (v : KS.Arr Ideal S128 .f32) (q : Fin 128) :
    KS.row128T v (ix2 (0 : Fin 1) q) = v (ix1 q) :=
  shapeCast_a_1a_apply v shapeCasts_S128_S1x128 0 q

/-- The bias laid along every row and the rectifier, read at (p, q). -/
theorem relu128T_apply (agg : KS.Arr Ideal S50000x128 .f32) (b : KS.Arr Ideal S128 .f32)
    (p : Fin 50000) (q : Fin 128) :
    KS.relu128T agg b (ix2 p q) = max (agg (ix2 p q) + b (ix1 q)) 0 := by
  unfold KS.relu128T
  show max (agg (ix2 p q)
        + broadcastInDim S50000x128 ![0, 1] bcast_S1x128_S50000x128_0_1
            (broadcastInDim S1x128 ![1] bcast_S128_S1x128_1 b) (ix2 p q))
      (Ideal.ofBits .f32 0#32) = _
  rw [Cert.LibRowOps.rowVec_host_apply, Ideal.ofBits_zero_f32]

/-- The reference's bias and rectifier, read at (p, q). -/
theorem refRelu128T_apply (agg : KS.Arr Ideal S50000x128 .f32) (b : KS.Arr Ideal S128 .f32)
    (p : Fin 50000) (q : Fin 128) :
    Cert.ReferenceIdeal.RT.relu128T agg b (ix2 p q) = max (agg (ix2 p q) + b (ix1 q)) 0 := by
  unfold Cert.ReferenceIdeal.RT.relu128T
  show max (agg (ix2 p q)
        + broadcastInDim S50000x128 ![0, 1] _ (broadcastInDim S1x128 ![1] _ b) (ix2 p q))
      (Ideal.ofBits .f32 0#32) = _
  rw [Cert.LibRowOps.rowVec_host_apply, Ideal.ofBits_zero_f32]

/-- Region 3's function of the one-row copies of the parameter vectors is the reference's normalisation
    of its own rectified table. -/
theorem bn3_eq (agg : KS.Arr Ideal S50000x128 .f32) (b g bt mu var : KS.Arr Ideal S128 .f32) :
    G3 agg (KS.row128T b) (KS.row128T g) (KS.row128T bt) (KS.row128T mu) (KS.row128T var)
      = Cert.ReferenceIdeal.RT.bn128T (Cert.ReferenceIdeal.RT.relu128T agg b) g bt mu var := by
  funext i
  obtain ⟨p, q, rfl⟩ : ∃ (p : Fin 50000) (q : Fin 128), i = ix2 p q := ⟨i 0, i 1, eq_ix2 i⟩
  rw [G3_apply, row128T_apply, row128T_apply, row128T_apply, row128T_apply, row128T_apply]
  unfold Cert.ReferenceIdeal.RT.bn128T
  show _ = broadcastInDim S50000x128 ![0, 1] _ (broadcastInDim S1x128 ![1] _ g) (ix2 p q)
        * (Cert.ReferenceIdeal.RT.relu128T agg b (ix2 p q)
            - broadcastInDim S50000x128 ![0, 1] _ (broadcastInDim S1x128 ![1] _ mu) (ix2 p q))
        * broadcastInDim S50000x128 ![0, 1] _ (broadcastInDim S1x128 ![1] _
            (Host.rsqrt (addf var (broadcastInDim S128 ![] _ (constant (F := Ideal) S_ .f32 925353388#32))))) (ix2 p q)
      + broadcastInDim S50000x128 ![0, 1] _ (broadcastInDim S1x128 ![1] _ bt) (ix2 p q)
  rw [Cert.LibRowOps.rowVec_host_apply, Cert.LibRowOps.rowVec_host_apply, Cert.LibRowOps.rowVec_host_apply,
    Cert.LibRowOps.rowVec_host_apply, refRelu128T_apply]
  rfl

end Cert.KernelIdeal.RegionVal

end
-- ==== Proof.LibAffine.lean ====
import Idealize.ShloMosaic.Lib.ValueIdx
import Idealize.ShloMosaic.Lib.Pipeline.Value
import Idealize.ShloMosaic.Lib.KernelVsHost
import Idealize.ShloMosaic.PureOps.Ideal.Laws

/-!
# An affine layer and a biased rectifier, row by row, at the exact extended reals

For a matrix `X` of `m` rows and `k` columns, a matrix `W` of `k` rows and `n` columns and a one-row matrix `Y`
of `n` entries, the affine layer is `(r, j) ↦ (∑ c, X (r, c) · W (c, j)) + Y (0, j)`; the biased rectifier is
`(r, j) ↦ max (X (r, j) + Y (0, j)) 0`.  Both are stated here as functions of whole arrays, together with their
spellings by the host's operations (a contraction, a broadcast of the row along both axes, a sum, a maximum with the
zero array), and with the fact that adding the zero row changes nothing: `x + 0 = x` for every extended real, the
infinities included.
-/

noncomputable section

namespace Cert.LibAffine

open Idealize.ShloMosaic Idealize.ShloMosaic.ValueIdx

variable {m k n : ℕ}

/-- The host's contraction of the second axis of `A` with the first of `B`, read at `(a, b)`: the sum over the
    contracted coordinate of the products of the entries. -/
theorem hostDot_plain_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The affine layer: row `r` of `X` against column `j` of `W`, plus entry `j` of the row `Y`. -/
def affine (X : (⟨2, ![m, k]⟩ : Shape).Idx → EReal) (W : (⟨2, ![k, n]⟩ : Shape).Idx → EReal)
    (Y : (⟨2, ![1, n]⟩ : Shape).Idx → EReal) : (⟨2, ![m, n]⟩ : Shape).Idx → EReal :=
  fun i => (∑ c : Fin k, X (ix2 (i 0) c) * W (ix2 c (i 1))) + Y (ix2 (0 : Fin 1) (i 1))

theorem affine_apply (X : (⟨2, ![m, k]⟩ : Shape).Idx → EReal) (W : (⟨2, ![k, n]⟩ : Shape).Idx → EReal)
    (Y : (⟨2, ![1, n]⟩ : Shape).Idx → EReal) (p : Fin m) (q : Fin n) :
    affine X W Y (ix2 p q) = (∑ c : Fin k, X (ix2 p c) * W (ix2 c q)) + Y (ix2 (0 : Fin 1) q) := rfl

/-- The biased rectifier: entry `(r, j)` of `X` plus entry `j` of the row `Y`, or zero if that is larger. -/
def biasRelu (X : (⟨2, ![m, n]⟩ : Shape).Idx → EReal) (Y : (⟨2, ![1, n]⟩ : Shape).Idx → EReal) :
    (⟨2, ![m, n]⟩ : Shape).Idx → EReal :=
  fun i => max (X i + Y (ix2 (0 : Fin 1) (i 1))) 0

theorem biasRelu_apply (X : (⟨2, ![m, n]⟩ : Shape).Idx → EReal) (Y : (⟨2, ![1, n]⟩ : Shape).Idx → EReal)
    (p : Fin m) (q : Fin n) : biasRelu X Y (ix2 p q) = max (X (ix2 p q) + Y (ix2 (0 : Fin 1) q)) 0 := rfl

/-- The affine layer in the host's spelling: the contraction, plus the row laid down every row. -/
theorem affine_eq_host
    (w : DotDims.WF ⟨2, ![m, k]⟩ ⟨2, ![k, n]⟩ ⟨2, ![m, n]⟩ [1] [0] [0] [1] [] [])
    (prec : Option ContractPrecision)
    (hd : (⟨2, ![1, n]⟩ : Shape).BroadcastsInDim ⟨2, ![m, n]⟩ ![0, 1])
    (X : FVec Ideal ⟨2, ![m, k]⟩ .f32) (W : FVec Ideal ⟨2, ![k, n]⟩ .f32) (Y : FVec Ideal ⟨2, ![1, n]⟩ .f32) :
    affine X W Y
      = addf (Host.dotGeneral (⟨[1], [0], [0], [1], [], [], w⟩ : DotDims _ _ _) prec X W)
          (broadcastInDim ⟨2, ![m, n]⟩ ![0, 1] hd Y) := by
  funext i
  obtain ⟨p, q, rfl⟩ : ∃ (p : Fin m) (q : Fin n), i = ix2 p q := ⟨i 0, i 1, eq_ix2 i⟩
  show _ = FloatOps.addf (Host.dotGeneral _ prec X W (ix2 p q)) (broadcastInDim _ ![0, 1] hd Y (ix2 p q))
  rw [hostDot_plain_apply, broadcastInDim_oneRow_apply]
  rfl

/-- The zero row adds nothing: the affine layer with the zero row is the contraction alone. -/
theorem affine_zero_eq_host
    (w : DotDims.WF ⟨2, ![m, k]⟩ ⟨2, ![k, n]⟩ ⟨2, ![m, n]⟩ [1] [0] [0] [1] [] [])
    (prec : Option ContractPrecision)
    (X : FVec Ideal ⟨2, ![m, k]⟩ .f32) (W : FVec Ideal ⟨2, ![k, n]⟩ .f32) (Y : FVec Ideal ⟨2, ![1, n]⟩ .f32)
    (hY : ∀ j, Y j = 0) :
    affine X W Y = Host.dotGeneral (⟨[1], [0], [0], [1], [], [], w⟩ : DotDims _ _ _) prec X W := by
  funext i
  obtain ⟨p, q, rfl⟩ : ∃ (p : Fin m) (q : Fin n), i = ix2 p q := ⟨i 0, i 1, eq_ix2 i⟩
  rw [hostDot_plain_apply, affine_apply, hY, add_zero]

/-- The biased rectifier in the host's spelling: the sum with the row laid down every row, then the maximum with the
    zero array. -/
theorem biasRelu_eq_host
    (hd : (⟨2, ![1, n]⟩ : Shape).BroadcastsInDim ⟨2, ![m, n]⟩ ![0, 1])
    (hz : (⟨0, ![]⟩ : Shape).BroadcastsInDim ⟨2, ![m, n]⟩ ![])
    (X : FVec Ideal ⟨2, ![m, n]⟩ .f32) (Y : FVec Ideal ⟨2, ![1, n]⟩ .f32) :
    biasRelu X Y
      = maximumf (addf X (broadcastInDim ⟨2, ![m, n]⟩ ![0, 1] hd Y))
          (broadcastInDim ⟨2, ![m, n]⟩ ![] hz (constant ⟨0, ![]⟩ .f32 0x00000000#32)) := by
  funext i
  obtain ⟨p, q, rfl⟩ : ∃ (p : Fin m) (q : Fin n), i = ix2 p q := ⟨i 0, i 1, eq_ix2 i⟩
  show _ = FloatOps.maximumf (FloatOps.addf (X (ix2 p q)) (broadcastInDim _ ![0, 1] hd Y (ix2 p q)))
    (broadcastInDim _ ![] hz (constant ⟨0, ![]⟩ .f32 0x00000000#32) (ix2 p q))
  rw [broadcastInDim_oneRow_apply, broadcastInDim_apply ![] hz _ (ix2 p q) ix0 (fun a => a.elim0)]
  show _ = max (X (ix2 p q) + Y (ix2 (0 : Fin 1) q)) (Ideal.ofBits .f32 0x00000000#32)
  rw [Ideal.ofBits_zero_f32]
  rfl

end Cert.LibAffine

end
-- ==== Proof.BridgeDense.lean ====
import proofs.«136817_j2800318677196_2_alg».proof.ReferenceIdeal
import proofs.«136817_j2800318677196_2_alg».proof.Proof.Region0
import proofs.«136817_j2800318677196_2_alg».proof.Proof.LibAffine

/-!
# The row-tiled product is the reference's first contraction

The first region's whole-array function is the plain matrix product `(p, q) ↦ ∑ k, x (p, k) * w (k, q)` of a
`[50000, 128]` array and a `[128, 64]` array.  The reference's first `dot_general` contracts the second axis of its
left operand with the first of its right one; read at `(p, q)`, at the exact extended reals, it is that same sum.
-/

noncomputable section

namespace Cert.Bridge

open Idealize.ShloMosaic Idealize.ShloMosaic.ValueIdx

/-- The first region's product is the reference's first contraction of the same two arrays. -/
theorem dense1_eq [Cert.ReferenceIdeal.Facts₀] (x : FVec Ideal Cert.KernelIdeal.S50000x128 .f32)
    (w : FVec Ideal Cert.KernelIdeal.S128x64 .f32) :
    Cert.KernelIdeal.RegionVal.G0 x w
      = Host.dotGeneral (F := Ideal) Cert.ReferenceIdeal.dot_S50000x128_S128x64_S50000x64_1_0_0_1_n_n none x w := by
  funext i
  obtain ⟨p, q, rfl⟩ : ∃ (p : Fin 50000) (q : Fin 64), i = ix2 p q := ⟨i 0, i 1, eq_ix2 i⟩
  rw [Cert.KernelIdeal.RegionVal.G0_apply]
  exact (Cert.LibAffine.hostDot_plain_apply (m := 50000) (k := 128) (n := 64)
    Cert.ReferenceIdeal.Facts₀.dot_S50000x128_S128x64_S50000x64_1_0_0_1_n_n_wf none x w p q).symm

end Cert.Bridge

end
-- ==== Proof.LibScatter.lean ====
/-
  A gather of rows, a scatter of rows, and a column overwritten, each read at an index.

  Three arrangements of the host's indexed operations over a table of `N` rows:

  * `x[idx]` for a table `x : [N, C]` and one index per result row, `idx : [R, 1]`: result row `e` is the table's
    row at the start index `idx[e, 0]`, read as a signed integer and clamped into `[0, N - 1]`;
  * the accumulating scatter of `R` update rows (or `R` update scalars) into a table of `N` rows (or `N` scalars) at one
    index per update: over the extended reals entry `(n, l)` ends at the operand's entry plus the sum of the updates'
    entries `(e, l)` over the updates `e` whose index, read signed and NOT clamped, is `n`; an update whose index is
    outside the table contributes nothing;
  * the overwriting scatter of one column: `x.at[:, k].set(v)` for `x : [R, C]`, `v : [R]`, the column `k` given by
    a one-element index vector: entry `(e, l)` ends at `v e` when `l` is that column and is unchanged otherwise.
-/
import Idealize.ShloMosaic.Lib.ValueIdx
import Idealize.ShloMosaic.PureOps.Ideal.Laws

noncomputable section

namespace Cert.LibScatter

open Idealize.ShloMosaic Idealize.ShloMosaic.ValueIdx

variable {N R C w : ℕ}

/-! ## The dimension numbers -/

/-- `x[idx]` along axis 0 of a table `[N, C]` at start indices `[R, 1]`: whole rows are taken. -/
abbrev rowGatherDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ :=
  ⟨[1], [0], [], [], [0], 1, ![1, C], wf⟩

/-- Update rows `[R, C]` scattered into a table `[N, C]` at scatter indices `[R, 1]`. -/
abbrev rowScatterDims (N R C : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ :=
  ⟨[1], [0], [0], 1, wf⟩

/-- Update scalars `[R]` scattered into a vector `[N]` at scatter indices `[R, 1]`. -/
abbrev vecScatterDims (N R : ℕ)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ :=
  ⟨[], [0], [0], 1, wf⟩

/-- A column `[R]` written into a matrix `[R, C]` at the column a one-element index vector names. -/
abbrev colSetDims (R C : ℕ)
    (wf : ScatterDims.WF ⟨2, ![R, C]⟩ ⟨1, ![1]⟩ ⟨1, ![R]⟩ [0] [1] [1] 0) :
    ScatterDims ⟨2, ![R, C]⟩ ⟨1, ![1]⟩ ⟨1, ![R]⟩ :=
  ⟨[0], [1], [1], 0, wf⟩

/-! ## Where an update lands -/

/-- An update lands on the operand index `i` exactly when on every axis its start, read signed, plus its window
    coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    constructor
    · intro he a
      have h2 := congrFun (Option.some.inj he) a
      have h3 : (d.start j idx a + (d.window j a : ℤ)).toNat = (i a).val := congrArg Fin.val h2
      have := (h a).1
      omega
    · intro he
      congr 1
      funext a
      apply Fin.ext
      show (d.start j idx a + (d.window j a : ℤ)).toNat = (i a).val
      have := he a
      omega
  · rename_i h
    constructor
    · intro he; cases he
    · intro he
      exfalso; apply h
      intro a
      have := he a
      have := (i a).isLt
      omega

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-! ## The accumulating scatters, over the extended reals -/

/-- On the scattered axis a row update's start plus window coordinate is its index, read signed. -/
theorem rowScatter_axis0 (wf : ScatterDims.WF ⟨2, ![N, C]⟩ ⟨2, ![R, 1]⟩ ⟨2, ![R, C]⟩ [1] [0] [0] 1)
    (idx : IVec ⟨2, ![R, 1]⟩ w) (e : Fin R) (l' : Fin C) :
    (rowScatterDims N R C wf).start (ix2 e l') idx 0 + ((rowScatterDims N R C wf).window (ix2 e l') 0 : ℤ)
      = (idx (ix2 e (0 : Fin 1))).toInt := by
  have hw : (rowScatterDims N R C wf).window (ix2 e l') 0 = 0 := rfl
  rw [hw]
  unfold ScatterDims.start
  rw [dif_pos (show (0 : Fin 2) ∈ (rowScatterDims N R C wf).scatterDimsToOperandDims from List.mem_singleton.mpr rfl)]
  have hsi : (rowScatterDims N R C wf).siIdx (ix2 e l') ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- On the window axis a row update's start plus window coordinate is its column. -/
theorem rowScatter_axis1 (wf : ScatterDims.WF ⟨2, ![N, C]⟩ ⟨2, ![R, 1]⟩ ⟨2, ![R, C]⟩ [1] [0] [0] 1)
    (idx : IVec ⟨2, ![R, 1]⟩ w) (e : Fin R) (l' : Fin C) :
    (rowScatterDims N R C wf).start (ix2 e l') idx 1 + ((rowScatterDims N R C wf).window (ix2 e l') 1 : ℤ)
      = (l'.val : ℤ) := by
  have hw : (rowScatterDims N R C wf).window (ix2 e l') 1 = l'.val := rfl
  have hs : (rowScatterDims N R C wf).start (ix2 e l') idx 1 = 0 := rfl
  rw [hw, hs]
  simp

/-- The update entry `(e, l')` lands on `(n, l)` exactly when update `e`'s index is `n` and `l' = l`. -/
theorem rowScatter_lands (wf : ScatterDims.WF ⟨2, ![N, C]⟩ ⟨2, ![R, 1]⟩ ⟨2, ![R, C]⟩ [1] [0] [0] 1)
    (idx : IVec ⟨2, ![R, 1]⟩ w) (e : Fin R) (l' : Fin C) (n : Fin N) (l : Fin C) :
    (rowScatterDims N R C wf).resultIdx? (ix2 e l') idx = some (ix2 n l)
      ↔ (idx (ix2 e (0 : Fin 1))).toInt = (n.val : ℤ) ∧ l' = l := by
  rw [resultIdx?_eq_some_iff]
  constructor
  · intro h
    have h0 : (idx (ix2 e (0 : Fin 1))).toInt = (n.val : ℤ) := (rowScatter_axis0 wf idx e l').symm.trans (h 0)
    have h1 : (l'.val : ℤ) = (l.val : ℤ) := (rowScatter_axis1 wf idx e l').symm.trans (h 1)
    exact ⟨h0, Fin.ext (by exact_mod_cast h1)⟩
  · rintro ⟨h0, rfl⟩ a
    match a with
    | ⟨0, _⟩ => exact (rowScatter_axis0 wf idx e l').trans h0
    | ⟨1, _⟩ => exact rowScatter_axis1 wf idx e l'

/-- Entry `(n, l)` after the accumulating scatter of rows: the operand's entry plus the entries `(e, l)` of the update
    rows whose index is `n`. -/
theorem rowScatterAdd_apply {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (n : Fin N) (l : Fin C) :
    Host.scatterAdd (F := Ideal) (rowScatterDims N R C wf) x idx upd (ix2 n l)
      = x (ix2 n l) + ∑ e : Fin R, if (idx (ix2 e (0 : Fin 1))).toInt = (n.val : ℤ) then upd (ix2 e l) else 0 := by
  show x (ix2 n l) + ∑ j ∈ Finset.univ.filter
      (fun j => (rowScatterDims N R C wf).resultIdx? j idx = some (ix2 n l)), upd j = _
  congr 1
  rw [Finset.sum_filter, sum_idx2]
  refine Finset.sum_congr rfl fun e _ => ?_
  simp only [rowScatter_lands]
  by_cases h : (idx (ix2 e (0 : Fin 1))).toInt = (n.val : ℤ)
  · simp only [h, true_and, if_true]
    rw [Finset.sum_ite_eq']
    simp
  · simp [h]

/-- On its one axis a scalar update's start plus window coordinate is its index, read signed. -/
theorem vecScatter_axis0 (wf : ScatterDims.WF ⟨1, ![N]⟩ ⟨2, ![R, 1]⟩ ⟨1, ![R]⟩ [] [0] [0] 1)
    (idx : IVec ⟨2, ![R, 1]⟩ w) (e : Fin R) :
    (vecScatterDims N R wf).start (ix1 e) idx 0 + ((vecScatterDims N R wf).window (ix1 e) 0 : ℤ)
      = (idx (ix2 e (0 : Fin 1))).toInt := by
  have hw : (vecScatterDims N R wf).window (ix1 e) 0 = 0 := rfl
  rw [hw]
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- The update `e` lands on `n` exactly when its index is `n`. -/
theorem vecScatter_lands (wf : ScatterDims.WF ⟨1, ![N]⟩ ⟨2, ![R, 1]⟩ ⟨1, ![R]⟩ [] [0] [0] 1)
    (idx : IVec ⟨2, ![R, 1]⟩ w) (e : Fin R) (n : Fin N) :
    (vecScatterDims N R wf).resultIdx? (ix1 e) idx = some (ix1 n)
      ↔ (idx (ix2 e (0 : Fin 1))).toInt = (n.val : ℤ) := by
  rw [resultIdx?_eq_some_iff]
  constructor
  · intro h
    exact (vecScatter_axis0 wf idx e).symm.trans (h 0)
  · intro h0 a
    match a with
    | ⟨0, _⟩ => exact (vecScatter_axis0 wf idx e).trans h0

/-- Entry `n` after the accumulating scatter of scalars: the operand's entry plus the updates whose index is `n`. -/
theorem vecScatterAdd_apply {φ : FTy}
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (n : Fin N) :
    Host.scatterAdd (F := Ideal) (vecScatterDims N R wf) x idx upd (ix1 n)
      = x (ix1 n) + ∑ e : Fin R, if (idx (ix2 e (0 : Fin 1))).toInt = (n.val : ℤ) then upd (ix1 e) else 0 := by
  show x (ix1 n) + ∑ j ∈ Finset.univ.filter
      (fun j => (vecScatterDims N R wf).resultIdx? j idx = some (ix1 n)), upd j = _
  congr 1
  rw [Finset.sum_filter, sum_idx1]
  refine Finset.sum_congr rfl fun e _ => ?_
  simp only [vecScatter_lands]

/-! ## The gather of rows -/

/-- Result entry `(e, l)` of the row gather is the table's entry `(r, l)`, `r` the start index `idx[e, 0]` read signed and
    clamped into `[0, N - 1]`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (l : Fin C) :
    Host.gather (rowGatherDims N R C wf) x idx (ix2 e l)
      = x (ix2 (⟨min (idx (ix2 e (0 : Fin 1))).toInt.toNat (N - 1), by omega⟩ : Fin N) l) := by
  unfold Host.gather
  congr 1
  funext a
  refine Fin.ext ?_
  match a with
  | ⟨0, _⟩ =>
    show (rowGatherDims N R C wf).start (ix2 e l) idx 0 + (rowGatherDims N R C wf).batchCoord (ix2 e l) 0
      + (rowGatherDims N R C wf).offCoord (ix2 e l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e l) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e l) idx 1 + (rowGatherDims N R C wf).batchCoord (ix2 e l) 1
      + (rowGatherDims N R C wf).offCoord (ix2 e l) 1 = l.val
    rw [GatherDims.batchCoord_eq_zero _ _ _ List.not_mem_nil]
    have hs : (rowGatherDims N R C wf).start (ix2 e l) idx 1 = 0 := rfl
    have ho : (rowGatherDims N R C wf).offCoord (ix2 e l) 1 = l.val := rfl
    rw [hs, ho]
    simp

/-! ## One column overwritten -/

/-- A left fold of steps that leave entry `i` alone leaves it alone. -/
theorem foldl_at_of_miss {ι β γ : Type} (step : (ι → β) → γ → (ι → β)) (i : ι) (lands : γ → Prop)
    (hmiss : ∀ r n, ¬ lands n → step r n i = r i) :
    ∀ (L : List γ) (r : ι → β), (∀ n ∈ L, ¬ lands n) → L.foldl step r i = r i := by
  intro L
  induction L with
  | nil => intro r _; rfl
  | cons n L ih =>
    intro r h
    rw [List.foldl_cons, ih _ (fun m hm => h m (List.mem_cons_of_mem _ hm)),
      hmiss r n (h n (List.mem_cons.mpr (Or.inl rfl)))]

/-- A left fold of steps each of which either leaves entry `i` alone or sets it to its own value: when every step that
    sets it sets it to `v`, and the entry is `v` at the start or some step sets it, the entry ends at `v`. -/
theorem foldl_at_of_hit {ι β γ : Type} (step : (ι → β) → γ → (ι → β)) (i : ι) (lands : γ → Prop) (val : γ → β) (v : β)
    (hmiss : ∀ r n, ¬ lands n → step r n i = r i) (hhit : ∀ r n, lands n → step r n i = val n) :
    ∀ (L : List γ) (r : ι → β), (∀ n ∈ L, lands n → val n = v) → (r i = v ∨ ∃ n ∈ L, lands n) →
      L.foldl step r i = v := by
  intro L
  induction L with
  | nil =>
    intro r _ h
    rcases h with h | ⟨n, hn, _⟩
    · exact h
    · cases hn
  | cons n L ih =>
    intro r hv h
    rw [List.foldl_cons]
    apply ih _ (fun m hm => hv m (List.mem_cons_of_mem _ hm))
    by_cases hl : lands n
    · left; rw [hhit r n hl]; exact hv n (List.mem_cons.mpr (Or.inl rfl)) hl
    · rcases h with h | ⟨m, hm, hlm⟩
      · left; rw [hmiss r n hl]; exact h
      · rcases List.mem_cons.mp hm with rfl | hm'
        · exact absurd hlm hl
        · right; exact ⟨m, hm', hlm⟩

/-- The overwriting scatter leaves alone an entry no update lands on. -/
theorem scatter_set_of_miss {s si u : Shape} {α : Type} (d : ScatterDims s si u) {w : ℕ} (x : s.Idx → α)
    (idx : IVec si w) (upd : u.Idx → α) (i : s.Idx) (h : ∀ j, d.resultIdx? j idx ≠ some i) :
    Host.scatter d (fun _ b => b) x idx upd i = x i := by
  unfold Host.scatter
  refine foldl_at_of_miss _ i (fun n => d.resultIdx? (u.rowMajor.symm n) idx = some i) ?_ _ x (fun n _ => h _)
  intro r n hl
  dsimp only
  cases hres : d.resultIdx? (u.rowMajor.symm n) idx with
  | none => rfl
  | some i1 =>
    dsimp only
    rw [if_neg]
    rintro rfl
    exact hl hres

/-- The overwriting scatter sets an entry that some update lands on, every update landing on it carrying one value, to
    that value. -/
theorem scatter_set_of_hit {s si u : Shape} {α : Type} (d : ScatterDims s si u) {w : ℕ} (x : s.Idx → α)
    (idx : IVec si w) (upd : u.Idx → α) (i : s.Idx) (j0 : u.Idx) (h0 : d.resultIdx? j0 idx = some i)
    (h : ∀ j, d.resultIdx? j idx = some i → upd j = upd j0) :
    Host.scatter d (fun _ b => b) x idx upd i = upd j0 := by
  unfold Host.scatter
  refine foldl_at_of_hit _ i (fun n => d.resultIdx? (u.rowMajor.symm n) idx = some i)
    (fun n => upd (u.rowMajor.symm n)) (upd j0) ?_ ?_ _ x (fun n _ hl => h _ hl)
    (Or.inr ⟨u.rowMajor j0, List.mem_finRange _, by rw [Equiv.symm_apply_apply]; exact h0⟩)
  · intro r n hl
    dsimp only
    cases hres : d.resultIdx? (u.rowMajor.symm n) idx with
    | none => rfl
    | some i1 =>
      dsimp only
      rw [if_neg]
      rintro rfl
      exact hl hres
  · intro r n hl
    dsimp only at hl ⊢
    rw [hl]
    dsimp only
    rw [if_pos rfl]

/-- On the row axis a column entry's start plus window coordinate is its row. -/
theorem colSet_axis0 (wf : ScatterDims.WF ⟨2, ![R, C]⟩ ⟨1, ![1]⟩ ⟨1, ![R]⟩ [0] [1] [1] 0)
    (idx : IVec ⟨1, ![1]⟩ w) (e' : Fin R) :
    (colSetDims R C wf).start (ix1 e') idx 0 + ((colSetDims R C wf).window (ix1 e') 0 : ℤ) = (e'.val : ℤ) := by
  have hw : (colSetDims R C wf).window (ix1 e') 0 = e'.val := rfl
  have hs : (colSetDims R C wf).start (ix1 e') idx 0 = 0 := rfl
  rw [hw, hs]
  simp

/-- On the column axis a column entry's start plus window coordinate is the one index, read signed. -/
theorem colSet_axis1 (wf : ScatterDims.WF ⟨2, ![R, C]⟩ ⟨1, ![1]⟩ ⟨1, ![R]⟩ [0] [1] [1] 0)
    (idx : IVec ⟨1, ![1]⟩ w) (e' : Fin R) :
    (colSetDims R C wf).start (ix1 e') idx 1 + ((colSetDims R C wf).window (ix1 e') 1 : ℤ)
      = (idx (ix1 (0 : Fin 1))).toInt := by
  have hw : (colSetDims R C wf).window (ix1 e') 1 = 0 := rfl
  rw [hw]
  unfold ScatterDims.start
  rw [dif_pos (show (1 : Fin 2) ∈ (colSetDims R C wf).scatterDimsToOperandDims from List.mem_singleton.mpr rfl)]
  have hsi : (colSetDims R C wf).siIdx (ix1 e') ⟨List.idxOf (1 : Fin 2) (colSetDims R C wf).scatterDimsToOperandDims,
      List.idxOf_lt_length_iff.2 (List.mem_singleton.mpr rfl)⟩ = ix1 (0 : Fin 1) := by
    funext b; refine Fin.ext ?_
    match b with
    | ⟨0, _⟩ => rfl
  rw [hsi]
  simp

/-- The new column's entry `e'` lands on `(e, l)` exactly when `e' = e` and the index, read signed, is `l`. -/
theorem colSet_lands (wf : ScatterDims.WF ⟨2, ![R, C]⟩ ⟨1, ![1]⟩ ⟨1, ![R]⟩ [0] [1] [1] 0)
    (idx : IVec ⟨1, ![1]⟩ w) (e' e : Fin R) (l : Fin C) :
    (colSetDims R C wf).resultIdx? (ix1 e') idx = some (ix2 e l)
      ↔ e' = e ∧ (idx (ix1 (0 : Fin 1))).toInt = (l.val : ℤ) := by
  rw [resultIdx?_eq_some_iff]
  constructor
  · intro h
    have h0 : (e'.val : ℤ) = (e.val : ℤ) := (colSet_axis0 wf idx e').symm.trans (h 0)
    have h1 : (idx (ix1 (0 : Fin 1))).toInt = (l.val : ℤ) := (colSet_axis1 wf idx e').symm.trans (h 1)
    exact ⟨Fin.ext (by exact_mod_cast h0), h1⟩
  · rintro ⟨rfl, h1⟩ a
    match a with
    | ⟨0, _⟩ => exact colSet_axis0 wf idx e'
    | ⟨1, _⟩ => exact (colSet_axis1 wf idx e').trans h1

/-- Entry `(e, l)` after the column write: the new column's entry `e` when `l` is the column the index vector names, the
    old entry otherwise (a column index outside `[0, C)` writes nothing). -/
theorem colSet_apply {α : Type}
    (wf : ScatterDims.WF ⟨2, ![R, C]⟩ ⟨1, ![1]⟩ ⟨1, ![R]⟩ [0] [1] [1] 0)
    (x : (⟨2, ![R, C]⟩ : Shape).Idx → α) (idx : IVec ⟨1, ![1]⟩ w) (upd : (⟨1, ![R]⟩ : Shape).Idx → α)
    (e : Fin R) (l : Fin C) :
    Host.scatter (colSetDims R C wf) (fun _ b => b) x idx upd (ix2 e l)
      = if (idx (ix1 (0 : Fin 1))).toInt = (l.val : ℤ) then upd (ix1 e) else x (ix2 e l) := by
  by_cases hk : (idx (ix1 (0 : Fin 1))).toInt = (l.val : ℤ)
  · rw [if_pos hk]
    refine scatter_set_of_hit _ x idx upd (ix2 e l) (ix1 e) ((colSet_lands wf idx e e l).mpr ⟨rfl, hk⟩) fun j hj => ?_
    rw [eq_ix1 j] at hj ⊢
    exact congrArg (fun t => upd (ix1 t)) ((colSet_lands wf idx _ e l).mp hj).1
  · rw [if_neg hk]
    refine scatter_set_of_miss _ x idx upd (ix2 e l) fun j hj => ?_
    rw [eq_ix1 j] at hj
    exact hk ((colSet_lands wf idx _ e l).mp hj).2

end Cert.LibScatter

end
-- ==== Proof.LibGatherVec.lean ====
/-
  A gather of single entries of a vector, read at an index.

  `x[idx]` for a vector `x : [N]` and one index per result entry, `idx : [R, 1]`: the result is a vector `[R]` whose
  entry `e` is the vector's entry at the start index `idx[e, 0]`, read as a signed integer and clamped into
  `[0, N - 1]`. There is no offset axis (the one operand axis is collapsed) and no batching axis, so the operand index
  of result entry `e` is the clamped start alone.
-/
import Idealize.ShloMosaic.Lib.ValueIdx
import Idealize.ShloMosaic.PureOps.Ideal.Laws

noncomputable section

namespace Cert.LibGatherVec

open Idealize.ShloMosaic Idealize.ShloMosaic.ValueIdx

variable {N R w : ℕ}

/-- `x[idx]` of a vector `[N]` at start indices `[R, 1]`: single entries are taken, the operand's one axis collapsed. -/
abbrev vecGatherDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ :=
  ⟨[], [0], [], [], [0], 1, ![1], wf⟩

/-- Result entry `e` of the gather of a vector is the vector's entry `r`, `r` the start index `idx[e, 0]` read signed
    and clamped into `[0, N - 1]`. -/
theorem vecGather_apply {α : Type} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 (⟨min (idx (ix2 e (0 : Fin 1))).toInt.toNat (N - 1), by omega⟩ : Fin N)) := by
  unfold Host.gather
  congr 1
  funext a
  refine Fin.ext ?_
  match a with
  | ⟨0, _⟩ =>
    show (vecGatherDims N R wf).start (ix1 e) idx 0 + (vecGatherDims N R wf).batchCoord (ix1 e) 0
      + (vecGatherDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 e) ⟨List.idxOf (0 : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.LibGatherVec

end
-- ==== Proof.AggLaw.lean ====
import Mathlib.Data.EReal.Inv
import Mathlib.Algebra.BigOperators.Group.Finset.Basic

/-!
# The one algebraic law: a nonnegative finite factor moves in and out of a finite sum

In the extended reals multiplication does not distribute over addition in general
(`⊤ + ⊥ = ⊥` spoils it), but multiplication by a factor `a` with `0 ≤ a` and `a ≠ ⊤`
does.  Hence for arbitrary extended reals `f e`,
`a * ∑ e ∈ s, f e = ∑ e ∈ s, a * f e`, and the graph aggregation with the symmetric
normalisation factored out equals the unfactored one.
-/

namespace Cert.Agg

open Finset

/-- A nonnegative finite extended real distributes over any finite sum of extended reals. -/
theorem mul_sum_of_nonneg_of_ne_top {ι : Type*} (a : EReal) (ha : 0 ≤ a) (ha' : a ≠ ⊤)
    (s : Finset ι) (f : ι → EReal) :
    a * ∑ e ∈ s, f e = ∑ e ∈ s, a * f e := by
  classical
  induction s using Finset.induction_on with
  | empty => simp
  | insert x s hx ih =>
    rw [Finset.sum_insert hx, Finset.sum_insert hx,
      EReal.left_distrib_of_nonneg_of_ne_top ha ha', ih]

/-- The aggregation law.  `d` is the per-node normalisation (nonnegative, finite), `r e` the
source node of the pair `e`, `x e` the feature value carried by the pair (arbitrary), and
`c` the target node. -/
theorem agg_law {ι κ : Type*} (d : κ → EReal) (c : κ) (hc : 0 ≤ d c) (hc' : d c ≠ ⊤)
    (s : Finset ι) (r : ι → κ) (x : ι → EReal) :
    (∑ e ∈ s, x e * d (r e)) * d c = ∑ e ∈ s, x e * (d (r e) * d c) := by
  rw [mul_comm, mul_sum_of_nonneg_of_ne_top _ hc hc']
  refine Finset.sum_congr rfl fun e _ => ?_
  rw [mul_comm, mul_assoc]

end Cert.Agg
-- ==== Proof.AggGen.lean ====
import Idealize.ShloMosaic.Lib.KernelVsHost
import Idealize.ShloMosaic.Lib.IdealHost
import proofs.«136817_j2800318677196_2_alg».proof.Proof.LibScatter
import proofs.«136817_j2800318677196_2_alg».proof.Proof.LibGatherVec
import proofs.«136817_j2800318677196_2_alg».proof.Proof.AggLaw

/-!
# The aggregation law over the host operations, for any table size

A graph of `N` nodes with `R` (edge or self-loop) pairs `(row e, col e)`, a feature table `h : [N, C]` and a per-node
factor `dis : [N]`.  Two spellings of the normalised aggregation:

* factored: scale the table's rows by `dis`, gather the rows at `row`, scatter-add them at `col`, scale the rows of
  the result by `dis`;
* unfactored: gather the table's rows at `row`, scale row `e` by `dis[row e] * dis[col e]`, scatter-add at `col`.

Read at an entry `(n, l)` both are sums over the pairs whose `col` is `n`; on those pairs `dis[col e]` is `dis n`,
and a nonnegative finite factor moves through a finite sum of extended reals.
-/

noncomputable section

namespace Cert.Agg

open Idealize.ShloMosaic Idealize.ShloMosaic.ValueIdx Cert.LibScatter Cert.LibGatherVec

/-! ## Two broadcasts at an index -/

/-- A vector `[n]` made a column `[n, 1]`: entry `(a, 0)` is entry `a`. -/
theorem bcastCol_apply {n : ℕ} {α : Type} (h : (⟨1, ![n]⟩ : Shape).BroadcastsInDim ⟨2, ![n, 1]⟩ ![0])
    (x : (⟨1, ![n]⟩ : Shape).Idx → α) (a : Fin n) (z : Fin 1) :
    broadcastInDim ⟨2, ![n, 1]⟩ ![0] h x (ix2 a z) = x (ix1 a) := by
  refine broadcastInDim_apply ![0] h x (ix2 a z) (ix1 a) ?_
  intro d
  match d with
  | ⟨0, _⟩ =>
    show a.val = if n = 1 then 0 else a.val
    split_ifs with hn
    · have := a.isLt; omega
    · rfl

/-- A column `[n, 1]` repeated along `c` columns: entry `(a, l)` is entry `(a, 0)`. -/
theorem bcastRow_apply {n c : ℕ} {α : Type} (h : (⟨2, ![n, 1]⟩ : Shape).BroadcastsInDim ⟨2, ![n, c]⟩ ![0, 1])
    (y : (⟨2, ![n, 1]⟩ : Shape).Idx → α) (a : Fin n) (l : Fin c) :
    broadcastInDim ⟨2, ![n, c]⟩ ![0, 1] h y (ix2 a l) = y (ix2 a (0 : Fin 1)) := by
  refine broadcastInDim_apply ![0, 1] h y (ix2 a l) (ix2 a (0 : Fin 1)) ?_
  intro d
  match d with
  | ⟨0, _⟩ =>
    show a.val = if n = 1 then 0 else a.val
    split_ifs with hn
    · have := a.isLt; omega
    · rfl
  | ⟨1, _⟩ =>
    show (0 : ℕ) = if (1 : ℕ) = 1 then 0 else l.val
    simp

/-! ## The evidence the operations cite -/

/-- The shape relations and dimension-number conditions of the operations below, for `N` nodes, `R` pairs, `C` columns. -/
structure Ev (N R C : ℕ) : Prop where
  hN : 0 < N
  bN1 : (⟨1, ![N]⟩ : Shape).BroadcastsInDim ⟨2, ![N, 1]⟩ ![0]
  bNC : (⟨2, ![N, 1]⟩ : Shape).BroadcastsInDim ⟨2, ![N, C]⟩ ![0, 1]
  bR1 : (⟨1, ![R]⟩ : Shape).BroadcastsInDim ⟨2, ![R, 1]⟩ ![0]
  bRC : (⟨2, ![R, 1]⟩ : Shape).BroadcastsInDim ⟨2, ![R, C]⟩ ![0, 1]
  b0R : (⟨0, ![]⟩ : Shape).BroadcastsInDim ⟨1, ![R]⟩ ![]
  b0NC : (⟨0, ![]⟩ : Shape).BroadcastsInDim ⟨2, ![N, C]⟩ ![]
  wfg : GatherDims.WF ⟨2, ![N, C]⟩ ⟨2, ![R, 1]⟩ ⟨2, ![R, C]⟩ [1] [0] [] [0] [] 1 ![1, C]
  wfs : ScatterDims.WF ⟨2, ![N, C]⟩ ⟨2, ![R, 1]⟩ ⟨2, ![R, C]⟩ [1] [0] [0] 1
  wfgv : GatherDims.WF ⟨1, ![N]⟩ ⟨2, ![R, 1]⟩ ⟨1, ![R]⟩ [] [0] [] [0] [] 1 ![1]

variable {N R C : ℕ}

/-! ## Index normalisation and clamping -/

/-- `i < 0 ? i + k : i` on every entry of an index vector (a negative index counts from the end, `k` the extent). -/
def normIdx (b0R : (⟨0, ![]⟩ : Shape).BroadcastsInDim ⟨1, ![R]⟩ ![]) (k : BitVec 32) (x : IVec ⟨1, ![R]⟩ 32) :
    IVec ⟨1, ![R]⟩ 32 :=
  select (cmpi .slt x (broadcastInDim ⟨1, ![R]⟩ ![] b0R (constantI ⟨0, ![]⟩ 32 0#32)))
    (addi x (broadcastInDim ⟨1, ![R]⟩ ![] b0R (constantI ⟨0, ![]⟩ 32 k))) x

/-- An index that is not negative is left alone. -/
theorem normIdx_of_nonneg (b0R : (⟨0, ![]⟩ : Shape).BroadcastsInDim ⟨1, ![R]⟩ ![]) (k : BitVec 32)
    (x : IVec ⟨1, ![R]⟩ 32) (e : Fin R) (h : 0 ≤ (x (ix1 e)).toInt) : normIdx b0R k x (ix1 e) = x (ix1 e) := by
  unfold normIdx
  rw [select_apply]
  have hc : cmpi .slt x (broadcastInDim ⟨1, ![R]⟩ ![] b0R (constantI ⟨0, ![]⟩ 32 0#32)) (ix1 e) = 0#1 := by
    show IntOp.cmpi .slt (x (ix1 e)) (broadcastInDim ⟨1, ![R]⟩ ![] b0R (constantI ⟨0, ![]⟩ 32 0#32) (ix1 e)) = 0#1
    rw [broadcastInDim_scalar_apply]
    show BitVec.ofBool ((x (ix1 e)).slt 0#32) = 0#1
    have hs : (x (ix1 e)).slt 0#32 = false := by
      simp only [BitVec.slt, BitVec.toInt_zero, decide_eq_false_iff_not, not_lt]
      exact h
    rw [hs]; rfl
  rw [hc, select_zero]

/-- A start index read signed and clamped into `[0, N - 1]`. -/
def clampIdx (hN : 0 < N) (v : BitVec 32) : Fin N := ⟨min v.toInt.toNat (N - 1), by omega⟩

/-- An index that reads as the node `n` clamps to `n`. -/
theorem clampIdx_of_toInt_eq (hN : 0 < N) (v : BitVec 32) (n : Fin N) (h : v.toInt = (n.val : ℤ)) :
    clampIdx hN v = n := by
  apply Fin.ext
  show min v.toInt.toNat (N - 1) = n.val
  have := n.isLt
  rw [h]
  omega

/-- The gather of rows at a column of start indices made from an index vector. -/
theorem rowGather_bcast_apply {α : Type} (ev : Ev N R C) (x : (⟨2, ![N, C]⟩ : Shape).Idx → α) (r : IVec ⟨1, ![R]⟩ 32)
    (e : Fin R) (l : Fin C) :
    Host.gather (rowGatherDims N R C ev.wfg) x (broadcastInDim ⟨2, ![R, 1]⟩ ![0] ev.bR1 r) (ix2 e l)
      = x (ix2 (clampIdx ev.hN (r (ix1 e))) l) := by
  rw [rowGather_apply ev.hN]
  refine congrArg (fun t => x (ix2 t l)) (Fin.ext ?_)
  show min (broadcastInDim ⟨2, ![R, 1]⟩ ![0] ev.bR1 r (ix2 e (0 : Fin 1))).toInt.toNat (N - 1)
    = min (r (ix1 e)).toInt.toNat (N - 1)
  rw [bcastCol_apply]

/-- The gather of vector entries at a column of start indices made from an index vector. -/
theorem vecGather_bcast_apply {α : Type} (ev : Ev N R C) (x : (⟨1, ![N]⟩ : Shape).Idx → α) (r : IVec ⟨1, ![R]⟩ 32)
    (e : Fin R) :
    Host.gather (vecGatherDims N R ev.wfgv) x (broadcastInDim ⟨2, ![R, 1]⟩ ![0] ev.bR1 r) (ix1 e)
      = x (ix1 (clampIdx ev.hN (r (ix1 e)))) := by
  rw [vecGather_apply ev.hN]
  refine congrArg (fun t => x (ix1 t)) (Fin.ext ?_)
  show min (broadcastInDim ⟨2, ![R, 1]⟩ ![0] ev.bR1 r (ix2 e (0 : Fin 1))).toInt.toNat (N - 1)
    = min (r (ix1 e)).toInt.toNat (N - 1)
  rw [bcastCol_apply]

/-! ## The two spellings -/

/-- The `[N, C]` table of zeros both scatters start from. -/
def zerosNC (ev : Ev N R C) : FVec Ideal ⟨2, ![N, C]⟩ .f32 :=
  broadcastInDim ⟨2, ![N, C]⟩ ![] ev.b0NC (constant (F := Ideal) ⟨0, ![]⟩ .f32 0x00000000#32)

theorem zerosNC_apply (ev : Ev N R C) (j : (⟨2, ![N, C]⟩ : Shape).Idx) : zerosNC ev j = 0 := by
  unfold zerosNC
  rw [broadcastInDim_scalar_apply, constant_apply, Ideal.ofBits_zero_f32]

/-- The factor `dis` repeated along the columns. -/
def disNC (ev : Ev N R C) (dis : FVec Ideal ⟨1, ![N]⟩ .f32) : FVec Ideal ⟨2, ![N, C]⟩ .f32 :=
  broadcastInDim ⟨2, ![N, C]⟩ ![0, 1] ev.bNC (broadcastInDim ⟨2, ![N, 1]⟩ ![0] ev.bN1 dis)

theorem disNC_apply (ev : Ev N R C) (dis : FVec Ideal ⟨1, ![N]⟩ .f32) (n : Fin N) (l : Fin C) :
    disNC ev dis (ix2 n l) = dis (ix1 n) := by
  unfold disNC
  rw [bcastRow_apply, bcastCol_apply]

/-- The factored spelling. -/
def aggKG (ev : Ev N R C) (k : BitVec 32) (dis : FVec Ideal ⟨1, ![N]⟩ .f32) (row col : IVec ⟨1, ![R]⟩ 32)
    (h : FVec Ideal ⟨2, ![N, C]⟩ .f32) : FVec Ideal ⟨2, ![N, C]⟩ .f32 :=
  mulf
    (Host.scatterAdd (F := Ideal) (rowScatterDims N R C ev.wfs) (zerosNC ev)
      (broadcastInDim ⟨2, ![R, 1]⟩ ![0] ev.bR1 col)
      (Host.gather (rowGatherDims N R C ev.wfg) (mulf h (disNC ev dis))
        (broadcastInDim ⟨2, ![R, 1]⟩ ![0] ev.bR1 (normIdx ev.b0R k row))))
    (disNC ev dis)

/-- The unfactored spelling. -/
def aggRG (ev : Ev N R C) (k : BitVec 32) (dis : FVec Ideal ⟨1, ![N]⟩ .f32) (row col : IVec ⟨1, ![R]⟩ 32)
    (h : FVec Ideal ⟨2, ![N, C]⟩ .f32) : FVec Ideal ⟨2, ![N, C]⟩ .f32 :=
  Host.scatterAdd (F := Ideal) (rowScatterDims N R C ev.wfs) (zerosNC ev)
    (broadcastInDim ⟨2, ![R, 1]⟩ ![0] ev.bR1 col)
    (mulf
      (Host.gather (rowGatherDims N R C ev.wfg) h
        (broadcastInDim ⟨2, ![R, 1]⟩ ![0] ev.bR1 (normIdx ev.b0R k row)))
      (broadcastInDim ⟨2, ![R, C]⟩ ![0, 1] ev.bRC
        (broadcastInDim ⟨2, ![R, 1]⟩ ![0] ev.bR1
          (mulf
            (Host.gather (vecGatherDims N R ev.wfgv) dis
              (broadcastInDim ⟨2, ![R, 1]⟩ ![0] ev.bR1 (normIdx ev.b0R k row)))
            (Host.gather (vecGatherDims N R ev.wfgv) dis
              (broadcastInDim ⟨2, ![R, 1]⟩ ![0] ev.bR1 (normIdx ev.b0R k col)))))))

/-- The source node of pair `e`. -/
def srcOf (ev : Ev N R C) (k : BitVec 32) (row : IVec ⟨1, ![R]⟩ 32) (e : Fin R) : Fin N :=
  clampIdx ev.hN (normIdx ev.b0R k row (ix1 e))

/-- The factored spelling at an entry. -/
theorem aggKG_apply (ev : Ev N R C) (k : BitVec 32) (dis : FVec Ideal ⟨1, ![N]⟩ .f32) (row col : IVec ⟨1, ![R]⟩ 32)
    (h : FVec Ideal ⟨2, ![N, C]⟩ .f32) (n : Fin N) (l : Fin C) :
    aggKG ev k dis row col h (ix2 n l)
      = (∑ e ∈ Finset.univ.filter (fun e : Fin R => (col (ix1 e)).toInt = (n.val : ℤ)),
          h (ix2 (srcOf ev k row e) l) * dis (ix1 (srcOf ev k row e))) * dis (ix1 n) := by
  unfold aggKG
  rw [mulf_apply, rowScatterAdd_apply, zerosNC_apply ev, zero_add, disNC_apply ev, Finset.sum_filter]
  congr 1
  refine Finset.sum_congr rfl fun e _ => ?_
  rw [bcastCol_apply, rowGather_bcast_apply ev, mulf_apply, disNC_apply ev]
  rfl

/-- The unfactored spelling at an entry. -/
theorem aggRG_apply (ev : Ev N R C) (k : BitVec 32) (dis : FVec Ideal ⟨1, ![N]⟩ .f32) (row col : IVec ⟨1, ![R]⟩ 32)
    (h : FVec Ideal ⟨2, ![N, C]⟩ .f32) (n : Fin N) (l : Fin C) :
    aggRG ev k dis row col h (ix2 n l)
      = ∑ e ∈ Finset.univ.filter (fun e : Fin R => (col (ix1 e)).toInt = (n.val : ℤ)),
          h (ix2 (srcOf ev k row e) l) * (dis (ix1 (srcOf ev k row e)) * dis (ix1 (srcOf ev k col e))) := by
  unfold aggRG
  rw [rowScatterAdd_apply, zerosNC_apply ev, zero_add, Finset.sum_filter]
  refine Finset.sum_congr rfl fun e _ => ?_
  rw [bcastCol_apply, mulf_apply, rowGather_bcast_apply ev, bcastRow_apply, bcastCol_apply, mulf_apply,
    vecGather_bcast_apply ev, vecGather_bcast_apply ev]
  rfl

/-- THE LAW: for a factor that is nowhere negative and nowhere `⊤` the two spellings are one table, whatever the
    features. -/
theorem aggG_eq (ev : Ev N R C) (k : BitVec 32) (dis : FVec Ideal ⟨1, ![N]⟩ .f32)
    (hdis : ∀ i, 0 ≤ dis i ∧ dis i ≠ ⊤) (row col : IVec ⟨1, ![R]⟩ 32) (h : FVec Ideal ⟨2, ![N, C]⟩ .f32) :
    aggKG ev k dis row col h = aggRG ev k dis row col h := by
  funext j
  obtain ⟨n, l, rfl⟩ : ∃ (n : Fin N) (l : Fin C), j = ix2 n l := ⟨j 0, j 1, eq_ix2 j⟩
  rw [aggKG_apply, aggRG_apply]
  rw [agg_law (fun m : Fin N => (dis (ix1 m) : EReal)) n (hdis _).1 (hdis _).2 _
    (fun e => srcOf ev k row e) (fun e => h (ix2 (srcOf ev k row e) l))]
  refine Finset.sum_congr rfl fun e he => ?_
  have hc : (col (ix1 e)).toInt = (n.val : ℤ) := (Finset.mem_filter.mp he).2
  have hsrc : srcOf ev k col e = n := by
    unfold srcOf
    rw [normIdx_of_nonneg ev.b0R k col e (by rw [hc]; exact Int.natCast_nonneg _)]
    exact clampIdx_of_toInt_eq ev.hN _ _ hc
  rw [hsrc]

/-! ## The per-node factor: the inverse square root of the in-degree, zero at an isolated node -/

/-- The shape relations and dimension-number conditions of the degree count, for `N` nodes and `R` pairs. -/
structure EvD (N R : ℕ) : Prop where
  b0N : (⟨0, ![]⟩ : Shape).BroadcastsInDim ⟨1, ![N]⟩ ![]
  b0R : (⟨0, ![]⟩ : Shape).BroadcastsInDim ⟨1, ![R]⟩ ![]
  bR1 : (⟨1, ![R]⟩ : Shape).BroadcastsInDim ⟨2, ![R, 1]⟩ ![0]
  wfsv : ScatterDims.WF ⟨1, ![N]⟩ ⟨2, ![R, 1]⟩ ⟨1, ![R]⟩ [] [0] [0] 1

/-- The vector `[N]` of zeros. -/
def zerosN (ev : EvD N R) : FVec Ideal ⟨1, ![N]⟩ .f32 :=
  broadcastInDim ⟨1, ![N]⟩ ![] ev.b0N (constant (F := Ideal) ⟨0, ![]⟩ .f32 0x00000000#32)

theorem zerosN_apply (ev : EvD N R) (j : (⟨1, ![N]⟩ : Shape).Idx) : zerosN ev j = 0 := by
  unfold zerosN
  rw [broadcastInDim_scalar_apply, constant_apply, Ideal.ofBits_zero_f32]

/-- The in-degree: ones scatter-added at `col`. -/
def degG (ev : EvD N R) (col : IVec ⟨1, ![R]⟩ 32) : FVec Ideal ⟨1, ![N]⟩ .f32 :=
  Host.scatterAdd (F := Ideal) (vecScatterDims N R ev.wfsv) (zerosN ev)
    (broadcastInDim ⟨2, ![R, 1]⟩ ![0] ev.bR1 col)
    (broadcastInDim ⟨1, ![R]⟩ ![] ev.b0R (constant (F := Ideal) ⟨0, ![]⟩ .f32 0x3F800000#32))

/-- The factor: `deg > 0 ? rsqrt deg : 0`. -/
def disOfG (ev : EvD N R) (col : IVec ⟨1, ![R]⟩ 32) : FVec Ideal ⟨1, ![N]⟩ .f32 :=
  select (cmpf .ogt (degG ev col) (zerosN ev)) (Host.rsqrt (degG ev col)) (zerosN ev)

/-- A finite sum of ones and zeros is a natural number. -/
theorem sum_ite_one_eq_nat {ι : Type*} (s : Finset ι) (p : ι → Prop) [DecidablePred p] :
    ∃ m : ℕ, (∑ e ∈ s, if p e then (1 : EReal) else 0) = ((m : ℝ) : EReal) := by
  classical
  induction s using Finset.induction_on with
  | empty => exact ⟨0, by simp⟩
  | insert x s hx ih =>
    obtain ⟨m, hm⟩ := ih
    rw [Finset.sum_insert hx, hm]
    by_cases hp : p x
    · refine ⟨m + 1, ?_⟩
      rw [if_pos hp, ← EReal.coe_one, ← EReal.coe_add]
      congr 1
      push_cast
      ring
    · exact ⟨m, by rw [if_neg hp, zero_add]⟩

/-- The in-degree of a node is a natural number. -/
theorem degG_eq_nat (ev : EvD N R) (col : IVec ⟨1, ![R]⟩ 32) (n : Fin N) :
    ∃ m : ℕ, degG ev col (ix1 n) = ((m : ℝ) : EReal) := by
  unfold degG
  rw [vecScatterAdd_apply, zerosN_apply ev, zero_add]
  have h1 : ∀ e : Fin R, broadcastInDim ⟨1, ![R]⟩ ![] ev.b0R
      (constant (F := Ideal) ⟨0, ![]⟩ .f32 0x3F800000#32) (ix1 e) = (1 : EReal) := by
    intro e
    rw [broadcastInDim_scalar_apply, constant_apply, Ideal.ofBits_one_f32]
  simp only [h1]
  exact sum_ite_one_eq_nat _ _

/-- At a natural number `m` the factor is `(√m)⁻¹` for `m > 0` and `0` for `m = 0`: never negative, never `⊤`. -/
theorem disScalar_nonneg_fin (m : ℕ) :
    0 ≤ Scalar.select (Ideal.cmp .ogt ((m : ℝ) : EReal) 0) (Ideal.rsqrt ((m : ℝ) : EReal)) (0 : EReal)
      ∧ Scalar.select (Ideal.cmp .ogt ((m : ℝ) : EReal) 0) (Ideal.rsqrt ((m : ℝ) : EReal)) (0 : EReal) ≠ ⊤ := by
  by_cases hpos : 0 < m
  · have hr : (0 : ℝ) < (m : ℝ) := by exact_mod_cast hpos
    have hc : Ideal.cmp .ogt ((m : ℝ) : EReal) 0 = 1#1 := by
      show BitVec.ofBool (decide ((0 : EReal) < ((m : ℝ) : EReal))) = 1#1
      rw [decide_eq_true (by exact_mod_cast hr)]
      rfl
    rw [hc, select_one, Ideal.rsqrt_coe, if_neg (not_lt.mpr hr.le), if_neg hr.ne']
    exact ⟨by exact_mod_cast (inv_nonneg.mpr (Real.sqrt_nonneg _)), EReal.coe_ne_top _⟩
  · have hm0 : m = 0 := by omega
    subst hm0
    have hc : Ideal.cmp .ogt (((0 : ℕ) : ℝ) : EReal) 0 = 0#1 := by
      show BitVec.ofBool (decide ((0 : EReal) < (((0 : ℕ) : ℝ) : EReal))) = 0#1
      rw [decide_eq_false (by simp)]
      rfl
    rw [hc, select_zero]
    exact ⟨le_refl _, EReal.zero_ne_top⟩

/-- The factor is nowhere negative and nowhere `⊤`. -/
theorem disOfG_nonneg_fin (ev : EvD N R) (col : IVec ⟨1, ![R]⟩ 32) (i : (⟨1, ![N]⟩ : Shape).Idx) :
    0 ≤ disOfG ev col i ∧ disOfG ev col i ≠ ⊤ := by
  obtain ⟨n, rfl⟩ : ∃ n : Fin N, i = ix1 n := ⟨i 0, eq_ix1 i⟩
  obtain ⟨m, hm⟩ := degG_eq_nat ev col n
  have key : disOfG ev col (ix1 n)
      = Scalar.select (Ideal.cmp .ogt (degG ev col (ix1 n)) (zerosN ev (ix1 n)))
          (Ideal.rsqrt (degG ev col (ix1 n))) (zerosN ev (ix1 n)) := rfl
  rw [key, zerosN_apply ev, hm]
  exact disScalar_nonneg_fin m

end Cert.Agg

end
-- ==== Proof.AggHost.lean ====
import proofs.«136817_j2800318677196_2_alg».proof.KernelIdeal
import proofs.«136817_j2800318677196_2_alg».proof.ReferenceIdeal
import proofs.«136817_j2800318677196_2_alg».proof.Proof.AggGen

/-!
# The aggregation law over the two programs' own host operations

The kernel's host code and the reference spell the normalised graph aggregation differently: the kernel scales the
feature table by `dis` before the gather and the aggregated table by `dis` after the scatter; the reference scales every
gathered row by `dis[row e] * dis[col e]`.  With the dimension numbers and shape relations the two programs cite, at 64
and at 128 columns, the two are the general law at `N = 50000`, `R = 1650000`.  The factor `dis` itself is the inverse
square root of the in-degree (zero at a node of in-degree zero), nowhere negative and nowhere `⊤`.
-/

noncomputable section

namespace Cert.Agg

open Idealize.ShloMosaic Idealize.ShloMosaic.ValueIdx

/-! ## The kernel's spellings -/

section Kernel
open Cert.KernelIdeal Cert.KernelIdeal.Facts₀
variable [Cert.KernelIdeal.Facts₀]

/-- The kernel's aggregation at 64 columns: scale by `dis`, gather at `row`, scatter-add at `col`, scale by `dis`. -/
def aggK64 (dis : FVec Ideal S50000 .f32) (row col : IVec S1650000 32) (h : FVec Ideal S50000x64 .f32) :
    FVec Ideal S50000x64 .f32 :=
  mulf
    (Host.scatterAdd (F := Ideal) scatter_S50000x64_S1650000x1_S1650000x64_1_0_0_1
      (broadcastInDim S50000x64 ![] bcast_S_S50000x64 (constant (F := Ideal) S_ .f32 0x00000000#32))
      (broadcastInDim S1650000x1 ![0] bcast_S1650000_S1650000x1_0 col)
      (Host.gather gather_S50000x64_S1650000x1_S1650000x64_1_0_n_n_0_1_164
        (mulf h (broadcastInDim S50000x64 ![0, 1] bcast_S50000x1_S50000x64_0_1
          (broadcastInDim S50000x1 ![0] bcast_S50000_S50000x1_0 dis)))
        (broadcastInDim S1650000x1 ![0] bcast_S1650000_S1650000x1_0
          (select (cmpi .slt row (broadcastInDim S1650000 ![] bcast_S_S1650000 (constantI S_ 32 0#32)))
            (addi row (broadcastInDim S1650000 ![] bcast_S_S1650000 (constantI S_ 32 50000#32))) row))))
    (broadcastInDim S50000x64 ![0, 1] bcast_S50000x1_S50000x64_0_1
      (broadcastInDim S50000x1 ![0] bcast_S50000_S50000x1_0 dis))

/-- The kernel's aggregation at 128 columns: scale by `dis`, gather at `row`, scatter-add at `col`, scale by `dis`. -/
def aggK128 (dis : FVec Ideal S50000 .f32) (row col : IVec S1650000 32) (h : FVec Ideal S50000x128 .f32) :
    FVec Ideal S50000x128 .f32 :=
  mulf
    (Host.scatterAdd (F := Ideal) scatter_S50000x128_S1650000x1_S1650000x128_1_0_0_1
      (broadcastInDim S50000x128 ![] bcast_S_S50000x128 (constant (F := Ideal) S_ .f32 0x00000000#32))
      (broadcastInDim S1650000x1 ![0] bcast_S1650000_S1650000x1_0 col)
      (Host.gather gather_S50000x128_S1650000x1_S1650000x128_1_0_n_n_0_1_1128
        (mulf h (broadcastInDim S50000x128 ![0, 1] bcast_S50000x1_S50000x128_0_1
          (broadcastInDim S50000x1 ![0] bcast_S50000_S50000x1_0 dis)))
        (broadcastInDim S1650000x1 ![0] bcast_S1650000_S1650000x1_0
          (select (cmpi .slt row (broadcastInDim S1650000 ![] bcast_S_S1650000 (constantI S_ 32 0#32)))
            (addi row (broadcastInDim S1650000 ![] bcast_S_S1650000 (constantI S_ 32 50000#32))) row))))
    (broadcastInDim S50000x128 ![0, 1] bcast_S50000x1_S50000x128_0_1
      (broadcastInDim S50000x1 ![0] bcast_S50000_S50000x1_0 dis))

/-- The kernel's in-degree: ones scatter-added at `col`. -/
def degOf (col : IVec S1650000 32) : FVec Ideal S50000 .f32 :=
  Host.scatterAdd (F := Ideal) scatter_S50000_S1650000x1_S1650000_n_0_0_1
    (broadcastInDim S50000 ![] bcast_S_S50000 (constant (F := Ideal) S_ .f32 0x00000000#32))
    (broadcastInDim S1650000x1 ![0] bcast_S1650000_S1650000x1_0 col)
    (broadcastInDim S1650000 ![] bcast_S_S1650000 (constant (F := Ideal) S_ .f32 0x3F800000#32))

/-- The kernel's factor: `deg > 0 ? rsqrt deg : 0`. -/
def disOf (col : IVec S1650000 32) : FVec Ideal S50000 .f32 :=
  select (cmpf .ogt (degOf col) (broadcastInDim S50000 ![] bcast_S_S50000 (constant (F := Ideal) S_ .f32 0x00000000#32)))
    (Host.rsqrt (degOf col))
    (broadcastInDim S50000 ![] bcast_S_S50000 (constant (F := Ideal) S_ .f32 0x00000000#32))

end Kernel

/-! ## The reference's spellings -/

section Reference
open Cert.ReferenceIdeal Cert.ReferenceIdeal.Facts₀
variable [Cert.ReferenceIdeal.Facts₀]

/-- The reference's aggregation at 64 columns: gather at `row`, scale pair `e` by `dis[row e] * dis[col e]`,
    scatter-add at `col`. -/
def aggR64 (dis : FVec Ideal S50000 .f32) (row col : IVec S1650000 32) (h : FVec Ideal S50000x64 .f32) :
    FVec Ideal S50000x64 .f32 :=
  Host.scatterAdd (F := Ideal) scatter_S50000x64_S1650000x1_S1650000x64_1_0_0_1
    (broadcastInDim S50000x64 ![] bcast_S_S50000x64 (constant (F := Ideal) S_ .f32 0x00000000#32))
    (broadcastInDim S1650000x1 ![0] bcast_S1650000_S1650000x1_0 col)
    (mulf
      (Host.gather gather_S50000x64_S1650000x1_S1650000x64_1_0_n_n_0_1_164 h
        (broadcastInDim S1650000x1 ![0] bcast_S1650000_S1650000x1_0
          (select (cmpi .slt row (broadcastInDim S1650000 ![] bcast_S_S1650000 (constantI S_ 32 0#32)))
            (addi row (broadcastInDim S1650000 ![] bcast_S_S1650000 (constantI S_ 32 50000#32))) row)))
      (broadcastInDim S1650000x64 ![0, 1] bcast_S1650000x1_S1650000x64_0_1
        (broadcastInDim S1650000x1 ![0] bcast_S1650000_S1650000x1_0
          (mulf
            (Host.gather gather_S50000_S1650000x1_S1650000_n_0_n_n_0_1_1 dis
              (broadcastInDim S1650000x1 ![0] bcast_S1650000_S1650000x1_0
                (select (cmpi .slt row (broadcastInDim S1650000 ![] bcast_S_S1650000 (constantI S_ 32 0#32)))
            (addi row (broadcastInDim S1650000 ![] bcast_S_S1650000 (constantI S_ 32 50000#32))) row)))
            (Host.gather gather_S50000_S1650000x1_S1650000_n_0_n_n_0_1_1 dis
              (broadcastInDim S1650000x1 ![0] bcast_S1650000_S1650000x1_0
                (select (cmpi .slt col (broadcastInDim S1650000 ![] bcast_S_S1650000 (constantI S_ 32 0#32)))
            (addi col (broadcastInDim S1650000 ![] bcast_S_S1650000 (constantI S_ 32 50000#32))) col)))))))

/-- The reference's aggregation at 128 columns: gather at `row`, scale pair `e` by `dis[row e] * dis[col e]`,
    scatter-add at `col`. -/
def aggR128 (dis : FVec Ideal S50000 .f32) (row col : IVec S1650000 32) (h : FVec Ideal S50000x128 .f32) :
    FVec Ideal S50000x128 .f32 :=
  Host.scatterAdd (F := Ideal) scatter_S50000x128_S1650000x1_S1650000x128_1_0_0_1
    (broadcastInDim S50000x128 ![] bcast_S_S50000x128 (constant (F := Ideal) S_ .f32 0x00000000#32))
    (broadcastInDim S1650000x1 ![0] bcast_S1650000_S1650000x1_0 col)
    (mulf
      (Host.gather gather_S50000x128_S1650000x1_S1650000x128_1_0_n_n_0_1_1128 h
        (broadcastInDim S1650000x1 ![0] bcast_S1650000_S1650000x1_0
          (select (cmpi .slt row (broadcastInDim S1650000 ![] bcast_S_S1650000 (constantI S_ 32 0#32)))
            (addi row (broadcastInDim S1650000 ![] bcast_S_S1650000 (constantI S_ 32 50000#32))) row)))
      (broadcastInDim S1650000x128 ![0, 1] bcast_S1650000x1_S1650000x128_0_1
        (broadcastInDim S1650000x1 ![0] bcast_S1650000_S1650000x1_0
          (mulf
            (Host.gather gather_S50000_S1650000x1_S1650000_n_0_n_n_0_1_1 dis
              (broadcastInDim S1650000x1 ![0] bcast_S1650000_S1650000x1_0
                (select (cmpi .slt row (broadcastInDim S1650000 ![] bcast_S_S1650000 (constantI S_ 32 0#32)))
            (addi row (broadcastInDim S1650000 ![] bcast_S_S1650000 (constantI S_ 32 50000#32))) row)))
            (Host.gather gather_S50000_S1650000x1_S1650000_n_0_n_n_0_1_1 dis
              (broadcastInDim S1650000x1 ![0] bcast_S1650000_S1650000x1_0
                (select (cmpi .slt col (broadcastInDim S1650000 ![] bcast_S_S1650000 (constantI S_ 32 0#32)))
            (addi col (broadcastInDim S1650000 ![] bcast_S_S1650000 (constantI S_ 32 50000#32))) col)))))))

end Reference

/-! ## The evidence, from either program's facts -/

section Law
variable [Cert.KernelIdeal.Facts₀] [Cert.ReferenceIdeal.Facts₀]

/-- The general law's evidence at 64 columns. -/
theorem ev64 : Ev 50000 1650000 64 where
  hN := by decide
  bN1 := Cert.KernelIdeal.Facts₀.bcast_S50000_S50000x1_0
  bNC := Cert.KernelIdeal.Facts₀.bcast_S50000x1_S50000x64_0_1
  bR1 := Cert.KernelIdeal.Facts₀.bcast_S1650000_S1650000x1_0
  bRC := Cert.ReferenceIdeal.Facts₀.bcast_S1650000x1_S1650000x64_0_1
  b0R := Cert.KernelIdeal.Facts₀.bcast_S_S1650000
  b0NC := Cert.KernelIdeal.Facts₀.bcast_S_S50000x64
  wfg := Cert.KernelIdeal.Facts₀.gather_S50000x64_S1650000x1_S1650000x64_1_0_n_n_0_1_164_wf
  wfs := Cert.KernelIdeal.Facts₀.scatter_S50000x64_S1650000x1_S1650000x64_1_0_0_1_wf
  wfgv := Cert.ReferenceIdeal.Facts₀.gather_S50000_S1650000x1_S1650000_n_0_n_n_0_1_1_wf

/-- The general law's evidence at 128 columns. -/
theorem ev128 : Ev 50000 1650000 128 where
  hN := by decide
  bN1 := Cert.KernelIdeal.Facts₀.bcast_S50000_S50000x1_0
  bNC := Cert.KernelIdeal.Facts₀.bcast_S50000x1_S50000x128_0_1
  bR1 := Cert.KernelIdeal.Facts₀.bcast_S1650000_S1650000x1_0
  bRC := Cert.ReferenceIdeal.Facts₀.bcast_S1650000x1_S1650000x128_0_1
  b0R := Cert.KernelIdeal.Facts₀.bcast_S_S1650000
  b0NC := Cert.KernelIdeal.Facts₀.bcast_S_S50000x128
  wfg := Cert.KernelIdeal.Facts₀.gather_S50000x128_S1650000x1_S1650000x128_1_0_n_n_0_1_1128_wf
  wfs := Cert.KernelIdeal.Facts₀.scatter_S50000x128_S1650000x1_S1650000x128_1_0_0_1_wf
  wfgv := Cert.ReferenceIdeal.Facts₀.gather_S50000_S1650000x1_S1650000_n_0_n_n_0_1_1_wf

/-- The kernel's spelling at 64 columns is the general factored one. -/
theorem aggK64_eq_gen : aggK64 = aggKG ev64 50000#32 := rfl
/-- The reference's spelling at 64 columns is the general unfactored one. -/
theorem aggR64_eq_gen : aggR64 = aggRG ev64 50000#32 := rfl
/-- The kernel's spelling at 128 columns is the general factored one. -/
theorem aggK128_eq_gen : aggK128 = aggKG ev128 50000#32 := rfl
/-- The reference's spelling at 128 columns is the general unfactored one. -/
theorem aggR128_eq_gen : aggR128 = aggRG ev128 50000#32 := rfl

/-- THE LAW at 64 columns, over the programs' own operations. -/
theorem agg64_eq (dis : FVec Ideal Cert.KernelIdeal.S50000 .f32) (hdis : ∀ i, 0 ≤ dis i ∧ dis i ≠ ⊤)
    (row col : IVec Cert.KernelIdeal.S1650000 32) (h : FVec Ideal Cert.KernelIdeal.S50000x64 .f32) :
    aggK64 dis row col h = aggR64 dis row col h := by
  rw [aggK64_eq_gen, aggR64_eq_gen]
  exact aggG_eq ev64 50000#32 dis hdis row col h

/-- THE LAW at 128 columns, over the programs' own operations. -/
theorem agg128_eq (dis : FVec Ideal Cert.KernelIdeal.S50000 .f32) (hdis : ∀ i, 0 ≤ dis i ∧ dis i ≠ ⊤)
    (row col : IVec Cert.KernelIdeal.S1650000 32) (h : FVec Ideal Cert.KernelIdeal.S50000x128 .f32) :
    aggK128 dis row col h = aggR128 dis row col h := by
  rw [aggK128_eq_gen, aggR128_eq_gen]
  exact aggG_eq ev128 50000#32 dis hdis row col h

end Law

/-! ## The factor is nonnegative and finite -/

section Dis
variable [Cert.KernelIdeal.Facts₀]

/-- The degree count's evidence. -/
theorem evD : EvD 50000 1650000 where
  b0N := Cert.KernelIdeal.Facts₀.bcast_S_S50000
  b0R := Cert.KernelIdeal.Facts₀.bcast_S_S1650000
  bR1 := Cert.KernelIdeal.Facts₀.bcast_S1650000_S1650000x1_0
  wfsv := Cert.KernelIdeal.Facts₀.scatter_S50000_S1650000x1_S1650000_n_0_0_1_wf

/-- The kernel's factor is the general one. -/
theorem disOf_eq_gen : disOf = disOfG evD := rfl

/-- The kernel's factor is nowhere negative and nowhere `⊤`. -/
theorem disOf_nonneg_fin (col : IVec Cert.KernelIdeal.S1650000 32) (i : Cert.KernelIdeal.S50000.Idx) :
    0 ≤ disOf col i ∧ disOf col i ≠ ⊤ := by
  rw [disOf_eq_gen]
  exact disOfG_nonneg_fin evD col i

end Dis

end Cert.Agg

end
-- ==== Proof.BridgeLayers.lean ====
/-
  The three layers of the kernel program against the reference's, as whole arrays at the exact extended reals.
  A layer of the kernel program is: the aggregation with the normalisation factored out of the pair sum, the column
  means and variances of the rectified aggregate on the host, then the region that adds the bias, rectifies, normalizes
  and (in the first two layers) multiplies by the next weight. The reference aggregates with per-pair weights, rectifies, normalizes by the same
  column statistics, and multiplies on the host. The two aggregations agree where the factor is nonnegative and finite;
  the region is the reference's normalization and product; the column statistics are the same terms.
-/
import proofs.«136817_j2800318677196_2_alg».proof.Proof.BridgeBN
import proofs.«136817_j2800318677196_2_alg».proof.Proof.BridgeBN3
import proofs.«136817_j2800318677196_2_alg».proof.Proof.BridgeDense
import proofs.«136817_j2800318677196_2_alg».proof.Proof.AggHost
import proofs.«136817_j2800318677196_2_alg».proof.Proof.KerStages
import proofs.«136817_j2800318677196_2_alg».proof.Proof.RefTerms

set_option maxRecDepth 16384
set_option pp.maxSteps 5000
set_option pp.deepTerms false

noncomputable section

namespace Cert.Bridge

open Idealize.ShloMosaic Idealize.ShloMosaic.ValueIdx

/-! ## The aggregation, in the two programs' stage terms -/

/-- The aggregation with the factor outside the pair sum is the aggregation with per-pair weights, at 64 columns, where
    the factor is nonnegative and finite. -/
theorem aggStage64_eq (dis : FVec Ideal Cert.KernelIdeal.S50000 .f32) (hdis : ∀ i, 0 ≤ dis i ∧ dis i ≠ ⊤)
    (row col : IVec Cert.KernelIdeal.S1650000 32) (h : FVec Ideal Cert.KernelIdeal.S50000x64 .f32) :
    Cert.KernelIdeal.KS.aggK64T (F := Ideal) dis row col h
      = Cert.ReferenceIdeal.RT.aggRn64T (F := Ideal) (Cert.ReferenceIdeal.RT.normT (F := Ideal) dis row col) row col h :=
  (show Cert.KernelIdeal.KS.aggK64T (F := Ideal) dis row col h = Cert.Agg.aggK64 dis row col h from rfl).trans
    ((Cert.Agg.agg64_eq dis hdis row col h).trans
      (show Cert.Agg.aggR64 dis row col h
        = Cert.ReferenceIdeal.RT.aggRn64T (F := Ideal) (Cert.ReferenceIdeal.RT.normT (F := Ideal) dis row col) row col h from rfl))

/-- The same at 128 columns. -/
theorem aggStage128_eq (dis : FVec Ideal Cert.KernelIdeal.S50000 .f32) (hdis : ∀ i, 0 ≤ dis i ∧ dis i ≠ ⊤)
    (row col : IVec Cert.KernelIdeal.S1650000 32) (h : FVec Ideal Cert.KernelIdeal.S50000x128 .f32) :
    Cert.KernelIdeal.KS.aggK128T (F := Ideal) dis row col h
      = Cert.ReferenceIdeal.RT.aggRn128T (F := Ideal) (Cert.ReferenceIdeal.RT.normT (F := Ideal) dis row col) row col h :=
  (show Cert.KernelIdeal.KS.aggK128T (F := Ideal) dis row col h = Cert.Agg.aggK128 dis row col h from rfl).trans
    ((Cert.Agg.agg128_eq dis hdis row col h).trans
      (show Cert.Agg.aggR128 dis row col h
        = Cert.ReferenceIdeal.RT.aggRn128T (F := Ideal) (Cert.ReferenceIdeal.RT.normT (F := Ideal) dis row col) row col h from rfl))

/-- The first region's product is the reference's first matrix product. -/
theorem dense1Stage_eq (x : FVec Ideal Cert.KernelIdeal.S50000x128 .f32) (w : FVec Ideal Cert.KernelIdeal.S128x64 .f32) :
    Cert.KernelIdeal.RegionVal.G0 x w = Cert.ReferenceIdeal.RT.dense1T (F := Ideal) x w :=
  (Cert.Bridge.dense1_eq x w).trans rfl

/-! ## A layer after its aggregation -/

/-- Region 1 at the host's column statistics of the rectified aggregate is the reference's layer followed by its
    second matrix product. -/
theorem post64_eq (agg : FVec Ideal Cert.KernelIdeal.S50000x64 .f32) (b g bt : FVec Ideal Cert.KernelIdeal.S64 .f32)
    (w : FVec Ideal Cert.KernelIdeal.S64x128 .f32) :
    Cert.KernelIdeal.RegionVal.G1 agg (Cert.KernelIdeal.KS.row64T (F := Ideal) b) (Cert.KernelIdeal.KS.row64T (F := Ideal) g) (Cert.KernelIdeal.KS.row64T (F := Ideal) bt)
        (Cert.KernelIdeal.KS.row64T (F := Ideal) (Cert.KernelIdeal.KS.mean64T (F := Ideal) (Cert.KernelIdeal.KS.relu64T (F := Ideal) agg b)))
        (Cert.KernelIdeal.KS.row64T (F := Ideal) (Cert.KernelIdeal.KS.var64T (F := Ideal) (Cert.KernelIdeal.KS.relu64T (F := Ideal) agg b) (constantI Cert.KernelIdeal.S_ 32 0#32))) w
      = Cert.ReferenceIdeal.RT.dense2T (F := Ideal) (Cert.ReferenceIdeal.RT.lay64T (F := Ideal) agg b g bt) w :=
  (Cert.KernelIdeal.BridgeBN.bnDense64_eq agg b g bt _ _ w).trans rfl

/-- Region 2 at the host's column statistics of the rectified aggregate is the reference's layer followed by its
    third matrix product. -/
theorem post128_eq (agg : FVec Ideal Cert.KernelIdeal.S50000x128 .f32) (b g bt : FVec Ideal Cert.KernelIdeal.S128 .f32)
    (w : FVec Ideal Cert.KernelIdeal.S128x128 .f32) :
    Cert.KernelIdeal.RegionVal.G2 agg (Cert.KernelIdeal.KS.row128T (F := Ideal) b) (Cert.KernelIdeal.KS.row128T (F := Ideal) g) (Cert.KernelIdeal.KS.row128T (F := Ideal) bt)
        (Cert.KernelIdeal.KS.row128T (F := Ideal) (Cert.KernelIdeal.KS.mean128T (F := Ideal) (Cert.KernelIdeal.KS.relu128T (F := Ideal) agg b)))
        (Cert.KernelIdeal.KS.row128T (F := Ideal) (Cert.KernelIdeal.KS.var128T (F := Ideal) (Cert.KernelIdeal.KS.relu128T (F := Ideal) agg b) (constantI Cert.KernelIdeal.S_ 32 0#32))) w
      = Cert.ReferenceIdeal.RT.dense3T (F := Ideal) (Cert.ReferenceIdeal.RT.lay128T (F := Ideal) agg b g bt) w :=
  (Cert.KernelIdeal.BridgeBN.bnDense128_eq agg b g bt _ _ w).trans rfl

/-- Region 3 at the host's column statistics of the rectified aggregate is the reference's layer. -/
theorem post3_eq (agg : FVec Ideal Cert.KernelIdeal.S50000x128 .f32) (b g bt : FVec Ideal Cert.KernelIdeal.S128 .f32) :
    Cert.KernelIdeal.RegionVal.G3 agg (Cert.KernelIdeal.KS.row128T (F := Ideal) b) (Cert.KernelIdeal.KS.row128T (F := Ideal) g) (Cert.KernelIdeal.KS.row128T (F := Ideal) bt)
        (Cert.KernelIdeal.KS.row128T (F := Ideal) (Cert.KernelIdeal.KS.mean128T (F := Ideal) (Cert.KernelIdeal.KS.relu128T (F := Ideal) agg b)))
        (Cert.KernelIdeal.KS.row128T (F := Ideal) (Cert.KernelIdeal.KS.var128T (F := Ideal) (Cert.KernelIdeal.KS.relu128T (F := Ideal) agg b) (constantI Cert.KernelIdeal.S_ 32 0#32)))
      = Cert.ReferenceIdeal.RT.lay128T (F := Ideal) agg b g bt :=
  (Cert.KernelIdeal.RegionVal.bn3_eq agg b g bt _ _).trans rfl

/-! ## The layers -/

/-- The first layer: the first product, the aggregation, the column statistics and region 1 of the kernel program are
    the reference's first product, aggregation, layer and second product. -/
theorem layer1_eq (dis : FVec Ideal Cert.KernelIdeal.S50000 .f32) (hdis : ∀ i, 0 ≤ dis i ∧ dis i ≠ ⊤)
    (row col : IVec Cert.KernelIdeal.S1650000 32) (x : FVec Ideal Cert.KernelIdeal.S50000x128 .f32) (w1 : FVec Ideal Cert.KernelIdeal.S128x64 .f32)
    (b1 g1 bt1 : FVec Ideal Cert.KernelIdeal.S64 .f32) (w2 : FVec Ideal Cert.KernelIdeal.S64x128 .f32) :
    Cert.KernelIdeal.RegionVal.G1 (Cert.KernelIdeal.KS.aggK64T (F := Ideal) dis row col (Cert.KernelIdeal.RegionVal.G0 x w1))
        (Cert.KernelIdeal.KS.row64T (F := Ideal) b1) (Cert.KernelIdeal.KS.row64T (F := Ideal) g1) (Cert.KernelIdeal.KS.row64T (F := Ideal) bt1)
        (Cert.KernelIdeal.KS.row64T (F := Ideal) (Cert.KernelIdeal.KS.mean64T (F := Ideal)
          (Cert.KernelIdeal.KS.relu64T (F := Ideal) (Cert.KernelIdeal.KS.aggK64T (F := Ideal) dis row col (Cert.KernelIdeal.RegionVal.G0 x w1)) b1)))
        (Cert.KernelIdeal.KS.row64T (F := Ideal) (Cert.KernelIdeal.KS.var64T (F := Ideal)
          (Cert.KernelIdeal.KS.relu64T (F := Ideal) (Cert.KernelIdeal.KS.aggK64T (F := Ideal) dis row col (Cert.KernelIdeal.RegionVal.G0 x w1)) b1) (constantI Cert.KernelIdeal.S_ 32 0#32))) w2
      = Cert.ReferenceIdeal.RT.dense2T (F := Ideal) (Cert.ReferenceIdeal.RT.lay64T (F := Ideal)
          (Cert.ReferenceIdeal.RT.aggRn64T (F := Ideal) (Cert.ReferenceIdeal.RT.normT (F := Ideal) dis row col) row col (Cert.ReferenceIdeal.RT.dense1T (F := Ideal) x w1)) b1 g1 bt1) w2 := by
  rw [post64_eq, aggStage64_eq dis hdis, dense1Stage_eq]

/-- The second layer: the aggregation, the column statistics and region 2 of the kernel program are the reference's
    aggregation, layer and third product. -/
theorem layer2_eq (dis : FVec Ideal Cert.KernelIdeal.S50000 .f32) (hdis : ∀ i, 0 ≤ dis i ∧ dis i ≠ ⊤)
    (row col : IVec Cert.KernelIdeal.S1650000 32) (h : FVec Ideal Cert.KernelIdeal.S50000x128 .f32)
    (b g bt : FVec Ideal Cert.KernelIdeal.S128 .f32) (w : FVec Ideal Cert.KernelIdeal.S128x128 .f32) :
    Cert.KernelIdeal.RegionVal.G2 (Cert.KernelIdeal.KS.aggK128T (F := Ideal) dis row col h)
        (Cert.KernelIdeal.KS.row128T (F := Ideal) b) (Cert.KernelIdeal.KS.row128T (F := Ideal) g) (Cert.KernelIdeal.KS.row128T (F := Ideal) bt)
        (Cert.KernelIdeal.KS.row128T (F := Ideal) (Cert.KernelIdeal.KS.mean128T (F := Ideal)
          (Cert.KernelIdeal.KS.relu128T (F := Ideal) (Cert.KernelIdeal.KS.aggK128T (F := Ideal) dis row col h) b)))
        (Cert.KernelIdeal.KS.row128T (F := Ideal) (Cert.KernelIdeal.KS.var128T (F := Ideal)
          (Cert.KernelIdeal.KS.relu128T (F := Ideal) (Cert.KernelIdeal.KS.aggK128T (F := Ideal) dis row col h) b) (constantI Cert.KernelIdeal.S_ 32 0#32))) w
      = Cert.ReferenceIdeal.RT.dense3T (F := Ideal) (Cert.ReferenceIdeal.RT.lay128T (F := Ideal)
          (Cert.ReferenceIdeal.RT.aggRn128T (F := Ideal) (Cert.ReferenceIdeal.RT.normT (F := Ideal) dis row col) row col h) b g bt) w := by
  rw [post128_eq, aggStage128_eq dis hdis]

/-- The third layer: the aggregation, the column statistics and region 3 of the kernel program are the reference's
    aggregation and layer. -/
theorem layer3_eq (dis : FVec Ideal Cert.KernelIdeal.S50000 .f32) (hdis : ∀ i, 0 ≤ dis i ∧ dis i ≠ ⊤)
    (row col : IVec Cert.KernelIdeal.S1650000 32) (h : FVec Ideal Cert.KernelIdeal.S50000x128 .f32) (b g bt : FVec Ideal Cert.KernelIdeal.S128 .f32) :
    Cert.KernelIdeal.RegionVal.G3 (Cert.KernelIdeal.KS.aggK128T (F := Ideal) dis row col h)
        (Cert.KernelIdeal.KS.row128T (F := Ideal) b) (Cert.KernelIdeal.KS.row128T (F := Ideal) g) (Cert.KernelIdeal.KS.row128T (F := Ideal) bt)
        (Cert.KernelIdeal.KS.row128T (F := Ideal) (Cert.KernelIdeal.KS.mean128T (F := Ideal)
          (Cert.KernelIdeal.KS.relu128T (F := Ideal) (Cert.KernelIdeal.KS.aggK128T (F := Ideal) dis row col h) b)))
        (Cert.KernelIdeal.KS.row128T (F := Ideal) (Cert.KernelIdeal.KS.var128T (F := Ideal)
          (Cert.KernelIdeal.KS.relu128T (F := Ideal) (Cert.KernelIdeal.KS.aggK128T (F := Ideal) dis row col h) b) (constantI Cert.KernelIdeal.S_ 32 0#32)))
      = Cert.ReferenceIdeal.RT.lay128T (F := Ideal)
          (Cert.ReferenceIdeal.RT.aggRn128T (F := Ideal) (Cert.ReferenceIdeal.RT.normT (F := Ideal) dis row col) row col h) b g bt := by
  rw [post3_eq, aggStage128_eq dis hdis]

end Cert.Bridge

end
-- ==== Proof.BridgeScore.lean ====
import proofs.«136817_j2800318677196_2_alg».proof.Proof.KerStages
import proofs.«136817_j2800318677196_2_alg».proof.Proof.RefTerms
import Idealize.ShloMosaic.Lib.IdealHost
import proofs.«136817_j2800318677196_2_alg».proof.Proof.LibAffine
import proofs.«136817_j2800318677196_2_alg».proof.Proof.LibRowOps

/-!
# The scoring tail: column 0 of the padded scores is the reference's score vector

The kernel scores a pair with a two-layer perceptron whose last layer is padded to 128 columns: the one weight column
`[128, 1]` becomes column 0 of a `[128, 128]` matrix, the one bias entry becomes entry 0 of a `[128]` vector, and only
column 0 of the `[200000, 128]` result is kept.  The reference multiplies by the `[128, 1]` column itself and reshapes the
`[200000, 1]` result.  Read at a pair `p` both are
`(∑ j, max ((∑ k, emb (p, k) * W₁ (k, j)) + b₁ j) 0 * W₂ (j, 0)) + b₂ 0`, the pair features `emb` being the same
concatenation of two gathered rows on both sides (a change of float format is the identity on extended reals).
-/

noncomputable section

namespace Cert.Bridge

open Idealize.ShloMosaic Idealize.ShloMosaic.ValueIdx

/-! ## Layout operations at an index -/

section Layout
variable {α : Type}

/-- One column `[n, 1]` cast to a vector `[n]`: entry `p` is entry `(p, 0)`. -/
theorem shapeCast_col_apply {n : ℕ} (y : (⟨2, ![n, 1]⟩ : Shape).Idx → α)
    (h : (⟨2, ![n, 1]⟩ : Shape).ShapeCasts ⟨1, ![n]⟩) (p : Fin n) :
    shapeCast ⟨1, ![n]⟩ y h (ix1 p) = y (ix2 p (0 : Fin 1)) :=
  shapeCast_apply y h (ix1 p) (ix2 p (0 : Fin 1)) (by
    rw [Shape.rowMajor_val_two, Shape.rowMajor_val_one]
    show p.val * 1 + 0 = p.val
    omega)

/-- A vector `[n]` cast to one row `[1, n]`: entry `(0, j)` is entry `j`. -/
theorem shapeCast_row_apply {n : ℕ} (v : (⟨1, ![n]⟩ : Shape).Idx → α)
    (h : (⟨1, ![n]⟩ : Shape).ShapeCasts ⟨2, ![1, n]⟩) (j : Fin n) :
    shapeCast ⟨2, ![1, n]⟩ v h (ix2 (0 : Fin 1) j) = v (ix1 j) :=
  shapeCast_apply v h (ix2 (0 : Fin 1) j) (ix1 j) (by
    rw [Shape.rowMajor_val_two, Shape.rowMajor_val_one]
    show j.val = 0 * n + j.val
    omega)

/-- Column 0 of a matrix, cut out as one column: entry `(p, 0)` is the matrix's entry `(p, 0)`. -/
theorem slice_col0_apply {n c : ℕ} (S : (⟨2, ![n, c]⟩ : Shape).Idx → α)
    (h : (⟨2, ![n, c]⟩ : Shape).Slices ![0, 0] ⟨2, ![n, 1]⟩) (p : Fin n) (q0 : Fin c) (hq : q0.val = 0) :
    extractStridedSlice ⟨2, ![n, 1]⟩ ![0, 0] S h (ix2 p (0 : Fin 1)) = S (ix2 p q0) :=
  extractStridedSlice_apply ![0, 0] S h (ix2 p (0 : Fin 1)) (ix2 p q0) (by
    intro a
    match a with
    | ⟨0, _⟩ => show p.val = 0 + p.val; omega
    | ⟨1, _⟩ => show q0.val = 0 + 0; omega)

/-- One column padded on the right to `c` columns: column 0 of the result is the column. -/
theorem padCol0_apply {k c c' : ℕ} (w : (⟨2, ![k, 1]⟩ : Shape).Idx → α) {u : Shape} (pv : u.Idx → α)
    (h : (⟨2, ![k, 1]⟩ : Shape).Pads ![0, 0] ![0, c'] ![0, 0] ⟨2, ![k, c]⟩) (hu : 0 < u.numel)
    (j : Fin k) (q0 : Fin c) (hq : q0.val = 0) :
    pad ⟨2, ![k, c]⟩ ![0, 0] ![0, c'] ![0, 0] w pv h hu (ix2 j q0) = w (ix2 j (0 : Fin 1)) :=
  pad_apply_of_inside ![0, 0] ![0, c'] ![0, 0] w pv h hu (ix2 j q0) (ix2 j (0 : Fin 1)) (by
    intro a
    match a with
    | ⟨0, _⟩ => show j.val = 0 + j.val * (0 + 1); omega
    | ⟨1, _⟩ => show q0.val = 0 + 0 * (0 + 1); omega)

/-- A one-entry vector padded on the right to `c` entries: entry 0 of the result is the entry. -/
theorem padVec0_apply {c c' : ℕ} (b : (⟨1, ![1]⟩ : Shape).Idx → α) {u : Shape} (pv : u.Idx → α)
    (h : (⟨1, ![1]⟩ : Shape).Pads ![0] ![c'] ![0] ⟨1, ![c]⟩) (hu : 0 < u.numel) (q0 : Fin c) (hq : q0.val = 0) :
    pad ⟨1, ![c]⟩ ![0] ![c'] ![0] b pv h hu (ix1 q0) = b (ix1 (0 : Fin 1)) :=
  pad_apply_of_inside ![0] ![c'] ![0] b pv h hu (ix1 q0) (ix1 (0 : Fin 1)) (by
    intro a
    match a with
    | ⟨0, _⟩ => show q0.val = 0 + 0 * (0 + 1); omega)

end Layout

/-! ## The kernel's layout stretches at an index -/

section Ker
open Cert.KernelIdeal Cert.KernelIdeal.KS

/-- Column 0 of the padded scores at pair `p`. -/
theorem col0T_apply (S : Arr Ideal S200000x128 .f32) (p : Fin 200000) :
    col0T (F := Ideal) S (ix1 p) = S (ix2 p (0 : Fin 128)) := by
  unfold col0T
  exact (shapeCast_col_apply _ _ p).trans (slice_col0_apply S _ p (0 : Fin 128) rfl)

/-- A vector as a one-row matrix, at `(0, j)`. -/
theorem row128T_apply (v : Arr Ideal S128 .f32) (j : Fin 128) :
    row128T (F := Ideal) v (ix2 (0 : Fin 1) j) = v (ix1 j) := by
  unfold row128T
  exact shapeCast_row_apply _ _ j

/-- The padded last weight matrix at column 0. -/
theorem padW2T_apply (w : Arr Ideal S128x1 .f32) (c0 : Arr Ideal S_ .i32) (j : Fin 128) :
    padW2T (F := Ideal) w c0 (ix2 j (0 : Fin 128)) = w (ix2 j (0 : Fin 1)) := by
  unfold padW2T
  exact padCol0_apply w _ _ _ j (0 : Fin 128) rfl

/-- The padded last bias at entry 0. -/
theorem padB2T_apply (b : Arr Ideal S1 .f32) (c0 : Arr Ideal S_ .i32) :
    padB2T (F := Ideal) b c0 (ix1 (0 : Fin 128)) = b (ix1 (0 : Fin 1)) := by
  unfold padB2T
  exact padVec0_apply b _ _ _ (0 : Fin 128) rfl

end Ker

/-! ## The reference's scoring term at an index -/

section Ref
open Cert.ReferenceIdeal Cert.ReferenceIdeal.Facts₀ Cert.ReferenceIdeal.RT

/-- The reference's hidden layer: the features against the first weights, plus the first bias laid along every row,
    rectified. -/
def hidR (emb : FVec Ideal S200000x256 .f32) (fw1 : FVec Ideal S256x128 .f32) (fb1 : FVec Ideal S128 .f32) :
    FVec Ideal S200000x128 .f32 :=
  maximumf
    (addf (Host.dotGeneral (F := Ideal) dot_S200000x256_S256x128_S200000x128_1_0_0_1_n_n none emb fw1)
      (broadcastInDim S200000x128 ![0, 1] bcast_S1x128_S200000x128_0_1
        (broadcastInDim S1x128 ![1] bcast_S128_S1x128_1 fb1)))
    (broadcastInDim S200000x128 ![] bcast_S_S200000x128 (constant (F := Ideal) S_ .f32 0#32))

/-- The hidden layer at an entry. -/
theorem hidR_apply (emb : FVec Ideal S200000x256 .f32) (fw1 : FVec Ideal S256x128 .f32) (fb1 : FVec Ideal S128 .f32)
    (p : Fin 200000) (c : Fin 128) :
    hidR emb fw1 fb1 (ix2 p c) = max ((∑ k : Fin 256, emb (ix2 p k) * fw1 (ix2 k c)) + fb1 (ix1 c)) 0 := by
  have hd : Host.dotGeneral (F := Ideal) dot_S200000x256_S256x128_S200000x128_1_0_0_1_n_n none emb fw1
      (ix2 p c) = ∑ k : Fin 256, emb (ix2 p k) * fw1 (ix2 k c) :=
    Cert.LibAffine.hostDot_plain_apply (m := 200000) (k := 256) (n := 128)
      dot_S200000x256_S256x128_S200000x128_1_0_0_1_n_n_wf none emb fw1 p c
  have hb : broadcastInDim S200000x128 ![0, 1] bcast_S1x128_S200000x128_0_1
      (broadcastInDim S1x128 ![1] bcast_S128_S1x128_1 fb1) (ix2 p c) = fb1 (ix1 c) :=
    Cert.LibRowOps.rowVec_host_apply (m := 200000) (n := 128) fb1 bcast_S128_S1x128_1 bcast_S1x128_S200000x128_0_1 p c
  have hz : broadcastInDim S200000x128 ![] bcast_S_S200000x128 (constant (F := Ideal) S_ .f32 0#32) (ix2 p c)
      = (0 : EReal) := by
    rw [broadcastInDim_scalar_apply, constant_apply]
    exact Ideal.ofBits_zero_f32
  unfold hidR
  rw [maximumf_apply, addf_apply, hd, hb, hz]

/-- The reference's scores are the hidden layer against the last weight column, plus the last bias, as a vector. -/
theorem scoreT_eq (emb : FVec Ideal S200000x256 .f32) (fw1 : FVec Ideal S256x128 .f32) (fb1 : FVec Ideal S128 .f32)
    (fw2 : FVec Ideal S128x1 .f32) (fb2 : FVec Ideal S1 .f32) :
    scoreT (F := Ideal) emb fw1 fb1 fw2 fb2
      = fun i => shapeCast S200000
          (addf (Host.dotGeneral (F := Ideal) dot_S200000x128_S128x1_S200000x1_1_0_0_1_n_n none (hidR emb fw1 fb1) fw2)
            (broadcastInDim S200000x1 ![0, 1] bcast_S1x1_S200000x1_0_1 (broadcastInDim S1x1 ![1] bcast_S1_S1x1_1 fb2)))
          shapeCasts_S200000x1_S200000 i := rfl

/-- The reference's score of pair `p`. -/
theorem scoreT_apply (emb : FVec Ideal S200000x256 .f32) (fw1 : FVec Ideal S256x128 .f32) (fb1 : FVec Ideal S128 .f32)
    (fw2 : FVec Ideal S128x1 .f32) (fb2 : FVec Ideal S1 .f32) (p : Fin 200000) :
    scoreT (F := Ideal) emb fw1 fb1 fw2 fb2 (ix1 p)
      = (∑ c : Fin 128, max ((∑ k : Fin 256, emb (ix2 p k) * fw1 (ix2 k c)) + fb1 (ix1 c)) 0 * fw2 (ix2 c (0 : Fin 1)))
        + fb2 (ix1 (0 : Fin 1)) := by
  have hd : Host.dotGeneral (F := Ideal) dot_S200000x128_S128x1_S200000x1_1_0_0_1_n_n none (hidR emb fw1 fb1) fw2
      (ix2 p (0 : Fin 1)) = ∑ c : Fin 128, hidR emb fw1 fb1 (ix2 p c) * fw2 (ix2 c (0 : Fin 1)) :=
    Cert.LibAffine.hostDot_plain_apply (m := 200000) (k := 128) (n := 1)
      dot_S200000x128_S128x1_S200000x1_1_0_0_1_n_n_wf none (hidR emb fw1 fb1) fw2 p (0 : Fin 1)
  have hb : broadcastInDim S200000x1 ![0, 1] bcast_S1x1_S200000x1_0_1
      (broadcastInDim S1x1 ![1] bcast_S1_S1x1_1 fb2) (ix2 p (0 : Fin 1)) = fb2 (ix1 (0 : Fin 1)) :=
    Cert.LibRowOps.rowVec_host_apply (m := 200000) (n := 1) fb2 bcast_S1_S1x1_1 bcast_S1x1_S200000x1_0_1 p (0 : Fin 1)
  rw [scoreT_eq]
  show shapeCast S200000 _ shapeCasts_S200000x1_S200000 (ix1 p) = _
  rw [shapeCast_col_apply, addf_apply, hd, hb]
  congr 1
  exact Finset.sum_congr rfl fun c _ => by rw [hidR_apply]

end Ref

/-! ## The bridge -/

section Bridge

/-- One gathered block of the pair features: the kernel gathers the rows of the table after a change of format, which
    is the identity on extended reals; the index arithmetic and the dimension numbers are the reference's. -/
theorem gatherT_eq (z : Cert.KernelIdeal.KS.Arr Ideal Cert.KernelIdeal.S50000x128 .f32)
    (r : Cert.KernelIdeal.KS.Arr Ideal Cert.KernelIdeal.S200000 .i32) :
    Host.gather Cert.KernelIdeal.gather_S50000x128_S200000x1_S200000x128_1_0_n_n_0_1_1128
      (truncf (F := Ideal) (s := Cert.KernelIdeal.S50000x128) .bf16 z Cert.KernelIdeal.Facts₀.bitsLt_bf16_f32)
      (broadcastInDim Cert.KernelIdeal.S200000x1 ![0] Cert.KernelIdeal.Facts₀.bcast_S200000_S200000x1_0
        (Cert.KernelIdeal.KS.wrapPT (F := Ideal) r))
    = Host.gather Cert.ReferenceIdeal.gather_S50000x128_S200000x1_S200000x128_1_0_n_n_0_1_1128 z
      (broadcastInDim Cert.ReferenceIdeal.S200000x1 ![0] Cert.ReferenceIdeal.Facts₀.bcast_S200000_S200000x1_0
        (Cert.ReferenceIdeal.RT.wrapPT (F := Ideal) r)) := rfl

/-- The kernel's pair features are the reference's. -/
theorem embT_eq_embRT (z : Cert.KernelIdeal.KS.Arr Ideal Cert.KernelIdeal.S50000x128 .f32)
    (src dst : Cert.KernelIdeal.KS.Arr Ideal Cert.KernelIdeal.S200000 .i32) :
    Cert.KernelIdeal.KS.embT (F := Ideal) z src dst = Cert.ReferenceIdeal.RT.embRT (F := Ideal) z src dst := by
  unfold Cert.KernelIdeal.KS.embT Cert.ReferenceIdeal.RT.embRT
  rw [gatherT_eq z src, gatherT_eq z dst]

open Cert.KernelIdeal.KS in
/-- THE BRIDGE: an array whose entries are the padded two-layer scores has the reference's scores in column 0. -/
theorem score_eq (z : Arr Ideal Cert.KernelIdeal.S50000x128 .f32)
    (src dst : Arr Ideal Cert.KernelIdeal.S200000 .i32)
    (fw1 : Arr Ideal Cert.KernelIdeal.S256x128 .f32) (fb1 : Arr Ideal Cert.KernelIdeal.S128 .f32)
    (fw2 : Arr Ideal Cert.KernelIdeal.S128x1 .f32) (fb2 : Arr Ideal Cert.KernelIdeal.S1 .f32)
    (S : Arr Ideal Cert.KernelIdeal.S200000x128 .f32)
    (hS : ∀ (p : Fin 200000) (q : Fin 128), S (ix2 p q)
      = (∑ j : Fin 128,
          max ((∑ k : Fin 256, embT (F := Ideal) z src dst (ix2 p k) * fw1 (ix2 k j))
              + row128T (F := Ideal) fb1 (ix2 (0 : Fin 1) j)) 0
            * padW2T (F := Ideal) fw2 (constantI Cert.KernelIdeal.S_ 32 0#32) (ix2 j q))
        + row128T (F := Ideal) (padB2T (F := Ideal) fb2 (constantI Cert.KernelIdeal.S_ 32 0#32)) (ix2 (0 : Fin 1) q)) :
    col0T (F := Ideal) S
      = Cert.ReferenceIdeal.RT.scoreT (F := Ideal) (Cert.ReferenceIdeal.RT.embRT (F := Ideal) z src dst) fw1 fb1 fw2 fb2 := by
  funext i
  obtain ⟨p, rfl⟩ : ∃ p : Fin 200000, i = ix1 p := ⟨i 0, eq_ix1 i⟩
  rw [col0T_apply, hS p (0 : Fin 128), scoreT_apply, embT_eq_embRT]
  congr 1
  · refine Finset.sum_congr rfl fun j _ => ?_
    rw [padW2T_apply, row128T_apply]
  · rw [row128T_apply, padB2T_apply]

end Bridge

end Cert.Bridge

end
-- ==== Proof.BridgeAgg.lean ====
import proofs.«136817_j2800318677196_2_alg».proof.Proof.KerStages
import proofs.«136817_j2800318677196_2_alg».proof.Proof.RefTerms
import proofs.«136817_j2800318677196_2_alg».proof.Proof.AggHost

/-!
# The aggregation law between the two programs' stretches

The kernel's aggregation stretch (scale by `dis`, gather, scatter-add, scale by `dis`) and the reference's (gather,
scale pair `e` by `dis[row e] * dis[col e]`, scatter-add) are the two spellings of the aggregation law, at 64 and at
128 columns; the factor `dis` both programs compute from the in-degree is one function of the target nodes, nowhere
negative and nowhere `⊤`.
-/

noncomputable section

namespace Cert.BridgeAgg

open Idealize.ShloMosaic Idealize.ShloMosaic.ValueIdx

/-- The kernel's aggregation stretch at 64 columns is the law's factored spelling. -/
theorem aggK64T_eq (dis : FVec Ideal Cert.KernelIdeal.S50000 .f32) (row col : IVec Cert.KernelIdeal.S1650000 32)
    (h : FVec Ideal Cert.KernelIdeal.S50000x64 .f32) :
    Cert.KernelIdeal.KS.aggK64T (F := Ideal) dis row col h = Cert.Agg.aggK64 dis row col h := rfl

/-- The reference's weighted aggregation at 64 columns, with the pair weights `dis[row e] * dis[col e]`, is the law's
    unfactored spelling. -/
theorem aggRn64T_eq (dis : FVec Ideal Cert.KernelIdeal.S50000 .f32) (row col : IVec Cert.KernelIdeal.S1650000 32)
    (h : FVec Ideal Cert.KernelIdeal.S50000x64 .f32) :
    Cert.ReferenceIdeal.RT.aggRn64T (F := Ideal) (Cert.ReferenceIdeal.RT.normT (F := Ideal) dis row col) row col h
      = Cert.Agg.aggR64 dis row col h := rfl

/-- THE LAW between the two programs' stretches at 64 columns: for a factor that is nowhere negative and nowhere `⊤`
    the kernel's factored aggregation is the reference's weighted one. -/
theorem agg64_bridge (dis : FVec Ideal Cert.KernelIdeal.S50000 .f32)
    (row col : IVec Cert.KernelIdeal.S1650000 32) (h : FVec Ideal Cert.KernelIdeal.S50000x64 .f32)
    (hdis : ∀ i, 0 ≤ dis i ∧ dis i ≠ ⊤) :
    Cert.KernelIdeal.KS.aggK64T (F := Ideal) dis row col h
      = Cert.ReferenceIdeal.RT.aggRn64T (F := Ideal) (Cert.ReferenceIdeal.RT.normT (F := Ideal) dis row col) row col h := by
  rw [aggK64T_eq, aggRn64T_eq]
  exact Cert.Agg.agg64_eq dis hdis row col h

/-- The kernel's aggregation stretch at 128 columns is the law's factored spelling. -/
theorem aggK128T_eq (dis : FVec Ideal Cert.KernelIdeal.S50000 .f32) (row col : IVec Cert.KernelIdeal.S1650000 32)
    (h : FVec Ideal Cert.KernelIdeal.S50000x128 .f32) :
    Cert.KernelIdeal.KS.aggK128T (F := Ideal) dis row col h = Cert.Agg.aggK128 dis row col h := rfl

/-- The reference's weighted aggregation at 128 columns, with the pair weights `dis[row e] * dis[col e]`, is the law's
    unfactored spelling. -/
theorem aggRn128T_eq (dis : FVec Ideal Cert.KernelIdeal.S50000 .f32) (row col : IVec Cert.KernelIdeal.S1650000 32)
    (h : FVec Ideal Cert.KernelIdeal.S50000x128 .f32) :
    Cert.ReferenceIdeal.RT.aggRn128T (F := Ideal) (Cert.ReferenceIdeal.RT.normT (F := Ideal) dis row col) row col h
      = Cert.Agg.aggR128 dis row col h := rfl

/-- THE LAW between the two programs' stretches at 128 columns: for a factor that is nowhere negative and nowhere `⊤`
    the kernel's factored aggregation is the reference's weighted one. -/
theorem agg128_bridge (dis : FVec Ideal Cert.KernelIdeal.S50000 .f32)
    (row col : IVec Cert.KernelIdeal.S1650000 32) (h : FVec Ideal Cert.KernelIdeal.S50000x128 .f32)
    (hdis : ∀ i, 0 ≤ dis i ∧ dis i ≠ ⊤) :
    Cert.KernelIdeal.KS.aggK128T (F := Ideal) dis row col h
      = Cert.ReferenceIdeal.RT.aggRn128T (F := Ideal) (Cert.ReferenceIdeal.RT.normT (F := Ideal) dis row col) row col h := by
  rw [aggK128T_eq, aggRn128T_eq]
  exact Cert.Agg.agg128_eq dis hdis row col h

/-- The kernel's factor is the law's. -/
theorem disT_eq (col : IVec Cert.KernelIdeal.S1650000 32) :
    Cert.KernelIdeal.KS.disT (F := Ideal) col = Cert.Agg.disOf col := rfl

/-- The reference's factor is the kernel's. -/
theorem disRT_eq (col : IVec Cert.KernelIdeal.S1650000 32) :
    Cert.ReferenceIdeal.RT.disT (F := Ideal) col = Cert.KernelIdeal.KS.disT (F := Ideal) col := rfl

/-- The factor is nowhere negative and nowhere `⊤`. -/
theorem dis_ok (col : IVec Cert.KernelIdeal.S1650000 32) (i : Cert.KernelIdeal.S50000.Idx) :
    0 ≤ Cert.KernelIdeal.KS.disT (F := Ideal) col i ∧ Cert.KernelIdeal.KS.disT (F := Ideal) col i ≠ ⊤ := by
  rw [disT_eq]
  exact Cert.Agg.disOf_nonneg_fin col i

/-- The kernel's pair lists are the reference's. -/
theorem rowT_eq (e : IVec Cert.KernelIdeal.S2x1600000 32) :
    Cert.KernelIdeal.KS.rowT (F := Ideal) e = Cert.ReferenceIdeal.RT.rowT (F := Ideal) e := rfl
theorem colT_eq (e : IVec Cert.KernelIdeal.S2x1600000 32) :
    Cert.KernelIdeal.KS.colT (F := Ideal) e = Cert.ReferenceIdeal.RT.colT (F := Ideal) e := rfl

end Cert.BridgeAgg

end
-- ==== Proof.Bridge.lean ====
/-
  The idealized kernel program and the idealized reference compute the same function of the arguments.

  `rVal` is the reference's value of the twenty argument arrays: three layers "dense, aggregate with the symmetric
  normalisation on every edge, bias, rectifier, normalise by the column statistics", then the pair scores. The kernel
  program's value `kOut` differs in four places, and each is closed by its own lemma: the first dense map is a region
  (a matrix product read as plain sums on both sides); the aggregation carries the normalisation outside the sum — equal
  because the inverse square root of the degree is a nonnegative FINITE real, and multiplication by such a number
  distributes over a finite sum of extended reals whatever the summands; the normalisation by the column statistics is
  fused with the next dense map inside a region; and the last dense map is padded with zero columns of which column 0 is
  kept.
-/
import proofs.«136817_j2800318677196_2_alg».proof.Proof.KerVal
import proofs.«136817_j2800318677196_2_alg».proof.Proof.RefRead
import proofs.«136817_j2800318677196_2_alg».proof.Proof.RefTerms
import proofs.«136817_j2800318677196_2_alg».proof.Proof.BridgeLayers
import proofs.«136817_j2800318677196_2_alg».proof.Proof.BridgeScore
import proofs.«136817_j2800318677196_2_alg».proof.Proof.BridgeAgg

set_option maxRecDepth 16384

noncomputable section

namespace Cert.Bridge

open Cert.KernelIdeal Cert.KernelIdeal.KS Cert.KernelIdeal.KR Cert.KernelIdeal.RegionVal
open Idealize.ShloMosaic

namespace Val
variable (a : Inp)
/-- The reference's normalisation weight of every pair. -/
def norm : Arr Ideal S1650000 .f32 := Cert.ReferenceIdeal.RT.normT (F := Ideal) a.dis a.row a.col
def z1 : Arr Ideal S50000x64 .f32 :=
  Cert.ReferenceIdeal.RT.lay64T (F := Ideal) (Cert.ReferenceIdeal.RT.aggRn64T (F := Ideal) (norm a) a.row a.col (Cert.ReferenceIdeal.RT.dense1T (F := Ideal) a.x a.w1)) a.b1 a.g1 a.bt1
def z2 : Arr Ideal S50000x128 .f32 :=
  Cert.ReferenceIdeal.RT.lay128T (F := Ideal) (Cert.ReferenceIdeal.RT.aggRn128T (F := Ideal) (norm a) a.row a.col (Cert.ReferenceIdeal.RT.dense2T (F := Ideal) (z1 a) a.w2)) a.b2 a.g2 a.bt2
def z3 : Arr Ideal S50000x128 .f32 :=
  Cert.ReferenceIdeal.RT.lay128T (F := Ideal) (Cert.ReferenceIdeal.RT.aggRn128T (F := Ideal) (norm a) a.row a.col (Cert.ReferenceIdeal.RT.dense3T (F := Ideal) (z2 a) a.w3)) a.b3 a.g3 a.bt3
/-- The reference's result. -/
def rVal : Arr Ideal S200000 .f32 :=
  Cert.ReferenceIdeal.RT.scoreT (F := Ideal) (Cert.ReferenceIdeal.RT.embRT (F := Ideal) (z3 a) a.src a.dst) a.fw1 a.fb1 a.fw2 a.fb2
end Val

open Val

theorem h2_eq (a : Inp) : a.h2 = Cert.ReferenceIdeal.RT.dense2T (F := Ideal) (z1 a) a.w2 :=
  layer1_eq a.dis (fun i => Cert.BridgeAgg.dis_ok a.col i) a.row a.col a.x a.w1 a.b1 a.g1 a.bt1 a.w2

theorem h3_eq (a : Inp) : a.h3 = Cert.ReferenceIdeal.RT.dense3T (F := Ideal) (z2 a) a.w3 := by
  unfold Inp.h3 Inp.relu2 Inp.agg2
  rw [h2_eq a]
  exact layer2_eq a.dis (fun i => Cert.BridgeAgg.dis_ok a.col i) a.row a.col _ a.b2 a.g2 a.bt2 a.w3

theorem z_eq (a : Inp) : a.z = z3 a := by
  unfold Inp.z Inp.relu3 Inp.agg3
  rw [h3_eq a]
  exact layer3_eq a.dis (fun i => Cert.BridgeAgg.dis_ok a.col i) a.row a.col _ a.b3 a.g3 a.bt3

/-- The two programs' values agree on every input. -/
theorem kOut_eq (a : Inp) : a.kOut = rVal a := by
  unfold Inp.kOut Inp.scores
  rw [z_eq a]
  exact score_eq (z3 a) a.src a.dst a.fw1 a.fb1 a.fw2 a.fb2 _ (fun p q => G4_apply _ _ _ _ _ p q)

/-- The reference's value is its read-back term of the same arrays. -/
theorem rVal_eq_rOut (a : Inp) : rVal a = Cert.ReferenceIdeal.RR.rOut (F := Ideal) a.x a.e a.src a.dst a.w1 a.b1 a.w2 a.b2 a.w3 a.b3 a.g1 a.bt1 a.g2 a.bt2 a.g3 a.bt3 a.fw1 a.fb1 a.fw2 a.fb2 := rfl

end Cert.Bridge

end
-- ==== Proof.lean ====
/-
  The certificate of a three-layer graph convolution network with pair scoring, written as five tiled regions among
  host operations, against its plain reference, at the ideal instance.

  Both programs compute, from the node features, the edge list and the layer parameters: the inverse square root `dis` of
  the in-degree (self-loops added), three layers "dense map, aggregation over the edges with the symmetric weight
  dis(source)·dis(target), bias, rectifier, normalisation by the column mean and variance", and for each queried pair the
  score of a two-layer map on the two nodes' rows side by side. The kernel program differs from the reference in how it
  arranges this, not in what it computes over the extended reals:
  * the dense maps and the normalisations run as regions tiled over blocks of 5000 rows; a region's output array is the
    whole-array function of its input arrays that each block restricts (the five region modules);
  * the aggregation scales the rows by `dis` before the gather and the sums by `dis` after the scatter-add, where the
    reference multiplies every edge's row by dis(source)·dis(target): equal because `dis` is a nonnegative FINITE real (0
    or a positive degree to the power -1/2), and such a factor distributes over a finite sum of extended reals whatever the
    summands — no finiteness of the features is used, so the precondition is never opened;
  * a layer's normalisation is fused with the next layer's dense map inside one region;
  * the last dense map's single column is padded with 127 zero columns and column 0 is kept;
  * the roundings to the narrow float format on the way into the matrix products are the identity at the ideal instance.
  The three frames: the two kernel programs' are the generated frame certificates; the reference's is its run, written out
  operation by operation, with the result dropped. Nothing was rewritten by the idealization, so `preserves` is trivial.
-/
import proofs.«136817_j2800318677196_2_alg».proof.Defs
import proofs.«136817_j2800318677196_2_alg».proof.Proof.Gen.Kernel
import proofs.«136817_j2800318677196_2_alg».proof.Proof.Gen.Kernel.Frame
import proofs.«136817_j2800318677196_2_alg».proof.Proof.Gen.KernelIdeal
import proofs.«136817_j2800318677196_2_alg».proof.Proof.Gen.KernelIdeal.Frame
import proofs.«136817_j2800318677196_2_alg».proof.Proof.Gen.ReferenceIdeal
import proofs.«136817_j2800318677196_2_alg».proof.Proof.Gen.Pre_finite_inputs
import proofs.«136817_j2800318677196_2_alg».proof.Proof.KerRun
import proofs.«136817_j2800318677196_2_alg».proof.Proof.KerRead
import proofs.«136817_j2800318677196_2_alg».proof.Proof.RefRun
import proofs.«136817_j2800318677196_2_alg».proof.Proof.RefRead
import proofs.«136817_j2800318677196_2_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame: its run, operation by operation, with the result dropped. -/
theorem frame_ri : Cert.frame_ReferenceIdeal := fun m ρ _ => Cert.ReferenceIdeal.RefRun.frame_ri_post m ρ

/-- The idealization rewrote no operation. -/
theorem preserves : Cert.preserves_Kernel_KernelIdeal := trivial

/-- From memories agreeing on the arguments both programs end with the same result: the kernel program's result buffer at
    `kOut` of its arguments (its run, then the fold read back), the reference's at its read-back term of ITS arguments,
    which are the kernel program's, and the two are one function of the arguments. -/
theorem algebraic : Cert.algebraic_KernelIdeal_ReferenceIdeal := by
  intro m ρ m' ρ' _ hagree
  refine ⟨fun c => (Cert.KernelIdeal.KR.inK m ρ c).kOut, ?_, ?_⟩
  · exact (θ_run Cert.KernelIdeal.defs _ _).mono
      (fun r h c => ⟨(h c).1.trans (Cert.KernelIdeal.KR.result_eq m ρ c), (h c).2⟩)
      (Cert.KernelIdeal.KerRun.run_result m ρ)
  · refine (θ_run Cert.ReferenceIdeal.defs _ _).mono (fun r h c => ⟨?_, ?_⟩)
      (Cert.ReferenceIdeal.RefRun.run_all (F := Ideal) m' ρ')
    · obtain ⟨h0, h1, h2, h3, h4, h5, h6, h7, h8, h9, h10, h11, h12, h13, h14, h15, h16, h17, h18, h19⟩ := hagree c
      rw [h c Cert.ReferenceIdeal.main_v165, Cert.ReferenceIdeal.RR.ref_result m' c,
        h0, h1, h2, h3, h4, h5, h6, h7, h8, h9, h10, h11, h12, h13, h14, h15, h16, h17, h18, h19]
      exact ((Cert.Bridge.kOut_eq (Cert.KernelIdeal.KR.inK m ρ c)).trans
        (Cert.Bridge.rVal_eq_rOut (Cert.KernelIdeal.KR.inK m ρ c))).symm
    · exact ⟨(h c Cert.ReferenceIdeal.main_arg0).trans (Cert.ReferenceIdeal.RefRun.keep_main_arg0 _),
        (h c Cert.ReferenceIdeal.main_arg1).trans (Cert.ReferenceIdeal.RefRun.keep_main_arg1 _),
        (h c Cert.ReferenceIdeal.main_arg2).trans (Cert.ReferenceIdeal.RefRun.keep_main_arg2 _),
        (h c Cert.ReferenceIdeal.main_arg3).trans (Cert.ReferenceIdeal.RefRun.keep_main_arg3 _),
        (h c Cert.ReferenceIdeal.main_arg4).trans (Cert.ReferenceIdeal.RefRun.keep_main_arg4 _),
        (h c Cert.ReferenceIdeal.main_arg5).trans (Cert.ReferenceIdeal.RefRun.keep_main_arg5 _),
        (h c Cert.ReferenceIdeal.main_arg6).trans (Cert.ReferenceIdeal.RefRun.keep_main_arg6 _),
        (h c Cert.ReferenceIdeal.main_arg7).trans (Cert.ReferenceIdeal.RefRun.keep_main_arg7 _),
        (h c Cert.ReferenceIdeal.main_arg8).trans (Cert.ReferenceIdeal.RefRun.keep_main_arg8 _),
        (h c Cert.ReferenceIdeal.main_arg9).trans (Cert.ReferenceIdeal.RefRun.keep_main_arg9 _),
        (h c Cert.ReferenceIdeal.main_arg10).trans (Cert.ReferenceIdeal.RefRun.keep_main_arg10 _),
        (h c Cert.ReferenceIdeal.main_arg11).trans (Cert.ReferenceIdeal.RefRun.keep_main_arg11 _),
        (h c Cert.ReferenceIdeal.main_arg12).trans (Cert.ReferenceIdeal.RefRun.keep_main_arg12 _),
        (h c Cert.ReferenceIdeal.main_arg13).trans (Cert.ReferenceIdeal.RefRun.keep_main_arg13 _),
        (h c Cert.ReferenceIdeal.main_arg14).trans (Cert.ReferenceIdeal.RefRun.keep_main_arg14 _),
        (h c Cert.ReferenceIdeal.main_arg15).trans (Cert.ReferenceIdeal.RefRun.keep_main_arg15 _),
        (h c Cert.ReferenceIdeal.main_arg16).trans (Cert.ReferenceIdeal.RefRun.keep_main_arg16 _),
        (h c Cert.ReferenceIdeal.main_arg17).trans (Cert.ReferenceIdeal.RefRun.keep_main_arg17 _),
        (h c Cert.ReferenceIdeal.main_arg18).trans (Cert.ReferenceIdeal.RefRun.keep_main_arg18 _),
        (h c Cert.ReferenceIdeal.main_arg19).trans (Cert.ReferenceIdeal.RefRun.keep_main_arg19 _)⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
